-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S4x128x128 : Shape := ⟨3, ![4, 128, 128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S4x128x128 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S4x128x128 .f32 := Host.absf main_arg6
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) (main_arg6 : FVec F S4x128x128 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S4x128x128 : Shape := ⟨3, ![4, 128, 128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S2000x128 : Shape := ⟨2, ![2000, 128]⟩
abbrev S1600000x1 : Shape := ⟨2, ![1600000, 1]⟩
abbrev S_ : Shape := ⟨0, ![]⟩
abbrev S1600000x128 : Shape := ⟨2, ![1600000, 128]⟩
abbrev S1x128x128 : Shape := ⟨3, ![1, 128, 128]⟩
abbrev S100000x64 : Shape := ⟨2, ![100000, 64]⟩
abbrev S2000x64 : Shape := ⟨2, ![2000, 64]⟩
abbrev S2000 : Shape := ⟨1, ![2000]⟩
abbrev S2000x1 : Shape := ⟨2, ![2000, 1]⟩

abbrev nBuf : Space → Nat
  | .hbm => 89
  | .vmem => 48
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S4x128x128, .f32⟩
  | .hbm, ⟨7, _⟩ => ⟨S128x64, .f32⟩
  | .hbm, ⟨8, _⟩ => ⟨S64, .f32⟩
  | .hbm, ⟨9, _⟩ => ⟨S1x128, .f32⟩
  | .hbm, ⟨10, _⟩ => ⟨S1x64, .f32⟩
  | .hbm, ⟨11, _⟩ => ⟨S100000x128, .f32⟩
  | .hbm, ⟨12, _⟩ => ⟨S1600000x1, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S1x128x128, .f32⟩
  | .hbm, ⟨29, _⟩ => ⟨S128x128, .f32⟩
  | .hbm, ⟨30, _⟩ => ⟨S100000x128, .f32⟩
  | .hbm, ⟨31, _⟩ => ⟨S1600000x1, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S1600000x128, .f32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S1x128x128, .f32⟩
  | .hbm, ⟨48, _⟩ => ⟨S128x128, .f32⟩
  | .hbm, ⟨49, _⟩ => ⟨S100000x128, .f32⟩
  | .hbm, ⟨50, _⟩ => ⟨S1600000x1, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S1600000x128, .f32⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S1x128x128, .f32⟩
  | .hbm, ⟨67, _⟩ => ⟨S128x128, .f32⟩
  | .hbm, ⟨68, _⟩ => ⟨S100000x128, .f32⟩
  | .hbm, ⟨69, _⟩ => ⟨S1600000x1, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x128, .f32⟩
  | .hbm, ⟨79, _⟩ => ⟨S1600000x128, .f32⟩
  | .hbm, ⟨80, _⟩ => ⟨S1600000x128, .f32⟩
  | .hbm, ⟨81, _⟩ => ⟨S_, .f32⟩
  | .hbm, ⟨82, _⟩ => ⟨S100000x128, .f32⟩
  | .hbm, ⟨83, _⟩ => ⟨S1600000x1, .i32⟩
  | .hbm, ⟨84, _⟩ => ⟨S100000x128, .f32⟩
  | .hbm, ⟨85, _⟩ => ⟨S1x128x128, .f32⟩
  | .hbm, ⟨86, _⟩ => ⟨S128x128, .f32⟩
  | .hbm, ⟨87, _⟩ => ⟨S100000x128, .f32⟩
  | .hbm, ⟨88, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S128x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S128x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S128x64, .f32⟩
  | .local _ .vmem, ⟨45, _⟩ => ⟨S1x64, .f32⟩
  | .local _ .vmem, ⟨46, _⟩ => ⟨S2000x64, .f32⟩
  | .local _ .vmem, ⟨47, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_1 : Ref sig .tc := ⟨.hbm, 32, rfl⟩
abbrev main_v20 : Ref sig .tc := ⟨.hbm, 33, rfl⟩
abbrev main_v21 : Ref sig .tc := ⟨.hbm, 34, rfl⟩
abbrev main_c_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_4 : Ref sig .tc := ⟨.hbm, 51, rfl⟩
abbrev main_v36 : Ref sig .tc := ⟨.hbm, 52, rfl⟩
abbrev main_v37 : Ref sig .tc := ⟨.hbm, 53, rfl⟩
abbrev main_c_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_7 : Ref sig .tc := ⟨.hbm, 70, rfl⟩
abbrev main_v52 : Ref sig .tc := ⟨.hbm, 71, rfl⟩
abbrev main_v53 : Ref sig .tc := ⟨.hbm, 72, rfl⟩
abbrev main_c_8 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg4_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg4_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg3_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem4_0 : DmaSem sig := 31
abbrev cc3_sem4_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem2_1 : DmaSem sig := 38
abbrev cc4_sem3_0 : DmaSem sig := 39
abbrev cc4_sem4_0 : DmaSem sig := 40
abbrev cc4_sem4_1 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem3_1 : DmaSem sig := 47

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  shapeCasts_S128_S1x128 : S128.ShapeCasts S1x128
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  shapeCasts_S2000x128_S2000x128 : S2000x128.ShapeCasts S2000x128
  shapeCasts_S128x128_S128x128 : S128x128.ShapeCasts S128x128
  slices_S4x128x128_S1x128x128_1_0_0 : S4x128x128.Slices ![1, 0, 0] S1x128x128
  slices_S4x128x128_S1x128x128_2_0_0 : S4x128x128.Slices ![2, 0, 0] S1x128x128
  slices_S4x128x128_S1x128x128_3_0_0 : S4x128x128.Slices ![3, 0, 0] S1x128x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S100000x128.size a
  hwx2_4 : ∀ i : grid2.Coords, EltTy.bits .f32 = 32 ∨ (Rect.block (s := S100000x128) S2000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S100000x128.size a
  hwx3_4 : ∀ i : grid3.Coords, EltTy.bits .f32 = 32 ∨ (Rect.block (s := S100000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S100000x128.size a
  hwx4_2 : ∀ i : grid4.Coords, EltTy.bits .f32 = 32 ∨ (Rect.block (s := S100000x128) S2000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x128.size a ≤ S100000x128.size a
  hwx4_4 : ∀ i : grid4.Coords, EltTy.bits .f32 = 32 ∨ (Rect.block (s := S100000x128) S2000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S100000x64.size a
  hwx5_3 : ∀ i : grid5.Coords, EltTy.bits .f32 = 32 ∨ (Rect.block (s := S100000x64) S2000x64.size (cc5_transform_3 i) (hinb5_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v31) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v33) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v47) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v34) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v49) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v50) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v63) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v2) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v50) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v65) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v66) S2000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v66) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v1) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v67) S2000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S4x128x128 : Shape := ⟨3, ![4, 128, 128]⟩
abbrev S128x64 : Shape := ⟨2, ![128, 64]⟩
abbrev S64 : Shape := ⟨1, ![64]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S100000x64 : Shape := ⟨2, ![100000, 64]⟩
abbrev S1x64 : Shape := ⟨2, ![1, 64]⟩
abbrev S100000 : Shape := ⟨1, ![100000]⟩
abbrev S100000x1 : Shape := ⟨2, ![100000, 1]⟩

abbrev nBuf : Space → Nat
  | .hbm => 183
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S1600000, .f32⟩
  | 4 => ⟨S128x128, .f32⟩
  | 5 => ⟨S128, .f32⟩
  | 6 => ⟨S4x128x128, .f32⟩
  | 7 => ⟨S128x64, .f32⟩
  | 8 => ⟨S64, .f32⟩
  | 9 => ⟨S100000x128, .f32⟩
  | 10 => ⟨S1x128, .f32⟩
  | 11 => ⟨S100000x128, .f32⟩
  | 12 => ⟨S100000x128, .f32⟩
  | 13 => ⟨S_, .f32⟩
  | 14 => ⟨S100000x128, .f32⟩
  | 15 => ⟨S100000x128, .f32⟩
  | 16 => ⟨S1600000x1, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S1600000x128, .f32⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S_, .f32⟩
  | 33 => ⟨S100000x128, .f32⟩
  | 34 => ⟨S100000x128, .f32⟩
  | 35 => ⟨S_, .f32⟩
  | 36 => ⟨S100000x128, .f32⟩
  | 37 => ⟨S100000x128, .f32⟩
  | 38 => ⟨S100000x128, .f32⟩
  | 39 => ⟨S1x128x128, .f32⟩
  | 40 => ⟨S128x128, .f32⟩
  | 41 => ⟨S100000x128, .f32⟩
  | 42 => ⟨S_, .f32⟩
  | 43 => ⟨S100000x128, .f32⟩
  | 44 => ⟨S100000x128, .f32⟩
  | 45 => ⟨S_, .f32⟩
  | 46 => ⟨S100000x128, .f32⟩
  | 47 => ⟨S100000x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S1600000x1, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S1600000x128, .f32⟩
  | 64 => ⟨S1600000x128, .f32⟩
  | 65 => ⟨S_, .f32⟩
  | 66 => ⟨S100000x128, .f32⟩
  | 67 => ⟨S1600000x1, .i32⟩
  | 68 => ⟨S100000x128, .f32⟩
  | 69 => ⟨S_, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S100000x128, .f32⟩
  | 76 => ⟨S1x128x128, .f32⟩
  | 77 => ⟨S128x128, .f32⟩
  | 78 => ⟨S100000x128, .f32⟩
  | 79 => ⟨S_, .f32⟩
  | 80 => ⟨S100000x128, .f32⟩
  | 81 => ⟨S100000x128, .f32⟩
  | 82 => ⟨S_, .f32⟩
  | 83 => ⟨S100000x128, .f32⟩
  | 84 => ⟨S100000x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S1600000x1, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S1600000x128, .f32⟩
  | 101 => ⟨S1600000x128, .f32⟩
  | 102 => ⟨S_, .f32⟩
  | 103 => ⟨S100000x128, .f32⟩
  | 104 => ⟨S1600000x1, .i32⟩
  | 105 => ⟨S100000x128, .f32⟩
  | 106 => ⟨S_, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S100000x128, .f32⟩
  | 113 => ⟨S1x128x128, .f32⟩
  | 114 => ⟨S128x128, .f32⟩
  | 115 => ⟨S100000x128, .f32⟩
  | 116 => ⟨S_, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S1600000x1, .f32⟩
  | _ => ⟨S100000x128, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x128, .f32⟩
  | 9 => ⟨S1600000x128, .f32⟩
  | 10 => ⟨S1600000x128, .f32⟩
  | 11 => ⟨S_, .f32⟩
  | 12 => ⟨S100000x128, .f32⟩
  | 13 => ⟨S1600000x1, .i32⟩
  | 14 => ⟨S100000x128, .f32⟩
  | 15 => ⟨S_, .f32⟩
  | 16 => ⟨S100000x128, .f32⟩
  | 17 => ⟨S100000x128, .f32⟩
  | 18 => ⟨S_, .f32⟩
  | 19 => ⟨S100000x128, .f32⟩
  | 20 => ⟨S100000x128, .f32⟩
  | 21 => ⟨S100000x128, .f32⟩
  | 22 => ⟨S1x128x128, .f32⟩
  | 23 => ⟨S128x128, .f32⟩
  | 24 => ⟨S100000x128, .f32⟩
  | 25 => ⟨S_, .f32⟩
  | 26 => ⟨S100000x128, .f32⟩
  | 27 => ⟨S100000x128, .f32⟩
  | 28 => ⟨S_, .f32⟩
  | 29 => ⟨S100000x128, .f32⟩
  | 30 => ⟨S100000x128, .f32⟩
  | 31 => ⟨S100000x128, .f32⟩
  | 32 => ⟨S100000x128, .f32⟩
  | 33 => ⟨S_, .f32⟩
  | 34 => ⟨S100000x128, .f32⟩
  | 35 => ⟨S100000x128, .f32⟩
  | 36 => ⟨S100000x64, .f32⟩
  | 37 => ⟨S1x64, .f32⟩
  | 38 => ⟨S100000x64, .f32⟩
  | 39 => ⟨S100000x64, .f32⟩
  | 40 => ⟨S_, .f32⟩
  | 41 => ⟨S100000, .f32⟩
  | 42 => ⟨S_, .f32⟩
  | 43 => ⟨S100000, .f32⟩
  | 44 => ⟨S100000, .f32⟩
  | 45 => ⟨S100000x1, .f32⟩
  | 46 => ⟨S100000x64, .f32⟩
  | 47 => ⟨S100000x64, .f32⟩
  | 48 => ⟨S100000x64, .f32⟩
  | 49 => ⟨S_, .f32⟩
  | 50 => ⟨S100000, .f32⟩
  | 51 => ⟨S100000x1, .f32⟩
  | 52 => ⟨S100000x1, .f32⟩
  | 53 => ⟨S100000x64, .f32⟩
  | 54 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call1_cst : Ref sig .tc := ⟨.hbm, 50, rfl⟩
abbrev main_call1_v0 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_call2_cst : Ref sig .tc := ⟨.hbm, 87, rfl⟩
abbrev main_call2_v0 : Ref sig .tc := ⟨.hbm, 88, rfl⟩
abbrev main_v60 : Ref sig .tc := ⟨.hbm, 89, rfl⟩
abbrev main_v61 : Ref sig .tc := ⟨.hbm, 90, rfl⟩
abbrev main_c_12 : Ref sig .tc := ⟨.hbm, 91, rfl⟩
abbrev main_v62 : Ref sig .tc := ⟨.hbm, 92, rfl⟩
abbrev main_v63 : Ref sig .tc := ⟨.hbm, 93, rfl⟩
abbrev main_c_13 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_cst_16 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_17 : Ref sig .tc := ⟨.hbm, 116, rfl⟩
abbrev main_v82 : Ref sig .tc := ⟨.hbm, 117, rfl⟩
abbrev main_v83 : Ref sig .tc := ⟨.hbm, 118, rfl⟩
abbrev main_cst_18 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_call3_cst : Ref sig .tc := ⟨.hbm, 124, rfl⟩
abbrev main_call3_v0 : Ref sig .tc := ⟨.hbm, 125, rfl⟩
abbrev main_v88 : Ref sig .tc := ⟨.hbm, 126, rfl⟩
abbrev main_v89 : Ref sig .tc := ⟨.hbm, 127, rfl⟩
abbrev main_c_19 : Ref sig .tc := ⟨.hbm, 128, rfl⟩
abbrev main_v90 : Ref sig .tc := ⟨.hbm, 129, rfl⟩
abbrev main_v91 : Ref sig .tc := ⟨.hbm, 130, rfl⟩
abbrev main_c_20 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_21 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_22 : Ref sig .tc := ⟨.hbm, 143, rfl⟩
abbrev main_v102 : Ref sig .tc := ⟨.hbm, 144, rfl⟩
abbrev main_v103 : Ref sig .tc := ⟨.hbm, 145, rfl⟩
abbrev main_cst_23 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_24 : Ref sig .tc := ⟨.hbm, 153, rfl⟩
abbrev main_v110 : Ref sig .tc := ⟨.hbm, 154, rfl⟩
abbrev main_v111 : Ref sig .tc := ⟨.hbm, 155, rfl⟩
abbrev main_cst_25 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_call4_cst : Ref sig .tc := ⟨.hbm, 161, rfl⟩
abbrev main_call4_v0 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_call5_cst : Ref sig .tc := ⟨.hbm, 168, rfl⟩
abbrev main_call5_v0 : Ref sig .tc := ⟨.hbm, 169, rfl⟩
abbrev main_call5_cst_0 : Ref sig .tc := ⟨.hbm, 170, rfl⟩
abbrev main_call5_v1 : Ref sig .tc := ⟨.hbm, 171, rfl⟩
abbrev main_call5_v2 : Ref sig .tc := ⟨.hbm, 172, rfl⟩
abbrev main_call5_v3 : Ref sig .tc := ⟨.hbm, 173, rfl⟩
abbrev main_call5_v4 : Ref sig .tc := ⟨.hbm, 174, rfl⟩
abbrev main_call5_v5 : Ref sig .tc := ⟨.hbm, 175, rfl⟩
abbrev main_call5_v6 : Ref sig .tc := ⟨.hbm, 176, rfl⟩
abbrev main_call5_cst_1 : Ref sig .tc := ⟨.hbm, 177, rfl⟩
abbrev main_call5_v7 : Ref sig .tc := ⟨.hbm, 178, rfl⟩
abbrev main_call5_v8 : Ref sig .tc := ⟨.hbm, 179, rfl⟩
abbrev main_call5_v9 : Ref sig .tc := ⟨.hbm, 180, rfl⟩
abbrev main_call5_v10 : Ref sig .tc := ⟨.hbm, 181, rfl⟩
abbrev main_v121 : Ref sig .tc := ⟨.hbm, 182, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  slices_S4x128x128_S1x128x128_0_0_0 : S4x128x128.Slices ![0, 0, 0] S1x128x128
  shapeCasts_S1x128x128_S128x128 : S1x128x128.ShapeCasts S128x128
  slices_S4x128x128_S1x128x128_1_0_0 : S4x128x128.Slices ![1, 0, 0] S1x128x128
  slices_S4x128x128_S1x128x128_2_0_0 : S4x128x128.Slices ![2, 0, 0] S1x128x128
  slices_S4x128x128_S1x128x128_3_0_0 : S4x128x128.Slices ![3, 0, 0] S1x128x128
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRegion0.lean ====
/-
  The input projection's pallas_call as one region of @main: what a grid point's body leaves in the output window's
  buffer (the body's payload of the point's input blocks), and the body's obligation to the pipeline at every point.
-/
import proofs.«100143_j39058432590072_1_alg».proof.Proof.Gen.Kernel.Launch
import proofs.«100143_j39058432590072_1_alg».proof.Proof.Gen.Kernel.Skeleton
import proofs.«100143_j39058432590072_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the input projection, at the contents `V` the region finds in the unscoped buffers

Each input window's block at a grid point is read off its array; the body loads every input block whole and stores the
output block whole, so what a point leaves in the output window's buffer is the body's one payload of the input blocks. -/

section
variable (V : (c : Dev nD) → (b : Ref sig .tc) → Buf (Elt F) ((c : Thread nD τ).loc b))

/-- Window `w`'s block at point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every point, whether the point fetched it or
    not (an unfetched block's index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at every point, whether the point fetched it or
    not (an unfetched block's index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block at every point, whether the point fetched it or
    not (an unfetched block's index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The output window's buffer after the body: its one whole-block store, of the payload of the loaded input blocks. -/
def out0_3 (x0 : Vec F S2000x128 .f32) (x1 : Vec F S128x128 .f32) (x2 : Vec F S1x128 .f32) : Vec F S2000x128 .f32 :=
  View.canon [⟨(Rect.unit (s := S2000x128) ![0, 0] S2000x128.size inb_S2000x128_S2000x128_0_0), k0_pay1 (View.ld x0 (Rect.unit (s := S2000x128) ![0, 0] S2000x128.size inb_S2000x128_S2000x128_0_0)) (View.ld x1 (Rect.unit (s := S128x128) ![0, 0] S128x128.size inb_S128x128_S128x128_0_0)) (View.ld x2 (Rect.unit (s := S1x128) ![0, 0] S1x128.size inb_S1x128_S1x128_0_0))⟩]

/-- The one store covers the buffer. -/
theorem cover0_3 (p0 : Vec F S2000x128 .f32) (y : S2000x128.Idx) :
    ∃ pc ∈ ([⟨(Rect.unit (s := S2000x128) ![0, 0] S2000x128.size inb_S2000x128_S2000x128_0_0), p0⟩] : List (View.Piece (Elt F) S2000x128 .f32)), y ∈ pc.1.set :=
  View.cover_of_tiled [⟨(Rect.unit (s := S2000x128) ![0, 0] S2000x128.size inb_S2000x128_S2000x128_0_0), p0⟩] S2000x128.size (by rfl) y

set_option maxHeartbeats 2000000 in
/-- The body on whole staging memrefs, the inputs' at contents `x0`, `x1`, … and the output's at anything, runs to a continuation
    that holds the inputs' as they were and the output's at `out0_3` of the inputs'. -/
theorem sound_kernel0 (c : Dev nD) (E : Set ℕ) (i : grid0.Coords) (arg0 : Memref sig .tc .vmem S2000x128 .f32) (harg0 : arg0.IsWhole) (arg1 : Memref sig .tc .vmem S128x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S128x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__input_proj_kernel i arg0 harg0 arg1 harg1 arg2 harg2 arg3 harg3) K := by
  simp only [cc0__input_proj_kernel_eq_skeleton]; unfold cc0__input_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each input's
    buffer at its block and the output's at the payload of the input blocks; nothing owed; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Frame

end
-- ==== Proof.KRegion1.lean ====
/-
  The first layer's pallas_call as one region of @main: what a grid point's body leaves in the output window's buffer (the body's payload of
  the point's input blocks), and the body's obligation to the pipeline at every point. Windows 1 and 2 read one array
  (the initial features are also the first layer's current features), so the proof data holds that array at the two
  halves of the full share, one per window.
-/
import proofs.«100143_j39058432590072_1_alg».proof.Proof.Gen.Kernel.Launch
import proofs.«100143_j39058432590072_1_alg».proof.Proof.Gen.Kernel.Skeleton
import proofs.«100143_j39058432590072_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the first layer, at the contents `V` the region finds in the unscoped buffers

Each input window's block at a grid point is read off its array; the body loads every input block whole and stores the
output block whole, so what a point leaves in the output window's buffer is the body's one payload of the input blocks. -/

section
variable (V : (c : Dev nD) → (b : Ref sig .tc) → Buf (Elt F) ((c : Thread nD τ).loc b))

/-- Window `w`'s block at point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at every point, whether the point fetched it or
    not (an unfetched block's index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at every point, whether the point fetched it or
    not (an unfetched block's index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at every point, whether the point fetched it or
    not (an unfetched block's index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds the window's block at every point, whether the point fetched it or
    not (an unfetched block's index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The output window's buffer after the body: its one whole-block store, of the payload of the loaded input blocks. -/
def out1_4 (x0 : Vec F S2000x128 .f32) (x1 : Vec F S2000x128 .f32) (x2 : Vec F S2000x128 .f32) (x3 : Vec F S128x128 .f32) : Vec F S2000x128 .f32 :=
  View.canon [⟨(Rect.unit (s := S2000x128) ![0, 0] S2000x128.size inb_S2000x128_S2000x128_0_0), k1_pay1 (View.ld x0 (Rect.unit (s := S2000x128) ![0, 0] S2000x128.size inb_S2000x128_S2000x128_0_0)) (View.ld x1 (Rect.unit (s := S2000x128) ![0, 0] S2000x128.size inb_S2000x128_S2000x128_0_0)) (View.ld x2 (Rect.unit (s := S2000x128) ![0, 0] S2000x128.size inb_S2000x128_S2000x128_0_0)) (View.ld x3 (Rect.unit (s := S128x128) ![0, 0] S128x128.size inb_S128x128_S128x128_0_0))⟩]

/-- The one store covers the buffer. -/
theorem cover1_4 (p0 : Vec F S2000x128 .f32) (y : S2000x128.Idx) :
    ∃ pc ∈ ([⟨(Rect.unit (s := S2000x128) ![0, 0] S2000x128.size inb_S2000x128_S2000x128_0_0), p0⟩] : List (View.Piece (Elt F) S2000x128 .f32)), y ∈ pc.1.set :=
  View.cover_of_tiled [⟨(Rect.unit (s := S2000x128) ![0, 0] S2000x128.size inb_S2000x128_S2000x128_0_0), p0⟩] S2000x128.size (by rfl) y

set_option maxHeartbeats 2000000 in
/-- The body on whole staging memrefs, the inputs' at contents `x0`, `x1`, … and the output's at anything, runs to a continuation
    that holds the inputs' as they were and the output's at `out1_4` of the inputs'. -/
theorem sound_kernel1 (c : Dev nD) (E : Set ℕ) (i : grid1.Coords) (arg0 : Memref sig .tc .vmem S2000x128 .f32) (harg0 : arg0.IsWhole) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S2000x128 .f32) (harg4 : arg4.IsWhole)
    (x0 : Vec F S2000x128 .f32) (x1 : Vec F S2000x128 .f32) (x2 : Vec F S2000x128 .f32) (x3 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1__layer_kernel i arg0 harg0 arg1 harg1 arg2 harg2 arg3 harg3 arg4 harg4) K := by
  simp only [cc1__layer_kernel_eq_skeleton]; unfold cc1__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The pipeline's proof data on core `c`: the arrays as the region finds them; after the body at point `t` each input's
    buffer at its block and the output's at the payload of the input blocks; nothing owed; the array windows 1 and 2 share held at the two halves of the full share, every other array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Frame

end
-- ==== Proof.KRegion1Arrays.lean ====
/-
  The first layer's arrays among a core's unscoped buffers. The layer reads the initial features through two windows (as its
  initial and as its current features), so five windows stand on four distinct buffers: at the region's entry the shared
  buffer's full share is dealt to the two windows half and half, and at its exit the two halves, both at the contents the
  buffer had all along, are put together again.
-/
import proofs.«100143_j39058432590072_1_alg».proof.Proof.Gen.Kernel.Launch
import proofs.«100143_j39058432590072_1_alg».proof.Proof.Gen.Kernel.Skeleton
import proofs.«100143_j39058432590072_1_alg».proof.Proof.Gen.Kernel.Points
import proofs.«100143_j39058432590072_1_alg».proof.Proof.KRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the first layer's five windows: the aggregated features, the initial features (read through
    two windows), the layer's weight, the output. -/
theorem arrRefs1 : Finset.univ.image (Pipeline.arrRef (cfgs 1).spec) = ({main_v15, main_v2, main_v17, main_v18} : Finset (Ref sig .tc)) := by
  decide

set_option backward.isDefEq.respectTransparency.types false in
/-- ENTRY. A core's unscoped buffers at `V c` are the first layer's arrays at their entry contents beside the rest: the buffer
    of the initial features, held whole, is dealt half and half to the two windows that read it; every other array is a
    distinct buffer held whole. -/
theorem arrays1_in' (c : Dev nD) :
    (unscopedBufs (Ix := Unit) (Name := ℕ) (U := UR sig nD τ) (Lvl := ℕ) c (V c) : sProp 𝕄)
      ⊢ iprop((dat1 V c).arrays (dat1 V c).A ∗ Pipeline.unscopedRest (Ix := Unit) (Name := ℕ) (U := UR sig nD τ) (Lvl := ℕ) spec1 c (V c)) := by
  rw [Pipeline.unscopedBufs_split₀ cfgs 1 winFacts₀1.arr_unscoped c (V c)]
  refine BIClass.sep_mono ?_ .rfl
  unfold Pipeline.arrBufs Pipeline.Dat.arrays
  rw [bigSep_W1, arrRefs1, bigSep_insert (by decide), bigSep_insert (by decide), bigSep_insert (by decide), bigSep_singleton]
  have e0 : (View.loc c.tc (cfg1.win 0).arr.view ↦[(cfg1.win 0).arr.view.set]{(dat1 V c).share 0} (dat1 V c).A 0 : sProp 𝕄)
      = ((c.tc : Thread nD τ).loc main_v15 ↦{fullShare} V c main_v15) := by
    rw [(arr_whole1 0).set_eq_univ]; rfl
  have e1 : (View.loc c.tc (cfg1.win 1).arr.view ↦[(cfg1.win 1).arr.view.set]{(dat1 V c).share 1} (dat1 V c).A 1 : sProp 𝕄)
      = ((c.tc : Thread nD τ).loc main_v2 ↦{fullShare.left} V c main_v2) := by
    rw [(arr_whole1 1).set_eq_univ]; rfl
  have e2 : (View.loc c.tc (cfg1.win 2).arr.view ↦[(cfg1.win 2).arr.view.set]{(dat1 V c).share 2} (dat1 V c).A 2 : sProp 𝕄)
      = ((c.tc : Thread nD τ).loc main_v2 ↦{fullShare.right} V c main_v2) := by
    rw [(arr_whole1 2).set_eq_univ]; rfl
  have e3 : (View.loc c.tc (cfg1.win 3).arr.view ↦[(cfg1.win 3).arr.view.set]{(dat1 V c).share 3} (dat1 V c).A 3 : sProp 𝕄)
      = ((c.tc : Thread nD τ).loc main_v17 ↦{fullShare} V c main_v17) := by
    rw [(arr_whole1 3).set_eq_univ]; rfl
  have e4 : (View.loc c.tc (cfg1.win 4).arr.view ↦[(cfg1.win 4).arr.view.set]{(dat1 V c).share 4} (dat1 V c).A 4 : sProp 𝕄)
      = ((c.tc : Thread nD τ).loc main_v18 ↦{fullShare} V c main_v18) := by
    rw [(arr_whole1 4).set_eq_univ]; rfl
  exact BIClass.sep_mono (Entails.of_eq e0.symm)
    ((BIClass.sep_mono ((pointsTo_share (PosShare.mem_left_op_right fullShare)).1.trans (BIClass.sep_mono (Entails.of_eq e1.symm) (Entails.of_eq e2.symm)))
      (BIClass.sep_mono (Entails.of_eq e3.symm) (Entails.of_eq e4.symm))).trans Laws.sep_assoc.1)

set_option backward.isDefEq.respectTransparency.types false in
/-- EXIT. The first layer's arrays at what the pipeline leaves in them, beside the unscoped rest at `V c`, are the core's
    unscoped buffers at any contents `V'` that has the arrays at those contents and agrees with `V c` off them: the two halves
    of the initial features' buffer, both at one contents, are the buffer whole again. -/
theorem arrays1_out' (c : Dev nD) (V' : (b : Ref sig .tc) → Buf (Elt F) ((c : Thread nD τ).loc b))
    (hF : ∀ w, (dat1 V c).arrAt w cfg1.N = V' (Pipeline.arrRef spec1 w))
    (hrest : ∀ b, b ∉ Finset.univ.image (Pipeline.arrRef spec1) → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  rw [Pipeline.unscopedBufs_split₀ cfgs 1 winFacts₀1.arr_unscoped c V']
  refine BIClass.sep_mono ?_ (Entails.of_eq ?_)
  swap
  · unfold Pipeline.unscopedRest
    exact bigSep_congr fun b hb => by rw [hrest b (Finset.mem_sdiff.mp hb).2]
  unfold Pipeline.arrBufs Pipeline.Dat.arrays
  rw [bigSep_W1, arrRefs1, bigSep_insert (by decide), bigSep_insert (by decide), bigSep_insert (by decide), bigSep_singleton]
  have e0 : (View.loc c.tc (cfg1.win 0).arr.view ↦[(cfg1.win 0).arr.view.set]{(dat1 V c).share 0} (dat1 V c).arrAt 0 cfg1.N : sProp 𝕄)
      = ((c.tc : Thread nD τ).loc main_v15 ↦{fullShare} V' main_v15) := by
    rw [(arr_whole1 0).set_eq_univ, hF 0]; rfl
  have e1 : (View.loc c.tc (cfg1.win 1).arr.view ↦[(cfg1.win 1).arr.view.set]{(dat1 V c).share 1} (dat1 V c).arrAt 1 cfg1.N : sProp 𝕄)
      = ((c.tc : Thread nD τ).loc main_v2 ↦{fullShare.left} V' main_v2) := by
    rw [(arr_whole1 1).set_eq_univ, hF 1]; rfl
  have e2 : (View.loc c.tc (cfg1.win 2).arr.view ↦[(cfg1.win 2).arr.view.set]{(dat1 V c).share 2} (dat1 V c).arrAt 2 cfg1.N : sProp 𝕄)
      = ((c.tc : Thread nD τ).loc main_v2 ↦{fullShare.right} V' main_v2) := by
    rw [(arr_whole1 2).set_eq_univ, hF 2]; rfl
  have e3 : (View.loc c.tc (cfg1.win 3).arr.view ↦[(cfg1.win 3).arr.view.set]{(dat1 V c).share 3} (dat1 V c).arrAt 3 cfg1.N : sProp 𝕄)
      = ((c.tc : Thread nD τ).loc main_v17 ↦{fullShare} V' main_v17) := by
    rw [(arr_whole1 3).set_eq_univ, hF 3]; rfl
  have e4 : (View.loc c.tc (cfg1.win 4).arr.view ↦[(cfg1.win 4).arr.view.set]{(dat1 V c).share 4} (dat1 V c).arrAt 4 cfg1.N : sProp 𝕄)
      = ((c.tc : Thread nD τ).loc main_v18 ↦{fullShare} V' main_v18) := by
    rw [(arr_whole1 4).set_eq_univ, hF 4]; rfl
  exact BIClass.sep_mono (Entails.of_eq e0)
    (Laws.sep_assoc.2.trans (BIClass.sep_mono ((BIClass.sep_mono (Entails.of_eq e1) (Entails.of_eq e2)).trans (pointsTo_share (PosShare.mem_left_op_right fullShare)).2)
      (BIClass.sep_mono (Entails.of_eq e3) (Entails.of_eq e4))))

end Cert.Kernel.Frame

end
-- ==== Proof.KRegion2.lean ====
/-
  The second layer's pallas_call as one region of @main: what a grid point's body leaves in the output window's buffer (the body's payload of
  the point's input blocks), and the body's obligation to the pipeline at every point.
-/
import proofs.«100143_j39058432590072_1_alg».proof.Proof.Gen.Kernel.Launch
import proofs.«100143_j39058432590072_1_alg».proof.Proof.Gen.Kernel.Skeleton
import proofs.«100143_j39058432590072_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the second layer, at the contents `V` the region finds in the unscoped buffers

Each input window's block at a grid point is read off its array; the body loads every input block whole and stores the
output block whole, so what a point leaves in the output window's buffer is the body's one payload of the input blocks. -/

section
variable (V : (c : Dev nD) → (b : Ref sig .tc) → Buf (Elt F) ((c : Thread nD τ).loc b))

/-- Window `w`'s block at point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the window's block at every point, whether the point fetched it or
    not (an unfetched block's index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds the window's block at every point, whether the point fetched it or
    not (an unfetched block's index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds the window's block at every point, whether the point fetched it or
    not (an unfetched block's index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds the window's block at every point, whether the point fetched it or
    not (an unfetched block's index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The output window's buffer after the body: its one whole-block store, of the payload of the loaded input blocks. -/
def out2_4 (x0 : Vec F S2000x128 .f32) (x1 : Vec F S2000x128 .f32) (x2 : Vec F S2000x128 .f32) (x3 : Vec F S128x128 .f32) : Vec F S2000x128 .f32 :=
  View.canon [⟨(Rect.unit (s := S2000x128) ![0, 0] S2000x128.size inb_S2000x128_S2000x128_0_0), k2_pay1 (View.ld x0 (Rect.unit (s := S2000x128) ![0, 0] S2000x128.size inb_S2000x128_S2000x128_0_0)) (View.ld x1 (Rect.unit (s := S2000x128) ![0, 0] S2000x128.size inb_S2000x128_S2000x128_0_0)) (View.ld x2 (Rect.unit (s := S2000x128) ![0, 0] S2000x128.size inb_S2000x128_S2000x128_0_0)) (View.ld x3 (Rect.unit (s := S128x128) ![0, 0] S128x128.size inb_S128x128_S128x128_0_0))⟩]

/-- The one store covers the buffer. -/
theorem cover2_4 (p0 : Vec F S2000x128 .f32) (y : S2000x128.Idx) :
    ∃ pc ∈ ([⟨(Rect.unit (s := S2000x128) ![0, 0] S2000x128.size inb_S2000x128_S2000x128_0_0), p0⟩] : List (View.Piece (Elt F) S2000x128 .f32)), y ∈ pc.1.set :=
  View.cover_of_tiled [⟨(Rect.unit (s := S2000x128) ![0, 0] S2000x128.size inb_S2000x128_S2000x128_0_0), p0⟩] S2000x128.size (by rfl) y

set_option maxHeartbeats 2000000 in
/-- The body on whole staging memrefs, the inputs' at contents `x0`, `x1`, … and the output's at anything, runs to a continuation
    that holds the inputs' as they were and the output's at `out2_4` of the inputs'. -/
theorem sound_kernel2 (c : Dev nD) (E : Set ℕ) (i : grid2.Coords) (arg0 : Memref sig .tc .vmem S2000x128 .f32) (harg0 : arg0.IsWhole) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S2000x128 .f32) (harg4 : arg4.IsWhole)
    (x0 : Vec F S2000x128 .f32) (x1 : Vec F S2000x128 .f32) (x2 : Vec F S2000x128 .f32) (x3 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out2_4 x0 x1 x2 x3)) -∗ K ⟨⟩))
      ⊢ wp frame (wpE (defs₀ (F := F)) Variants.none c none) E (cc2__layer_kernel i arg0 harg0 arg1 harg1 arg2 harg2 arg3 harg3 arg4 harg4) K := by
  simp only [cc2__layer_kernel_eq_skeleton]; unfold cc2__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The pipeline's proof data on core `c`: the arrays as the region finds them; after the body at point `t` each input's
    buffer at its block and the output's at the payload of the input blocks; nothing owed; every array held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so `sound_kernel2` applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end

end Cert.Kernel.Frame

end
-- ==== Proof.KRegion3.lean ====
/-
  The third layer's pallas_call as one region of @main: what a grid point's body leaves in the output window's buffer (the body's payload of
  the point's input blocks), and the body's obligation to the pipeline at every point.
-/
import proofs.«100143_j39058432590072_1_alg».proof.Proof.Gen.Kernel.Launch
import proofs.«100143_j39058432590072_1_alg».proof.Proof.Gen.Kernel.Skeleton
import proofs.«100143_j39058432590072_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: the third layer, at the contents `V` the region finds in the unscoped buffers

Each input window's block at a grid point is read off its array; the body loads every input block whole and stores the
output block whole, so what a point leaves in the output window's buffer is the body's one payload of the input blocks. -/

section
variable (V : (c : Dev nD) → (b : Ref sig .tc) → Buf (Elt F) ((c : Thread nD τ).loc b))

/-- Window `w`'s block at point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds the window's block at every point, whether the point fetched it or
    not (an unfetched block's index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds the window's block at every point, whether the point fetched it or
    not (an unfetched block's index has not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds the window's block at every point, whether the point fetched it or
    not (an unfetched block's index has not moved). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds the window's block at every point, whether the point fetched it or
    not (an unfetched block's index has not moved). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The output window's buffer after the body: its one whole-block store, of the payload of the loaded input blocks. -/
def out3_4 (x0 : Vec F S2000x128 .f32) (x1 : Vec F S2000x128 .f32) (x2 : Vec F S2000x128 .f32) (x3 : Vec F S128x128 .f32) : Vec F S2000x128 .f32 :=
  View.canon [⟨(Rect.unit (s := S2000x128) ![0, 0] S2000x128.size inb_S2000x128_S2000x128_0_0), k3_pay1 (View.ld x0 (Rect.unit (s := S2000x128) ![0, 0] S2000x128.size inb_S2000x128_S2000x128_0_0)) (View.ld x1 (Rect.unit (s := S2000x128) ![0, 0] S2000x128.size inb_S2000x128_S2000x128_0_0)) (View.ld x2 (Rect.unit (s := S2000x128) ![0, 0] S2000x128.size inb_S2000x128_S2000x128_0_0)) (View.ld x3 (Rect.unit (s := S128x128) ![0, 0] S128x128.size inb_S128x128_S128x128_0_0))⟩]

/-- The one store covers the buffer. -/
theorem cover3_4 (p0 : Vec F S2000x128 .f32) (y : S2000x128.Idx) :
    ∃ pc ∈ ([⟨(Rect.unit (s := S2000x128) ![0, 0] S2000x128.size inb_S2000x128_S2000x128_0_0), p0⟩] : List (View.Piece (Elt F) S2000x128 .f32)), y ∈ pc.1.set :=
  View.cover_of_tiled [⟨(Rect.unit (s := S2000x128) ![0, 0] S2000x128.size inb_S2000x128_S2000x128_0_0), p0⟩] S2000x128.size (by rfl) y

set_option maxHeartbeats 2000000 in
/-- The body on whole staging memrefs, the inputs' at contents `x0`, `x1`, … and the output's at anything, runs to a continuation
    that holds the inputs' as they were and the output's at `out3_4` of the inputs'. -/
theorem sound_kernel3 (c : Dev nD) (E : Set ℕ) (i : grid3.Coords) (arg0 : Memref sig .tc .vmem S2000x128 .f32) (harg0 : arg0.IsWhole) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S2000x128 .f32) (harg4 : arg4.IsWhole)
    (x0 : Vec F S2000x128 .f32) (x1 : Vec F S2000x128 .f32) (x2 : Vec F S2000x128 .f32) (x3 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out3_4 x0 x1 x2 x3)) -∗ K ⟨⟩))
      ⊢ wp frame (wpE (defs₀ (F := F)) Variants.none c none) E (cc3__layer_kernel i arg0 harg0 arg1 harg1 arg2 harg2 arg3 harg3 arg4 harg4) K := by
  simp only [cc3__layer_kernel_eq_skeleton]; unfold cc3__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The pipeline's proof data on core `c`: the arrays as the region finds them; after the body at point `t` each input's
    buffer at its block and the output's at the payload of the input blocks; nothing owed; every array held whole. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so `sound_kernel3` applies; the invariant and the core's
    dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end

end Cert.Kernel.Frame

end
-- ==== Proof.KRegion4.lean ====
/-
  The fourth layer's pallas_call as one region of @main: what a grid point's body leaves in the output window's buffer (the body's payload of
  the point's input blocks), and the body's obligation to the pipeline at every point.
-/
import proofs.«100143_j39058432590072_1_alg».proof.Proof.Gen.Kernel.Launch
import proofs.«100143_j39058432590072_1_alg».proof.Proof.Gen.Kernel.Skeleton
import proofs.«100143_j39058432590072_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the fourth layer, at the contents `V` the region finds in the unscoped buffers

Each input window's block at a grid point is read off its array; the body loads every input block whole and stores the
output block whole, so what a point leaves in the output window's buffer is the body's one payload of the input blocks. -/

section
variable (V : (c : Dev nD) → (b : Ref sig .tc) → Buf (Elt F) ((c : Thread nD τ).loc b))

/-- Window `w`'s block at point `t`, read off the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds the window's block at every point, whether the point fetched it or
    not (an unfetched block's index has not moved). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds the window's block at every point, whether the point fetched it or
    not (an unfetched block's index has not moved). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds the window's block at every point, whether the point fetched it or
    not (an unfetched block's index has not moved). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds the window's block at every point, whether the point fetched it or
    not (an unfetched block's index has not moved). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The output window's buffer after the body: its one whole-block store, of the payload of the loaded input blocks. -/
def out4_4 (x0 : Vec F S2000x128 .f32) (x1 : Vec F S2000x128 .f32) (x2 : Vec F S2000x128 .f32) (x3 : Vec F S128x128 .f32) : Vec F S2000x128 .f32 :=
  View.canon [⟨(Rect.unit (s := S2000x128) ![0, 0] S2000x128.size inb_S2000x128_S2000x128_0_0), k4_pay1 (View.ld x0 (Rect.unit (s := S2000x128) ![0, 0] S2000x128.size inb_S2000x128_S2000x128_0_0)) (View.ld x1 (Rect.unit (s := S2000x128) ![0, 0] S2000x128.size inb_S2000x128_S2000x128_0_0)) (View.ld x2 (Rect.unit (s := S2000x128) ![0, 0] S2000x128.size inb_S2000x128_S2000x128_0_0)) (View.ld x3 (Rect.unit (s := S128x128) ![0, 0] S128x128.size inb_S128x128_S128x128_0_0))⟩]

/-- The one store covers the buffer. -/
theorem cover4_4 (p0 : Vec F S2000x128 .f32) (y : S2000x128.Idx) :
    ∃ pc ∈ ([⟨(Rect.unit (s := S2000x128) ![0, 0] S2000x128.size inb_S2000x128_S2000x128_0_0), p0⟩] : List (View.Piece (Elt F) S2000x128 .f32)), y ∈ pc.1.set :=
  View.cover_of_tiled [⟨(Rect.unit (s := S2000x128) ![0, 0] S2000x128.size inb_S2000x128_S2000x128_0_0), p0⟩] S2000x128.size (by rfl) y

set_option maxHeartbeats 2000000 in
/-- The body on whole staging memrefs, the inputs' at contents `x0`, `x1`, … and the output's at anything, runs to a continuation
    that holds the inputs' as they were and the output's at `out4_4` of the inputs'. -/
theorem sound_kernel4 (c : Dev nD) (E : Set ℕ) (i : grid4.Coords) (arg0 : Memref sig .tc .vmem S2000x128 .f32) (harg0 : arg0.IsWhole) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S2000x128 .f32) (harg4 : arg4.IsWhole)
    (x0 : Vec F S2000x128 .f32) (x1 : Vec F S2000x128 .f32) (x2 : Vec F S2000x128 .f32) (x3 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out4_4 x0 x1 x2 x3)) -∗ K ⟨⟩))
      ⊢ wp frame (wpE (defs₀ (F := F)) Variants.none c none) E (cc4__layer_kernel i arg0 harg0 arg1 harg1 arg2 harg2 arg3 harg3 arg4 harg4) K := by
  simp only [cc4__layer_kernel_eq_skeleton]; unfold cc4__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-- The pipeline's proof data on core `c`: the arrays as the region finds them; after the body at point `t` each input's
    buffer at its block and the output's at the payload of the input blocks; nothing owed; every array held whole. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks, so `sound_kernel4` applies; the invariant and the core's
    dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end

end Cert.Kernel.Frame

end
-- ==== Proof.KRegion5.lean ====
/-
  The final projection and row log-softmax's pallas_call as one region of @main: what a grid point's body leaves in the output window's buffer (the body's payload of
  the point's input blocks), and the body's obligation to the pipeline at every point.
-/
import proofs.«100143_j39058432590072_1_alg».proof.Proof.Gen.Kernel.Launch
import proofs.«100143_j39058432590072_1_alg».proof.Proof.Gen.Kernel.Skeleton
import proofs.«100143_j39058432590072_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5: the final projection and row log-softmax, at the contents `V` the region finds in the unscoped buffers

Each input window's block at a grid point is read off its array; the body loads every input block whole and stores the
output block whole, so what a point leaves in the output window's buffer is the body's one payload of the input blocks. -/

section
variable (V : (c : Dev nD) → (b : Ref sig .tc) → Buf (Elt F) ((c : Thread nD τ).loc b))

/-- Window `w`'s block at point `t`, read off the window's array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds the window's block at every point, whether the point fetched it or
    not (an unfetched block's index has not moved). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds the window's block at every point, whether the point fetched it or
    not (an unfetched block's index has not moved). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds the window's block at every point, whether the point fetched it or
    not (an unfetched block's index has not moved). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The output window's buffer after the body: its one whole-block store, of the payload of the loaded input blocks. -/
def out5_3 (x0 : Vec F S2000x128 .f32) (x1 : Vec F S128x64 .f32) (x2 : Vec F S1x64 .f32) : Vec F S2000x64 .f32 :=
  View.canon [⟨(Rect.unit (s := S2000x64) ![0, 0] S2000x64.size inb_S2000x64_S2000x64_0_0), k5_pay1 (View.ld x0 (Rect.unit (s := S2000x128) ![0, 0] S2000x128.size inb_S2000x128_S2000x128_0_0)) (View.ld x1 (Rect.unit (s := S128x64) ![0, 0] S128x64.size inb_S128x64_S128x64_0_0)) (View.ld x2 (Rect.unit (s := S1x64) ![0, 0] S1x64.size inb_S1x64_S1x64_0_0))⟩]

/-- The one store covers the buffer. -/
theorem cover5_3 (p0 : Vec F S2000x64 .f32) (y : S2000x64.Idx) :
    ∃ pc ∈ ([⟨(Rect.unit (s := S2000x64) ![0, 0] S2000x64.size inb_S2000x64_S2000x64_0_0), p0⟩] : List (View.Piece (Elt F) S2000x64 .f32)), y ∈ pc.1.set :=
  View.cover_of_tiled [⟨(Rect.unit (s := S2000x64) ![0, 0] S2000x64.size inb_S2000x64_S2000x64_0_0), p0⟩] S2000x64.size (by rfl) y

set_option maxHeartbeats 2000000 in
/-- The body on whole staging memrefs, the inputs' at contents `x0`, `x1`, … and the output's at anything, runs to a continuation
    that holds the inputs' as they were and the output's at `out5_3` of the inputs'. -/
theorem sound_kernel5 (c : Dev nD) (E : Set ℕ) (i : grid5.Coords) (arg0 : Memref sig .tc .vmem S2000x128 .f32) (harg0 : arg0.IsWhole) (arg1 : Memref sig .tc .vmem S128x64 .f32) (harg1 : arg1.IsWhole) (arg2 : Memref sig .tc .vmem S1x64 .f32) (harg2 : arg2.IsWhole) (arg3 : Memref sig .tc .vmem S2000x64 .f32) (harg3 : arg3.IsWhole)
    (x0 : Vec F S2000x128 .f32) (x1 : Vec F S128x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out5_3 x0 x1 x2)) -∗ K ⟨⟩))
      ⊢ wp frame (wpE (defs₀ (F := F)) Variants.none c none) E (cc5__final_kernel i arg0 harg0 arg1 harg1 arg2 harg2 arg3 harg3) K := by
  simp only [cc5__final_kernel_eq_skeleton]; unfold cc5__final_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The pipeline's proof data on core `c`: the arrays as the region finds them; after the body at point `t` each input's
    buffer at its block and the output's at the payload of the input blocks; nothing owed; every array held whole. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so `sound_kernel5` applies; the invariant and the core's
    dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end

end Cert.Kernel.Frame

end
-- ==== Proof.KRunCond.lean ====
/-
  The conditional run of the kernel program: the conditional frame's statement with the result buffer's final
  contents added to its post, read off the last valuation exactly as the arguments are.
-/
import proofs.«100143_j39058432590072_1_alg».proof.Proof.Gen.Kernel.Regions

set_option maxRecDepth 1060

noncomputable section

namespace Cert.Kernel.Frame

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

set_option backward.isDefEq.respectTransparency.types false in
/-- The conditional run: under the hypotheses of the conditional frame (one segment record per region, entered from and left at
    this program's thread states), every weakly fair execution of @main terminates in a memory that holds the result buffer at
    the last valuation's contents — what the last region leaves in it — and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 6) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 7 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE6 : ∀ c : Dev nD, E 6 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V10 m outs c) ∗ E 5 c) ⊢ R5.pre c)
    (hpost5 : ∀ c : Dev nD, R5.post c ⊢ iprop(StableHlo.held (c : Thread nD τ) (Pipeline.ucRefs τ sig) (V11 m outs c) ∗ E 6 c)) :
    θ_run defs (onTc (τ := τ) (main (F := F))) ⟨m, fun _ => 0, ρ⟩ (fun r => ∀ c : Dev nD,
      r.2.mem ((c.tc : Thread nD τ).loc main_v67) = V11 m outs c main_v67
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m outs 𝒱₀ L lv E ι pdats R0 R1 R2 R3 R4 R5)
    (fun c Q => by
      rewrite [main_chain c, Seg.run_eq_chain,
        show (segs m outs 𝒱₀ L lv E ι pdats R0 R1 R2 R3 R4 R5 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          Prog.lift (.customCall (Pipeline.entry 5) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V11 m outs c))
    (hch := fun c => ⟨.rfl, hpre0 c, hpost0 c, hpre1 c, hpost1 c, hpre2 c, hpost2 c, hpre3 c, hpost3 c, hpre4 c, (hpost4 c).trans (hpre5 c), (hpost5 c).trans (sep_mono .rfl (hE6 c))⟩)
    (hinit := ?_) (QY := fun c s => s.mem ((c.tc : Thread nD τ).loc main_v67) = V11 m outs c main_v67 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V11 m outs c) s') $$ [Hh HSI]
    · isplitl [Hh] <;> iassumption
    icases Hr with ⟨%h, HSI⟩
    imodintro
    isplitr
    · ipureintro
      exact ⟨h (Proc.devRef .tc main_v67) (Finset.mem_filter.mpr ⟨StableHlo.devRef_mem_tcRefs main_v67, by decide⟩),
        (h (Proc.devRef .tc main_arg0) (Finset.mem_filter.mpr ⟨StableHlo.devRef_mem_tcRefs main_arg0, by decide⟩)).trans (V11_main_arg0 m outs c),
        (h (Proc.devRef .tc main_arg1) (Finset.mem_filter.mpr ⟨StableHlo.devRef_mem_tcRefs main_arg1, by decide⟩)).trans (V11_main_arg1 m outs c),
        (h (Proc.devRef .tc main_arg2) (Finset.mem_filter.mpr ⟨StableHlo.devRef_mem_tcRefs main_arg2, by decide⟩)).trans (V11_main_arg2 m outs c),
        (h (Proc.devRef .tc main_arg3) (Finset.mem_filter.mpr ⟨StableHlo.devRef_mem_tcRefs main_arg3, by decide⟩)).trans (V11_main_arg3 m outs c),
        (h (Proc.devRef .tc main_arg4) (Finset.mem_filter.mpr ⟨StableHlo.devRef_mem_tcRefs main_arg4, by decide⟩)).trans (V11_main_arg4 m outs c),
        (h (Proc.devRef .tc main_arg5) (Finset.mem_filter.mpr ⟨StableHlo.devRef_mem_tcRefs main_arg5, by decide⟩)).trans (V11_main_arg5 m outs c),
        (h (Proc.devRef .tc main_arg6) (Finset.mem_filter.mpr ⟨StableHlo.devRef_mem_tcRefs main_arg6, by decide⟩)).trans (V11_main_arg6 m outs c),
        (h (Proc.devRef .tc main_arg7) (Finset.mem_filter.mpr ⟨StableHlo.devRef_mem_tcRefs main_arg7, by decide⟩)).trans (V11_main_arg7 m outs c),
        (h (Proc.devRef .tc main_arg8) (Finset.mem_filter.mpr ⟨StableHlo.devRef_mem_tcRefs main_arg8, by decide⟩)).trans (V11_main_arg8 m outs c)⟩
    · iexact HSI

end Cert.Kernel.Frame

end
-- ==== Proof.KRun.lean ====
/-
  The kernel program's run from the launch to the return. Between two items of @main every unscoped buffer is
  held at known contents: the launch memory, then each host stretch applied, then, after a region, the region's output array
  at what its pipeline leaves there (its write-backs folded over the grid) and every other buffer as before. Each region is
  entered from and left at these contents; the run ends with the result buffer at the last region's output and the arguments as
  launched.
-/
import proofs.«100143_j39058432590072_1_alg».proof.Proof.Gen.Kernel.Launch
import proofs.«100143_j39058432590072_1_alg».proof.Proof.Gen.Kernel.Skeleton
import proofs.«100143_j39058432590072_1_alg».proof.Proof.Gen.Kernel.Points
import proofs.«100143_j39058432590072_1_alg».proof.Proof.KRegion0
import proofs.«100143_j39058432590072_1_alg».proof.Proof.KRegion1
import proofs.«100143_j39058432590072_1_alg».proof.Proof.KRegion1Arrays
import proofs.«100143_j39058432590072_1_alg».proof.Proof.KRegion2
import proofs.«100143_j39058432590072_1_alg».proof.Proof.KRegion3
import proofs.«100143_j39058432590072_1_alg».proof.Proof.KRegion4
import proofs.«100143_j39058432590072_1_alg».proof.Proof.KRegion5
import proofs.«100143_j39058432590072_1_alg».proof.Proof.KRunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! ## What a region leaves: its arrays at the exit contents, the rest untouched -/

set_option maxHeartbeats 1000000 in
/-- Whatever the unscoped buffers hold when region 0 is entered (`Y`): at its exit each of its arrays holds what the pipeline
    leaves in it — an input's array what it held at entry, the output's array its write-backs folded — when the contents after
    the region are the contents before it with the output's buffer replaced. -/
theorem arrays_exit0 (Y : Dev nD → Valuation τ sig (Elt F)) (c : Dev nD) :
    ∀ w : Fin cfg0.W, (dat0 (fun c b => Y c b) c).arrAt w cfg0.N
      = Function.update (Y c) (Proc.devRef .tc main_v2) ((dat0 (fun c b => Y c b) c).arrAt 3 cfg0.N) (Proc.devRef .tc (Pipeline.arrRef spec0 w))
  | ⟨0, _⟩ => ((dat0 (fun c b => Y c b) c).arrAt_in 0 rfl _).trans ((A_eq0 (fun c b => Y c b) c 0).trans
      (Function.update_of_ne (StableHlo.devRef_ne_of_ne (by decide) : (Proc.devRef .tc (Pipeline.arrRef spec0 0) : DevRef τ sig) ≠ Proc.devRef .tc main_v2) _ _).symm)
  | ⟨1, _⟩ => ((dat0 (fun c b => Y c b) c).arrAt_in 1 rfl _).trans ((A_eq0 (fun c b => Y c b) c 1).trans
      (Function.update_of_ne (StableHlo.devRef_ne_of_ne (by decide) : (Proc.devRef .tc (Pipeline.arrRef spec0 1) : DevRef τ sig) ≠ Proc.devRef .tc main_v2) _ _).symm)
  | ⟨2, _⟩ => ((dat0 (fun c b => Y c b) c).arrAt_in 2 rfl _).trans ((A_eq0 (fun c b => Y c b) c 2).trans
      (Function.update_of_ne (StableHlo.devRef_ne_of_ne (by decide) : (Proc.devRef .tc (Pipeline.arrRef spec0 2) : DevRef τ sig) ≠ Proc.devRef .tc main_v2) _ _).symm)
  | ⟨3, _⟩ => (Function.update_self (f := Y c) (Proc.devRef .tc main_v2 : DevRef τ sig) _).symm

/-- and every buffer that is no array of region 0 holds what it held. -/
theorem rest_exit0 (Y : Dev nD → Valuation τ sig (Elt F)) (c : Dev nD) (a : Buf (Elt F) ((c : Thread nD τ).loc main_v2)) :
    ∀ b, b ∉ Finset.univ.image (Pipeline.arrRef spec0) → Function.update (Y c) (Proc.devRef .tc main_v2) a (Proc.devRef .tc b) = Y c (Proc.devRef .tc b) :=
  fun b hb => Function.update_of_ne (StableHlo.devRef_ne_of_ne (fun e => hb (Finset.mem_image.mpr ⟨3, Finset.mem_univ _, e.symm⟩))) _ _

set_option maxHeartbeats 1000000 in
/-- Whatever the unscoped buffers hold when region 1 is entered (`Y`): at its exit each of its arrays holds what the pipeline
    leaves in it — an input's array what it held at entry, the output's array its write-backs folded — when the contents after
    the region are the contents before it with the output's buffer replaced. -/
theorem arrays_exit1 (Y : Dev nD → Valuation τ sig (Elt F)) (c : Dev nD) :
    ∀ w : Fin cfg1.W, (dat1 (fun c b => Y c b) c).arrAt w cfg1.N
      = Function.update (Y c) (Proc.devRef .tc main_v18) ((dat1 (fun c b => Y c b) c).arrAt 4 cfg1.N) (Proc.devRef .tc (Pipeline.arrRef spec1 w))
  | ⟨0, _⟩ => ((dat1 (fun c b => Y c b) c).arrAt_in 0 rfl _).trans ((A_eq1 (fun c b => Y c b) c 0).trans
      (Function.update_of_ne (StableHlo.devRef_ne_of_ne (by decide) : (Proc.devRef .tc (Pipeline.arrRef spec1 0) : DevRef τ sig) ≠ Proc.devRef .tc main_v18) _ _).symm)
  | ⟨1, _⟩ => ((dat1 (fun c b => Y c b) c).arrAt_in 1 rfl _).trans ((A_eq1 (fun c b => Y c b) c 1).trans
      (Function.update_of_ne (StableHlo.devRef_ne_of_ne (by decide) : (Proc.devRef .tc (Pipeline.arrRef spec1 1) : DevRef τ sig) ≠ Proc.devRef .tc main_v18) _ _).symm)
  | ⟨2, _⟩ => ((dat1 (fun c b => Y c b) c).arrAt_in 2 rfl _).trans ((A_eq1 (fun c b => Y c b) c 2).trans
      (Function.update_of_ne (StableHlo.devRef_ne_of_ne (by decide) : (Proc.devRef .tc (Pipeline.arrRef spec1 2) : DevRef τ sig) ≠ Proc.devRef .tc main_v18) _ _).symm)
  | ⟨3, _⟩ => ((dat1 (fun c b => Y c b) c).arrAt_in 3 rfl _).trans ((A_eq1 (fun c b => Y c b) c 3).trans
      (Function.update_of_ne (StableHlo.devRef_ne_of_ne (by decide) : (Proc.devRef .tc (Pipeline.arrRef spec1 3) : DevRef τ sig) ≠ Proc.devRef .tc main_v18) _ _).symm)
  | ⟨4, _⟩ => (Function.update_self (f := Y c) (Proc.devRef .tc main_v18 : DevRef τ sig) _).symm

/-- and every buffer that is no array of region 1 holds what it held. -/
theorem rest_exit1 (Y : Dev nD → Valuation τ sig (Elt F)) (c : Dev nD) (a : Buf (Elt F) ((c : Thread nD τ).loc main_v18)) :
    ∀ b, b ∉ Finset.univ.image (Pipeline.arrRef spec1) → Function.update (Y c) (Proc.devRef .tc main_v18) a (Proc.devRef .tc b) = Y c (Proc.devRef .tc b) :=
  fun b hb => Function.update_of_ne (StableHlo.devRef_ne_of_ne (fun e => hb (Finset.mem_image.mpr ⟨4, Finset.mem_univ _, e.symm⟩))) _ _

set_option maxHeartbeats 1000000 in
/-- Whatever the unscoped buffers hold when region 2 is entered (`Y`): at its exit each of its arrays holds what the pipeline
    leaves in it — an input's array what it held at entry, the output's array its write-backs folded — when the contents after
    the region are the contents before it with the output's buffer replaced. -/
theorem arrays_exit2 (Y : Dev nD → Valuation τ sig (Elt F)) (c : Dev nD) :
    ∀ w : Fin cfg2.W, (dat2 (fun c b => Y c b) c).arrAt w cfg2.N
      = Function.update (Y c) (Proc.devRef .tc main_v34) ((dat2 (fun c b => Y c b) c).arrAt 4 cfg2.N) (Proc.devRef .tc (Pipeline.arrRef spec2 w))
  | ⟨0, _⟩ => ((dat2 (fun c b => Y c b) c).arrAt_in 0 rfl _).trans ((A_eq2 (fun c b => Y c b) c 0).trans
      (Function.update_of_ne (StableHlo.devRef_ne_of_ne (by decide) : (Proc.devRef .tc (Pipeline.arrRef spec2 0) : DevRef τ sig) ≠ Proc.devRef .tc main_v34) _ _).symm)
  | ⟨1, _⟩ => ((dat2 (fun c b => Y c b) c).arrAt_in 1 rfl _).trans ((A_eq2 (fun c b => Y c b) c 1).trans
      (Function.update_of_ne (StableHlo.devRef_ne_of_ne (by decide) : (Proc.devRef .tc (Pipeline.arrRef spec2 1) : DevRef τ sig) ≠ Proc.devRef .tc main_v34) _ _).symm)
  | ⟨2, _⟩ => ((dat2 (fun c b => Y c b) c).arrAt_in 2 rfl _).trans ((A_eq2 (fun c b => Y c b) c 2).trans
      (Function.update_of_ne (StableHlo.devRef_ne_of_ne (by decide) : (Proc.devRef .tc (Pipeline.arrRef spec2 2) : DevRef τ sig) ≠ Proc.devRef .tc main_v34) _ _).symm)
  | ⟨3, _⟩ => ((dat2 (fun c b => Y c b) c).arrAt_in 3 rfl _).trans ((A_eq2 (fun c b => Y c b) c 3).trans
      (Function.update_of_ne (StableHlo.devRef_ne_of_ne (by decide) : (Proc.devRef .tc (Pipeline.arrRef spec2 3) : DevRef τ sig) ≠ Proc.devRef .tc main_v34) _ _).symm)
  | ⟨4, _⟩ => (Function.update_self (f := Y c) (Proc.devRef .tc main_v34 : DevRef τ sig) _).symm

/-- and every buffer that is no array of region 2 holds what it held. -/
theorem rest_exit2 (Y : Dev nD → Valuation τ sig (Elt F)) (c : Dev nD) (a : Buf (Elt F) ((c : Thread nD τ).loc main_v34)) :
    ∀ b, b ∉ Finset.univ.image (Pipeline.arrRef spec2) → Function.update (Y c) (Proc.devRef .tc main_v34) a (Proc.devRef .tc b) = Y c (Proc.devRef .tc b) :=
  fun b hb => Function.update_of_ne (StableHlo.devRef_ne_of_ne (fun e => hb (Finset.mem_image.mpr ⟨4, Finset.mem_univ _, e.symm⟩))) _ _

set_option maxHeartbeats 1000000 in
/-- Whatever the unscoped buffers hold when region 3 is entered (`Y`): at its exit each of its arrays holds what the pipeline
    leaves in it — an input's array what it held at entry, the output's array its write-backs folded — when the contents after
    the region are the contents before it with the output's buffer replaced. -/
theorem arrays_exit3 (Y : Dev nD → Valuation τ sig (Elt F)) (c : Dev nD) :
    ∀ w : Fin cfg3.W, (dat3 (fun c b => Y c b) c).arrAt w cfg3.N
      = Function.update (Y c) (Proc.devRef .tc main_v50) ((dat3 (fun c b => Y c b) c).arrAt 4 cfg3.N) (Proc.devRef .tc (Pipeline.arrRef spec3 w))
  | ⟨0, _⟩ => ((dat3 (fun c b => Y c b) c).arrAt_in 0 rfl _).trans ((A_eq3 (fun c b => Y c b) c 0).trans
      (Function.update_of_ne (StableHlo.devRef_ne_of_ne (by decide) : (Proc.devRef .tc (Pipeline.arrRef spec3 0) : DevRef τ sig) ≠ Proc.devRef .tc main_v50) _ _).symm)
  | ⟨1, _⟩ => ((dat3 (fun c b => Y c b) c).arrAt_in 1 rfl _).trans ((A_eq3 (fun c b => Y c b) c 1).trans
      (Function.update_of_ne (StableHlo.devRef_ne_of_ne (by decide) : (Proc.devRef .tc (Pipeline.arrRef spec3 1) : DevRef τ sig) ≠ Proc.devRef .tc main_v50) _ _).symm)
  | ⟨2, _⟩ => ((dat3 (fun c b => Y c b) c).arrAt_in 2 rfl _).trans ((A_eq3 (fun c b => Y c b) c 2).trans
      (Function.update_of_ne (StableHlo.devRef_ne_of_ne (by decide) : (Proc.devRef .tc (Pipeline.arrRef spec3 2) : DevRef τ sig) ≠ Proc.devRef .tc main_v50) _ _).symm)
  | ⟨3, _⟩ => ((dat3 (fun c b => Y c b) c).arrAt_in 3 rfl _).trans ((A_eq3 (fun c b => Y c b) c 3).trans
      (Function.update_of_ne (StableHlo.devRef_ne_of_ne (by decide) : (Proc.devRef .tc (Pipeline.arrRef spec3 3) : DevRef τ sig) ≠ Proc.devRef .tc main_v50) _ _).symm)
  | ⟨4, _⟩ => (Function.update_self (f := Y c) (Proc.devRef .tc main_v50 : DevRef τ sig) _).symm

/-- and every buffer that is no array of region 3 holds what it held. -/
theorem rest_exit3 (Y : Dev nD → Valuation τ sig (Elt F)) (c : Dev nD) (a : Buf (Elt F) ((c : Thread nD τ).loc main_v50)) :
    ∀ b, b ∉ Finset.univ.image (Pipeline.arrRef spec3) → Function.update (Y c) (Proc.devRef .tc main_v50) a (Proc.devRef .tc b) = Y c (Proc.devRef .tc b) :=
  fun b hb => Function.update_of_ne (StableHlo.devRef_ne_of_ne (fun e => hb (Finset.mem_image.mpr ⟨4, Finset.mem_univ _, e.symm⟩))) _ _

set_option maxHeartbeats 1000000 in
/-- Whatever the unscoped buffers hold when region 4 is entered (`Y`): at its exit each of its arrays holds what the pipeline
    leaves in it — an input's array what it held at entry, the output's array its write-backs folded — when the contents after
    the region are the contents before it with the output's buffer replaced. -/
theorem arrays_exit4 (Y : Dev nD → Valuation τ sig (Elt F)) (c : Dev nD) :
    ∀ w : Fin cfg4.W, (dat4 (fun c b => Y c b) c).arrAt w cfg4.N
      = Function.update (Y c) (Proc.devRef .tc main_v66) ((dat4 (fun c b => Y c b) c).arrAt 4 cfg4.N) (Proc.devRef .tc (Pipeline.arrRef spec4 w))
  | ⟨0, _⟩ => ((dat4 (fun c b => Y c b) c).arrAt_in 0 rfl _).trans ((A_eq4 (fun c b => Y c b) c 0).trans
      (Function.update_of_ne (StableHlo.devRef_ne_of_ne (by decide) : (Proc.devRef .tc (Pipeline.arrRef spec4 0) : DevRef τ sig) ≠ Proc.devRef .tc main_v66) _ _).symm)
  | ⟨1, _⟩ => ((dat4 (fun c b => Y c b) c).arrAt_in 1 rfl _).trans ((A_eq4 (fun c b => Y c b) c 1).trans
      (Function.update_of_ne (StableHlo.devRef_ne_of_ne (by decide) : (Proc.devRef .tc (Pipeline.arrRef spec4 1) : DevRef τ sig) ≠ Proc.devRef .tc main_v66) _ _).symm)
  | ⟨2, _⟩ => ((dat4 (fun c b => Y c b) c).arrAt_in 2 rfl _).trans ((A_eq4 (fun c b => Y c b) c 2).trans
      (Function.update_of_ne (StableHlo.devRef_ne_of_ne (by decide) : (Proc.devRef .tc (Pipeline.arrRef spec4 2) : DevRef τ sig) ≠ Proc.devRef .tc main_v66) _ _).symm)
  | ⟨3, _⟩ => ((dat4 (fun c b => Y c b) c).arrAt_in 3 rfl _).trans ((A_eq4 (fun c b => Y c b) c 3).trans
      (Function.update_of_ne (StableHlo.devRef_ne_of_ne (by decide) : (Proc.devRef .tc (Pipeline.arrRef spec4 3) : DevRef τ sig) ≠ Proc.devRef .tc main_v66) _ _).symm)
  | ⟨4, _⟩ => (Function.update_self (f := Y c) (Proc.devRef .tc main_v66 : DevRef τ sig) _).symm

/-- and every buffer that is no array of region 4 holds what it held. -/
theorem rest_exit4 (Y : Dev nD → Valuation τ sig (Elt F)) (c : Dev nD) (a : Buf (Elt F) ((c : Thread nD τ).loc main_v66)) :
    ∀ b, b ∉ Finset.univ.image (Pipeline.arrRef spec4) → Function.update (Y c) (Proc.devRef .tc main_v66) a (Proc.devRef .tc b) = Y c (Proc.devRef .tc b) :=
  fun b hb => Function.update_of_ne (StableHlo.devRef_ne_of_ne (fun e => hb (Finset.mem_image.mpr ⟨4, Finset.mem_univ _, e.symm⟩))) _ _

set_option maxHeartbeats 1000000 in
/-- Whatever the unscoped buffers hold when region 5 is entered (`Y`): at its exit each of its arrays holds what the pipeline
    leaves in it — an input's array what it held at entry, the output's array its write-backs folded — when the contents after
    the region are the contents before it with the output's buffer replaced. -/
theorem arrays_exit5 (Y : Dev nD → Valuation τ sig (Elt F)) (c : Dev nD) :
    ∀ w : Fin cfg5.W, (dat5 (fun c b => Y c b) c).arrAt w cfg5.N
      = Function.update (Y c) (Proc.devRef .tc main_v67) ((dat5 (fun c b => Y c b) c).arrAt 3 cfg5.N) (Proc.devRef .tc (Pipeline.arrRef spec5 w))
  | ⟨0, _⟩ => ((dat5 (fun c b => Y c b) c).arrAt_in 0 rfl _).trans ((A_eq5 (fun c b => Y c b) c 0).trans
      (Function.update_of_ne (StableHlo.devRef_ne_of_ne (by decide) : (Proc.devRef .tc (Pipeline.arrRef spec5 0) : DevRef τ sig) ≠ Proc.devRef .tc main_v67) _ _).symm)
  | ⟨1, _⟩ => ((dat5 (fun c b => Y c b) c).arrAt_in 1 rfl _).trans ((A_eq5 (fun c b => Y c b) c 1).trans
      (Function.update_of_ne (StableHlo.devRef_ne_of_ne (by decide) : (Proc.devRef .tc (Pipeline.arrRef spec5 1) : DevRef τ sig) ≠ Proc.devRef .tc main_v67) _ _).symm)
  | ⟨2, _⟩ => ((dat5 (fun c b => Y c b) c).arrAt_in 2 rfl _).trans ((A_eq5 (fun c b => Y c b) c 2).trans
      (Function.update_of_ne (StableHlo.devRef_ne_of_ne (by decide) : (Proc.devRef .tc (Pipeline.arrRef spec5 2) : DevRef τ sig) ≠ Proc.devRef .tc main_v67) _ _).symm)
  | ⟨3, _⟩ => (Function.update_self (f := Y c) (Proc.devRef .tc main_v67 : DevRef τ sig) _).symm

/-- and every buffer that is no array of region 5 holds what it held. -/
theorem rest_exit5 (Y : Dev nD → Valuation τ sig (Elt F)) (c : Dev nD) (a : Buf (Elt F) ((c : Thread nD τ).loc main_v67)) :
    ∀ b, b ∉ Finset.univ.image (Pipeline.arrRef spec5) → Function.update (Y c) (Proc.devRef .tc main_v67) a (Proc.devRef .tc b) = Y c (Proc.devRef .tc b) :=
  fun b hb => Function.update_of_ne (StableHlo.devRef_ne_of_ne (fun e => hb (Finset.mem_image.mpr ⟨3, Finset.mem_univ _, e.symm⟩))) _ _

variable (m : (ℓ : Loc nD τ sig) → Buf (Elt F) ℓ)

/-! ## The unscoped buffers' contents between items -/

/-- After the first host stretch (the two bias vectors reshaped to rows). -/
abbrev X1 (c : Dev nD) : Valuation τ sig (Elt F) := V1 m c
abbrev T1 (c : Dev nD) (b : Ref sig .tc) : Buf (Elt F) ((c : Thread nD τ).loc b) := X1 m c b
/-- After the input projection: the initial features in their buffer. -/
def X2 (c : Dev nD) : Valuation τ sig (Elt F) :=
  Function.update (X1 m c) (Proc.devRef .tc main_v2) ((dat0 (T1 m) c).arrAt 3 cfg0.N)
abbrev T2 (c : Dev nD) (b : Ref sig .tc) : Buf (Elt F) ((c : Thread nD τ).loc b) := X2 m c b
/-- After the second host stretch: the first aggregation (gather by source, edge weight, scatter-add by destination) and the first
    layer's weight cut out of the stack. -/
def X3 (c : Dev nD) : Valuation τ sig (Elt F) := StableHlo.after hostOps1 (X2 m c)
abbrev T3 (c : Dev nD) (b : Ref sig .tc) : Buf (Elt F) ((c : Thread nD τ).loc b) := X3 m c b
/-- After the first layer. -/
def X4 (c : Dev nD) : Valuation τ sig (Elt F) :=
  Function.update (X3 m c) (Proc.devRef .tc main_v18) ((dat1 (T3 m) c).arrAt 4 cfg1.N)
abbrev T4 (c : Dev nD) (b : Ref sig .tc) : Buf (Elt F) ((c : Thread nD τ).loc b) := X4 m c b
/-- After the third host stretch: the second aggregation and the second layer's weight. -/
def X5 (c : Dev nD) : Valuation τ sig (Elt F) := StableHlo.after hostOps2 (X4 m c)
abbrev T5 (c : Dev nD) (b : Ref sig .tc) : Buf (Elt F) ((c : Thread nD τ).loc b) := X5 m c b
/-- After the second layer. -/
def X6 (c : Dev nD) : Valuation τ sig (Elt F) :=
  Function.update (X5 m c) (Proc.devRef .tc main_v34) ((dat2 (T5 m) c).arrAt 4 cfg2.N)
abbrev T6 (c : Dev nD) (b : Ref sig .tc) : Buf (Elt F) ((c : Thread nD τ).loc b) := X6 m c b
/-- After the fourth host stretch: the third aggregation and the third layer's weight. -/
def X7 (c : Dev nD) : Valuation τ sig (Elt F) := StableHlo.after hostOps3 (X6 m c)
abbrev T7 (c : Dev nD) (b : Ref sig .tc) : Buf (Elt F) ((c : Thread nD τ).loc b) := X7 m c b
/-- After the third layer. -/
def X8 (c : Dev nD) : Valuation τ sig (Elt F) :=
  Function.update (X7 m c) (Proc.devRef .tc main_v50) ((dat3 (T7 m) c).arrAt 4 cfg3.N)
abbrev T8 (c : Dev nD) (b : Ref sig .tc) : Buf (Elt F) ((c : Thread nD τ).loc b) := X8 m c b
/-- After the fifth host stretch: the fourth aggregation and the fourth layer's weight. -/
def X9 (c : Dev nD) : Valuation τ sig (Elt F) := StableHlo.after hostOps4 (X8 m c)
abbrev T9 (c : Dev nD) (b : Ref sig .tc) : Buf (Elt F) ((c : Thread nD τ).loc b) := X9 m c b
/-- After the fourth layer. -/
def X10 (c : Dev nD) : Valuation τ sig (Elt F) :=
  Function.update (X9 m c) (Proc.devRef .tc main_v66) ((dat4 (T9 m) c).arrAt 4 cfg4.N)
abbrev T10 (c : Dev nD) (b : Ref sig .tc) : Buf (Elt F) ((c : Thread nD τ).loc b) := X10 m c b
/-- After the final projection: the result in its buffer. -/
def X11 (c : Dev nD) : Valuation τ sig (Elt F) :=
  Function.update (X10 m c) (Proc.devRef .tc main_v67) ((dat5 (T10 m) c).arrAt 3 cfg5.N)
abbrev T11 (c : Dev nD) (b : Ref sig .tc) : Buf (Elt F) ((c : Thread nD τ).loc b) := X11 m c b

/-- What each region leaves in the buffer it may change, as the conditional run's unknowns. -/
def outsOf : Outs (F := F) := fun J r c => match J with
  | 2 => X2 m c r
  | 4 => X4 m c r
  | 6 => X6 m c r
  | 8 => X8 m c r
  | 10 => X10 m c r
  | 11 => X11 m c r
  | _ => V0 m c r

theorem V2_eq (c : Dev nD) : V2 m (outsOf m) c = X2 m c := by
  show Function.update (V1 m c) (Proc.devRef .tc main_v2) (X2 m c (Proc.devRef .tc main_v2)) = X2 m c
  unfold X2; rw [Function.update_self]
theorem V3_eq (c : Dev nD) : V3 m (outsOf m) c = X3 m c := by
  show StableHlo.after hostOps1 (V2 m (outsOf m) c) = _; rw [V2_eq]; rfl
theorem V4_eq (c : Dev nD) : V4 m (outsOf m) c = X4 m c := by
  show Function.update (V3 m (outsOf m) c) (Proc.devRef .tc main_v18) (X4 m c (Proc.devRef .tc main_v18)) = X4 m c
  rw [V3_eq]; unfold X4; rw [Function.update_self]
theorem V5_eq (c : Dev nD) : V5 m (outsOf m) c = X5 m c := by
  show StableHlo.after hostOps2 (V4 m (outsOf m) c) = _; rw [V4_eq]; rfl
theorem V6_eq (c : Dev nD) : V6 m (outsOf m) c = X6 m c := by
  show Function.update (V5 m (outsOf m) c) (Proc.devRef .tc main_v34) (X6 m c (Proc.devRef .tc main_v34)) = X6 m c
  rw [V5_eq]; unfold X6; rw [Function.update_self]
theorem V7_eq (c : Dev nD) : V7 m (outsOf m) c = X7 m c := by
  show StableHlo.after hostOps3 (V6 m (outsOf m) c) = _; rw [V6_eq]; rfl
theorem V8_eq (c : Dev nD) : V8 m (outsOf m) c = X8 m c := by
  show Function.update (V7 m (outsOf m) c) (Proc.devRef .tc main_v50) (X8 m c (Proc.devRef .tc main_v50)) = X8 m c
  rw [V7_eq]; unfold X8; rw [Function.update_self]
theorem V9_eq (c : Dev nD) : V9 m (outsOf m) c = X9 m c := by
  show StableHlo.after hostOps4 (V8 m (outsOf m) c) = _; rw [V8_eq]; rfl
theorem V10_eq (c : Dev nD) : V10 m (outsOf m) c = X10 m c := by
  show Function.update (V9 m (outsOf m) c) (Proc.devRef .tc main_v66) (X10 m c (Proc.devRef .tc main_v66)) = X10 m c
  rw [V9_eq]; unfold X10; rw [Function.update_self]
theorem V11_eq (c : Dev nD) : V11 m (outsOf m) c = X11 m c := by
  show Function.update (V10 m (outsOf m) c) (Proc.devRef .tc main_v67) (X11 m c (Proc.devRef .tc main_v67)) = X11 m c
  rw [V10_eq]; unfold X11; rw [Function.update_self]

/-! ## What a region leaves, at this run's contents -/

theorem hF0 (c : Dev nD) : ∀ w : Fin cfg0.W, (dat0 (T1 m) c).arrAt w cfg0.N = T2 m c (Pipeline.arrRef spec0 w) :=
  arrays_exit0 (X1 m) c
theorem hrest0 (c : Dev nD) : ∀ b, b ∉ Finset.univ.image (Pipeline.arrRef spec0) → T2 m c b = T1 m c b :=
  rest_exit0 (X1 m) c _

theorem hF1 (c : Dev nD) : ∀ w : Fin cfg1.W, (dat1 (T3 m) c).arrAt w cfg1.N = T4 m c (Pipeline.arrRef spec1 w) :=
  arrays_exit1 (X3 m) c
theorem hrest1 (c : Dev nD) : ∀ b, b ∉ Finset.univ.image (Pipeline.arrRef spec1) → T4 m c b = T3 m c b :=
  rest_exit1 (X3 m) c _

theorem hF2 (c : Dev nD) : ∀ w : Fin cfg2.W, (dat2 (T5 m) c).arrAt w cfg2.N = T6 m c (Pipeline.arrRef spec2 w) :=
  arrays_exit2 (X5 m) c
theorem hrest2 (c : Dev nD) : ∀ b, b ∉ Finset.univ.image (Pipeline.arrRef spec2) → T6 m c b = T5 m c b :=
  rest_exit2 (X5 m) c _

theorem hF3 (c : Dev nD) : ∀ w : Fin cfg3.W, (dat3 (T7 m) c).arrAt w cfg3.N = T8 m c (Pipeline.arrRef spec3 w) :=
  arrays_exit3 (X7 m) c
theorem hrest3 (c : Dev nD) : ∀ b, b ∉ Finset.univ.image (Pipeline.arrRef spec3) → T8 m c b = T7 m c b :=
  rest_exit3 (X7 m) c _

theorem hF4 (c : Dev nD) : ∀ w : Fin cfg4.W, (dat4 (T9 m) c).arrAt w cfg4.N = T10 m c (Pipeline.arrRef spec4 w) :=
  arrays_exit4 (X9 m) c
theorem hrest4 (c : Dev nD) : ∀ b, b ∉ Finset.univ.image (Pipeline.arrRef spec4) → T10 m c b = T9 m c b :=
  rest_exit4 (X9 m) c _

theorem hF5 (c : Dev nD) : ∀ w : Fin cfg5.W, (dat5 (T10 m) c).arrAt w cfg5.N = T11 m c (Pipeline.arrRef spec5 w) :=
  arrays_exit5 (X10 m) c
theorem hrest5 (c : Dev nD) : ∀ b, b ∉ Finset.univ.image (Pipeline.arrRef spec5) → T11 m c b = T10 m c b :=
  rest_exit5 (X10 m) c _

/-! ## The proof data family and the thread state -/

/-- Every pipeline's proof data, each at its region's entry contents. -/
def pdats : (p : Fin 6) → (c : Dev nD) → Dat τ (Elt F) Unit ℕ (UR sig nD τ) ℕ (cfgs p) c
  | ⟨0, _⟩ => fun c => dat0 (T1 m) c
  | ⟨1, _⟩ => fun c => dat1 (T3 m) c
  | ⟨2, _⟩ => fun c => dat2 (T5 m) c
  | ⟨3, _⟩ => fun c => dat3 (T7 m) c
  | ⟨4, _⟩ => fun c => dat4 (T9 m) c
  | ⟨5, _⟩ => fun c => dat5 (T10 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-! ## Region 1's arrays: one array behind two windows -/

/-- ENTRY. The first layer reads the initial features through two windows (as its initial and as its current features), so
    the buffer behind them, held whole, is dealt to the two windows half and half; the other arrays are distinct buffers held
    whole. -/
theorem arrays1_in (c : Dev nD) :
    (unscopedBufs (Ix := Unit) (Name := ℕ) (U := UR sig nD τ) (Lvl := ℕ) c (T3 m c) : sProp 𝕄)
      ⊢ iprop((pdats m 1 c).arrays (pdats m 1 c).A ∗ Pipeline.unscopedRest (Ix := Unit) (Name := ℕ) (U := UR sig nD τ) (Lvl := ℕ) spec1 c (T3 m c)) :=
  arrays1_in' (T3 m) c

/-- EXIT. The two halves of the shared buffer, both at the contents it had at entry, are the buffer whole again; the output's
    array holds what the pipeline left. -/
theorem arrays1_out (c : Dev nD) :
    iprop((pdats m 1 c).arrays ((pdats m 1 c).arrAt · cfg1.N) ∗ Pipeline.unscopedRest (Ix := Unit) (Name := ℕ) (U := UR sig nD τ) (Lvl := ℕ) spec1 c (T3 m c))
      ⊢ (unscopedBufs (Ix := Unit) (Name := ℕ) (U := UR sig nD τ) (Lvl := ℕ) c (T4 m c) : sProp 𝕄) :=
  arrays1_out' (T3 m) c (T4 m c) (hF1 m c) (hrest1 m c)

/-! ## The regions as segments -/

set_option backward.isDefEq.respectTransparency.types false in
/-- Region 0 over the thread state: entered with every unscoped buffer at the contents before it, left with them at the
    contents after it. Its arrays are split out of the unscoped buffers at entry and put back at exit; the generator register
    goes into the pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at the
    contents after it. Its arrays are split out of the unscoped buffers at entry and put back at exit; the generator register
    goes into the pipeline's invariant and comes back; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (T3 m) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := arrays1_in m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := arrays1_out m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them at the
    contents after it. Its arrays are split out of the unscoped buffers at entry and put back at exit; the generator register
    goes into the pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ L lv 2 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at the contents before it, left with them at the
    contents after it. Its arrays are split out of the unscoped buffers at entry and put back at exit; the generator register
    goes into the pipeline's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T7 m) c).loose
  hwaits := Pipeline.hwaits_of_owed_zero _ _ _ _ L lv 3 fun _ _ => rfl
  pre c := iprop(StableHlo.held (c : Thread nD τ) (Pipeline.ucRefs τ sig) (X7 m c) ∗ R c)
  post c := iprop(StableHlo.held (c : Thread nD τ) (Pipeline.ucRefs τ sig) (X8 m c) ∗ R c)
  X c := iprop(∃ r, prngReg c r)
  Y c := iprop(∃ r, prngReg c r)
  Z c := Pipeline.unscopedRest (Ix := Unit) (Name := ℕ) (U := UR sig nD τ) (Lvl := ℕ) spec3 c (T7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T7 m c) (T8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at the contents before it, left with them at the
    contents after it. Its arrays are split out of the unscoped buffers at entry and put back at exit; the generator register
    goes into the pipeline's invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (T9 m) c).loose
  hwaits := Pipeline.hwaits_of_owed_zero _ _ _ _ L lv 4 fun _ _ => rfl
  pre c := iprop(StableHlo.held (c : Thread nD τ) (Pipeline.ucRefs τ sig) (X9 m c) ∗ R c)
  post c := iprop(StableHlo.held (c : Thread nD τ) (Pipeline.ucRefs τ sig) (X10 m c) ∗ R c)
  X c := iprop(∃ r, prngReg c r)
  Y c := iprop(∃ r, prngReg c r)
  Z c := Pipeline.unscopedRest (Ix := Unit) (Name := ℕ) (U := UR sig nD τ) (Lvl := ℕ) spec4 c (T9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (T9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (T9 m c) (T10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at the contents before it, left with them at the
    contents after it. Its arrays are split out of the unscoped buffers at entry and put back at exit; the generator register
    goes into the pipeline's invariant and comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (T10 m) c).loose
  hwaits := Pipeline.hwaits_of_owed_zero _ _ _ _ L lv 5 fun _ _ => rfl
  pre c := iprop(StableHlo.held (c : Thread nD τ) (Pipeline.ucRefs τ sig) (X10 m c) ∗ R c)
  post c := iprop(StableHlo.held (c : Thread nD τ) (Pipeline.ucRefs τ sig) (X11 m c) ∗ R c)
  X c := iprop(∃ r, prngReg c r)
  Y c := iprop(∃ r, prngReg c r)
  Z c := Pipeline.unscopedRest (Ix := Unit) (Name := ℕ) (U := UR sig nD τ) (Lvl := ℕ) spec5 c (T10 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (T10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (T10 m c) (T11 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main from memory `m` with zero counters terminates, faulting nowhere, in a memory that
    holds the result buffer at the last region's output array and each argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v67) = X11 m c main_v67
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ⟨(h c).1.trans (by rw [V11_eq]), (h c).2⟩)
    (run_cond m (EP := emb₁) (ι := ()) (𝒱₀ := 𝒱₀) (L := L) (lv := lv) (hL := fun _ _ => rfl) (ρ := ρ) (outs := outsOf m) (pdats := pdats m)
      (O₀ := 0) (G := fun _ => iprop(emp))
      (u₀ := initOf (Pipeline.cells cfgs cellOf_inj) (Pipeline.launchToks cfgs cellOf_inj))
      (hu₀ := by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (E := fun _ c => R c)
      (hE0 := Pipeline.initEach L lv fun c => by
        iintro ⟨⟨-, HO, -, Hp, -⟩, -⟩
        imodintro
        isplitl [Hp]; · iexists _; iexact Hp
        iexists ∅; iexact HO)
      (hE6 := fun c => by iintro ⟨-, HO⟩; iexact HO)
      (R0 := reg0 m) (hpre0 := fun c => .rfl) (hpost0 := fun c => by rw [V2_eq]; exact .rfl)
      (R1 := reg1 m) (hpre1 := fun c => by rw [V3_eq]; exact .rfl) (hpost1 := fun c => by rw [V4_eq]; exact .rfl)
      (R2 := reg2 m) (hpre2 := fun c => by rw [V5_eq]; exact .rfl) (hpost2 := fun c => by rw [V6_eq]; exact .rfl)
      (R3 := reg3 m) (hpre3 := fun c => by rw [V7_eq]; exact .rfl) (hpost3 := fun c => by rw [V8_eq]; exact .rfl)
      (R4 := reg4 m) (hpre4 := fun c => by rw [V9_eq]; exact .rfl) (hpost4 := fun c => by rw [V10_eq]; exact .rfl)
      (R5 := reg5 m) (hpre5 := fun c => by rw [V10_eq]; exact .rfl) (hpost5 := fun c => by rw [V11_eq]; exact .rfl))

end Cert.Kernel.Frame

end
-- ==== Proof.KIRegion0.lean ====
/-
  The input projection's pallas_call as one region of @main: what a grid point's body leaves in the output window's
  buffer (the body's payload of the point's input blocks), and the body's obligation to the pipeline at every point.
-/
import proofs.«100143_j39058432590072_1_alg».proof.Proof.Gen.KernelIdeal.Launch
import proofs.«100143_j39058432590072_1_alg».proof.Proof.Gen.KernelIdeal.Skeleton
import proofs.«100143_j39058432590072_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the input projection, at the contents `V` the region finds in the unscoped buffers

Each input window's block at a grid point is read off its array; the body loads every input block whole and stores the
output block whole, so what a point leaves in the output window's buffer is the body's one payload of the input blocks. -/

section
variable (V : (c : Dev nD) → (b : Ref sig .tc) → Buf (Elt F) ((c : Thread nD τ).loc b))

/-- Window `w`'s block at point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every point, whether the point fetched it or
    not (an unfetched block's index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at every point, whether the point fetched it or
    not (an unfetched block's index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block at every point, whether the point fetched it or
    not (an unfetched block's index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The output window's buffer after the body: its one whole-block store, of the payload of the loaded input blocks. -/
def out0_3 (x0 : Vec F S2000x128 .f32) (x1 : Vec F S128x128 .f32) (x2 : Vec F S1x128 .f32) : Vec F S2000x128 .f32 :=
  View.canon [⟨(Rect.unit (s := S2000x128) ![0, 0] S2000x128.size inb_S2000x128_S2000x128_0_0), k0_pay1 (View.ld x0 (Rect.unit (s := S2000x128) ![0, 0] S2000x128.size inb_S2000x128_S2000x128_0_0)) (View.ld x1 (Rect.unit (s := S128x128) ![0, 0] S128x128.size inb_S128x128_S128x128_0_0)) (View.ld x2 (Rect.unit (s := S1x128) ![0, 0] S1x128.size inb_S1x128_S1x128_0_0))⟩]

/-- The one store covers the buffer. -/
theorem cover0_3 (p0 : Vec F S2000x128 .f32) (y : S2000x128.Idx) :
    ∃ pc ∈ ([⟨(Rect.unit (s := S2000x128) ![0, 0] S2000x128.size inb_S2000x128_S2000x128_0_0), p0⟩] : List (View.Piece (Elt F) S2000x128 .f32)), y ∈ pc.1.set :=
  View.cover_of_tiled [⟨(Rect.unit (s := S2000x128) ![0, 0] S2000x128.size inb_S2000x128_S2000x128_0_0), p0⟩] S2000x128.size (by rfl) y

set_option maxHeartbeats 2000000 in
/-- The body on whole staging memrefs, the inputs' at contents `x0`, `x1`, … and the output's at anything, runs to a continuation
    that holds the inputs' as they were and the output's at `out0_3` of the inputs'. -/
theorem sound_kernel0 (c : Dev nD) (E : Set ℕ) (i : grid0.Coords) (arg0 : Memref sig .tc .vmem S2000x128 .f32) (harg0 : arg0.IsWhole) (arg1 : Memref sig .tc .vmem S128x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S128x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__input_proj_kernel i arg0 harg0 arg1 harg1 arg2 harg2 arg3 harg3) K := by
  simp only [cc0__input_proj_kernel_eq_skeleton]; unfold cc0__input_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each input's
    buffer at its block and the output's at the payload of the input blocks; nothing owed; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Frame

end
-- ==== Proof.KIRegion1.lean ====
/-
  The first layer's pallas_call as one region of @main: what a grid point's body leaves in the output window's buffer (the body's payload of
  the point's input blocks), and the body's obligation to the pipeline at every point. Windows 1 and 2 read one array
  (the initial features are also the first layer's current features), so the proof data holds that array at the two
  halves of the full share, one per window.
-/
import proofs.«100143_j39058432590072_1_alg».proof.Proof.Gen.KernelIdeal.Launch
import proofs.«100143_j39058432590072_1_alg».proof.Proof.Gen.KernelIdeal.Skeleton
import proofs.«100143_j39058432590072_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the first layer, at the contents `V` the region finds in the unscoped buffers

Each input window's block at a grid point is read off its array; the body loads every input block whole and stores the
output block whole, so what a point leaves in the output window's buffer is the body's one payload of the input blocks. -/

section
variable (V : (c : Dev nD) → (b : Ref sig .tc) → Buf (Elt F) ((c : Thread nD τ).loc b))

/-- Window `w`'s block at point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at every point, whether the point fetched it or
    not (an unfetched block's index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at every point, whether the point fetched it or
    not (an unfetched block's index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at every point, whether the point fetched it or
    not (an unfetched block's index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds the window's block at every point, whether the point fetched it or
    not (an unfetched block's index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The output window's buffer after the body: its one whole-block store, of the payload of the loaded input blocks. -/
def out1_4 (x0 : Vec F S2000x128 .f32) (x1 : Vec F S2000x128 .f32) (x2 : Vec F S2000x128 .f32) (x3 : Vec F S128x128 .f32) : Vec F S2000x128 .f32 :=
  View.canon [⟨(Rect.unit (s := S2000x128) ![0, 0] S2000x128.size inb_S2000x128_S2000x128_0_0), k1_pay1 (View.ld x0 (Rect.unit (s := S2000x128) ![0, 0] S2000x128.size inb_S2000x128_S2000x128_0_0)) (View.ld x1 (Rect.unit (s := S2000x128) ![0, 0] S2000x128.size inb_S2000x128_S2000x128_0_0)) (View.ld x2 (Rect.unit (s := S2000x128) ![0, 0] S2000x128.size inb_S2000x128_S2000x128_0_0)) (View.ld x3 (Rect.unit (s := S128x128) ![0, 0] S128x128.size inb_S128x128_S128x128_0_0))⟩]

/-- The one store covers the buffer. -/
theorem cover1_4 (p0 : Vec F S2000x128 .f32) (y : S2000x128.Idx) :
    ∃ pc ∈ ([⟨(Rect.unit (s := S2000x128) ![0, 0] S2000x128.size inb_S2000x128_S2000x128_0_0), p0⟩] : List (View.Piece (Elt F) S2000x128 .f32)), y ∈ pc.1.set :=
  View.cover_of_tiled [⟨(Rect.unit (s := S2000x128) ![0, 0] S2000x128.size inb_S2000x128_S2000x128_0_0), p0⟩] S2000x128.size (by rfl) y

set_option maxHeartbeats 2000000 in
/-- The body on whole staging memrefs, the inputs' at contents `x0`, `x1`, … and the output's at anything, runs to a continuation
    that holds the inputs' as they were and the output's at `out1_4` of the inputs'. -/
theorem sound_kernel1 (c : Dev nD) (E : Set ℕ) (i : grid1.Coords) (arg0 : Memref sig .tc .vmem S2000x128 .f32) (harg0 : arg0.IsWhole) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S2000x128 .f32) (harg4 : arg4.IsWhole)
    (x0 : Vec F S2000x128 .f32) (x1 : Vec F S2000x128 .f32) (x2 : Vec F S2000x128 .f32) (x3 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1__layer_kernel i arg0 harg0 arg1 harg1 arg2 harg2 arg3 harg3 arg4 harg4) K := by
  simp only [cc1__layer_kernel_eq_skeleton]; unfold cc1__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The pipeline's proof data on core `c`: the arrays as the region finds them; after the body at point `t` each input's
    buffer at its block and the output's at the payload of the input blocks; nothing owed; the array windows 1 and 2 share held at the two halves of the full share, every other array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Frame

end
-- ==== Proof.KIRegion1Arrays.lean ====
/-
  The first layer's arrays among a core's unscoped buffers. The layer reads the initial features through two windows (as its
  initial and as its current features), so five windows stand on four distinct buffers: at the region's entry the shared
  buffer's full share is dealt to the two windows half and half, and at its exit the two halves, both at the contents the
  buffer had all along, are put together again.
-/
import proofs.«100143_j39058432590072_1_alg».proof.Proof.Gen.KernelIdeal.Launch
import proofs.«100143_j39058432590072_1_alg».proof.Proof.Gen.KernelIdeal.Skeleton
import proofs.«100143_j39058432590072_1_alg».proof.Proof.Gen.KernelIdeal.Points
import proofs.«100143_j39058432590072_1_alg».proof.Proof.KIRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the first layer's five windows: the aggregated features, the initial features (read through
    two windows), the layer's weight, the output. -/
theorem arrRefs1 : Finset.univ.image (Pipeline.arrRef (cfgs 1).spec) = ({main_v15, main_v2, main_v17, main_v18} : Finset (Ref sig .tc)) := by
  decide

set_option backward.isDefEq.respectTransparency.types false in
/-- ENTRY. A core's unscoped buffers at `V c` are the first layer's arrays at their entry contents beside the rest: the buffer
    of the initial features, held whole, is dealt half and half to the two windows that read it; every other array is a
    distinct buffer held whole. -/
theorem arrays1_in' (c : Dev nD) :
    (unscopedBufs (Ix := Unit) (Name := ℕ) (U := UR sig nD τ) (Lvl := ℕ) c (V c) : sProp 𝕄)
      ⊢ iprop((dat1 V c).arrays (dat1 V c).A ∗ Pipeline.unscopedRest (Ix := Unit) (Name := ℕ) (U := UR sig nD τ) (Lvl := ℕ) spec1 c (V c)) := by
  rw [Pipeline.unscopedBufs_split₀ cfgs 1 winFacts₀1.arr_unscoped c (V c)]
  refine BIClass.sep_mono ?_ .rfl
  unfold Pipeline.arrBufs Pipeline.Dat.arrays
  rw [bigSep_W1, arrRefs1, bigSep_insert (by decide), bigSep_insert (by decide), bigSep_insert (by decide), bigSep_singleton]
  have e0 : (View.loc c.tc (cfg1.win 0).arr.view ↦[(cfg1.win 0).arr.view.set]{(dat1 V c).share 0} (dat1 V c).A 0 : sProp 𝕄)
      = ((c.tc : Thread nD τ).loc main_v15 ↦{fullShare} V c main_v15) := by
    rw [(arr_whole1 0).set_eq_univ]; rfl
  have e1 : (View.loc c.tc (cfg1.win 1).arr.view ↦[(cfg1.win 1).arr.view.set]{(dat1 V c).share 1} (dat1 V c).A 1 : sProp 𝕄)
      = ((c.tc : Thread nD τ).loc main_v2 ↦{fullShare.left} V c main_v2) := by
    rw [(arr_whole1 1).set_eq_univ]; rfl
  have e2 : (View.loc c.tc (cfg1.win 2).arr.view ↦[(cfg1.win 2).arr.view.set]{(dat1 V c).share 2} (dat1 V c).A 2 : sProp 𝕄)
      = ((c.tc : Thread nD τ).loc main_v2 ↦{fullShare.right} V c main_v2) := by
    rw [(arr_whole1 2).set_eq_univ]; rfl
  have e3 : (View.loc c.tc (cfg1.win 3).arr.view ↦[(cfg1.win 3).arr.view.set]{(dat1 V c).share 3} (dat1 V c).A 3 : sProp 𝕄)
      = ((c.tc : Thread nD τ).loc main_v17 ↦{fullShare} V c main_v17) := by
    rw [(arr_whole1 3).set_eq_univ]; rfl
  have e4 : (View.loc c.tc (cfg1.win 4).arr.view ↦[(cfg1.win 4).arr.view.set]{(dat1 V c).share 4} (dat1 V c).A 4 : sProp 𝕄)
      = ((c.tc : Thread nD τ).loc main_v18 ↦{fullShare} V c main_v18) := by
    rw [(arr_whole1 4).set_eq_univ]; rfl
  exact BIClass.sep_mono (Entails.of_eq e0.symm)
    ((BIClass.sep_mono ((pointsTo_share (PosShare.mem_left_op_right fullShare)).1.trans (BIClass.sep_mono (Entails.of_eq e1.symm) (Entails.of_eq e2.symm)))
      (BIClass.sep_mono (Entails.of_eq e3.symm) (Entails.of_eq e4.symm))).trans Laws.sep_assoc.1)

set_option backward.isDefEq.respectTransparency.types false in
/-- EXIT. The first layer's arrays at what the pipeline leaves in them, beside the unscoped rest at `V c`, are the core's
    unscoped buffers at any contents `V'` that has the arrays at those contents and agrees with `V c` off them: the two halves
    of the initial features' buffer, both at one contents, are the buffer whole again. -/
theorem arrays1_out' (c : Dev nD) (V' : (b : Ref sig .tc) → Buf (Elt F) ((c : Thread nD τ).loc b))
    (hF : ∀ w, (dat1 V c).arrAt w cfg1.N = V' (Pipeline.arrRef spec1 w))
    (hrest : ∀ b, b ∉ Finset.univ.image (Pipeline.arrRef spec1) → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  rw [Pipeline.unscopedBufs_split₀ cfgs 1 winFacts₀1.arr_unscoped c V']
  refine BIClass.sep_mono ?_ (Entails.of_eq ?_)
  swap
  · unfold Pipeline.unscopedRest
    exact bigSep_congr fun b hb => by rw [hrest b (Finset.mem_sdiff.mp hb).2]
  unfold Pipeline.arrBufs Pipeline.Dat.arrays
  rw [bigSep_W1, arrRefs1, bigSep_insert (by decide), bigSep_insert (by decide), bigSep_insert (by decide), bigSep_singleton]
  have e0 : (View.loc c.tc (cfg1.win 0).arr.view ↦[(cfg1.win 0).arr.view.set]{(dat1 V c).share 0} (dat1 V c).arrAt 0 cfg1.N : sProp 𝕄)
      = ((c.tc : Thread nD τ).loc main_v15 ↦{fullShare} V' main_v15) := by
    rw [(arr_whole1 0).set_eq_univ, hF 0]; rfl
  have e1 : (View.loc c.tc (cfg1.win 1).arr.view ↦[(cfg1.win 1).arr.view.set]{(dat1 V c).share 1} (dat1 V c).arrAt 1 cfg1.N : sProp 𝕄)
      = ((c.tc : Thread nD τ).loc main_v2 ↦{fullShare.left} V' main_v2) := by
    rw [(arr_whole1 1).set_eq_univ, hF 1]; rfl
  have e2 : (View.loc c.tc (cfg1.win 2).arr.view ↦[(cfg1.win 2).arr.view.set]{(dat1 V c).share 2} (dat1 V c).arrAt 2 cfg1.N : sProp 𝕄)
      = ((c.tc : Thread nD τ).loc main_v2 ↦{fullShare.right} V' main_v2) := by
    rw [(arr_whole1 2).set_eq_univ, hF 2]; rfl
  have e3 : (View.loc c.tc (cfg1.win 3).arr.view ↦[(cfg1.win 3).arr.view.set]{(dat1 V c).share 3} (dat1 V c).arrAt 3 cfg1.N : sProp 𝕄)
      = ((c.tc : Thread nD τ).loc main_v17 ↦{fullShare} V' main_v17) := by
    rw [(arr_whole1 3).set_eq_univ, hF 3]; rfl
  have e4 : (View.loc c.tc (cfg1.win 4).arr.view ↦[(cfg1.win 4).arr.view.set]{(dat1 V c).share 4} (dat1 V c).arrAt 4 cfg1.N : sProp 𝕄)
      = ((c.tc : Thread nD τ).loc main_v18 ↦{fullShare} V' main_v18) := by
    rw [(arr_whole1 4).set_eq_univ, hF 4]; rfl
  exact BIClass.sep_mono (Entails.of_eq e0)
    (Laws.sep_assoc.2.trans (BIClass.sep_mono ((BIClass.sep_mono (Entails.of_eq e1) (Entails.of_eq e2)).trans (pointsTo_share (PosShare.mem_left_op_right fullShare)).2)
      (BIClass.sep_mono (Entails.of_eq e3) (Entails.of_eq e4))))

end Cert.KernelIdeal.Frame

end
-- ==== Proof.KIRegion2.lean ====
/-
  The second layer's pallas_call as one region of @main: what a grid point's body leaves in the output window's buffer (the body's payload of
  the point's input blocks), and the body's obligation to the pipeline at every point.
-/
import proofs.«100143_j39058432590072_1_alg».proof.Proof.Gen.KernelIdeal.Launch
import proofs.«100143_j39058432590072_1_alg».proof.Proof.Gen.KernelIdeal.Skeleton
import proofs.«100143_j39058432590072_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the second layer, at the contents `V` the region finds in the unscoped buffers

Each input window's block at a grid point is read off its array; the body loads every input block whole and stores the
output block whole, so what a point leaves in the output window's buffer is the body's one payload of the input blocks. -/

section
variable (V : (c : Dev nD) → (b : Ref sig .tc) → Buf (Elt F) ((c : Thread nD τ).loc b))

/-- Window `w`'s block at point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the window's block at every point, whether the point fetched it or
    not (an unfetched block's index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds the window's block at every point, whether the point fetched it or
    not (an unfetched block's index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds the window's block at every point, whether the point fetched it or
    not (an unfetched block's index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds the window's block at every point, whether the point fetched it or
    not (an unfetched block's index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The output window's buffer after the body: its one whole-block store, of the payload of the loaded input blocks. -/
def out2_4 (x0 : Vec F S2000x128 .f32) (x1 : Vec F S2000x128 .f32) (x2 : Vec F S2000x128 .f32) (x3 : Vec F S128x128 .f32) : Vec F S2000x128 .f32 :=
  View.canon [⟨(Rect.unit (s := S2000x128) ![0, 0] S2000x128.size inb_S2000x128_S2000x128_0_0), k2_pay1 (View.ld x0 (Rect.unit (s := S2000x128) ![0, 0] S2000x128.size inb_S2000x128_S2000x128_0_0)) (View.ld x1 (Rect.unit (s := S2000x128) ![0, 0] S2000x128.size inb_S2000x128_S2000x128_0_0)) (View.ld x2 (Rect.unit (s := S2000x128) ![0, 0] S2000x128.size inb_S2000x128_S2000x128_0_0)) (View.ld x3 (Rect.unit (s := S128x128) ![0, 0] S128x128.size inb_S128x128_S128x128_0_0))⟩]

/-- The one store covers the buffer. -/
theorem cover2_4 (p0 : Vec F S2000x128 .f32) (y : S2000x128.Idx) :
    ∃ pc ∈ ([⟨(Rect.unit (s := S2000x128) ![0, 0] S2000x128.size inb_S2000x128_S2000x128_0_0), p0⟩] : List (View.Piece (Elt F) S2000x128 .f32)), y ∈ pc.1.set :=
  View.cover_of_tiled [⟨(Rect.unit (s := S2000x128) ![0, 0] S2000x128.size inb_S2000x128_S2000x128_0_0), p0⟩] S2000x128.size (by rfl) y

set_option maxHeartbeats 2000000 in
/-- The body on whole staging memrefs, the inputs' at contents `x0`, `x1`, … and the output's at anything, runs to a continuation
    that holds the inputs' as they were and the output's at `out2_4` of the inputs'. -/
theorem sound_kernel2 (c : Dev nD) (E : Set ℕ) (i : grid2.Coords) (arg0 : Memref sig .tc .vmem S2000x128 .f32) (harg0 : arg0.IsWhole) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S2000x128 .f32) (harg4 : arg4.IsWhole)
    (x0 : Vec F S2000x128 .f32) (x1 : Vec F S2000x128 .f32) (x2 : Vec F S2000x128 .f32) (x3 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out2_4 x0 x1 x2 x3)) -∗ K ⟨⟩))
      ⊢ wp frame (wpE (defs₀ (F := F)) Variants.none c none) E (cc2__layer_kernel i arg0 harg0 arg1 harg1 arg2 harg2 arg3 harg3 arg4 harg4) K := by
  simp only [cc2__layer_kernel_eq_skeleton]; unfold cc2__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The pipeline's proof data on core `c`: the arrays as the region finds them; after the body at point `t` each input's
    buffer at its block and the output's at the payload of the input blocks; nothing owed; every array held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so `sound_kernel2` applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end

end Cert.KernelIdeal.Frame

end
-- ==== Proof.KIRegion3.lean ====
/-
  The third layer's pallas_call as one region of @main: what a grid point's body leaves in the output window's buffer (the body's payload of
  the point's input blocks), and the body's obligation to the pipeline at every point.
-/
import proofs.«100143_j39058432590072_1_alg».proof.Proof.Gen.KernelIdeal.Launch
import proofs.«100143_j39058432590072_1_alg».proof.Proof.Gen.KernelIdeal.Skeleton
import proofs.«100143_j39058432590072_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: the third layer, at the contents `V` the region finds in the unscoped buffers

Each input window's block at a grid point is read off its array; the body loads every input block whole and stores the
output block whole, so what a point leaves in the output window's buffer is the body's one payload of the input blocks. -/

section
variable (V : (c : Dev nD) → (b : Ref sig .tc) → Buf (Elt F) ((c : Thread nD τ).loc b))

/-- Window `w`'s block at point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds the window's block at every point, whether the point fetched it or
    not (an unfetched block's index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds the window's block at every point, whether the point fetched it or
    not (an unfetched block's index has not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds the window's block at every point, whether the point fetched it or
    not (an unfetched block's index has not moved). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds the window's block at every point, whether the point fetched it or
    not (an unfetched block's index has not moved). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The output window's buffer after the body: its one whole-block store, of the payload of the loaded input blocks. -/
def out3_4 (x0 : Vec F S2000x128 .f32) (x1 : Vec F S2000x128 .f32) (x2 : Vec F S2000x128 .f32) (x3 : Vec F S128x128 .f32) : Vec F S2000x128 .f32 :=
  View.canon [⟨(Rect.unit (s := S2000x128) ![0, 0] S2000x128.size inb_S2000x128_S2000x128_0_0), k3_pay1 (View.ld x0 (Rect.unit (s := S2000x128) ![0, 0] S2000x128.size inb_S2000x128_S2000x128_0_0)) (View.ld x1 (Rect.unit (s := S2000x128) ![0, 0] S2000x128.size inb_S2000x128_S2000x128_0_0)) (View.ld x2 (Rect.unit (s := S2000x128) ![0, 0] S2000x128.size inb_S2000x128_S2000x128_0_0)) (View.ld x3 (Rect.unit (s := S128x128) ![0, 0] S128x128.size inb_S128x128_S128x128_0_0))⟩]

/-- The one store covers the buffer. -/
theorem cover3_4 (p0 : Vec F S2000x128 .f32) (y : S2000x128.Idx) :
    ∃ pc ∈ ([⟨(Rect.unit (s := S2000x128) ![0, 0] S2000x128.size inb_S2000x128_S2000x128_0_0), p0⟩] : List (View.Piece (Elt F) S2000x128 .f32)), y ∈ pc.1.set :=
  View.cover_of_tiled [⟨(Rect.unit (s := S2000x128) ![0, 0] S2000x128.size inb_S2000x128_S2000x128_0_0), p0⟩] S2000x128.size (by rfl) y

set_option maxHeartbeats 2000000 in
/-- The body on whole staging memrefs, the inputs' at contents `x0`, `x1`, … and the output's at anything, runs to a continuation
    that holds the inputs' as they were and the output's at `out3_4` of the inputs'. -/
theorem sound_kernel3 (c : Dev nD) (E : Set ℕ) (i : grid3.Coords) (arg0 : Memref sig .tc .vmem S2000x128 .f32) (harg0 : arg0.IsWhole) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S2000x128 .f32) (harg4 : arg4.IsWhole)
    (x0 : Vec F S2000x128 .f32) (x1 : Vec F S2000x128 .f32) (x2 : Vec F S2000x128 .f32) (x3 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out3_4 x0 x1 x2 x3)) -∗ K ⟨⟩))
      ⊢ wp frame (wpE (defs₀ (F := F)) Variants.none c none) E (cc3__layer_kernel i arg0 harg0 arg1 harg1 arg2 harg2 arg3 harg3 arg4 harg4) K := by
  simp only [cc3__layer_kernel_eq_skeleton]; unfold cc3__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The pipeline's proof data on core `c`: the arrays as the region finds them; after the body at point `t` each input's
    buffer at its block and the output's at the payload of the input blocks; nothing owed; every array held whole. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so `sound_kernel3` applies; the invariant and the core's
    dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end

end Cert.KernelIdeal.Frame

end
-- ==== Proof.KIRegion4.lean ====
/-
  The fourth layer's pallas_call as one region of @main: what a grid point's body leaves in the output window's buffer (the body's payload of
  the point's input blocks), and the body's obligation to the pipeline at every point.
-/
import proofs.«100143_j39058432590072_1_alg».proof.Proof.Gen.KernelIdeal.Launch
import proofs.«100143_j39058432590072_1_alg».proof.Proof.Gen.KernelIdeal.Skeleton
import proofs.«100143_j39058432590072_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the fourth layer, at the contents `V` the region finds in the unscoped buffers

Each input window's block at a grid point is read off its array; the body loads every input block whole and stores the
output block whole, so what a point leaves in the output window's buffer is the body's one payload of the input blocks. -/

section
variable (V : (c : Dev nD) → (b : Ref sig .tc) → Buf (Elt F) ((c : Thread nD τ).loc b))

/-- Window `w`'s block at point `t`, read off the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds the window's block at every point, whether the point fetched it or
    not (an unfetched block's index has not moved). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds the window's block at every point, whether the point fetched it or
    not (an unfetched block's index has not moved). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds the window's block at every point, whether the point fetched it or
    not (an unfetched block's index has not moved). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds the window's block at every point, whether the point fetched it or
    not (an unfetched block's index has not moved). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The output window's buffer after the body: its one whole-block store, of the payload of the loaded input blocks. -/
def out4_4 (x0 : Vec F S2000x128 .f32) (x1 : Vec F S2000x128 .f32) (x2 : Vec F S2000x128 .f32) (x3 : Vec F S128x128 .f32) : Vec F S2000x128 .f32 :=
  View.canon [⟨(Rect.unit (s := S2000x128) ![0, 0] S2000x128.size inb_S2000x128_S2000x128_0_0), k4_pay1 (View.ld x0 (Rect.unit (s := S2000x128) ![0, 0] S2000x128.size inb_S2000x128_S2000x128_0_0)) (View.ld x1 (Rect.unit (s := S2000x128) ![0, 0] S2000x128.size inb_S2000x128_S2000x128_0_0)) (View.ld x2 (Rect.unit (s := S2000x128) ![0, 0] S2000x128.size inb_S2000x128_S2000x128_0_0)) (View.ld x3 (Rect.unit (s := S128x128) ![0, 0] S128x128.size inb_S128x128_S128x128_0_0))⟩]

/-- The one store covers the buffer. -/
theorem cover4_4 (p0 : Vec F S2000x128 .f32) (y : S2000x128.Idx) :
    ∃ pc ∈ ([⟨(Rect.unit (s := S2000x128) ![0, 0] S2000x128.size inb_S2000x128_S2000x128_0_0), p0⟩] : List (View.Piece (Elt F) S2000x128 .f32)), y ∈ pc.1.set :=
  View.cover_of_tiled [⟨(Rect.unit (s := S2000x128) ![0, 0] S2000x128.size inb_S2000x128_S2000x128_0_0), p0⟩] S2000x128.size (by rfl) y

set_option maxHeartbeats 2000000 in
/-- The body on whole staging memrefs, the inputs' at contents `x0`, `x1`, … and the output's at anything, runs to a continuation
    that holds the inputs' as they were and the output's at `out4_4` of the inputs'. -/
theorem sound_kernel4 (c : Dev nD) (E : Set ℕ) (i : grid4.Coords) (arg0 : Memref sig .tc .vmem S2000x128 .f32) (harg0 : arg0.IsWhole) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S2000x128 .f32) (harg4 : arg4.IsWhole)
    (x0 : Vec F S2000x128 .f32) (x1 : Vec F S2000x128 .f32) (x2 : Vec F S2000x128 .f32) (x3 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out4_4 x0 x1 x2 x3)) -∗ K ⟨⟩))
      ⊢ wp frame (wpE (defs₀ (F := F)) Variants.none c none) E (cc4__layer_kernel i arg0 harg0 arg1 harg1 arg2 harg2 arg3 harg3 arg4 harg4) K := by
  simp only [cc4__layer_kernel_eq_skeleton]; unfold cc4__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-- The pipeline's proof data on core `c`: the arrays as the region finds them; after the body at point `t` each input's
    buffer at its block and the output's at the payload of the input blocks; nothing owed; every array held whole. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks, so `sound_kernel4` applies; the invariant and the core's
    dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end

end Cert.KernelIdeal.Frame

end
-- ==== Proof.KIRegion5.lean ====
/-
  The final projection and row log-softmax's pallas_call as one region of @main: what a grid point's body leaves in the output window's buffer (the body's payload of
  the point's input blocks), and the body's obligation to the pipeline at every point.
-/
import proofs.«100143_j39058432590072_1_alg».proof.Proof.Gen.KernelIdeal.Launch
import proofs.«100143_j39058432590072_1_alg».proof.Proof.Gen.KernelIdeal.Skeleton
import proofs.«100143_j39058432590072_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5: the final projection and row log-softmax, at the contents `V` the region finds in the unscoped buffers

Each input window's block at a grid point is read off its array; the body loads every input block whole and stores the
output block whole, so what a point leaves in the output window's buffer is the body's one payload of the input blocks. -/

section
variable (V : (c : Dev nD) → (b : Ref sig .tc) → Buf (Elt F) ((c : Thread nD τ).loc b))

/-- Window `w`'s block at point `t`, read off the window's array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds the window's block at every point, whether the point fetched it or
    not (an unfetched block's index has not moved). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds the window's block at every point, whether the point fetched it or
    not (an unfetched block's index has not moved). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds the window's block at every point, whether the point fetched it or
    not (an unfetched block's index has not moved). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The output window's buffer after the body: its one whole-block store, of the payload of the loaded input blocks. -/
def out5_3 (x0 : Vec F S2000x128 .f32) (x1 : Vec F S128x64 .f32) (x2 : Vec F S1x64 .f32) : Vec F S2000x64 .f32 :=
  View.canon [⟨(Rect.unit (s := S2000x64) ![0, 0] S2000x64.size inb_S2000x64_S2000x64_0_0), k5_pay1 (View.ld x0 (Rect.unit (s := S2000x128) ![0, 0] S2000x128.size inb_S2000x128_S2000x128_0_0)) (View.ld x1 (Rect.unit (s := S128x64) ![0, 0] S128x64.size inb_S128x64_S128x64_0_0)) (View.ld x2 (Rect.unit (s := S1x64) ![0, 0] S1x64.size inb_S1x64_S1x64_0_0))⟩]

/-- The one store covers the buffer. -/
theorem cover5_3 (p0 : Vec F S2000x64 .f32) (y : S2000x64.Idx) :
    ∃ pc ∈ ([⟨(Rect.unit (s := S2000x64) ![0, 0] S2000x64.size inb_S2000x64_S2000x64_0_0), p0⟩] : List (View.Piece (Elt F) S2000x64 .f32)), y ∈ pc.1.set :=
  View.cover_of_tiled [⟨(Rect.unit (s := S2000x64) ![0, 0] S2000x64.size inb_S2000x64_S2000x64_0_0), p0⟩] S2000x64.size (by rfl) y

set_option maxHeartbeats 2000000 in
/-- The body on whole staging memrefs, the inputs' at contents `x0`, `x1`, … and the output's at anything, runs to a continuation
    that holds the inputs' as they were and the output's at `out5_3` of the inputs'. -/
theorem sound_kernel5 (c : Dev nD) (E : Set ℕ) (i : grid5.Coords) (arg0 : Memref sig .tc .vmem S2000x128 .f32) (harg0 : arg0.IsWhole) (arg1 : Memref sig .tc .vmem S128x64 .f32) (harg1 : arg1.IsWhole) (arg2 : Memref sig .tc .vmem S1x64 .f32) (harg2 : arg2.IsWhole) (arg3 : Memref sig .tc .vmem S2000x64 .f32) (harg3 : arg3.IsWhole)
    (x0 : Vec F S2000x128 .f32) (x1 : Vec F S128x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out5_3 x0 x1 x2)) -∗ K ⟨⟩))
      ⊢ wp frame (wpE (defs₀ (F := F)) Variants.none c none) E (cc5__final_kernel i arg0 harg0 arg1 harg1 arg2 harg2 arg3 harg3) K := by
  simp only [cc5__final_kernel_eq_skeleton]; unfold cc5__final_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The pipeline's proof data on core `c`: the arrays as the region finds them; after the body at point `t` each input's
    buffer at its block and the output's at the payload of the input blocks; nothing owed; every array held whole. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so `sound_kernel5` applies; the invariant and the core's
    dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end

end Cert.KernelIdeal.Frame

end
-- ==== Proof.KIRunCond.lean ====
/-
  The conditional run of the idealized kernel program: the conditional frame's statement with the result buffer's final
  contents added to its post, read off the last valuation exactly as the arguments are.
-/
import proofs.«100143_j39058432590072_1_alg».proof.Proof.Gen.KernelIdeal.Regions

set_option maxRecDepth 1060

noncomputable section

namespace Cert.KernelIdeal.Frame

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

set_option backward.isDefEq.respectTransparency.types false in
/-- The conditional run: under the hypotheses of the conditional frame (one segment record per region, entered from and left at
    this program's thread states), every weakly fair execution of @main terminates in a memory that holds the result buffer at
    the last valuation's contents — what the last region leaves in it — and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 6) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 7 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE6 : ∀ c : Dev nD, E 6 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V10 m outs c) ∗ E 5 c) ⊢ R5.pre c)
    (hpost5 : ∀ c : Dev nD, R5.post c ⊢ iprop(StableHlo.held (c : Thread nD τ) (Pipeline.ucRefs τ sig) (V11 m outs c) ∗ E 6 c)) :
    θ_run defs (onTc (τ := τ) (main (F := F))) ⟨m, fun _ => 0, ρ⟩ (fun r => ∀ c : Dev nD,
      r.2.mem ((c.tc : Thread nD τ).loc main_v67) = V11 m outs c main_v67
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m outs 𝒱₀ L lv E ι pdats R0 R1 R2 R3 R4 R5)
    (fun c Q => by
      rewrite [main_chain c, Seg.run_eq_chain,
        show (segs m outs 𝒱₀ L lv E ι pdats R0 R1 R2 R3 R4 R5 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          Prog.lift (.customCall (Pipeline.entry 5) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V11 m outs c))
    (hch := fun c => ⟨.rfl, hpre0 c, hpost0 c, hpre1 c, hpost1 c, hpre2 c, hpost2 c, hpre3 c, hpost3 c, hpre4 c, (hpost4 c).trans (hpre5 c), (hpost5 c).trans (sep_mono .rfl (hE6 c))⟩)
    (hinit := ?_) (QY := fun c s => s.mem ((c.tc : Thread nD τ).loc main_v67) = V11 m outs c main_v67 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V11 m outs c) s') $$ [Hh HSI]
    · isplitl [Hh] <;> iassumption
    icases Hr with ⟨%h, HSI⟩
    imodintro
    isplitr
    · ipureintro
      exact ⟨h (Proc.devRef .tc main_v67) (Finset.mem_filter.mpr ⟨StableHlo.devRef_mem_tcRefs main_v67, by decide⟩),
        (h (Proc.devRef .tc main_arg0) (Finset.mem_filter.mpr ⟨StableHlo.devRef_mem_tcRefs main_arg0, by decide⟩)).trans (V11_main_arg0 m outs c),
        (h (Proc.devRef .tc main_arg1) (Finset.mem_filter.mpr ⟨StableHlo.devRef_mem_tcRefs main_arg1, by decide⟩)).trans (V11_main_arg1 m outs c),
        (h (Proc.devRef .tc main_arg2) (Finset.mem_filter.mpr ⟨StableHlo.devRef_mem_tcRefs main_arg2, by decide⟩)).trans (V11_main_arg2 m outs c),
        (h (Proc.devRef .tc main_arg3) (Finset.mem_filter.mpr ⟨StableHlo.devRef_mem_tcRefs main_arg3, by decide⟩)).trans (V11_main_arg3 m outs c),
        (h (Proc.devRef .tc main_arg4) (Finset.mem_filter.mpr ⟨StableHlo.devRef_mem_tcRefs main_arg4, by decide⟩)).trans (V11_main_arg4 m outs c),
        (h (Proc.devRef .tc main_arg5) (Finset.mem_filter.mpr ⟨StableHlo.devRef_mem_tcRefs main_arg5, by decide⟩)).trans (V11_main_arg5 m outs c),
        (h (Proc.devRef .tc main_arg6) (Finset.mem_filter.mpr ⟨StableHlo.devRef_mem_tcRefs main_arg6, by decide⟩)).trans (V11_main_arg6 m outs c),
        (h (Proc.devRef .tc main_arg7) (Finset.mem_filter.mpr ⟨StableHlo.devRef_mem_tcRefs main_arg7, by decide⟩)).trans (V11_main_arg7 m outs c),
        (h (Proc.devRef .tc main_arg8) (Finset.mem_filter.mpr ⟨StableHlo.devRef_mem_tcRefs main_arg8, by decide⟩)).trans (V11_main_arg8 m outs c)⟩
    · iexact HSI

end Cert.KernelIdeal.Frame

end
-- ==== Proof.KIRun.lean ====
/-
  The idealized kernel program's run from the launch to the return. Between two items of @main every unscoped buffer is
  held at known contents: the launch memory, then each host stretch applied, then, after a region, the region's output array
  at what its pipeline leaves there (its write-backs folded over the grid) and every other buffer as before. Each region is
  entered from and left at these contents; the run ends with the result buffer at the last region's output and the arguments as
  launched.
-/
import proofs.«100143_j39058432590072_1_alg».proof.Proof.Gen.KernelIdeal.Launch
import proofs.«100143_j39058432590072_1_alg».proof.Proof.Gen.KernelIdeal.Skeleton
import proofs.«100143_j39058432590072_1_alg».proof.Proof.Gen.KernelIdeal.Points
import proofs.«100143_j39058432590072_1_alg».proof.Proof.KIRegion0
import proofs.«100143_j39058432590072_1_alg».proof.Proof.KIRegion1
import proofs.«100143_j39058432590072_1_alg».proof.Proof.KIRegion1Arrays
import proofs.«100143_j39058432590072_1_alg».proof.Proof.KIRegion2
import proofs.«100143_j39058432590072_1_alg».proof.Proof.KIRegion3
import proofs.«100143_j39058432590072_1_alg».proof.Proof.KIRegion4
import proofs.«100143_j39058432590072_1_alg».proof.Proof.KIRegion5
import proofs.«100143_j39058432590072_1_alg».proof.Proof.KIRunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! ## What a region leaves: its arrays at the exit contents, the rest untouched -/

set_option maxHeartbeats 1000000 in
/-- Whatever the unscoped buffers hold when region 0 is entered (`Y`): at its exit each of its arrays holds what the pipeline
    leaves in it — an input's array what it held at entry, the output's array its write-backs folded — when the contents after
    the region are the contents before it with the output's buffer replaced. -/
theorem arrays_exit0 (Y : Dev nD → Valuation τ sig (Elt F)) (c : Dev nD) :
    ∀ w : Fin cfg0.W, (dat0 (fun c b => Y c b) c).arrAt w cfg0.N
      = Function.update (Y c) (Proc.devRef .tc main_v2) ((dat0 (fun c b => Y c b) c).arrAt 3 cfg0.N) (Proc.devRef .tc (Pipeline.arrRef spec0 w))
  | ⟨0, _⟩ => ((dat0 (fun c b => Y c b) c).arrAt_in 0 rfl _).trans ((A_eq0 (fun c b => Y c b) c 0).trans
      (Function.update_of_ne (StableHlo.devRef_ne_of_ne (by decide) : (Proc.devRef .tc (Pipeline.arrRef spec0 0) : DevRef τ sig) ≠ Proc.devRef .tc main_v2) _ _).symm)
  | ⟨1, _⟩ => ((dat0 (fun c b => Y c b) c).arrAt_in 1 rfl _).trans ((A_eq0 (fun c b => Y c b) c 1).trans
      (Function.update_of_ne (StableHlo.devRef_ne_of_ne (by decide) : (Proc.devRef .tc (Pipeline.arrRef spec0 1) : DevRef τ sig) ≠ Proc.devRef .tc main_v2) _ _).symm)
  | ⟨2, _⟩ => ((dat0 (fun c b => Y c b) c).arrAt_in 2 rfl _).trans ((A_eq0 (fun c b => Y c b) c 2).trans
      (Function.update_of_ne (StableHlo.devRef_ne_of_ne (by decide) : (Proc.devRef .tc (Pipeline.arrRef spec0 2) : DevRef τ sig) ≠ Proc.devRef .tc main_v2) _ _).symm)
  | ⟨3, _⟩ => (Function.update_self (f := Y c) (Proc.devRef .tc main_v2 : DevRef τ sig) _).symm

/-- and every buffer that is no array of region 0 holds what it held. -/
theorem rest_exit0 (Y : Dev nD → Valuation τ sig (Elt F)) (c : Dev nD) (a : Buf (Elt F) ((c : Thread nD τ).loc main_v2)) :
    ∀ b, b ∉ Finset.univ.image (Pipeline.arrRef spec0) → Function.update (Y c) (Proc.devRef .tc main_v2) a (Proc.devRef .tc b) = Y c (Proc.devRef .tc b) :=
  fun b hb => Function.update_of_ne (StableHlo.devRef_ne_of_ne (fun e => hb (Finset.mem_image.mpr ⟨3, Finset.mem_univ _, e.symm⟩))) _ _

set_option maxHeartbeats 1000000 in
/-- Whatever the unscoped buffers hold when region 1 is entered (`Y`): at its exit each of its arrays holds what the pipeline
    leaves in it — an input's array what it held at entry, the output's array its write-backs folded — when the contents after
    the region are the contents before it with the output's buffer replaced. -/
theorem arrays_exit1 (Y : Dev nD → Valuation τ sig (Elt F)) (c : Dev nD) :
    ∀ w : Fin cfg1.W, (dat1 (fun c b => Y c b) c).arrAt w cfg1.N
      = Function.update (Y c) (Proc.devRef .tc main_v18) ((dat1 (fun c b => Y c b) c).arrAt 4 cfg1.N) (Proc.devRef .tc (Pipeline.arrRef spec1 w))
  | ⟨0, _⟩ => ((dat1 (fun c b => Y c b) c).arrAt_in 0 rfl _).trans ((A_eq1 (fun c b => Y c b) c 0).trans
      (Function.update_of_ne (StableHlo.devRef_ne_of_ne (by decide) : (Proc.devRef .tc (Pipeline.arrRef spec1 0) : DevRef τ sig) ≠ Proc.devRef .tc main_v18) _ _).symm)
  | ⟨1, _⟩ => ((dat1 (fun c b => Y c b) c).arrAt_in 1 rfl _).trans ((A_eq1 (fun c b => Y c b) c 1).trans
      (Function.update_of_ne (StableHlo.devRef_ne_of_ne (by decide) : (Proc.devRef .tc (Pipeline.arrRef spec1 1) : DevRef τ sig) ≠ Proc.devRef .tc main_v18) _ _).symm)
  | ⟨2, _⟩ => ((dat1 (fun c b => Y c b) c).arrAt_in 2 rfl _).trans ((A_eq1 (fun c b => Y c b) c 2).trans
      (Function.update_of_ne (StableHlo.devRef_ne_of_ne (by decide) : (Proc.devRef .tc (Pipeline.arrRef spec1 2) : DevRef τ sig) ≠ Proc.devRef .tc main_v18) _ _).symm)
  | ⟨3, _⟩ => ((dat1 (fun c b => Y c b) c).arrAt_in 3 rfl _).trans ((A_eq1 (fun c b => Y c b) c 3).trans
      (Function.update_of_ne (StableHlo.devRef_ne_of_ne (by decide) : (Proc.devRef .tc (Pipeline.arrRef spec1 3) : DevRef τ sig) ≠ Proc.devRef .tc main_v18) _ _).symm)
  | ⟨4, _⟩ => (Function.update_self (f := Y c) (Proc.devRef .tc main_v18 : DevRef τ sig) _).symm

/-- and every buffer that is no array of region 1 holds what it held. -/
theorem rest_exit1 (Y : Dev nD → Valuation τ sig (Elt F)) (c : Dev nD) (a : Buf (Elt F) ((c : Thread nD τ).loc main_v18)) :
    ∀ b, b ∉ Finset.univ.image (Pipeline.arrRef spec1) → Function.update (Y c) (Proc.devRef .tc main_v18) a (Proc.devRef .tc b) = Y c (Proc.devRef .tc b) :=
  fun b hb => Function.update_of_ne (StableHlo.devRef_ne_of_ne (fun e => hb (Finset.mem_image.mpr ⟨4, Finset.mem_univ _, e.symm⟩))) _ _

set_option maxHeartbeats 1000000 in
/-- Whatever the unscoped buffers hold when region 2 is entered (`Y`): at its exit each of its arrays holds what the pipeline
    leaves in it — an input's array what it held at entry, the output's array its write-backs folded — when the contents after
    the region are the contents before it with the output's buffer replaced. -/
theorem arrays_exit2 (Y : Dev nD → Valuation τ sig (Elt F)) (c : Dev nD) :
    ∀ w : Fin cfg2.W, (dat2 (fun c b => Y c b) c).arrAt w cfg2.N
      = Function.update (Y c) (Proc.devRef .tc main_v34) ((dat2 (fun c b => Y c b) c).arrAt 4 cfg2.N) (Proc.devRef .tc (Pipeline.arrRef spec2 w))
  | ⟨0, _⟩ => ((dat2 (fun c b => Y c b) c).arrAt_in 0 rfl _).trans ((A_eq2 (fun c b => Y c b) c 0).trans
      (Function.update_of_ne (StableHlo.devRef_ne_of_ne (by decide) : (Proc.devRef .tc (Pipeline.arrRef spec2 0) : DevRef τ sig) ≠ Proc.devRef .tc main_v34) _ _).symm)
  | ⟨1, _⟩ => ((dat2 (fun c b => Y c b) c).arrAt_in 1 rfl _).trans ((A_eq2 (fun c b => Y c b) c 1).trans
      (Function.update_of_ne (StableHlo.devRef_ne_of_ne (by decide) : (Proc.devRef .tc (Pipeline.arrRef spec2 1) : DevRef τ sig) ≠ Proc.devRef .tc main_v34) _ _).symm)
  | ⟨2, _⟩ => ((dat2 (fun c b => Y c b) c).arrAt_in 2 rfl _).trans ((A_eq2 (fun c b => Y c b) c 2).trans
      (Function.update_of_ne (StableHlo.devRef_ne_of_ne (by decide) : (Proc.devRef .tc (Pipeline.arrRef spec2 2) : DevRef τ sig) ≠ Proc.devRef .tc main_v34) _ _).symm)
  | ⟨3, _⟩ => ((dat2 (fun c b => Y c b) c).arrAt_in 3 rfl _).trans ((A_eq2 (fun c b => Y c b) c 3).trans
      (Function.update_of_ne (StableHlo.devRef_ne_of_ne (by decide) : (Proc.devRef .tc (Pipeline.arrRef spec2 3) : DevRef τ sig) ≠ Proc.devRef .tc main_v34) _ _).symm)
  | ⟨4, _⟩ => (Function.update_self (f := Y c) (Proc.devRef .tc main_v34 : DevRef τ sig) _).symm

/-- and every buffer that is no array of region 2 holds what it held. -/
theorem rest_exit2 (Y : Dev nD → Valuation τ sig (Elt F)) (c : Dev nD) (a : Buf (Elt F) ((c : Thread nD τ).loc main_v34)) :
    ∀ b, b ∉ Finset.univ.image (Pipeline.arrRef spec2) → Function.update (Y c) (Proc.devRef .tc main_v34) a (Proc.devRef .tc b) = Y c (Proc.devRef .tc b) :=
  fun b hb => Function.update_of_ne (StableHlo.devRef_ne_of_ne (fun e => hb (Finset.mem_image.mpr ⟨4, Finset.mem_univ _, e.symm⟩))) _ _

set_option maxHeartbeats 1000000 in
/-- Whatever the unscoped buffers hold when region 3 is entered (`Y`): at its exit each of its arrays holds what the pipeline
    leaves in it — an input's array what it held at entry, the output's array its write-backs folded — when the contents after
    the region are the contents before it with the output's buffer replaced. -/
theorem arrays_exit3 (Y : Dev nD → Valuation τ sig (Elt F)) (c : Dev nD) :
    ∀ w : Fin cfg3.W, (dat3 (fun c b => Y c b) c).arrAt w cfg3.N
      = Function.update (Y c) (Proc.devRef .tc main_v50) ((dat3 (fun c b => Y c b) c).arrAt 4 cfg3.N) (Proc.devRef .tc (Pipeline.arrRef spec3 w))
  | ⟨0, _⟩ => ((dat3 (fun c b => Y c b) c).arrAt_in 0 rfl _).trans ((A_eq3 (fun c b => Y c b) c 0).trans
      (Function.update_of_ne (StableHlo.devRef_ne_of_ne (by decide) : (Proc.devRef .tc (Pipeline.arrRef spec3 0) : DevRef τ sig) ≠ Proc.devRef .tc main_v50) _ _).symm)
  | ⟨1, _⟩ => ((dat3 (fun c b => Y c b) c).arrAt_in 1 rfl _).trans ((A_eq3 (fun c b => Y c b) c 1).trans
      (Function.update_of_ne (StableHlo.devRef_ne_of_ne (by decide) : (Proc.devRef .tc (Pipeline.arrRef spec3 1) : DevRef τ sig) ≠ Proc.devRef .tc main_v50) _ _).symm)
  | ⟨2, _⟩ => ((dat3 (fun c b => Y c b) c).arrAt_in 2 rfl _).trans ((A_eq3 (fun c b => Y c b) c 2).trans
      (Function.update_of_ne (StableHlo.devRef_ne_of_ne (by decide) : (Proc.devRef .tc (Pipeline.arrRef spec3 2) : DevRef τ sig) ≠ Proc.devRef .tc main_v50) _ _).symm)
  | ⟨3, _⟩ => ((dat3 (fun c b => Y c b) c).arrAt_in 3 rfl _).trans ((A_eq3 (fun c b => Y c b) c 3).trans
      (Function.update_of_ne (StableHlo.devRef_ne_of_ne (by decide) : (Proc.devRef .tc (Pipeline.arrRef spec3 3) : DevRef τ sig) ≠ Proc.devRef .tc main_v50) _ _).symm)
  | ⟨4, _⟩ => (Function.update_self (f := Y c) (Proc.devRef .tc main_v50 : DevRef τ sig) _).symm

/-- and every buffer that is no array of region 3 holds what it held. -/
theorem rest_exit3 (Y : Dev nD → Valuation τ sig (Elt F)) (c : Dev nD) (a : Buf (Elt F) ((c : Thread nD τ).loc main_v50)) :
    ∀ b, b ∉ Finset.univ.image (Pipeline.arrRef spec3) → Function.update (Y c) (Proc.devRef .tc main_v50) a (Proc.devRef .tc b) = Y c (Proc.devRef .tc b) :=
  fun b hb => Function.update_of_ne (StableHlo.devRef_ne_of_ne (fun e => hb (Finset.mem_image.mpr ⟨4, Finset.mem_univ _, e.symm⟩))) _ _

set_option maxHeartbeats 1000000 in
/-- Whatever the unscoped buffers hold when region 4 is entered (`Y`): at its exit each of its arrays holds what the pipeline
    leaves in it — an input's array what it held at entry, the output's array its write-backs folded — when the contents after
    the region are the contents before it with the output's buffer replaced. -/
theorem arrays_exit4 (Y : Dev nD → Valuation τ sig (Elt F)) (c : Dev nD) :
    ∀ w : Fin cfg4.W, (dat4 (fun c b => Y c b) c).arrAt w cfg4.N
      = Function.update (Y c) (Proc.devRef .tc main_v66) ((dat4 (fun c b => Y c b) c).arrAt 4 cfg4.N) (Proc.devRef .tc (Pipeline.arrRef spec4 w))
  | ⟨0, _⟩ => ((dat4 (fun c b => Y c b) c).arrAt_in 0 rfl _).trans ((A_eq4 (fun c b => Y c b) c 0).trans
      (Function.update_of_ne (StableHlo.devRef_ne_of_ne (by decide) : (Proc.devRef .tc (Pipeline.arrRef spec4 0) : DevRef τ sig) ≠ Proc.devRef .tc main_v66) _ _).symm)
  | ⟨1, _⟩ => ((dat4 (fun c b => Y c b) c).arrAt_in 1 rfl _).trans ((A_eq4 (fun c b => Y c b) c 1).trans
      (Function.update_of_ne (StableHlo.devRef_ne_of_ne (by decide) : (Proc.devRef .tc (Pipeline.arrRef spec4 1) : DevRef τ sig) ≠ Proc.devRef .tc main_v66) _ _).symm)
  | ⟨2, _⟩ => ((dat4 (fun c b => Y c b) c).arrAt_in 2 rfl _).trans ((A_eq4 (fun c b => Y c b) c 2).trans
      (Function.update_of_ne (StableHlo.devRef_ne_of_ne (by decide) : (Proc.devRef .tc (Pipeline.arrRef spec4 2) : DevRef τ sig) ≠ Proc.devRef .tc main_v66) _ _).symm)
  | ⟨3, _⟩ => ((dat4 (fun c b => Y c b) c).arrAt_in 3 rfl _).trans ((A_eq4 (fun c b => Y c b) c 3).trans
      (Function.update_of_ne (StableHlo.devRef_ne_of_ne (by decide) : (Proc.devRef .tc (Pipeline.arrRef spec4 3) : DevRef τ sig) ≠ Proc.devRef .tc main_v66) _ _).symm)
  | ⟨4, _⟩ => (Function.update_self (f := Y c) (Proc.devRef .tc main_v66 : DevRef τ sig) _).symm

/-- and every buffer that is no array of region 4 holds what it held. -/
theorem rest_exit4 (Y : Dev nD → Valuation τ sig (Elt F)) (c : Dev nD) (a : Buf (Elt F) ((c : Thread nD τ).loc main_v66)) :
    ∀ b, b ∉ Finset.univ.image (Pipeline.arrRef spec4) → Function.update (Y c) (Proc.devRef .tc main_v66) a (Proc.devRef .tc b) = Y c (Proc.devRef .tc b) :=
  fun b hb => Function.update_of_ne (StableHlo.devRef_ne_of_ne (fun e => hb (Finset.mem_image.mpr ⟨4, Finset.mem_univ _, e.symm⟩))) _ _

set_option maxHeartbeats 1000000 in
/-- Whatever the unscoped buffers hold when region 5 is entered (`Y`): at its exit each of its arrays holds what the pipeline
    leaves in it — an input's array what it held at entry, the output's array its write-backs folded — when the contents after
    the region are the contents before it with the output's buffer replaced. -/
theorem arrays_exit5 (Y : Dev nD → Valuation τ sig (Elt F)) (c : Dev nD) :
    ∀ w : Fin cfg5.W, (dat5 (fun c b => Y c b) c).arrAt w cfg5.N
      = Function.update (Y c) (Proc.devRef .tc main_v67) ((dat5 (fun c b => Y c b) c).arrAt 3 cfg5.N) (Proc.devRef .tc (Pipeline.arrRef spec5 w))
  | ⟨0, _⟩ => ((dat5 (fun c b => Y c b) c).arrAt_in 0 rfl _).trans ((A_eq5 (fun c b => Y c b) c 0).trans
      (Function.update_of_ne (StableHlo.devRef_ne_of_ne (by decide) : (Proc.devRef .tc (Pipeline.arrRef spec5 0) : DevRef τ sig) ≠ Proc.devRef .tc main_v67) _ _).symm)
  | ⟨1, _⟩ => ((dat5 (fun c b => Y c b) c).arrAt_in 1 rfl _).trans ((A_eq5 (fun c b => Y c b) c 1).trans
      (Function.update_of_ne (StableHlo.devRef_ne_of_ne (by decide) : (Proc.devRef .tc (Pipeline.arrRef spec5 1) : DevRef τ sig) ≠ Proc.devRef .tc main_v67) _ _).symm)
  | ⟨2, _⟩ => ((dat5 (fun c b => Y c b) c).arrAt_in 2 rfl _).trans ((A_eq5 (fun c b => Y c b) c 2).trans
      (Function.update_of_ne (StableHlo.devRef_ne_of_ne (by decide) : (Proc.devRef .tc (Pipeline.arrRef spec5 2) : DevRef τ sig) ≠ Proc.devRef .tc main_v67) _ _).symm)
  | ⟨3, _⟩ => (Function.update_self (f := Y c) (Proc.devRef .tc main_v67 : DevRef τ sig) _).symm

/-- and every buffer that is no array of region 5 holds what it held. -/
theorem rest_exit5 (Y : Dev nD → Valuation τ sig (Elt F)) (c : Dev nD) (a : Buf (Elt F) ((c : Thread nD τ).loc main_v67)) :
    ∀ b, b ∉ Finset.univ.image (Pipeline.arrRef spec5) → Function.update (Y c) (Proc.devRef .tc main_v67) a (Proc.devRef .tc b) = Y c (Proc.devRef .tc b) :=
  fun b hb => Function.update_of_ne (StableHlo.devRef_ne_of_ne (fun e => hb (Finset.mem_image.mpr ⟨3, Finset.mem_univ _, e.symm⟩))) _ _

variable (m : (ℓ : Loc nD τ sig) → Buf (Elt F) ℓ)

/-! ## The unscoped buffers' contents between items -/

/-- After the first host stretch (the two bias vectors reshaped to rows). -/
abbrev X1 (c : Dev nD) : Valuation τ sig (Elt F) := V1 m c
abbrev T1 (c : Dev nD) (b : Ref sig .tc) : Buf (Elt F) ((c : Thread nD τ).loc b) := X1 m c b
/-- After the input projection: the initial features in their buffer. -/
def X2 (c : Dev nD) : Valuation τ sig (Elt F) :=
  Function.update (X1 m c) (Proc.devRef .tc main_v2) ((dat0 (T1 m) c).arrAt 3 cfg0.N)
abbrev T2 (c : Dev nD) (b : Ref sig .tc) : Buf (Elt F) ((c : Thread nD τ).loc b) := X2 m c b
/-- After the second host stretch: the first aggregation (gather by source, edge weight, scatter-add by destination) and the first
    layer's weight cut out of the stack. -/
def X3 (c : Dev nD) : Valuation τ sig (Elt F) := StableHlo.after hostOps1 (X2 m c)
abbrev T3 (c : Dev nD) (b : Ref sig .tc) : Buf (Elt F) ((c : Thread nD τ).loc b) := X3 m c b
/-- After the first layer. -/
def X4 (c : Dev nD) : Valuation τ sig (Elt F) :=
  Function.update (X3 m c) (Proc.devRef .tc main_v18) ((dat1 (T3 m) c).arrAt 4 cfg1.N)
abbrev T4 (c : Dev nD) (b : Ref sig .tc) : Buf (Elt F) ((c : Thread nD τ).loc b) := X4 m c b
/-- After the third host stretch: the second aggregation and the second layer's weight. -/
def X5 (c : Dev nD) : Valuation τ sig (Elt F) := StableHlo.after hostOps2 (X4 m c)
abbrev T5 (c : Dev nD) (b : Ref sig .tc) : Buf (Elt F) ((c : Thread nD τ).loc b) := X5 m c b
/-- After the second layer. -/
def X6 (c : Dev nD) : Valuation τ sig (Elt F) :=
  Function.update (X5 m c) (Proc.devRef .tc main_v34) ((dat2 (T5 m) c).arrAt 4 cfg2.N)
abbrev T6 (c : Dev nD) (b : Ref sig .tc) : Buf (Elt F) ((c : Thread nD τ).loc b) := X6 m c b
/-- After the fourth host stretch: the third aggregation and the third layer's weight. -/
def X7 (c : Dev nD) : Valuation τ sig (Elt F) := StableHlo.after hostOps3 (X6 m c)
abbrev T7 (c : Dev nD) (b : Ref sig .tc) : Buf (Elt F) ((c : Thread nD τ).loc b) := X7 m c b
/-- After the third layer. -/
def X8 (c : Dev nD) : Valuation τ sig (Elt F) :=
  Function.update (X7 m c) (Proc.devRef .tc main_v50) ((dat3 (T7 m) c).arrAt 4 cfg3.N)
abbrev T8 (c : Dev nD) (b : Ref sig .tc) : Buf (Elt F) ((c : Thread nD τ).loc b) := X8 m c b
/-- After the fifth host stretch: the fourth aggregation and the fourth layer's weight. -/
def X9 (c : Dev nD) : Valuation τ sig (Elt F) := StableHlo.after hostOps4 (X8 m c)
abbrev T9 (c : Dev nD) (b : Ref sig .tc) : Buf (Elt F) ((c : Thread nD τ).loc b) := X9 m c b
/-- After the fourth layer. -/
def X10 (c : Dev nD) : Valuation τ sig (Elt F) :=
  Function.update (X9 m c) (Proc.devRef .tc main_v66) ((dat4 (T9 m) c).arrAt 4 cfg4.N)
abbrev T10 (c : Dev nD) (b : Ref sig .tc) : Buf (Elt F) ((c : Thread nD τ).loc b) := X10 m c b
/-- After the final projection: the result in its buffer. -/
def X11 (c : Dev nD) : Valuation τ sig (Elt F) :=
  Function.update (X10 m c) (Proc.devRef .tc main_v67) ((dat5 (T10 m) c).arrAt 3 cfg5.N)
abbrev T11 (c : Dev nD) (b : Ref sig .tc) : Buf (Elt F) ((c : Thread nD τ).loc b) := X11 m c b

/-- What each region leaves in the buffer it may change, as the conditional run's unknowns. -/
def outsOf : Outs (F := F) := fun J r c => match J with
  | 2 => X2 m c r
  | 4 => X4 m c r
  | 6 => X6 m c r
  | 8 => X8 m c r
  | 10 => X10 m c r
  | 11 => X11 m c r
  | _ => V0 m c r

theorem V2_eq (c : Dev nD) : V2 m (outsOf m) c = X2 m c := by
  show Function.update (V1 m c) (Proc.devRef .tc main_v2) (X2 m c (Proc.devRef .tc main_v2)) = X2 m c
  unfold X2; rw [Function.update_self]
theorem V3_eq (c : Dev nD) : V3 m (outsOf m) c = X3 m c := by
  show StableHlo.after hostOps1 (V2 m (outsOf m) c) = _; rw [V2_eq]; rfl
theorem V4_eq (c : Dev nD) : V4 m (outsOf m) c = X4 m c := by
  show Function.update (V3 m (outsOf m) c) (Proc.devRef .tc main_v18) (X4 m c (Proc.devRef .tc main_v18)) = X4 m c
  rw [V3_eq]; unfold X4; rw [Function.update_self]
theorem V5_eq (c : Dev nD) : V5 m (outsOf m) c = X5 m c := by
  show StableHlo.after hostOps2 (V4 m (outsOf m) c) = _; rw [V4_eq]; rfl
theorem V6_eq (c : Dev nD) : V6 m (outsOf m) c = X6 m c := by
  show Function.update (V5 m (outsOf m) c) (Proc.devRef .tc main_v34) (X6 m c (Proc.devRef .tc main_v34)) = X6 m c
  rw [V5_eq]; unfold X6; rw [Function.update_self]
theorem V7_eq (c : Dev nD) : V7 m (outsOf m) c = X7 m c := by
  show StableHlo.after hostOps3 (V6 m (outsOf m) c) = _; rw [V6_eq]; rfl
theorem V8_eq (c : Dev nD) : V8 m (outsOf m) c = X8 m c := by
  show Function.update (V7 m (outsOf m) c) (Proc.devRef .tc main_v50) (X8 m c (Proc.devRef .tc main_v50)) = X8 m c
  rw [V7_eq]; unfold X8; rw [Function.update_self]
theorem V9_eq (c : Dev nD) : V9 m (outsOf m) c = X9 m c := by
  show StableHlo.after hostOps4 (V8 m (outsOf m) c) = _; rw [V8_eq]; rfl
theorem V10_eq (c : Dev nD) : V10 m (outsOf m) c = X10 m c := by
  show Function.update (V9 m (outsOf m) c) (Proc.devRef .tc main_v66) (X10 m c (Proc.devRef .tc main_v66)) = X10 m c
  rw [V9_eq]; unfold X10; rw [Function.update_self]
theorem V11_eq (c : Dev nD) : V11 m (outsOf m) c = X11 m c := by
  show Function.update (V10 m (outsOf m) c) (Proc.devRef .tc main_v67) (X11 m c (Proc.devRef .tc main_v67)) = X11 m c
  rw [V10_eq]; unfold X11; rw [Function.update_self]

/-! ## What a region leaves, at this run's contents -/

theorem hF0 (c : Dev nD) : ∀ w : Fin cfg0.W, (dat0 (T1 m) c).arrAt w cfg0.N = T2 m c (Pipeline.arrRef spec0 w) :=
  arrays_exit0 (X1 m) c
theorem hrest0 (c : Dev nD) : ∀ b, b ∉ Finset.univ.image (Pipeline.arrRef spec0) → T2 m c b = T1 m c b :=
  rest_exit0 (X1 m) c _

theorem hF1 (c : Dev nD) : ∀ w : Fin cfg1.W, (dat1 (T3 m) c).arrAt w cfg1.N = T4 m c (Pipeline.arrRef spec1 w) :=
  arrays_exit1 (X3 m) c
theorem hrest1 (c : Dev nD) : ∀ b, b ∉ Finset.univ.image (Pipeline.arrRef spec1) → T4 m c b = T3 m c b :=
  rest_exit1 (X3 m) c _

theorem hF2 (c : Dev nD) : ∀ w : Fin cfg2.W, (dat2 (T5 m) c).arrAt w cfg2.N = T6 m c (Pipeline.arrRef spec2 w) :=
  arrays_exit2 (X5 m) c
theorem hrest2 (c : Dev nD) : ∀ b, b ∉ Finset.univ.image (Pipeline.arrRef spec2) → T6 m c b = T5 m c b :=
  rest_exit2 (X5 m) c _

theorem hF3 (c : Dev nD) : ∀ w : Fin cfg3.W, (dat3 (T7 m) c).arrAt w cfg3.N = T8 m c (Pipeline.arrRef spec3 w) :=
  arrays_exit3 (X7 m) c
theorem hrest3 (c : Dev nD) : ∀ b, b ∉ Finset.univ.image (Pipeline.arrRef spec3) → T8 m c b = T7 m c b :=
  rest_exit3 (X7 m) c _

theorem hF4 (c : Dev nD) : ∀ w : Fin cfg4.W, (dat4 (T9 m) c).arrAt w cfg4.N = T10 m c (Pipeline.arrRef spec4 w) :=
  arrays_exit4 (X9 m) c
theorem hrest4 (c : Dev nD) : ∀ b, b ∉ Finset.univ.image (Pipeline.arrRef spec4) → T10 m c b = T9 m c b :=
  rest_exit4 (X9 m) c _

theorem hF5 (c : Dev nD) : ∀ w : Fin cfg5.W, (dat5 (T10 m) c).arrAt w cfg5.N = T11 m c (Pipeline.arrRef spec5 w) :=
  arrays_exit5 (X10 m) c
theorem hrest5 (c : Dev nD) : ∀ b, b ∉ Finset.univ.image (Pipeline.arrRef spec5) → T11 m c b = T10 m c b :=
  rest_exit5 (X10 m) c _

/-! ## The proof data family and the thread state -/

/-- Every pipeline's proof data, each at its region's entry contents. -/
def pdats : (p : Fin 6) → (c : Dev nD) → Dat τ (Elt F) Unit ℕ (UR sig nD τ) ℕ (cfgs p) c
  | ⟨0, _⟩ => fun c => dat0 (T1 m) c
  | ⟨1, _⟩ => fun c => dat1 (T3 m) c
  | ⟨2, _⟩ => fun c => dat2 (T5 m) c
  | ⟨3, _⟩ => fun c => dat3 (T7 m) c
  | ⟨4, _⟩ => fun c => dat4 (T9 m) c
  | ⟨5, _⟩ => fun c => dat5 (T10 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-! ## Region 1's arrays: one array behind two windows -/

/-- ENTRY. The first layer reads the initial features through two windows (as its initial and as its current features), so
    the buffer behind them, held whole, is dealt to the two windows half and half; the other arrays are distinct buffers held
    whole. -/
theorem arrays1_in (c : Dev nD) :
    (unscopedBufs (Ix := Unit) (Name := ℕ) (U := UR sig nD τ) (Lvl := ℕ) c (T3 m c) : sProp 𝕄)
      ⊢ iprop((pdats m 1 c).arrays (pdats m 1 c).A ∗ Pipeline.unscopedRest (Ix := Unit) (Name := ℕ) (U := UR sig nD τ) (Lvl := ℕ) spec1 c (T3 m c)) :=
  arrays1_in' (T3 m) c

/-- EXIT. The two halves of the shared buffer, both at the contents it had at entry, are the buffer whole again; the output's
    array holds what the pipeline left. -/
theorem arrays1_out (c : Dev nD) :
    iprop((pdats m 1 c).arrays ((pdats m 1 c).arrAt · cfg1.N) ∗ Pipeline.unscopedRest (Ix := Unit) (Name := ℕ) (U := UR sig nD τ) (Lvl := ℕ) spec1 c (T3 m c))
      ⊢ (unscopedBufs (Ix := Unit) (Name := ℕ) (U := UR sig nD τ) (Lvl := ℕ) c (T4 m c) : sProp 𝕄) :=
  arrays1_out' (T3 m) c (T4 m c) (hF1 m c) (hrest1 m c)

/-! ## The regions as segments -/

set_option backward.isDefEq.respectTransparency.types false in
/-- Region 0 over the thread state: entered with every unscoped buffer at the contents before it, left with them at the
    contents after it. Its arrays are split out of the unscoped buffers at entry and put back at exit; the generator register
    goes into the pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at the
    contents after it. Its arrays are split out of the unscoped buffers at entry and put back at exit; the generator register
    goes into the pipeline's invariant and comes back; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (T3 m) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := arrays1_in m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := arrays1_out m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them at the
    contents after it. Its arrays are split out of the unscoped buffers at entry and put back at exit; the generator register
    goes into the pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ L lv 2 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at the contents before it, left with them at the
    contents after it. Its arrays are split out of the unscoped buffers at entry and put back at exit; the generator register
    goes into the pipeline's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T7 m) c).loose
  hwaits := Pipeline.hwaits_of_owed_zero _ _ _ _ L lv 3 fun _ _ => rfl
  pre c := iprop(StableHlo.held (c : Thread nD τ) (Pipeline.ucRefs τ sig) (X7 m c) ∗ R c)
  post c := iprop(StableHlo.held (c : Thread nD τ) (Pipeline.ucRefs τ sig) (X8 m c) ∗ R c)
  X c := iprop(∃ r, prngReg c r)
  Y c := iprop(∃ r, prngReg c r)
  Z c := Pipeline.unscopedRest (Ix := Unit) (Name := ℕ) (U := UR sig nD τ) (Lvl := ℕ) spec3 c (T7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T7 m c) (T8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at the contents before it, left with them at the
    contents after it. Its arrays are split out of the unscoped buffers at entry and put back at exit; the generator register
    goes into the pipeline's invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (T9 m) c).loose
  hwaits := Pipeline.hwaits_of_owed_zero _ _ _ _ L lv 4 fun _ _ => rfl
  pre c := iprop(StableHlo.held (c : Thread nD τ) (Pipeline.ucRefs τ sig) (X9 m c) ∗ R c)
  post c := iprop(StableHlo.held (c : Thread nD τ) (Pipeline.ucRefs τ sig) (X10 m c) ∗ R c)
  X c := iprop(∃ r, prngReg c r)
  Y c := iprop(∃ r, prngReg c r)
  Z c := Pipeline.unscopedRest (Ix := Unit) (Name := ℕ) (U := UR sig nD τ) (Lvl := ℕ) spec4 c (T9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (T9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (T9 m c) (T10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at the contents before it, left with them at the
    contents after it. Its arrays are split out of the unscoped buffers at entry and put back at exit; the generator register
    goes into the pipeline's invariant and comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (T10 m) c).loose
  hwaits := Pipeline.hwaits_of_owed_zero _ _ _ _ L lv 5 fun _ _ => rfl
  pre c := iprop(StableHlo.held (c : Thread nD τ) (Pipeline.ucRefs τ sig) (X10 m c) ∗ R c)
  post c := iprop(StableHlo.held (c : Thread nD τ) (Pipeline.ucRefs τ sig) (X11 m c) ∗ R c)
  X c := iprop(∃ r, prngReg c r)
  Y c := iprop(∃ r, prngReg c r)
  Z c := Pipeline.unscopedRest (Ix := Unit) (Name := ℕ) (U := UR sig nD τ) (Lvl := ℕ) spec5 c (T10 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (T10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (T10 m c) (T11 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main from memory `m` with zero counters terminates, faulting nowhere, in a memory that
    holds the result buffer at the last region's output array and each argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v67) = X11 m c main_v67
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ⟨(h c).1.trans (by rw [V11_eq]), (h c).2⟩)
    (run_cond m (EP := emb₁) (ι := ()) (𝒱₀ := 𝒱₀) (L := L) (lv := lv) (hL := fun _ _ => rfl) (ρ := ρ) (outs := outsOf m) (pdats := pdats m)
      (O₀ := 0) (G := fun _ => iprop(emp))
      (u₀ := initOf (Pipeline.cells cfgs cellOf_inj) (Pipeline.launchToks cfgs cellOf_inj))
      (hu₀ := by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (E := fun _ c => R c)
      (hE0 := Pipeline.initEach L lv fun c => by
        iintro ⟨⟨-, HO, -, Hp, -⟩, -⟩
        imodintro
        isplitl [Hp]; · iexists _; iexact Hp
        iexists ∅; iexact HO)
      (hE6 := fun c => by iintro ⟨-, HO⟩; iexact HO)
      (R0 := reg0 m) (hpre0 := fun c => .rfl) (hpost0 := fun c => by rw [V2_eq]; exact .rfl)
      (R1 := reg1 m) (hpre1 := fun c => by rw [V3_eq]; exact .rfl) (hpost1 := fun c => by rw [V4_eq]; exact .rfl)
      (R2 := reg2 m) (hpre2 := fun c => by rw [V5_eq]; exact .rfl) (hpost2 := fun c => by rw [V6_eq]; exact .rfl)
      (R3 := reg3 m) (hpre3 := fun c => by rw [V7_eq]; exact .rfl) (hpost3 := fun c => by rw [V8_eq]; exact .rfl)
      (R4 := reg4 m) (hpre4 := fun c => by rw [V9_eq]; exact .rfl) (hpost4 := fun c => by rw [V10_eq]; exact .rfl)
      (R5 := reg5 m) (hpre5 := fun c => by rw [V10_eq]; exact .rfl) (hpost5 := fun c => by rw [V11_eq]; exact .rfl))

end Cert.KernelIdeal.Frame

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibRowBlock.lean ====
/-
  A block of rows of a plain matrix product, on the extended reals.

  Let `A` be an `M×K` array and `W` a `K×N` array. If row `p` of a `B×K` array `x` is row `P` of `A`, and column `q` of
  a `K×N` array `w` is column `q` of `W`, then entry `(p, q)` of the product `x · w` accumulated on the vector unit from
  the zero array is entry `(P, q)` of the host's product `A · W`: each is `∑ k, A (P, k) * W (k, q)`, the same sum
  term by term, so no finiteness is asked of the entries and the operands' float formats do not matter. This is
  what a product tiled over its rows — each grid point multiplying its own rows by the whole right operand —
  needs to rejoin the one product of a reference.
-/
import proofs.«100143_j39058432590072_1_alg».proof.Proof.LibPlainDot

noncomputable section

open scoped BigOperators

namespace Cert.Lib.RowBlock

open Idealize.ShloMosaic Idealize.ShloMosaic.ValueIdx

variable {M K N B : ℕ} {φ₁ φ₂ ψ₁ ψ₂ : FTy}

/-- Entry `(p, q)` of a row block's product is entry `(P, q)` of the whole product. -/
theorem matmul_eq_dotGeneral (prec prec' : Option ContractPrecision) (sched : HostSchedule)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (P : Fin M) (p : Fin B) (q : Fin N)
    (hx : ∀ k : Fin K, (x (ix2 p k) : EReal) = A (ix2 P k)) (hw : ∀ k : Fin K, (w (ix2 k q) : EReal) = W (ix2 k q)) :
    FloatOps.matmul (DotDims.plain B K N) prec x w (constant ⟨2, ![B, N]⟩ .f32 0x00000000#32) (ix2 p q)
      = FloatOps.dotGeneral (DotDims.plain M K N) prec' sched A W (ix2 P q) := by
  rw [Cert.Lib.PlainDot.matmul_zero_apply, Cert.Lib.PlainDot.dotGeneral_apply]
  exact Finset.sum_congr rfl fun k _ => by rw [hx k, hw k]

end Cert.Lib.RowBlock

end
-- ==== Proof.StageRows.lean ====
/-
  The stages of a four-layer graph network read at one entry, on the extended reals.

  The network's feature arrays have 100000 rows and 128 columns. One computation works on a block of 2000 rows with
  vector operations; the other on the whole arrays with the host's operations. When the block's rows are rows of the
  whole arrays, entry `(p, q)` of the block computation's stage is entry `(P, q)` of the whole computation's stage:
  both are the same sums and the same operations, term by term. Nothing is assumed finite.

  * `proj_row`: the input projection `max (x · W + b) 0`.
  * `layerPay`, `layerPay_apply`, `layerPay_row`: one layer on a block, `max ((θ · (s · W) + θ' · s) + h) 0` with
    `s = 0.9 · hi + 0.1 · h0`, read at an entry; the four layers differ in the two constants `θ`, `θ'` only.
  * `layer0_row` … `layer3_row` (the network's first … fourth layer): each layer's block entry is the whole computation's
    entry.
-/
import Idealize.ShloMosaic.Lib.ValueLayout
import proofs.«100143_j39058432590072_1_alg».proof.Proof.LibRowBlock
import proofs.«100143_j39058432590072_1_alg».proof.Proof.Gen.KernelIdeal.Skeleton
import proofs.«100143_j39058432590072_1_alg».proof.Proof.RefReadP

noncomputable section

open scoped BigOperators

namespace Cert.StageRows

open Idealize.ShloMosaic Idealize.ShloMosaic.ValueIdx Cert.ReferenceIdeal.ReadP

/-! ## The input projection -/

/-- Entry `(p, q)` of a block's input projection is entry `(P, q)` of the whole array's. -/
theorem proj_row (X : (⟨Cert.ReferenceIdeal.S100000x128, .f32⟩ : BufTy).Contents (Elt Ideal))
    (Win : (⟨Cert.ReferenceIdeal.S128x128, .f32⟩ : BufTy).Contents (Elt Ideal))
    (bv : (⟨Cert.ReferenceIdeal.S128, .f32⟩ : BufTy).Contents (Elt Ideal))
    (xB : Vec Ideal Cert.KernelIdeal.S2000x128 .f32) (bB : Vec Ideal Cert.KernelIdeal.S1x128 .f32)
    (p : Fin 2000) (P : Fin 100000) (q : Fin 128)
    (hx : ∀ k : Fin 128, xB (ix2 p k) = X (ix2 P k)) (hb : ∀ j : Fin 128, bB (ix2 0 j) = bv (ix1 j)) :
    Cert.KernelIdeal.Gen.k0_pay1 (F := Ideal) xB Win bB (ix2 p q)
      = val_main_v4 (F := Ideal) X Win bv (ix2 P q) := by
  unfold Cert.KernelIdeal.Gen.k0_pay1
  rw [val_main_v4_apply, val_main_v3_apply, val_main_call0_v0_apply, val_main_call0_cst_apply, val_main_v2_apply,
    val_main_v1_apply]
  have hdot : FloatOps.matmul (F := Ideal) Cert.KernelIdeal.dot_S2000x128_S128x128_S2000x128_1_0_0_1_n_n none
        (truncf (F := Ideal) .bf16 xB Cert.KernelIdeal.Gen.bitsLt_bf16_f32)
        (truncf (F := Ideal) .bf16 Win Cert.KernelIdeal.Gen.bitsLt_bf16_f32)
        (constant (F := Ideal) Cert.KernelIdeal.S2000x128 .f32 0x00000000#32) (ix2 p q)
      = val_main_v0 (F := Ideal) X Win (ix2 P q) :=
    Cert.Lib.RowBlock.matmul_eq_dotGeneral none none _ X Win _ _ P p q hx (fun _ => rfl)
  have hbias : broadcastTo Cert.KernelIdeal.S2000x128
        (shapeCast Cert.KernelIdeal.S1x128 bB Cert.KernelIdeal.Gen.shapeCasts_S1x128_S1x128)
        Cert.KernelIdeal.Gen.broadcasts_S1x128_S2000x128 (ix2 p q)
      = bv (idx_main_v1 (idx_main_v2 (ix2 P q))) := by
    rw [shapeCast_self]
    refine (broadcastTo_1b_ab_apply bB _ p q).trans ((hb q).trans ?_)
    exact congrArg bv (funext fun a => by match a with | ⟨0, _⟩ => rfl)
  exact congrArg₂ (fun a b : EReal => max (a + b) (Ideal.ofBits .f32 0x00000000#32)) hdot hbias

/-! ## One layer on a block -/

section Layer

open Cert.KernelIdeal Cert.KernelIdeal.Gen

/-- One layer on a block of rows: `s = 0.9 · hi + 0.1 · h0`, then `max ((θ · (s · W) + θ' · s) + h) 0`, with the two
    layer constants `θ`, `θ'` given by their words. -/
def layerPay (θ θ' : BitVec 32) (v0 : Vec Ideal S2000x128 .f32) (v2 : Vec Ideal S2000x128 .f32)
    (v4 : Vec Ideal S2000x128 .f32) (v12 : Vec Ideal S128x128 .f32) : FVec Ideal S2000x128 .f32 :=
  have v1 : FVec Ideal S2000x128 .f32 := shapeCast S2000x128 v0 shapeCasts_S2000x128_S2000x128
  have v3 : FVec Ideal S2000x128 .f32 := shapeCast S2000x128 v2 shapeCasts_S2000x128_S2000x128
  have v5 : FVec Ideal S2000x128 .f32 := shapeCast S2000x128 v4 shapeCasts_S2000x128_S2000x128
  have cst : Ideal .f32 := Scalar.ofBits .f32 0x3F666666#32
  have v6 : FVec Ideal S2000x128 .f32 := broadcast S2000x128 cst
  have v7 : FVec Ideal S2000x128 .f32 := mulf v6 v1
  have cst_5 : Ideal .f32 := Scalar.ofBits .f32 0x3DCCCCCD#32
  have v8 : FVec Ideal S2000x128 .f32 := broadcast S2000x128 cst_5
  have v9 : FVec Ideal S2000x128 .f32 := mulf v8 v3
  have v10 : FVec Ideal S2000x128 .f32 := addf v7 v9
  have v11 : FVec Ideal S2000x128 .bf16 := truncf .bf16 v10 bitsLt_bf16_f32
  have v13 : FVec Ideal S128x128 .f32 := shapeCast S128x128 v12 shapeCasts_S128x128_S128x128
  have v14 : FVec Ideal S128x128 .bf16 := truncf .bf16 v13 bitsLt_bf16_f32
  have cst_8 : FVec Ideal S2000x128 .f32 := constant S2000x128 .f32 0x00000000#32
  have v15 : FVec Ideal S2000x128 .f32 := matmul dot_S2000x128_S128x128_S2000x128_1_0_0_1_n_n none v11 v14 cst_8
  have cst_9 : Ideal .f32 := Scalar.ofBits .f32 θ
  have v16 : FVec Ideal S2000x128 .f32 := broadcast S2000x128 cst_9
  have v17 : FVec Ideal S2000x128 .f32 := mulf v16 v15
  have cst_10 : Ideal .f32 := Scalar.ofBits .f32 θ'
  have v18 : FVec Ideal S2000x128 .f32 := broadcast S2000x128 cst_10
  have v19 : FVec Ideal S2000x128 .f32 := mulf v18 v10
  have v20 : FVec Ideal S2000x128 .f32 := addf v17 v19
  have v21 : FVec Ideal S2000x128 .f32 := addf v20 v5
  have cst_11 : Ideal .f32 := Scalar.ofBits .f32 0x00000000#32
  have v22 : FVec Ideal S2000x128 .f32 := broadcast S2000x128 cst_11
  have v23 : FVec Ideal S2000x128 .f32 := maximumf v21 v22
  v23

theorem k1_pay1_eq : Gen.k1_pay1 (F := Ideal) = layerPay 0x3E647FBE#32 0x3F46E010#32 := rfl
theorem k2_pay1_eq : Gen.k2_pay1 (F := Ideal) = layerPay 0x3E1DD9AD#32 0x3F588995#32 := rfl
theorem k3_pay1_eq : Gen.k3_pay1 (F := Ideal) = layerPay 0x3DF1383B#32 0x3F61D8F9#32 := rfl
theorem k4_pay1_eq : Gen.k4_pay1 (F := Ideal) = layerPay 0x3DC331FC#32 0x3F6799C1#32 := rfl

/-- The mixed features `s = 0.9 · hi + 0.1 · h0` at an entry. -/
def mix (hi h0 : EReal) : EReal :=
  Ideal.ofBits .f32 0x3F666666#32 * hi + Ideal.ofBits .f32 0x3DCCCCCD#32 * h0

/-- A layer's value at an entry from the mixed features' row, the weight's column and the current features' entry. -/
def layerVal (θ θ' : BitVec 32) (dot s h : EReal) : EReal :=
  max ((Ideal.ofBits .f32 θ * dot + Ideal.ofBits .f32 θ' * s) + h) (Ideal.ofBits .f32 0x00000000#32)

/-- One layer on a block read at entry `(p, q)`. -/
theorem layerPay_apply (θ θ' : BitVec 32) (v0 v2 v4 : Vec Ideal S2000x128 .f32) (v12 : Vec Ideal S128x128 .f32)
    (p : Fin 2000) (q : Fin 128) :
    layerPay θ θ' v0 v2 v4 v12 (ix2 p q)
      = layerVal θ θ' (∑ k : Fin 128, mix (v0 (ix2 p k)) (v2 (ix2 p k)) * v12 (ix2 k q))
          (mix (v0 (ix2 p q)) (v2 (ix2 p q))) (v4 (ix2 p q)) := by
  unfold layerPay
  simp only [shapeCast_self]
  exact congrArg (fun d => layerVal θ θ' d (mix (v0 (ix2 p q)) (v2 (ix2 p q))) (v4 (ix2 p q)))
    (Cert.Lib.PlainDot.matmul_zero_apply none _ _ p q)

/-- The mixed features spelt with the float operations. -/
theorem mix_eq (a b : Ideal .f32) :
    mix a b = FloatOps.addf (FloatOps.mulf (FloatOps.ofBits .f32 0x3F666666#32) a)
      (FloatOps.mulf (FloatOps.ofBits .f32 0x3DCCCCCD#32) b) := rfl

/-- A layer's value spelt with the float operations. -/
theorem layerVal_eq (θ θ' : BitVec 32) (d s h : Ideal .f32) :
    layerVal θ θ' d s h = FloatOps.maximumf (FloatOps.addf (FloatOps.addf (FloatOps.mulf (FloatOps.ofBits .f32 θ) d)
      (FloatOps.mulf (FloatOps.ofBits .f32 θ') s)) h) (FloatOps.ofBits .f32 0x00000000#32) := rfl
/-- A block's layer at entry `(p, q)` from the whole arrays' rows: when the block's rows of the aggregated, initial
    and current features are rows `P` of whole arrays `HI`, `H0`, `H`, and its weight's column `q` is `W`'s. -/
theorem layerPay_row (θ θ' : BitVec 32) (hiB h0B hB : Vec Ideal Cert.KernelIdeal.S2000x128 .f32)
    (wB : Vec Ideal Cert.KernelIdeal.S128x128 .f32)
    (HI H0 H : (⟨Cert.ReferenceIdeal.S100000x128, .f32⟩ : BufTy).Contents (Elt Ideal))
    (W : (⟨Cert.ReferenceIdeal.S128x128, .f32⟩ : BufTy).Contents (Elt Ideal))
    (p : Fin 2000) (P : Fin 100000) (q : Fin 128)
    (hhi : ∀ k : Fin 128, hiB (ix2 p k) = HI (ix2 P k)) (hh0 : ∀ k : Fin 128, h0B (ix2 p k) = H0 (ix2 P k))
    (hh : ∀ k : Fin 128, hB (ix2 p k) = H (ix2 P k)) (hw : ∀ k : Fin 128, wB (ix2 k q) = W (ix2 k q)) :
    layerPay θ θ' hiB h0B hB wB (ix2 p q)
      = layerVal θ θ' (∑ k : Fin 128, mix (HI (ix2 P k)) (H0 (ix2 P k)) * W (ix2 k q))
          (mix (HI (ix2 P q)) (H0 (ix2 P q))) (H (ix2 P q)) := by
  rw [layerPay_apply, hhi q, hh0 q, hh q]
  exact congrArg (fun d => layerVal θ θ' d (mix (HI (ix2 P q)) (H0 (ix2 P q))) (H (ix2 P q)))
    (Finset.sum_congr rfl fun k _ => by rw [hhi k, hh0 k, hw k])

/-- Layer 0: entry `(p, q)` of a block's layer is entry `(P, q)` of the whole computation's. -/
theorem layer0_row (x0 : (⟨Cert.ReferenceIdeal.S100000x128, .f32⟩ : BufTy).Contents (Elt Ideal))
    (x1 x2 : (⟨Cert.ReferenceIdeal.S1600000, .i32⟩ : BufTy).Contents (Elt Ideal))
    (x3 : (⟨Cert.ReferenceIdeal.S1600000, .f32⟩ : BufTy).Contents (Elt Ideal))
    (x4 : (⟨Cert.ReferenceIdeal.S128x128, .f32⟩ : BufTy).Contents (Elt Ideal))
    (x5 : (⟨Cert.ReferenceIdeal.S128, .f32⟩ : BufTy).Contents (Elt Ideal))
    (x6 : (⟨Cert.ReferenceIdeal.S4x128x128, .f32⟩ : BufTy).Contents (Elt Ideal))
    (hiB h0B hB : Vec Ideal Cert.KernelIdeal.S2000x128 .f32) (wB : Vec Ideal Cert.KernelIdeal.S128x128 .f32)
    (p : Fin 2000) (P : Fin 100000) (q : Fin 128)
    (hhi : ∀ k : Fin 128, hiB (ix2 p k) = val_main_v17 (F := Ideal) x0 x1 x2 x3 x4 x5 (ix2 P k))
    (hh0 : ∀ k : Fin 128, h0B (ix2 p k) = val_main_v4 (F := Ideal) x0 x4 x5 (ix2 P k))
    (hh : ∀ k : Fin 128, hB (ix2 p k) = val_main_v4 (F := Ideal) x0 x4 x5 (ix2 P k))
    (hw : ∀ k : Fin 128, wB (ix2 k q) = val_main_v24 (F := Ideal) x6 (ix2 k q)) :
    Cert.KernelIdeal.Gen.k1_pay1 (F := Ideal) hiB h0B hB wB (ix2 p q)
      = val_main_v32 (F := Ideal) x0 x1 x2 x3 x4 x5 x6 (ix2 P q) := by
  rw [k1_pay1_eq]
  refine (layerPay_row _ _ hiB h0B hB wB _ _ _ _ p P q hhi hh0 hh hw).trans ?_
  have hl : ∀ k : Fin 128, lidx_main_v25 (ix2 P q) k = ix2 P k := fun k =>
    funext fun a => by match a with | ⟨0, _⟩ => rfl | ⟨1, _⟩ => rfl
  have hr : ∀ k : Fin 128, ridx_main_v25 (ix2 P q) k = ix2 k q := fun k =>
    funext fun a => by match a with | ⟨0, _⟩ => rfl | ⟨1, _⟩ => rfl
  have hs : ∀ i, val_main_v22 (F := Ideal) x0 x1 x2 x3 x4 x5 i = mix (val_main_v17 (F := Ideal) x0 x1 x2 x3 x4 x5 i) (val_main_v4 (F := Ideal) x0 x4 x5 i) := fun i => by
    rw [val_main_v22_apply, val_main_v19_apply, val_main_v21_apply, val_main_v18_apply, val_main_cst_1_apply,
      val_main_v20_apply, val_main_cst_2_apply]
    exact (mix_eq _ _).symm
  rw [val_main_v32_apply, val_main_v31_apply, val_main_v30_apply, val_main_v27_apply, val_main_v29_apply,
    val_main_v25_apply, val_main_v26_apply, val_main_cst_3_apply, val_main_v28_apply, val_main_cst_4_apply,
    val_main_call1_v0_apply, val_main_call1_cst_apply, hs,
    Finset.sum_congr rfl fun (k : Fin 128) _ => show val_main_v22 (F := Ideal) x0 x1 x2 x3 x4 x5 (lidx_main_v25 (ix2 P q) k)
        * val_main_v24 (F := Ideal) x6 (ridx_main_v25 (ix2 P q) k)
      = mix (val_main_v17 (F := Ideal) x0 x1 x2 x3 x4 x5 (ix2 P k)) (val_main_v4 (F := Ideal) x0 x4 x5 (ix2 P k)) * val_main_v24 (F := Ideal) x6 (ix2 k q) by rw [hl k, hr k, hs]]
  exact layerVal_eq _ _ _ _ _

/-- Layer 1: entry `(p, q)` of a block's layer is entry `(P, q)` of the whole computation's. -/
theorem layer1_row (x0 : (⟨Cert.ReferenceIdeal.S100000x128, .f32⟩ : BufTy).Contents (Elt Ideal))
    (x1 x2 : (⟨Cert.ReferenceIdeal.S1600000, .i32⟩ : BufTy).Contents (Elt Ideal))
    (x3 : (⟨Cert.ReferenceIdeal.S1600000, .f32⟩ : BufTy).Contents (Elt Ideal))
    (x4 : (⟨Cert.ReferenceIdeal.S128x128, .f32⟩ : BufTy).Contents (Elt Ideal))
    (x5 : (⟨Cert.ReferenceIdeal.S128, .f32⟩ : BufTy).Contents (Elt Ideal))
    (x6 : (⟨Cert.ReferenceIdeal.S4x128x128, .f32⟩ : BufTy).Contents (Elt Ideal))
    (hiB h0B hB : Vec Ideal Cert.KernelIdeal.S2000x128 .f32) (wB : Vec Ideal Cert.KernelIdeal.S128x128 .f32)
    (p : Fin 2000) (P : Fin 100000) (q : Fin 128)
    (hhi : ∀ k : Fin 128, hiB (ix2 p k) = val_main_v45 (F := Ideal) x0 x1 x2 x3 x4 x5 x6 (ix2 P k))
    (hh0 : ∀ k : Fin 128, h0B (ix2 p k) = val_main_v4 (F := Ideal) x0 x4 x5 (ix2 P k))
    (hh : ∀ k : Fin 128, hB (ix2 p k) = val_main_v32 (F := Ideal) x0 x1 x2 x3 x4 x5 x6 (ix2 P k))
    (hw : ∀ k : Fin 128, wB (ix2 k q) = val_main_v52 (F := Ideal) x6 (ix2 k q)) :
    Cert.KernelIdeal.Gen.k2_pay1 (F := Ideal) hiB h0B hB wB (ix2 p q)
      = val_main_v60 (F := Ideal) x0 x1 x2 x3 x4 x5 x6 (ix2 P q) := by
  rw [k2_pay1_eq]
  refine (layerPay_row _ _ hiB h0B hB wB _ _ _ _ p P q hhi hh0 hh hw).trans ?_
  have hl : ∀ k : Fin 128, lidx_main_v53 (ix2 P q) k = ix2 P k := fun k =>
    funext fun a => by match a with | ⟨0, _⟩ => rfl | ⟨1, _⟩ => rfl
  have hr : ∀ k : Fin 128, ridx_main_v53 (ix2 P q) k = ix2 k q := fun k =>
    funext fun a => by match a with | ⟨0, _⟩ => rfl | ⟨1, _⟩ => rfl
  have hs : ∀ i, val_main_v50 (F := Ideal) x0 x1 x2 x3 x4 x5 x6 i = mix (val_main_v45 (F := Ideal) x0 x1 x2 x3 x4 x5 x6 i) (val_main_v4 (F := Ideal) x0 x4 x5 i) := fun i => by
    rw [val_main_v50_apply, val_main_v47_apply, val_main_v49_apply, val_main_v46_apply, val_main_cst_8_apply,
      val_main_v48_apply, val_main_cst_9_apply]
    exact (mix_eq _ _).symm
  rw [val_main_v60_apply, val_main_v59_apply, val_main_v58_apply, val_main_v55_apply, val_main_v57_apply,
    val_main_v53_apply, val_main_v54_apply, val_main_cst_10_apply, val_main_v56_apply, val_main_cst_11_apply,
    val_main_call2_v0_apply, val_main_call2_cst_apply, hs,
    Finset.sum_congr rfl fun (k : Fin 128) _ => show val_main_v50 (F := Ideal) x0 x1 x2 x3 x4 x5 x6 (lidx_main_v53 (ix2 P q) k)
        * val_main_v52 (F := Ideal) x6 (ridx_main_v53 (ix2 P q) k)
      = mix (val_main_v45 (F := Ideal) x0 x1 x2 x3 x4 x5 x6 (ix2 P k)) (val_main_v4 (F := Ideal) x0 x4 x5 (ix2 P k)) * val_main_v52 (F := Ideal) x6 (ix2 k q) by rw [hl k, hr k, hs]]
  exact layerVal_eq _ _ _ _ _

/-- Layer 2: entry `(p, q)` of a block's layer is entry `(P, q)` of the whole computation's. -/
theorem layer2_row (x0 : (⟨Cert.ReferenceIdeal.S100000x128, .f32⟩ : BufTy).Contents (Elt Ideal))
    (x1 x2 : (⟨Cert.ReferenceIdeal.S1600000, .i32⟩ : BufTy).Contents (Elt Ideal))
    (x3 : (⟨Cert.ReferenceIdeal.S1600000, .f32⟩ : BufTy).Contents (Elt Ideal))
    (x4 : (⟨Cert.ReferenceIdeal.S128x128, .f32⟩ : BufTy).Contents (Elt Ideal))
    (x5 : (⟨Cert.ReferenceIdeal.S128, .f32⟩ : BufTy).Contents (Elt Ideal))
    (x6 : (⟨Cert.ReferenceIdeal.S4x128x128, .f32⟩ : BufTy).Contents (Elt Ideal))
    (hiB h0B hB : Vec Ideal Cert.KernelIdeal.S2000x128 .f32) (wB : Vec Ideal Cert.KernelIdeal.S128x128 .f32)
    (p : Fin 2000) (P : Fin 100000) (q : Fin 128)
    (hhi : ∀ k : Fin 128, hiB (ix2 p k) = val_main_v73 (F := Ideal) x0 x1 x2 x3 x4 x5 x6 (ix2 P k))
    (hh0 : ∀ k : Fin 128, h0B (ix2 p k) = val_main_v4 (F := Ideal) x0 x4 x5 (ix2 P k))
    (hh : ∀ k : Fin 128, hB (ix2 p k) = val_main_v60 (F := Ideal) x0 x1 x2 x3 x4 x5 x6 (ix2 P k))
    (hw : ∀ k : Fin 128, wB (ix2 k q) = val_main_v80 (F := Ideal) x6 (ix2 k q)) :
    Cert.KernelIdeal.Gen.k3_pay1 (F := Ideal) hiB h0B hB wB (ix2 p q)
      = val_main_v88 (F := Ideal) x0 x1 x2 x3 x4 x5 x6 (ix2 P q) := by
  rw [k3_pay1_eq]
  refine (layerPay_row _ _ hiB h0B hB wB _ _ _ _ p P q hhi hh0 hh hw).trans ?_
  have hl : ∀ k : Fin 128, lidx_main_v81 (ix2 P q) k = ix2 P k := fun k =>
    funext fun a => by match a with | ⟨0, _⟩ => rfl | ⟨1, _⟩ => rfl
  have hr : ∀ k : Fin 128, ridx_main_v81 (ix2 P q) k = ix2 k q := fun k =>
    funext fun a => by match a with | ⟨0, _⟩ => rfl | ⟨1, _⟩ => rfl
  have hs : ∀ i, val_main_v78 (F := Ideal) x0 x1 x2 x3 x4 x5 x6 i = mix (val_main_v73 (F := Ideal) x0 x1 x2 x3 x4 x5 x6 i) (val_main_v4 (F := Ideal) x0 x4 x5 i) := fun i => by
    rw [val_main_v78_apply, val_main_v75_apply, val_main_v77_apply, val_main_v74_apply, val_main_cst_15_apply,
      val_main_v76_apply, val_main_cst_16_apply]
    exact (mix_eq _ _).symm
  rw [val_main_v88_apply, val_main_v87_apply, val_main_v86_apply, val_main_v83_apply, val_main_v85_apply,
    val_main_v81_apply, val_main_v82_apply, val_main_cst_17_apply, val_main_v84_apply, val_main_cst_18_apply,
    val_main_call3_v0_apply, val_main_call3_cst_apply, hs,
    Finset.sum_congr rfl fun (k : Fin 128) _ => show val_main_v78 (F := Ideal) x0 x1 x2 x3 x4 x5 x6 (lidx_main_v81 (ix2 P q) k)
        * val_main_v80 (F := Ideal) x6 (ridx_main_v81 (ix2 P q) k)
      = mix (val_main_v73 (F := Ideal) x0 x1 x2 x3 x4 x5 x6 (ix2 P k)) (val_main_v4 (F := Ideal) x0 x4 x5 (ix2 P k)) * val_main_v80 (F := Ideal) x6 (ix2 k q) by rw [hl k, hr k, hs]]
  exact layerVal_eq _ _ _ _ _

/-- Layer 3: entry `(p, q)` of a block's layer is entry `(P, q)` of the whole computation's. -/
theorem layer3_row (x0 : (⟨Cert.ReferenceIdeal.S100000x128, .f32⟩ : BufTy).Contents (Elt Ideal))
    (x1 x2 : (⟨Cert.ReferenceIdeal.S1600000, .i32⟩ : BufTy).Contents (Elt Ideal))
    (x3 : (⟨Cert.ReferenceIdeal.S1600000, .f32⟩ : BufTy).Contents (Elt Ideal))
    (x4 : (⟨Cert.ReferenceIdeal.S128x128, .f32⟩ : BufTy).Contents (Elt Ideal))
    (x5 : (⟨Cert.ReferenceIdeal.S128, .f32⟩ : BufTy).Contents (Elt Ideal))
    (x6 : (⟨Cert.ReferenceIdeal.S4x128x128, .f32⟩ : BufTy).Contents (Elt Ideal))
    (hiB h0B hB : Vec Ideal Cert.KernelIdeal.S2000x128 .f32) (wB : Vec Ideal Cert.KernelIdeal.S128x128 .f32)
    (p : Fin 2000) (P : Fin 100000) (q : Fin 128)
    (hhi : ∀ k : Fin 128, hiB (ix2 p k) = val_main_v101 (F := Ideal) x0 x1 x2 x3 x4 x5 x6 (ix2 P k))
    (hh0 : ∀ k : Fin 128, h0B (ix2 p k) = val_main_v4 (F := Ideal) x0 x4 x5 (ix2 P k))
    (hh : ∀ k : Fin 128, hB (ix2 p k) = val_main_v88 (F := Ideal) x0 x1 x2 x3 x4 x5 x6 (ix2 P k))
    (hw : ∀ k : Fin 128, wB (ix2 k q) = val_main_v108 (F := Ideal) x6 (ix2 k q)) :
    Cert.KernelIdeal.Gen.k4_pay1 (F := Ideal) hiB h0B hB wB (ix2 p q)
      = val_main_v116 (F := Ideal) x0 x1 x2 x3 x4 x5 x6 (ix2 P q) := by
  rw [k4_pay1_eq]
  refine (layerPay_row _ _ hiB h0B hB wB _ _ _ _ p P q hhi hh0 hh hw).trans ?_
  have hl : ∀ k : Fin 128, lidx_main_v109 (ix2 P q) k = ix2 P k := fun k =>
    funext fun a => by match a with | ⟨0, _⟩ => rfl | ⟨1, _⟩ => rfl
  have hr : ∀ k : Fin 128, ridx_main_v109 (ix2 P q) k = ix2 k q := fun k =>
    funext fun a => by match a with | ⟨0, _⟩ => rfl | ⟨1, _⟩ => rfl
  have hs : ∀ i, val_main_v106 (F := Ideal) x0 x1 x2 x3 x4 x5 x6 i = mix (val_main_v101 (F := Ideal) x0 x1 x2 x3 x4 x5 x6 i) (val_main_v4 (F := Ideal) x0 x4 x5 i) := fun i => by
    rw [val_main_v106_apply, val_main_v103_apply, val_main_v105_apply, val_main_v102_apply, val_main_cst_22_apply,
      val_main_v104_apply, val_main_cst_23_apply]
    exact (mix_eq _ _).symm
  rw [val_main_v116_apply, val_main_v115_apply, val_main_v114_apply, val_main_v111_apply, val_main_v113_apply,
    val_main_v109_apply, val_main_v110_apply, val_main_cst_24_apply, val_main_v112_apply, val_main_cst_25_apply,
    val_main_call4_v0_apply, val_main_call4_cst_apply, hs,
    Finset.sum_congr rfl fun (k : Fin 128) _ => show val_main_v106 (F := Ideal) x0 x1 x2 x3 x4 x5 x6 (lidx_main_v109 (ix2 P q) k)
        * val_main_v108 (F := Ideal) x6 (ridx_main_v109 (ix2 P q) k)
      = mix (val_main_v101 (F := Ideal) x0 x1 x2 x3 x4 x5 x6 (ix2 P k)) (val_main_v4 (F := Ideal) x0 x4 x5 (ix2 P k)) * val_main_v108 (F := Ideal) x6 (ix2 k q) by rw [hl k, hr k, hs]]
  exact layerVal_eq _ _ _ _ _

end Layer

end Cert.StageRows

end
-- ==== Proof.RegionValue0.lean ====
/-
  From blocks to the array, for the input projection: after all fifty grid points the output array is the
  projection `max (x · W + b) 0` of the whole arrays, as one function of the index.

  Grid point `t` works on rows `2000 t … 2000 t + 1999`: its input block of `x` is those rows, its weight and bias
  blocks are the whole weight and bias, and what it writes back is those rows of the result. Every row lies in the
  block of point `row / 2000`, so the fifty blocks written back fill the array.
-/
import Idealize.ShloMosaic.Lib.Pipeline.Value
import proofs.«100143_j39058432590072_1_alg».proof.Proof.KIRegion0
import proofs.«100143_j39058432590072_1_alg».proof.Proof.StageRows

noncomputable section

namespace Cert.RegionValue

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)
open Cert.ReferenceIdeal.ReadP

variable (V : (c : Dev nD) → (b : Ref sig .tc) → Buf (Elt Ideal) ((c : Thread nD τ).loc b))

/-- The zero offsets, as a function. -/
theorem hz0 : (![0, 0] : Fin 2 → Nat) = fun _ => 0 := funext fun a => by fin_cases a <;> rfl

/-- The index maps over the grid: the row windows' block index is the point, every other block index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The features window's block at point `t` is rows `2000 t …` of the features. -/
theorem iblk0_0_apply (c : Dev nD) (t : Fin cfg0.N) (p : Fin 2000) (k : Fin 128) (P : Fin 100000)
    (hP : P.val = t.val * 2000 + p.val) :
    (iblk0 V c 0 t : Vec Ideal S2000x128 .f32) (ix2 p k) = (V c main_arg0 : S100000x128.Idx → EReal) (ix2 P k) := by
  obtain ⟨e0, e1, -⟩ := idx_facts0 t
  unfold iblk0
  rw [View.read_apply]
  show V c main_arg0 _ = V c main_arg0 _
  congr 1
  funext a; apply Fin.ext
  match a with
  | ⟨0, _⟩ => show win0_0.index t (0 : Fin 2) * 2000 + 1 * p.val = P.val; rw [e0, hP]; omega
  | ⟨1, _⟩ => show win0_0.index t (1 : Fin 2) * 128 + 1 * k.val = k.val; rw [e1]; omega

/-- The weight window's block at every point is the whole weight. -/
theorem iblk0_1_eq (c : Dev nD) (t : Fin cfg0.N) :
    (iblk0 V c 1 t : Vec Ideal S128x128 .f32) = (V c main_arg4 : S128x128.Idx → EReal) := by
  obtain ⟨-, -, e2, e3, -⟩ := idx_facts0 t
  funext j
  unfold iblk0
  rw [View.read_apply]
  show V c main_arg4 _ = V c main_arg4 j
  congr 1
  funext a; apply Fin.ext
  match a with
  | ⟨0, _⟩ => show win0_1.index t (0 : Fin 2) * 128 + 1 * (j 0).val = (j 0).val; rw [e2]; omega
  | ⟨1, _⟩ => show win0_1.index t (1 : Fin 2) * 128 + 1 * (j 1).val = (j 1).val; rw [e3]; omega

/-- The bias window's block at every point is the whole bias row. -/
theorem iblk0_2_eq (c : Dev nD) (t : Fin cfg0.N) :
    (iblk0 V c 2 t : Vec Ideal S1x128 .f32) = (V c main_v0 : S1x128.Idx → EReal) := by
  obtain ⟨-, -, -, -, e4, e5, -⟩ := idx_facts0 t
  funext j
  unfold iblk0
  rw [View.read_apply]
  show V c main_v0 _ = V c main_v0 j
  congr 1
  funext a; apply Fin.ext
  match a with
  | ⟨0, _⟩ => show win0_2.index t (0 : Fin 2) * 1 + 1 * (j 0).val = (j 0).val; rw [e4]; omega
  | ⟨1, _⟩ => show win0_2.index t (1 : Fin 2) * 128 + 1 * (j 1).val = (j 1).val; rw [e5]; omega

/-- One grid point: when the features block is rows `2000 tv …` of the features, the block's projection at `y` is the
    whole projection at row `2000 tv + y₀`, column `y₁`. -/
theorem proj_point (X : (⟨Cert.ReferenceIdeal.S100000x128, .f32⟩ : BufTy).Contents (Elt Ideal))
    (Win : (⟨Cert.ReferenceIdeal.S128x128, .f32⟩ : BufTy).Contents (Elt Ideal))
    (bv : (⟨Cert.ReferenceIdeal.S128, .f32⟩ : BufTy).Contents (Elt Ideal))
    (xB : Vec Ideal S2000x128 .f32) (bB : Vec Ideal S1x128 .f32) (tv : ℕ)
    (hxB : ∀ (p : Fin 2000) (k : Fin 128) (P : Fin 100000), P.val = tv * 2000 + p.val → xB (ix2 p k) = X (ix2 P k))
    (hbB : ∀ j : Fin 128, bB (ix2 0 j) = bv (ix1 j))
    (y : S2000x128.Idx) (i : S100000x128.Idx) (hi0 : (i 0).val = tv * 2000 + (y 0).val) (hi1 : (i 1).val = (y 1).val) :
    k0_pay1 (F := Ideal) xB Win bB y = val_main_v4 (F := Ideal) X Win bv i := by
  obtain ⟨p, q, rfl⟩ : ∃ (p : Fin 2000) (q : Fin 128), y = ix2 p q := ⟨y 0, y 1, eq_ix2 y⟩
  obtain ⟨P, Q, rfl⟩ : ∃ (P : Fin 100000) (Q : Fin 128), i = ix2 P Q := ⟨i 0, i 1, eq_ix2 i⟩
  have hQ : Q = q := Fin.ext hi1
  rw [hQ]
  exact Cert.StageRows.proj_row X Win bv xB bB p P q (fun k => hxB p k P hi0) hbB

/-- What point `t` writes back is block `t` of the whole projection. -/
theorem flushed0_eq (c : Dev nD) (X : (⟨Cert.ReferenceIdeal.S100000x128, .f32⟩ : BufTy).Contents (Elt Ideal))
    (Win : (⟨Cert.ReferenceIdeal.S128x128, .f32⟩ : BufTy).Contents (Elt Ideal))
    (bv : (⟨Cert.ReferenceIdeal.S128, .f32⟩ : BufTy).Contents (Elt Ideal))
    (hx : V c main_arg0 = X) (hw : V c main_arg4 = Win) (hb : ∀ j : Fin 128, V c main_v0 (ix2 0 j) = bv (ix1 j))
    (t : Fin cfg0.N) :
    (dat0 V c).flushed 3 t = ((cfg0.win 3).blk t).view.read (Elt Ideal) (val_main_v4 (F := Ideal) X Win bv) := by
  show (cfg0.win 3).cut (grid0.coords t) ((dat0 V c).after 3 t) = _
  rw [after0_3]
  unfold out0_3
  rw [View.canon_unit_zero hz0]
  simp only [View.ld_unit_zero (S := S2000x128) hz0, View.ld_unit_zero (S := S128x128) hz0, View.ld_unit_zero (S := S1x128) hz0]
  rw [iblk0_1_eq, iblk0_2_eq, hw]
  obtain ⟨-, -, -, -, -, -, e6, e7⟩ := idx_facts0 t
  funext y
  rw [View.read_apply]
  show k0_pay1 (F := Ideal) (iblk0 V c 0 t) Win (V c main_v0) y
    = val_main_v4 (F := Ideal) X Win bv (((cfg0.win 3).blk t).view.emb y)
  refine proj_point X Win bv (iblk0 V c 0 t) (V c main_v0) t.val (fun p k P hP => ?_) hb y _ ?_ ?_
  · rw [iblk0_0_apply V c t p k P hP, hx]
  · show win0_3.index t (0 : Fin 2) * 2000 + 1 * (y 0).val = t.val * 2000 + (y 0).val
    rw [e6]; omega
  · show win0_3.index t (1 : Fin 2) * 128 + 1 * (y 1).val = (y 1).val
    rw [e7]; omega

/-- An index of the array is in point `t`'s block iff each coordinate is in the block's range on its axis. -/
theorem mem_blk0 (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v2).slice (win0_3.rect t)).set ↔ _
  rw [View.set_slice_whole, Rect.mem_set_unit]
  exact Iff.rfl

/-- Every index of the array is in the block of the point `row / 2000`, which writes back. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have ht : (i 0).val / 2000 < cfg0.N := by show _ < grid0.N; rw [N_0]; omega
  obtain ⟨-, -, -, -, -, -, e6, e7⟩ := idx_facts0 ⟨(i 0).val / 2000, ht⟩
  have e6' : win0_3.index ⟨(i 0).val / 2000, ht⟩ (0 : Fin 2) = (i 0).val / 2000 := e6
  refine ⟨⟨(i 0).val / 2000, ht⟩, flush0_3 _, ?_⟩
  rw [mem_blk0]
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [e6']; omega
  | ⟨1, _⟩ =>
    show win0_3.index ⟨(i 0).val / 2000, ht⟩ (1 : Fin 2) * 128 ≤ (i 1).val
      ∧ (i 1).val < win0_3.index ⟨(i 0).val / 2000, ht⟩ (1 : Fin 2) * 128 + 128
    rw [e7]; omega

/-- THE ARRAY after the fifty points: the whole projection. -/
theorem region0_value (c : Dev nD) (X : (⟨Cert.ReferenceIdeal.S100000x128, .f32⟩ : BufTy).Contents (Elt Ideal))
    (Win : (⟨Cert.ReferenceIdeal.S128x128, .f32⟩ : BufTy).Contents (Elt Ideal))
    (bv : (⟨Cert.ReferenceIdeal.S128, .f32⟩ : BufTy).Contents (Elt Ideal))
    (hx : V c main_arg0 = X) (hw : V c main_arg4 = Win) (hb : ∀ j : Fin 128, V c main_v0 (ix2 0 j) = bv (ix1 j)) :
    (dat0 V c).arrAt 3 cfg0.N = val_main_v4 (F := Ideal) X Win bv :=
  (dat0 V c).arrAt_eq_of_cover 3 (val_main_v4 (F := Ideal) X Win bv)
    (fun t _ => flushed0_eq V c X Win bv hx hw hb t) cover0

end Cert.RegionValue

end
-- ==== Proof.RegionValue1.lean ====
/-
  From blocks to the array, for the first layer: after all fifty grid points the output array is the layer
  `max ((θ · (s · W) + θ' · s) + h) 0`, `s = 0.9 · hi + 0.1 · h0`, of the whole arrays, as one function of the index.

  Grid point `t` works on rows `2000 t … 2000 t + 1999`: its blocks of the aggregated, initial and current features
  are those rows, its weight block is the whole weight, and what it writes back is those rows of the result. Every row
  lies in the block of point `row / 2000`, so the fifty blocks written back fill the array.
-/
import Idealize.ShloMosaic.Lib.Pipeline.Value
import proofs.«100143_j39058432590072_1_alg».proof.Proof.KIRegion1
import proofs.«100143_j39058432590072_1_alg».proof.Proof.StageRows

noncomputable section

namespace Cert.RegionValue

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)
open Cert.ReferenceIdeal.ReadP

variable (V : (c : Dev nD) → (b : Ref sig .tc) → Buf (Elt Ideal) ((c : Thread nD τ).loc b))

/-- The zero offsets, as a function. -/
theorem hz1 : (![0, 0] : Fin 2 → Nat) = fun _ => 0 := funext fun a => by fin_cases a <;> rfl

/-- The index maps over the grid: the row windows' block index is the point, every other block index is zero. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Window 0's block at point `t` is rows `2000 t …` of its array. -/
theorem iblk1_0_apply (c : Dev nD) (t : Fin cfg1.N) (p : Fin 2000) (k : Fin 128) (P : Fin 100000)
    (hP : P.val = t.val * 2000 + p.val) :
    (iblk1 V c 0 t : Vec Ideal S2000x128 .f32) (ix2 p k) = (V c main_v15 : S100000x128.Idx → EReal) (ix2 P k) := by
  obtain ⟨e0, e1, -⟩ := idx_facts1 t
  unfold iblk1
  rw [View.read_apply]
  show V c main_v15 _ = V c main_v15 _
  congr 1
  funext a; apply Fin.ext
  match a with
  | ⟨0, _⟩ => show win1_0.index t (0 : Fin 2) * 2000 + 1 * p.val = P.val; rw [e0, hP]; omega
  | ⟨1, _⟩ => show win1_0.index t (1 : Fin 2) * 128 + 1 * k.val = k.val; rw [e1]; omega

/-- Window 1's block at point `t` is rows `2000 t …` of its array. -/
theorem iblk1_1_apply (c : Dev nD) (t : Fin cfg1.N) (p : Fin 2000) (k : Fin 128) (P : Fin 100000)
    (hP : P.val = t.val * 2000 + p.val) :
    (iblk1 V c 1 t : Vec Ideal S2000x128 .f32) (ix2 p k) = (V c main_v2 : S100000x128.Idx → EReal) (ix2 P k) := by
  obtain ⟨-, -, e0, e1, -⟩ := idx_facts1 t
  unfold iblk1
  rw [View.read_apply]
  show V c main_v2 _ = V c main_v2 _
  congr 1
  funext a; apply Fin.ext
  match a with
  | ⟨0, _⟩ => show win1_1.index t (0 : Fin 2) * 2000 + 1 * p.val = P.val; rw [e0, hP]; omega
  | ⟨1, _⟩ => show win1_1.index t (1 : Fin 2) * 128 + 1 * k.val = k.val; rw [e1]; omega

/-- Window 2's block at point `t` is rows `2000 t …` of its array. -/
theorem iblk1_2_apply (c : Dev nD) (t : Fin cfg1.N) (p : Fin 2000) (k : Fin 128) (P : Fin 100000)
    (hP : P.val = t.val * 2000 + p.val) :
    (iblk1 V c 2 t : Vec Ideal S2000x128 .f32) (ix2 p k) = (V c main_v2 : S100000x128.Idx → EReal) (ix2 P k) := by
  obtain ⟨-, -, -, -, e0, e1, -⟩ := idx_facts1 t
  unfold iblk1
  rw [View.read_apply]
  show V c main_v2 _ = V c main_v2 _
  congr 1
  funext a; apply Fin.ext
  match a with
  | ⟨0, _⟩ => show win1_2.index t (0 : Fin 2) * 2000 + 1 * p.val = P.val; rw [e0, hP]; omega
  | ⟨1, _⟩ => show win1_2.index t (1 : Fin 2) * 128 + 1 * k.val = k.val; rw [e1]; omega

/-- The weight window's block at every point is the whole weight. -/
theorem iblk1_3_eq (c : Dev nD) (t : Fin cfg1.N) :
    (iblk1 V c 3 t : Vec Ideal S128x128 .f32) = (V c main_v17 : S128x128.Idx → EReal) := by
  obtain ⟨-, -, -, -, -, -, e6, e7, -⟩ := idx_facts1 t
  funext j
  unfold iblk1
  rw [View.read_apply]
  show V c main_v17 _ = V c main_v17 j
  congr 1
  funext a; apply Fin.ext
  match a with
  | ⟨0, _⟩ => show win1_3.index t (0 : Fin 2) * 128 + 1 * (j 0).val = (j 0).val; rw [e6]; omega
  | ⟨1, _⟩ => show win1_3.index t (1 : Fin 2) * 128 + 1 * (j 1).val = (j 1).val; rw [e7]; omega

/-- One grid point: when the three feature blocks are rows `2000 tv …` of the whole arrays, the block's layer at `y` is
    the whole layer at row `2000 tv + y₀`, column `y₁`. -/
theorem layer1_point (x0 : (⟨Cert.ReferenceIdeal.S100000x128, .f32⟩ : BufTy).Contents (Elt Ideal))
    (x1 x2 : (⟨Cert.ReferenceIdeal.S1600000, .i32⟩ : BufTy).Contents (Elt Ideal))
    (x3 : (⟨Cert.ReferenceIdeal.S1600000, .f32⟩ : BufTy).Contents (Elt Ideal))
    (x4 : (⟨Cert.ReferenceIdeal.S128x128, .f32⟩ : BufTy).Contents (Elt Ideal))
    (x5 : (⟨Cert.ReferenceIdeal.S128, .f32⟩ : BufTy).Contents (Elt Ideal))
    (x6 : (⟨Cert.ReferenceIdeal.S4x128x128, .f32⟩ : BufTy).Contents (Elt Ideal))
    (hiB h0B hB : Vec Ideal S2000x128 .f32) (tv : ℕ)
    (hhi : ∀ (p : Fin 2000) (k : Fin 128) (P : Fin 100000), P.val = tv * 2000 + p.val →
      hiB (ix2 p k) = val_main_v17 (F := Ideal) x0 x1 x2 x3 x4 x5 (ix2 P k))
    (hh0 : ∀ (p : Fin 2000) (k : Fin 128) (P : Fin 100000), P.val = tv * 2000 + p.val →
      h0B (ix2 p k) = val_main_v4 (F := Ideal) x0 x4 x5 (ix2 P k))
    (hh : ∀ (p : Fin 2000) (k : Fin 128) (P : Fin 100000), P.val = tv * 2000 + p.val →
      hB (ix2 p k) = val_main_v4 (F := Ideal) x0 x4 x5 (ix2 P k))
    (y : S2000x128.Idx) (i : S100000x128.Idx) (hi0 : (i 0).val = tv * 2000 + (y 0).val) (hi1 : (i 1).val = (y 1).val) :
    k1_pay1 (F := Ideal) hiB h0B hB (val_main_v24 (F := Ideal) x6) y = val_main_v32 (F := Ideal) x0 x1 x2 x3 x4 x5 x6 i := by
  obtain ⟨p, q, rfl⟩ : ∃ (p : Fin 2000) (q : Fin 128), y = ix2 p q := ⟨y 0, y 1, eq_ix2 y⟩
  obtain ⟨P, Q, rfl⟩ : ∃ (P : Fin 100000) (Q : Fin 128), i = ix2 P Q := ⟨i 0, i 1, eq_ix2 i⟩
  have hQ : Q = q := Fin.ext hi1
  rw [hQ]
  exact Cert.StageRows.layer0_row x0 x1 x2 x3 x4 x5 x6 hiB h0B hB (val_main_v24 (F := Ideal) x6) p P q (fun k => hhi p k P hi0)
    (fun k => hh0 p k P hi0) (fun k => hh p k P hi0) (fun _ => rfl)

/-- What point `t` writes back is block `t` of any whole-array function `G` that the point's payload agrees with, entry by
    entry, at the rows `2000 t …`. -/
theorem flushed1_of_point (c : Dev nD) (t : Fin cfg1.N)
    (G : (⟨Cert.ReferenceIdeal.S100000x128, .f32⟩ : BufTy).Contents (Elt Ideal))
    (hpt : ∀ (y : S2000x128.Idx) (i : S100000x128.Idx), (i 0).val = t.val * 2000 + (y 0).val → (i 1).val = (y 1).val →
      k1_pay1 (F := Ideal) (iblk1 V c 0 t) (iblk1 V c 1 t) (iblk1 V c 2 t) (iblk1 V c 3 t) y = G i) :
    (dat1 V c).flushed 4 t = ((cfg1.win 4).blk t).view.read (Elt Ideal) G := by
  show (cfg1.win 4).cut (grid1.coords t) ((dat1 V c).after 4 t) = _
  rw [after1_4]
  unfold out1_4
  rw [View.canon_unit_zero hz1]
  simp only [View.ld_unit_zero (S := S2000x128) hz1, View.ld_unit_zero (S := S128x128) hz1]
  obtain ⟨-, -, -, -, -, -, -, -, e8, e9⟩ := idx_facts1 t
  funext y
  rw [View.read_apply]
  show k1_pay1 (F := Ideal) (iblk1 V c 0 t) (iblk1 V c 1 t) (iblk1 V c 2 t) (iblk1 V c 3 t) y
    = G (((cfg1.win 4).blk t).view.emb y)
  refine hpt y _ ?_ ?_
  · show win1_4.index t (0 : Fin 2) * 2000 + 1 * (y 0).val = t.val * 2000 + (y 0).val
    rw [e8]; omega
  · show win1_4.index t (1 : Fin 2) * 128 + 1 * (y 1).val = (y 1).val
    rw [e9]; omega

/-- What point `t` writes back is block `t` of the whole layer. -/
theorem flushed1_eq (c : Dev nD) (x0 : (⟨Cert.ReferenceIdeal.S100000x128, .f32⟩ : BufTy).Contents (Elt Ideal))
    (x1 x2 : (⟨Cert.ReferenceIdeal.S1600000, .i32⟩ : BufTy).Contents (Elt Ideal))
    (x3 : (⟨Cert.ReferenceIdeal.S1600000, .f32⟩ : BufTy).Contents (Elt Ideal))
    (x4 : (⟨Cert.ReferenceIdeal.S128x128, .f32⟩ : BufTy).Contents (Elt Ideal))
    (x5 : (⟨Cert.ReferenceIdeal.S128, .f32⟩ : BufTy).Contents (Elt Ideal))
    (x6 : (⟨Cert.ReferenceIdeal.S4x128x128, .f32⟩ : BufTy).Contents (Elt Ideal))
    (hhi : V c main_v15 = val_main_v17 (F := Ideal) x0 x1 x2 x3 x4 x5) (hh0 : V c main_v2 = val_main_v4 (F := Ideal) x0 x4 x5)
    (hw : V c main_v17 = val_main_v24 (F := Ideal) x6)
    (t : Fin cfg1.N) :
    (dat1 V c).flushed 4 t = ((cfg1.win 4).blk t).view.read (Elt Ideal) (val_main_v32 (F := Ideal) x0 x1 x2 x3 x4 x5 x6) :=
  flushed1_of_point V c t (val_main_v32 (F := Ideal) x0 x1 x2 x3 x4 x5 x6) fun y i h0 h1 => by
    rw [iblk1_3_eq, hw]
    exact layer1_point x0 x1 x2 x3 x4 x5 x6 (iblk1 V c 0 t) (iblk1 V c 1 t) (iblk1 V c 2 t) t.val
      (fun p k P hP => by rw [iblk1_0_apply V c t p k P hP, hhi])
      (fun p k P hP => by rw [iblk1_1_apply V c t p k P hP, hh0])
      (fun p k P hP => by rw [iblk1_2_apply V c t p k P hP, hh0]) y i h0 h1

/-- An index of the array is in point `t`'s block iff each coordinate is in the block's range on its axis. -/
theorem mem_blk1 (t : Fin cfg1.N) (i : S100000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v18).slice (win1_4.rect t)).set ↔ _
  rw [View.set_slice_whole, Rect.mem_set_unit]
  exact Iff.rfl

/-- Every index of the array is in the block of the point `row / 2000`, which writes back. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have ht : (i 0).val / 2000 < cfg1.N := by show _ < grid1.N; rw [N_1]; omega
  obtain ⟨-, -, -, -, -, -, -, -, e8, e9⟩ := idx_facts1 ⟨(i 0).val / 2000, ht⟩
  have e8' : win1_4.index ⟨(i 0).val / 2000, ht⟩ (0 : Fin 2) = (i 0).val / 2000 := e8
  refine ⟨⟨(i 0).val / 2000, ht⟩, flush1_4 _, ?_⟩
  rw [mem_blk1]
  intro a
  match a with
  | ⟨0, _⟩ =>
    show win1_4.index ⟨(i 0).val / 2000, ht⟩ (0 : Fin 2) * 2000 ≤ (i 0).val
      ∧ (i 0).val < win1_4.index ⟨(i 0).val / 2000, ht⟩ (0 : Fin 2) * 2000 + 2000
    rw [e8']; omega
  | ⟨1, _⟩ =>
    show win1_4.index ⟨(i 0).val / 2000, ht⟩ (1 : Fin 2) * 128 ≤ (i 1).val
      ∧ (i 1).val < win1_4.index ⟨(i 0).val / 2000, ht⟩ (1 : Fin 2) * 128 + 128
    rw [e9]; omega

/-- THE ARRAY after the fifty points: the whole layer. -/
theorem region1_value (c : Dev nD) (x0 : (⟨Cert.ReferenceIdeal.S100000x128, .f32⟩ : BufTy).Contents (Elt Ideal))
    (x1 x2 : (⟨Cert.ReferenceIdeal.S1600000, .i32⟩ : BufTy).Contents (Elt Ideal))
    (x3 : (⟨Cert.ReferenceIdeal.S1600000, .f32⟩ : BufTy).Contents (Elt Ideal))
    (x4 : (⟨Cert.ReferenceIdeal.S128x128, .f32⟩ : BufTy).Contents (Elt Ideal))
    (x5 : (⟨Cert.ReferenceIdeal.S128, .f32⟩ : BufTy).Contents (Elt Ideal))
    (x6 : (⟨Cert.ReferenceIdeal.S4x128x128, .f32⟩ : BufTy).Contents (Elt Ideal))
    (hhi : V c main_v15 = val_main_v17 (F := Ideal) x0 x1 x2 x3 x4 x5) (hh0 : V c main_v2 = val_main_v4 (F := Ideal) x0 x4 x5)
    (hw : V c main_v17 = val_main_v24 (F := Ideal) x6) :
    (dat1 V c).arrAt 4 cfg1.N = val_main_v32 (F := Ideal) x0 x1 x2 x3 x4 x5 x6 :=
  (dat1 V c).arrAt_eq_of_cover 4 (val_main_v32 (F := Ideal) x0 x1 x2 x3 x4 x5 x6)
    (fun t _ => flushed1_eq V c x0 x1 x2 x3 x4 x5 x6 hhi hh0 hw t) cover1

end Cert.RegionValue

end
-- ==== Proof.RegionValue2.lean ====
/-
  From blocks to the array, for the second layer: after all fifty grid points the output array is the layer
  `max ((θ · (s · W) + θ' · s) + h) 0`, `s = 0.9 · hi + 0.1 · h0`, of the whole arrays, as one function of the index.

  Grid point `t` works on rows `2000 t … 2000 t + 1999`: its blocks of the aggregated, initial and current features
  are those rows, its weight block is the whole weight, and what it writes back is those rows of the result. Every row
  lies in the block of point `row / 2000`, so the fifty blocks written back fill the array.
-/
import Idealize.ShloMosaic.Lib.Pipeline.Value
import proofs.«100143_j39058432590072_1_alg».proof.Proof.KIRegion2
import proofs.«100143_j39058432590072_1_alg».proof.Proof.StageRows

noncomputable section

namespace Cert.RegionValue

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)
open Cert.ReferenceIdeal.ReadP

variable (V : (c : Dev nD) → (b : Ref sig .tc) → Buf (Elt Ideal) ((c : Thread nD τ).loc b))

/-- The zero offsets, as a function. -/
theorem hz2 : (![0, 0] : Fin 2 → Nat) = fun _ => 0 := funext fun a => by fin_cases a <;> rfl

/-- The index maps over the grid: the row windows' block index is the point, every other block index is zero. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Window 0's block at point `t` is rows `2000 t …` of its array. -/
theorem iblk2_0_apply (c : Dev nD) (t : Fin cfg2.N) (p : Fin 2000) (k : Fin 128) (P : Fin 100000)
    (hP : P.val = t.val * 2000 + p.val) :
    (iblk2 V c 0 t : Vec Ideal S2000x128 .f32) (ix2 p k) = (V c main_v31 : S100000x128.Idx → EReal) (ix2 P k) := by
  obtain ⟨e0, e1, -⟩ := idx_facts2 t
  unfold iblk2
  rw [View.read_apply]
  show V c main_v31 _ = V c main_v31 _
  congr 1
  funext a; apply Fin.ext
  match a with
  | ⟨0, _⟩ => show win2_0.index t (0 : Fin 2) * 2000 + 1 * p.val = P.val; rw [e0, hP]; omega
  | ⟨1, _⟩ => show win2_0.index t (1 : Fin 2) * 128 + 1 * k.val = k.val; rw [e1]; omega

/-- Window 1's block at point `t` is rows `2000 t …` of its array. -/
theorem iblk2_1_apply (c : Dev nD) (t : Fin cfg2.N) (p : Fin 2000) (k : Fin 128) (P : Fin 100000)
    (hP : P.val = t.val * 2000 + p.val) :
    (iblk2 V c 1 t : Vec Ideal S2000x128 .f32) (ix2 p k) = (V c main_v2 : S100000x128.Idx → EReal) (ix2 P k) := by
  obtain ⟨-, -, e0, e1, -⟩ := idx_facts2 t
  unfold iblk2
  rw [View.read_apply]
  show V c main_v2 _ = V c main_v2 _
  congr 1
  funext a; apply Fin.ext
  match a with
  | ⟨0, _⟩ => show win2_1.index t (0 : Fin 2) * 2000 + 1 * p.val = P.val; rw [e0, hP]; omega
  | ⟨1, _⟩ => show win2_1.index t (1 : Fin 2) * 128 + 1 * k.val = k.val; rw [e1]; omega

/-- Window 2's block at point `t` is rows `2000 t …` of its array. -/
theorem iblk2_2_apply (c : Dev nD) (t : Fin cfg2.N) (p : Fin 2000) (k : Fin 128) (P : Fin 100000)
    (hP : P.val = t.val * 2000 + p.val) :
    (iblk2 V c 2 t : Vec Ideal S2000x128 .f32) (ix2 p k) = (V c main_v18 : S100000x128.Idx → EReal) (ix2 P k) := by
  obtain ⟨-, -, -, -, e0, e1, -⟩ := idx_facts2 t
  unfold iblk2
  rw [View.read_apply]
  show V c main_v18 _ = V c main_v18 _
  congr 1
  funext a; apply Fin.ext
  match a with
  | ⟨0, _⟩ => show win2_2.index t (0 : Fin 2) * 2000 + 1 * p.val = P.val; rw [e0, hP]; omega
  | ⟨1, _⟩ => show win2_2.index t (1 : Fin 2) * 128 + 1 * k.val = k.val; rw [e1]; omega

/-- The weight window's block at every point is the whole weight. -/
theorem iblk2_3_eq (c : Dev nD) (t : Fin cfg2.N) :
    (iblk2 V c 3 t : Vec Ideal S128x128 .f32) = (V c main_v33 : S128x128.Idx → EReal) := by
  obtain ⟨-, -, -, -, -, -, e6, e7, -⟩ := idx_facts2 t
  funext j
  unfold iblk2
  rw [View.read_apply]
  show V c main_v33 _ = V c main_v33 j
  congr 1
  funext a; apply Fin.ext
  match a with
  | ⟨0, _⟩ => show win2_3.index t (0 : Fin 2) * 128 + 1 * (j 0).val = (j 0).val; rw [e6]; omega
  | ⟨1, _⟩ => show win2_3.index t (1 : Fin 2) * 128 + 1 * (j 1).val = (j 1).val; rw [e7]; omega

/-- One grid point: when the three feature blocks are rows `2000 tv …` of the whole arrays, the block's layer at `y` is
    the whole layer at row `2000 tv + y₀`, column `y₁`. -/
theorem layer2_point (x0 : (⟨Cert.ReferenceIdeal.S100000x128, .f32⟩ : BufTy).Contents (Elt Ideal))
    (x1 x2 : (⟨Cert.ReferenceIdeal.S1600000, .i32⟩ : BufTy).Contents (Elt Ideal))
    (x3 : (⟨Cert.ReferenceIdeal.S1600000, .f32⟩ : BufTy).Contents (Elt Ideal))
    (x4 : (⟨Cert.ReferenceIdeal.S128x128, .f32⟩ : BufTy).Contents (Elt Ideal))
    (x5 : (⟨Cert.ReferenceIdeal.S128, .f32⟩ : BufTy).Contents (Elt Ideal))
    (x6 : (⟨Cert.ReferenceIdeal.S4x128x128, .f32⟩ : BufTy).Contents (Elt Ideal))
    (hiB h0B hB : Vec Ideal S2000x128 .f32) (tv : ℕ)
    (hhi : ∀ (p : Fin 2000) (k : Fin 128) (P : Fin 100000), P.val = tv * 2000 + p.val →
      hiB (ix2 p k) = val_main_v45 (F := Ideal) x0 x1 x2 x3 x4 x5 x6 (ix2 P k))
    (hh0 : ∀ (p : Fin 2000) (k : Fin 128) (P : Fin 100000), P.val = tv * 2000 + p.val →
      h0B (ix2 p k) = val_main_v4 (F := Ideal) x0 x4 x5 (ix2 P k))
    (hh : ∀ (p : Fin 2000) (k : Fin 128) (P : Fin 100000), P.val = tv * 2000 + p.val →
      hB (ix2 p k) = val_main_v32 (F := Ideal) x0 x1 x2 x3 x4 x5 x6 (ix2 P k))
    (y : S2000x128.Idx) (i : S100000x128.Idx) (hi0 : (i 0).val = tv * 2000 + (y 0).val) (hi1 : (i 1).val = (y 1).val) :
    k2_pay1 (F := Ideal) hiB h0B hB (val_main_v52 (F := Ideal) x6) y = val_main_v60 (F := Ideal) x0 x1 x2 x3 x4 x5 x6 i := by
  obtain ⟨p, q, rfl⟩ : ∃ (p : Fin 2000) (q : Fin 128), y = ix2 p q := ⟨y 0, y 1, eq_ix2 y⟩
  obtain ⟨P, Q, rfl⟩ : ∃ (P : Fin 100000) (Q : Fin 128), i = ix2 P Q := ⟨i 0, i 1, eq_ix2 i⟩
  have hQ : Q = q := Fin.ext hi1
  rw [hQ]
  exact Cert.StageRows.layer1_row x0 x1 x2 x3 x4 x5 x6 hiB h0B hB (val_main_v52 (F := Ideal) x6) p P q (fun k => hhi p k P hi0)
    (fun k => hh0 p k P hi0) (fun k => hh p k P hi0) (fun _ => rfl)

/-- What point `t` writes back is block `t` of any whole-array function `G` that the point's payload agrees with, entry by
    entry, at the rows `2000 t …`. -/
theorem flushed2_of_point (c : Dev nD) (t : Fin cfg2.N)
    (G : (⟨Cert.ReferenceIdeal.S100000x128, .f32⟩ : BufTy).Contents (Elt Ideal))
    (hpt : ∀ (y : S2000x128.Idx) (i : S100000x128.Idx), (i 0).val = t.val * 2000 + (y 0).val → (i 1).val = (y 1).val →
      k2_pay1 (F := Ideal) (iblk2 V c 0 t) (iblk2 V c 1 t) (iblk2 V c 2 t) (iblk2 V c 3 t) y = G i) :
    (dat2 V c).flushed 4 t = ((cfg2.win 4).blk t).view.read (Elt Ideal) G := by
  show (cfg2.win 4).cut (grid2.coords t) ((dat2 V c).after 4 t) = _
  rw [after2_4]
  unfold out2_4
  rw [View.canon_unit_zero hz2]
  simp only [View.ld_unit_zero (S := S2000x128) hz2, View.ld_unit_zero (S := S128x128) hz2]
  obtain ⟨-, -, -, -, -, -, -, -, e8, e9⟩ := idx_facts2 t
  funext y
  rw [View.read_apply]
  show k2_pay1 (F := Ideal) (iblk2 V c 0 t) (iblk2 V c 1 t) (iblk2 V c 2 t) (iblk2 V c 3 t) y
    = G (((cfg2.win 4).blk t).view.emb y)
  refine hpt y _ ?_ ?_
  · show win2_4.index t (0 : Fin 2) * 2000 + 1 * (y 0).val = t.val * 2000 + (y 0).val
    rw [e8]; omega
  · show win2_4.index t (1 : Fin 2) * 128 + 1 * (y 1).val = (y 1).val
    rw [e9]; omega

/-- What point `t` writes back is block `t` of the whole layer. -/
theorem flushed2_eq (c : Dev nD) (x0 : (⟨Cert.ReferenceIdeal.S100000x128, .f32⟩ : BufTy).Contents (Elt Ideal))
    (x1 x2 : (⟨Cert.ReferenceIdeal.S1600000, .i32⟩ : BufTy).Contents (Elt Ideal))
    (x3 : (⟨Cert.ReferenceIdeal.S1600000, .f32⟩ : BufTy).Contents (Elt Ideal))
    (x4 : (⟨Cert.ReferenceIdeal.S128x128, .f32⟩ : BufTy).Contents (Elt Ideal))
    (x5 : (⟨Cert.ReferenceIdeal.S128, .f32⟩ : BufTy).Contents (Elt Ideal))
    (x6 : (⟨Cert.ReferenceIdeal.S4x128x128, .f32⟩ : BufTy).Contents (Elt Ideal))
    (hhi : V c main_v31 = val_main_v45 (F := Ideal) x0 x1 x2 x3 x4 x5 x6) (hh0 : V c main_v2 = val_main_v4 (F := Ideal) x0 x4 x5)
    (hh : V c main_v18 = val_main_v32 (F := Ideal) x0 x1 x2 x3 x4 x5 x6)
    (hw : V c main_v33 = val_main_v52 (F := Ideal) x6)
    (t : Fin cfg2.N) :
    (dat2 V c).flushed 4 t = ((cfg2.win 4).blk t).view.read (Elt Ideal) (val_main_v60 (F := Ideal) x0 x1 x2 x3 x4 x5 x6) :=
  flushed2_of_point V c t (val_main_v60 (F := Ideal) x0 x1 x2 x3 x4 x5 x6) fun y i h0 h1 => by
    rw [iblk2_3_eq, hw]
    exact layer2_point x0 x1 x2 x3 x4 x5 x6 (iblk2 V c 0 t) (iblk2 V c 1 t) (iblk2 V c 2 t) t.val
      (fun p k P hP => by rw [iblk2_0_apply V c t p k P hP, hhi])
      (fun p k P hP => by rw [iblk2_1_apply V c t p k P hP, hh0])
      (fun p k P hP => by rw [iblk2_2_apply V c t p k P hP, hh]) y i h0 h1

/-- An index of the array is in point `t`'s block iff each coordinate is in the block's range on its axis. -/
theorem mem_blk2 (t : Fin cfg2.N) (i : S100000x128.Idx) :
    i ∈ ((cfg2.win 4).blk t).view.set ↔ ∀ a : Fin 2, win2_4.index t a * S2000x128.size a ≤ (i a).val
      ∧ (i a).val < win2_4.index t a * S2000x128.size a + S2000x128.size a := by
  show i ∈ ((View.whole main_v34).slice (win2_4.rect t)).set ↔ _
  rw [View.set_slice_whole, Rect.mem_set_unit]
  exact Iff.rfl

/-- Every index of the array is in the block of the point `row / 2000`, which writes back. -/
theorem cover2 (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have ht : (i 0).val / 2000 < cfg2.N := by show _ < grid2.N; rw [N_2]; omega
  obtain ⟨-, -, -, -, -, -, -, -, e8, e9⟩ := idx_facts2 ⟨(i 0).val / 2000, ht⟩
  have e8' : win2_4.index ⟨(i 0).val / 2000, ht⟩ (0 : Fin 2) = (i 0).val / 2000 := e8
  refine ⟨⟨(i 0).val / 2000, ht⟩, flush2_4 _, ?_⟩
  rw [mem_blk2]
  intro a
  match a with
  | ⟨0, _⟩ =>
    show win2_4.index ⟨(i 0).val / 2000, ht⟩ (0 : Fin 2) * 2000 ≤ (i 0).val
      ∧ (i 0).val < win2_4.index ⟨(i 0).val / 2000, ht⟩ (0 : Fin 2) * 2000 + 2000
    rw [e8']; omega
  | ⟨1, _⟩ =>
    show win2_4.index ⟨(i 0).val / 2000, ht⟩ (1 : Fin 2) * 128 ≤ (i 1).val
      ∧ (i 1).val < win2_4.index ⟨(i 0).val / 2000, ht⟩ (1 : Fin 2) * 128 + 128
    rw [e9]; omega

/-- THE ARRAY after the fifty points: the whole layer. -/
theorem region2_value (c : Dev nD) (x0 : (⟨Cert.ReferenceIdeal.S100000x128, .f32⟩ : BufTy).Contents (Elt Ideal))
    (x1 x2 : (⟨Cert.ReferenceIdeal.S1600000, .i32⟩ : BufTy).Contents (Elt Ideal))
    (x3 : (⟨Cert.ReferenceIdeal.S1600000, .f32⟩ : BufTy).Contents (Elt Ideal))
    (x4 : (⟨Cert.ReferenceIdeal.S128x128, .f32⟩ : BufTy).Contents (Elt Ideal))
    (x5 : (⟨Cert.ReferenceIdeal.S128, .f32⟩ : BufTy).Contents (Elt Ideal))
    (x6 : (⟨Cert.ReferenceIdeal.S4x128x128, .f32⟩ : BufTy).Contents (Elt Ideal))
    (hhi : V c main_v31 = val_main_v45 (F := Ideal) x0 x1 x2 x3 x4 x5 x6) (hh0 : V c main_v2 = val_main_v4 (F := Ideal) x0 x4 x5)
    (hh : V c main_v18 = val_main_v32 (F := Ideal) x0 x1 x2 x3 x4 x5 x6)
    (hw : V c main_v33 = val_main_v52 (F := Ideal) x6) :
    (dat2 V c).arrAt 4 cfg2.N = val_main_v60 (F := Ideal) x0 x1 x2 x3 x4 x5 x6 :=
  (dat2 V c).arrAt_eq_of_cover 4 (val_main_v60 (F := Ideal) x0 x1 x2 x3 x4 x5 x6)
    (fun t _ => flushed2_eq V c x0 x1 x2 x3 x4 x5 x6 hhi hh0 hh hw t) cover2

end Cert.RegionValue

end
-- ==== Proof.RegionValue3.lean ====
/-
  From blocks to the array, for the third layer: after all fifty grid points the output array is the layer
  `max ((θ · (s · W) + θ' · s) + h) 0`, `s = 0.9 · hi + 0.1 · h0`, of the whole arrays, as one function of the index.

  Grid point `t` works on rows `2000 t … 2000 t + 1999`: its blocks of the aggregated, initial and current features
  are those rows, its weight block is the whole weight, and what it writes back is those rows of the result. Every row
  lies in the block of point `row / 2000`, so the fifty blocks written back fill the array.
-/
import Idealize.ShloMosaic.Lib.Pipeline.Value
import proofs.«100143_j39058432590072_1_alg».proof.Proof.KIRegion3
import proofs.«100143_j39058432590072_1_alg».proof.Proof.StageRows

noncomputable section

namespace Cert.RegionValue

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)
open Cert.ReferenceIdeal.ReadP

variable (V : (c : Dev nD) → (b : Ref sig .tc) → Buf (Elt Ideal) ((c : Thread nD τ).loc b))

/-- The zero offsets, as a function. -/
theorem hz3 : (![0, 0] : Fin 2 → Nat) = fun _ => 0 := funext fun a => by fin_cases a <;> rfl

/-- The index maps over the grid: the row windows' block index is the point, every other block index is zero. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Window 0's block at point `t` is rows `2000 t …` of its array. -/
theorem iblk3_0_apply (c : Dev nD) (t : Fin cfg3.N) (p : Fin 2000) (k : Fin 128) (P : Fin 100000)
    (hP : P.val = t.val * 2000 + p.val) :
    (iblk3 V c 0 t : Vec Ideal S2000x128 .f32) (ix2 p k) = (V c main_v47 : S100000x128.Idx → EReal) (ix2 P k) := by
  obtain ⟨e0, e1, -⟩ := idx_facts3 t
  unfold iblk3
  rw [View.read_apply]
  show V c main_v47 _ = V c main_v47 _
  congr 1
  funext a; apply Fin.ext
  match a with
  | ⟨0, _⟩ => show win3_0.index t (0 : Fin 2) * 2000 + 1 * p.val = P.val; rw [e0, hP]; omega
  | ⟨1, _⟩ => show win3_0.index t (1 : Fin 2) * 128 + 1 * k.val = k.val; rw [e1]; omega

/-- Window 1's block at point `t` is rows `2000 t …` of its array. -/
theorem iblk3_1_apply (c : Dev nD) (t : Fin cfg3.N) (p : Fin 2000) (k : Fin 128) (P : Fin 100000)
    (hP : P.val = t.val * 2000 + p.val) :
    (iblk3 V c 1 t : Vec Ideal S2000x128 .f32) (ix2 p k) = (V c main_v2 : S100000x128.Idx → EReal) (ix2 P k) := by
  obtain ⟨-, -, e0, e1, -⟩ := idx_facts3 t
  unfold iblk3
  rw [View.read_apply]
  show V c main_v2 _ = V c main_v2 _
  congr 1
  funext a; apply Fin.ext
  match a with
  | ⟨0, _⟩ => show win3_1.index t (0 : Fin 2) * 2000 + 1 * p.val = P.val; rw [e0, hP]; omega
  | ⟨1, _⟩ => show win3_1.index t (1 : Fin 2) * 128 + 1 * k.val = k.val; rw [e1]; omega

/-- Window 2's block at point `t` is rows `2000 t …` of its array. -/
theorem iblk3_2_apply (c : Dev nD) (t : Fin cfg3.N) (p : Fin 2000) (k : Fin 128) (P : Fin 100000)
    (hP : P.val = t.val * 2000 + p.val) :
    (iblk3 V c 2 t : Vec Ideal S2000x128 .f32) (ix2 p k) = (V c main_v34 : S100000x128.Idx → EReal) (ix2 P k) := by
  obtain ⟨-, -, -, -, e0, e1, -⟩ := idx_facts3 t
  unfold iblk3
  rw [View.read_apply]
  show V c main_v34 _ = V c main_v34 _
  congr 1
  funext a; apply Fin.ext
  match a with
  | ⟨0, _⟩ => show win3_2.index t (0 : Fin 2) * 2000 + 1 * p.val = P.val; rw [e0, hP]; omega
  | ⟨1, _⟩ => show win3_2.index t (1 : Fin 2) * 128 + 1 * k.val = k.val; rw [e1]; omega

/-- The weight window's block at every point is the whole weight. -/
theorem iblk3_3_eq (c : Dev nD) (t : Fin cfg3.N) :
    (iblk3 V c 3 t : Vec Ideal S128x128 .f32) = (V c main_v49 : S128x128.Idx → EReal) := by
  obtain ⟨-, -, -, -, -, -, e6, e7, -⟩ := idx_facts3 t
  funext j
  unfold iblk3
  rw [View.read_apply]
  show V c main_v49 _ = V c main_v49 j
  congr 1
  funext a; apply Fin.ext
  match a with
  | ⟨0, _⟩ => show win3_3.index t (0 : Fin 2) * 128 + 1 * (j 0).val = (j 0).val; rw [e6]; omega
  | ⟨1, _⟩ => show win3_3.index t (1 : Fin 2) * 128 + 1 * (j 1).val = (j 1).val; rw [e7]; omega

/-- One grid point: when the three feature blocks are rows `2000 tv …` of the whole arrays, the block's layer at `y` is
    the whole layer at row `2000 tv + y₀`, column `y₁`. -/
theorem layer3_point (x0 : (⟨Cert.ReferenceIdeal.S100000x128, .f32⟩ : BufTy).Contents (Elt Ideal))
    (x1 x2 : (⟨Cert.ReferenceIdeal.S1600000, .i32⟩ : BufTy).Contents (Elt Ideal))
    (x3 : (⟨Cert.ReferenceIdeal.S1600000, .f32⟩ : BufTy).Contents (Elt Ideal))
    (x4 : (⟨Cert.ReferenceIdeal.S128x128, .f32⟩ : BufTy).Contents (Elt Ideal))
    (x5 : (⟨Cert.ReferenceIdeal.S128, .f32⟩ : BufTy).Contents (Elt Ideal))
    (x6 : (⟨Cert.ReferenceIdeal.S4x128x128, .f32⟩ : BufTy).Contents (Elt Ideal))
    (hiB h0B hB : Vec Ideal S2000x128 .f32) (tv : ℕ)
    (hhi : ∀ (p : Fin 2000) (k : Fin 128) (P : Fin 100000), P.val = tv * 2000 + p.val →
      hiB (ix2 p k) = val_main_v73 (F := Ideal) x0 x1 x2 x3 x4 x5 x6 (ix2 P k))
    (hh0 : ∀ (p : Fin 2000) (k : Fin 128) (P : Fin 100000), P.val = tv * 2000 + p.val →
      h0B (ix2 p k) = val_main_v4 (F := Ideal) x0 x4 x5 (ix2 P k))
    (hh : ∀ (p : Fin 2000) (k : Fin 128) (P : Fin 100000), P.val = tv * 2000 + p.val →
      hB (ix2 p k) = val_main_v60 (F := Ideal) x0 x1 x2 x3 x4 x5 x6 (ix2 P k))
    (y : S2000x128.Idx) (i : S100000x128.Idx) (hi0 : (i 0).val = tv * 2000 + (y 0).val) (hi1 : (i 1).val = (y 1).val) :
    k3_pay1 (F := Ideal) hiB h0B hB (val_main_v80 (F := Ideal) x6) y = val_main_v88 (F := Ideal) x0 x1 x2 x3 x4 x5 x6 i := by
  obtain ⟨p, q, rfl⟩ : ∃ (p : Fin 2000) (q : Fin 128), y = ix2 p q := ⟨y 0, y 1, eq_ix2 y⟩
  obtain ⟨P, Q, rfl⟩ : ∃ (P : Fin 100000) (Q : Fin 128), i = ix2 P Q := ⟨i 0, i 1, eq_ix2 i⟩
  have hQ : Q = q := Fin.ext hi1
  rw [hQ]
  exact Cert.StageRows.layer2_row x0 x1 x2 x3 x4 x5 x6 hiB h0B hB (val_main_v80 (F := Ideal) x6) p P q (fun k => hhi p k P hi0)
    (fun k => hh0 p k P hi0) (fun k => hh p k P hi0) (fun _ => rfl)

/-- What point `t` writes back is block `t` of any whole-array function `G` that the point's payload agrees with, entry by
    entry, at the rows `2000 t …`. -/
theorem flushed3_of_point (c : Dev nD) (t : Fin cfg3.N)
    (G : (⟨Cert.ReferenceIdeal.S100000x128, .f32⟩ : BufTy).Contents (Elt Ideal))
    (hpt : ∀ (y : S2000x128.Idx) (i : S100000x128.Idx), (i 0).val = t.val * 2000 + (y 0).val → (i 1).val = (y 1).val →
      k3_pay1 (F := Ideal) (iblk3 V c 0 t) (iblk3 V c 1 t) (iblk3 V c 2 t) (iblk3 V c 3 t) y = G i) :
    (dat3 V c).flushed 4 t = ((cfg3.win 4).blk t).view.read (Elt Ideal) G := by
  show (cfg3.win 4).cut (grid3.coords t) ((dat3 V c).after 4 t) = _
  rw [after3_4]
  unfold out3_4
  rw [View.canon_unit_zero hz3]
  simp only [View.ld_unit_zero (S := S2000x128) hz3, View.ld_unit_zero (S := S128x128) hz3]
  obtain ⟨-, -, -, -, -, -, -, -, e8, e9⟩ := idx_facts3 t
  funext y
  rw [View.read_apply]
  show k3_pay1 (F := Ideal) (iblk3 V c 0 t) (iblk3 V c 1 t) (iblk3 V c 2 t) (iblk3 V c 3 t) y
    = G (((cfg3.win 4).blk t).view.emb y)
  refine hpt y _ ?_ ?_
  · show win3_4.index t (0 : Fin 2) * 2000 + 1 * (y 0).val = t.val * 2000 + (y 0).val
    rw [e8]; omega
  · show win3_4.index t (1 : Fin 2) * 128 + 1 * (y 1).val = (y 1).val
    rw [e9]; omega

/-- What point `t` writes back is block `t` of the whole layer. -/
theorem flushed3_eq (c : Dev nD) (x0 : (⟨Cert.ReferenceIdeal.S100000x128, .f32⟩ : BufTy).Contents (Elt Ideal))
    (x1 x2 : (⟨Cert.ReferenceIdeal.S1600000, .i32⟩ : BufTy).Contents (Elt Ideal))
    (x3 : (⟨Cert.ReferenceIdeal.S1600000, .f32⟩ : BufTy).Contents (Elt Ideal))
    (x4 : (⟨Cert.ReferenceIdeal.S128x128, .f32⟩ : BufTy).Contents (Elt Ideal))
    (x5 : (⟨Cert.ReferenceIdeal.S128, .f32⟩ : BufTy).Contents (Elt Ideal))
    (x6 : (⟨Cert.ReferenceIdeal.S4x128x128, .f32⟩ : BufTy).Contents (Elt Ideal))
    (hhi : V c main_v47 = val_main_v73 (F := Ideal) x0 x1 x2 x3 x4 x5 x6) (hh0 : V c main_v2 = val_main_v4 (F := Ideal) x0 x4 x5)
    (hh : V c main_v34 = val_main_v60 (F := Ideal) x0 x1 x2 x3 x4 x5 x6)
    (hw : V c main_v49 = val_main_v80 (F := Ideal) x6)
    (t : Fin cfg3.N) :
    (dat3 V c).flushed 4 t = ((cfg3.win 4).blk t).view.read (Elt Ideal) (val_main_v88 (F := Ideal) x0 x1 x2 x3 x4 x5 x6) :=
  flushed3_of_point V c t (val_main_v88 (F := Ideal) x0 x1 x2 x3 x4 x5 x6) fun y i h0 h1 => by
    rw [iblk3_3_eq, hw]
    exact layer3_point x0 x1 x2 x3 x4 x5 x6 (iblk3 V c 0 t) (iblk3 V c 1 t) (iblk3 V c 2 t) t.val
      (fun p k P hP => by rw [iblk3_0_apply V c t p k P hP, hhi])
      (fun p k P hP => by rw [iblk3_1_apply V c t p k P hP, hh0])
      (fun p k P hP => by rw [iblk3_2_apply V c t p k P hP, hh]) y i h0 h1

/-- An index of the array is in point `t`'s block iff each coordinate is in the block's range on its axis. -/
theorem mem_blk3 (t : Fin cfg3.N) (i : S100000x128.Idx) :
    i ∈ ((cfg3.win 4).blk t).view.set ↔ ∀ a : Fin 2, win3_4.index t a * S2000x128.size a ≤ (i a).val
      ∧ (i a).val < win3_4.index t a * S2000x128.size a + S2000x128.size a := by
  show i ∈ ((View.whole main_v50).slice (win3_4.rect t)).set ↔ _
  rw [View.set_slice_whole, Rect.mem_set_unit]
  exact Iff.rfl

/-- Every index of the array is in the block of the point `row / 2000`, which writes back. -/
theorem cover3 (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have ht : (i 0).val / 2000 < cfg3.N := by show _ < grid3.N; rw [N_3]; omega
  obtain ⟨-, -, -, -, -, -, -, -, e8, e9⟩ := idx_facts3 ⟨(i 0).val / 2000, ht⟩
  have e8' : win3_4.index ⟨(i 0).val / 2000, ht⟩ (0 : Fin 2) = (i 0).val / 2000 := e8
  refine ⟨⟨(i 0).val / 2000, ht⟩, flush3_4 _, ?_⟩
  rw [mem_blk3]
  intro a
  match a with
  | ⟨0, _⟩ =>
    show win3_4.index ⟨(i 0).val / 2000, ht⟩ (0 : Fin 2) * 2000 ≤ (i 0).val
      ∧ (i 0).val < win3_4.index ⟨(i 0).val / 2000, ht⟩ (0 : Fin 2) * 2000 + 2000
    rw [e8']; omega
  | ⟨1, _⟩ =>
    show win3_4.index ⟨(i 0).val / 2000, ht⟩ (1 : Fin 2) * 128 ≤ (i 1).val
      ∧ (i 1).val < win3_4.index ⟨(i 0).val / 2000, ht⟩ (1 : Fin 2) * 128 + 128
    rw [e9]; omega

/-- THE ARRAY after the fifty points: the whole layer. -/
theorem region3_value (c : Dev nD) (x0 : (⟨Cert.ReferenceIdeal.S100000x128, .f32⟩ : BufTy).Contents (Elt Ideal))
    (x1 x2 : (⟨Cert.ReferenceIdeal.S1600000, .i32⟩ : BufTy).Contents (Elt Ideal))
    (x3 : (⟨Cert.ReferenceIdeal.S1600000, .f32⟩ : BufTy).Contents (Elt Ideal))
    (x4 : (⟨Cert.ReferenceIdeal.S128x128, .f32⟩ : BufTy).Contents (Elt Ideal))
    (x5 : (⟨Cert.ReferenceIdeal.S128, .f32⟩ : BufTy).Contents (Elt Ideal))
    (x6 : (⟨Cert.ReferenceIdeal.S4x128x128, .f32⟩ : BufTy).Contents (Elt Ideal))
    (hhi : V c main_v47 = val_main_v73 (F := Ideal) x0 x1 x2 x3 x4 x5 x6) (hh0 : V c main_v2 = val_main_v4 (F := Ideal) x0 x4 x5)
    (hh : V c main_v34 = val_main_v60 (F := Ideal) x0 x1 x2 x3 x4 x5 x6)
    (hw : V c main_v49 = val_main_v80 (F := Ideal) x6) :
    (dat3 V c).arrAt 4 cfg3.N = val_main_v88 (F := Ideal) x0 x1 x2 x3 x4 x5 x6 :=
  (dat3 V c).arrAt_eq_of_cover 4 (val_main_v88 (F := Ideal) x0 x1 x2 x3 x4 x5 x6)
    (fun t _ => flushed3_eq V c x0 x1 x2 x3 x4 x5 x6 hhi hh0 hh hw t) cover3

end Cert.RegionValue

end
-- ==== Proof.RegionValue4.lean ====
/-
  From blocks to the array, for the fourth layer: after all fifty grid points the output array is the layer
  `max ((θ · (s · W) + θ' · s) + h) 0`, `s = 0.9 · hi + 0.1 · h0`, of the whole arrays, as one function of the index.

  Grid point `t` works on rows `2000 t … 2000 t + 1999`: its blocks of the aggregated, initial and current features
  are those rows, its weight block is the whole weight, and what it writes back is those rows of the result. Every row
  lies in the block of point `row / 2000`, so the fifty blocks written back fill the array.
-/
import Idealize.ShloMosaic.Lib.Pipeline.Value
import proofs.«100143_j39058432590072_1_alg».proof.Proof.KIRegion4
import proofs.«100143_j39058432590072_1_alg».proof.Proof.StageRows

noncomputable section

namespace Cert.RegionValue

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)
open Cert.ReferenceIdeal.ReadP

variable (V : (c : Dev nD) → (b : Ref sig .tc) → Buf (Elt Ideal) ((c : Thread nD τ).loc b))

/-- The zero offsets, as a function. -/
theorem hz4 : (![0, 0] : Fin 2 → Nat) = fun _ => 0 := funext fun a => by fin_cases a <;> rfl

/-- The index maps over the grid: the row windows' block index is the point, every other block index is zero. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Window 0's block at point `t` is rows `2000 t …` of its array. -/
theorem iblk4_0_apply (c : Dev nD) (t : Fin cfg4.N) (p : Fin 2000) (k : Fin 128) (P : Fin 100000)
    (hP : P.val = t.val * 2000 + p.val) :
    (iblk4 V c 0 t : Vec Ideal S2000x128 .f32) (ix2 p k) = (V c main_v63 : S100000x128.Idx → EReal) (ix2 P k) := by
  obtain ⟨e0, e1, -⟩ := idx_facts4 t
  unfold iblk4
  rw [View.read_apply]
  show V c main_v63 _ = V c main_v63 _
  congr 1
  funext a; apply Fin.ext
  match a with
  | ⟨0, _⟩ => show win4_0.index t (0 : Fin 2) * 2000 + 1 * p.val = P.val; rw [e0, hP]; omega
  | ⟨1, _⟩ => show win4_0.index t (1 : Fin 2) * 128 + 1 * k.val = k.val; rw [e1]; omega

/-- Window 1's block at point `t` is rows `2000 t …` of its array. -/
theorem iblk4_1_apply (c : Dev nD) (t : Fin cfg4.N) (p : Fin 2000) (k : Fin 128) (P : Fin 100000)
    (hP : P.val = t.val * 2000 + p.val) :
    (iblk4 V c 1 t : Vec Ideal S2000x128 .f32) (ix2 p k) = (V c main_v2 : S100000x128.Idx → EReal) (ix2 P k) := by
  obtain ⟨-, -, e0, e1, -⟩ := idx_facts4 t
  unfold iblk4
  rw [View.read_apply]
  show V c main_v2 _ = V c main_v2 _
  congr 1
  funext a; apply Fin.ext
  match a with
  | ⟨0, _⟩ => show win4_1.index t (0 : Fin 2) * 2000 + 1 * p.val = P.val; rw [e0, hP]; omega
  | ⟨1, _⟩ => show win4_1.index t (1 : Fin 2) * 128 + 1 * k.val = k.val; rw [e1]; omega

/-- Window 2's block at point `t` is rows `2000 t …` of its array. -/
theorem iblk4_2_apply (c : Dev nD) (t : Fin cfg4.N) (p : Fin 2000) (k : Fin 128) (P : Fin 100000)
    (hP : P.val = t.val * 2000 + p.val) :
    (iblk4 V c 2 t : Vec Ideal S2000x128 .f32) (ix2 p k) = (V c main_v50 : S100000x128.Idx → EReal) (ix2 P k) := by
  obtain ⟨-, -, -, -, e0, e1, -⟩ := idx_facts4 t
  unfold iblk4
  rw [View.read_apply]
  show V c main_v50 _ = V c main_v50 _
  congr 1
  funext a; apply Fin.ext
  match a with
  | ⟨0, _⟩ => show win4_2.index t (0 : Fin 2) * 2000 + 1 * p.val = P.val; rw [e0, hP]; omega
  | ⟨1, _⟩ => show win4_2.index t (1 : Fin 2) * 128 + 1 * k.val = k.val; rw [e1]; omega

/-- The weight window's block at every point is the whole weight. -/
theorem iblk4_3_eq (c : Dev nD) (t : Fin cfg4.N) :
    (iblk4 V c 3 t : Vec Ideal S128x128 .f32) = (V c main_v65 : S128x128.Idx → EReal) := by
  obtain ⟨-, -, -, -, -, -, e6, e7, -⟩ := idx_facts4 t
  funext j
  unfold iblk4
  rw [View.read_apply]
  show V c main_v65 _ = V c main_v65 j
  congr 1
  funext a; apply Fin.ext
  match a with
  | ⟨0, _⟩ => show win4_3.index t (0 : Fin 2) * 128 + 1 * (j 0).val = (j 0).val; rw [e6]; omega
  | ⟨1, _⟩ => show win4_3.index t (1 : Fin 2) * 128 + 1 * (j 1).val = (j 1).val; rw [e7]; omega

/-- One grid point: when the three feature blocks are rows `2000 tv …` of the whole arrays, the block's layer at `y` is
    the whole layer at row `2000 tv + y₀`, column `y₁`. -/
theorem layer4_point (x0 : (⟨Cert.ReferenceIdeal.S100000x128, .f32⟩ : BufTy).Contents (Elt Ideal))
    (x1 x2 : (⟨Cert.ReferenceIdeal.S1600000, .i32⟩ : BufTy).Contents (Elt Ideal))
    (x3 : (⟨Cert.ReferenceIdeal.S1600000, .f32⟩ : BufTy).Contents (Elt Ideal))
    (x4 : (⟨Cert.ReferenceIdeal.S128x128, .f32⟩ : BufTy).Contents (Elt Ideal))
    (x5 : (⟨Cert.ReferenceIdeal.S128, .f32⟩ : BufTy).Contents (Elt Ideal))
    (x6 : (⟨Cert.ReferenceIdeal.S4x128x128, .f32⟩ : BufTy).Contents (Elt Ideal))
    (hiB h0B hB : Vec Ideal S2000x128 .f32) (tv : ℕ)
    (hhi : ∀ (p : Fin 2000) (k : Fin 128) (P : Fin 100000), P.val = tv * 2000 + p.val →
      hiB (ix2 p k) = val_main_v101 (F := Ideal) x0 x1 x2 x3 x4 x5 x6 (ix2 P k))
    (hh0 : ∀ (p : Fin 2000) (k : Fin 128) (P : Fin 100000), P.val = tv * 2000 + p.val →
      h0B (ix2 p k) = val_main_v4 (F := Ideal) x0 x4 x5 (ix2 P k))
    (hh : ∀ (p : Fin 2000) (k : Fin 128) (P : Fin 100000), P.val = tv * 2000 + p.val →
      hB (ix2 p k) = val_main_v88 (F := Ideal) x0 x1 x2 x3 x4 x5 x6 (ix2 P k))
    (y : S2000x128.Idx) (i : S100000x128.Idx) (hi0 : (i 0).val = tv * 2000 + (y 0).val) (hi1 : (i 1).val = (y 1).val) :
    k4_pay1 (F := Ideal) hiB h0B hB (val_main_v108 (F := Ideal) x6) y = val_main_v116 (F := Ideal) x0 x1 x2 x3 x4 x5 x6 i := by
  obtain ⟨p, q, rfl⟩ : ∃ (p : Fin 2000) (q : Fin 128), y = ix2 p q := ⟨y 0, y 1, eq_ix2 y⟩
  obtain ⟨P, Q, rfl⟩ : ∃ (P : Fin 100000) (Q : Fin 128), i = ix2 P Q := ⟨i 0, i 1, eq_ix2 i⟩
  have hQ : Q = q := Fin.ext hi1
  rw [hQ]
  exact Cert.StageRows.layer3_row x0 x1 x2 x3 x4 x5 x6 hiB h0B hB (val_main_v108 (F := Ideal) x6) p P q (fun k => hhi p k P hi0)
    (fun k => hh0 p k P hi0) (fun k => hh p k P hi0) (fun _ => rfl)

/-- What point `t` writes back is block `t` of any whole-array function `G` that the point's payload agrees with, entry by
    entry, at the rows `2000 t …`. -/
theorem flushed4_of_point (c : Dev nD) (t : Fin cfg4.N)
    (G : (⟨Cert.ReferenceIdeal.S100000x128, .f32⟩ : BufTy).Contents (Elt Ideal))
    (hpt : ∀ (y : S2000x128.Idx) (i : S100000x128.Idx), (i 0).val = t.val * 2000 + (y 0).val → (i 1).val = (y 1).val →
      k4_pay1 (F := Ideal) (iblk4 V c 0 t) (iblk4 V c 1 t) (iblk4 V c 2 t) (iblk4 V c 3 t) y = G i) :
    (dat4 V c).flushed 4 t = ((cfg4.win 4).blk t).view.read (Elt Ideal) G := by
  show (cfg4.win 4).cut (grid4.coords t) ((dat4 V c).after 4 t) = _
  rw [after4_4]
  unfold out4_4
  rw [View.canon_unit_zero hz4]
  simp only [View.ld_unit_zero (S := S2000x128) hz4, View.ld_unit_zero (S := S128x128) hz4]
  obtain ⟨-, -, -, -, -, -, -, -, e8, e9⟩ := idx_facts4 t
  funext y
  rw [View.read_apply]
  show k4_pay1 (F := Ideal) (iblk4 V c 0 t) (iblk4 V c 1 t) (iblk4 V c 2 t) (iblk4 V c 3 t) y
    = G (((cfg4.win 4).blk t).view.emb y)
  refine hpt y _ ?_ ?_
  · show win4_4.index t (0 : Fin 2) * 2000 + 1 * (y 0).val = t.val * 2000 + (y 0).val
    rw [e8]; omega
  · show win4_4.index t (1 : Fin 2) * 128 + 1 * (y 1).val = (y 1).val
    rw [e9]; omega

/-- What point `t` writes back is block `t` of the whole layer. -/
theorem flushed4_eq (c : Dev nD) (x0 : (⟨Cert.ReferenceIdeal.S100000x128, .f32⟩ : BufTy).Contents (Elt Ideal))
    (x1 x2 : (⟨Cert.ReferenceIdeal.S1600000, .i32⟩ : BufTy).Contents (Elt Ideal))
    (x3 : (⟨Cert.ReferenceIdeal.S1600000, .f32⟩ : BufTy).Contents (Elt Ideal))
    (x4 : (⟨Cert.ReferenceIdeal.S128x128, .f32⟩ : BufTy).Contents (Elt Ideal))
    (x5 : (⟨Cert.ReferenceIdeal.S128, .f32⟩ : BufTy).Contents (Elt Ideal))
    (x6 : (⟨Cert.ReferenceIdeal.S4x128x128, .f32⟩ : BufTy).Contents (Elt Ideal))
    (hhi : V c main_v63 = val_main_v101 (F := Ideal) x0 x1 x2 x3 x4 x5 x6) (hh0 : V c main_v2 = val_main_v4 (F := Ideal) x0 x4 x5)
    (hh : V c main_v50 = val_main_v88 (F := Ideal) x0 x1 x2 x3 x4 x5 x6)
    (hw : V c main_v65 = val_main_v108 (F := Ideal) x6)
    (t : Fin cfg4.N) :
    (dat4 V c).flushed 4 t = ((cfg4.win 4).blk t).view.read (Elt Ideal) (val_main_v116 (F := Ideal) x0 x1 x2 x3 x4 x5 x6) :=
  flushed4_of_point V c t (val_main_v116 (F := Ideal) x0 x1 x2 x3 x4 x5 x6) fun y i h0 h1 => by
    rw [iblk4_3_eq, hw]
    exact layer4_point x0 x1 x2 x3 x4 x5 x6 (iblk4 V c 0 t) (iblk4 V c 1 t) (iblk4 V c 2 t) t.val
      (fun p k P hP => by rw [iblk4_0_apply V c t p k P hP, hhi])
      (fun p k P hP => by rw [iblk4_1_apply V c t p k P hP, hh0])
      (fun p k P hP => by rw [iblk4_2_apply V c t p k P hP, hh]) y i h0 h1

/-- An index of the array is in point `t`'s block iff each coordinate is in the block's range on its axis. -/
theorem mem_blk4 (t : Fin cfg4.N) (i : S100000x128.Idx) :
    i ∈ ((cfg4.win 4).blk t).view.set ↔ ∀ a : Fin 2, win4_4.index t a * S2000x128.size a ≤ (i a).val
      ∧ (i a).val < win4_4.index t a * S2000x128.size a + S2000x128.size a := by
  show i ∈ ((View.whole main_v66).slice (win4_4.rect t)).set ↔ _
  rw [View.set_slice_whole, Rect.mem_set_unit]
  exact Iff.rfl

/-- Every index of the array is in the block of the point `row / 2000`, which writes back. -/
theorem cover4 (i : S100000x128.Idx) :
    ∃ t : Fin cfg4.N, (cfg4.win 4).flush t = true ∧ i ∈ ((cfg4.win 4).blk t).view.set := by
  have hi0 : (i 0).val < 100000 := (i 0).isLt
  have hi1 : (i 1).val < 128 := (i 1).isLt
  have ht : (i 0).val / 2000 < cfg4.N := by show _ < grid4.N; rw [N_4]; omega
  obtain ⟨-, -, -, -, -, -, -, -, e8, e9⟩ := idx_facts4 ⟨(i 0).val / 2000, ht⟩
  have e8' : win4_4.index ⟨(i 0).val / 2000, ht⟩ (0 : Fin 2) = (i 0).val / 2000 := e8
  refine ⟨⟨(i 0).val / 2000, ht⟩, flush4_4 _, ?_⟩
  rw [mem_blk4]
  intro a
  match a with
  | ⟨0, _⟩ =>
    show win4_4.index ⟨(i 0).val / 2000, ht⟩ (0 : Fin 2) * 2000 ≤ (i 0).val
      ∧ (i 0).val < win4_4.index ⟨(i 0).val / 2000, ht⟩ (0 : Fin 2) * 2000 + 2000
    rw [e8']; omega
  | ⟨1, _⟩ =>
    show win4_4.index ⟨(i 0).val / 2000, ht⟩ (1 : Fin 2) * 128 ≤ (i 1).val
      ∧ (i 1).val < win4_4.index ⟨(i 0).val / 2000, ht⟩ (1 : Fin 2) * 128 + 128
    rw [e9]; omega

/-- THE ARRAY after the fifty points: the whole layer. -/
theorem region4_value (c : Dev nD) (x0 : (⟨Cert.ReferenceIdeal.S100000x128, .f32⟩ : BufTy).Contents (Elt Ideal))
    (x1 x2 : (⟨Cert.ReferenceIdeal.S1600000, .i32⟩ : BufTy).Contents (Elt Ideal))
    (x3 : (⟨Cert.ReferenceIdeal.S1600000, .f32⟩ : BufTy).Contents (Elt Ideal))
    (x4 : (⟨Cert.ReferenceIdeal.S128x128, .f32⟩ : BufTy).Contents (Elt Ideal))
    (x5 : (⟨Cert.ReferenceIdeal.S128, .f32⟩ : BufTy).Contents (Elt Ideal))
    (x6 : (⟨Cert.ReferenceIdeal.S4x128x128, .f32⟩ : BufTy).Contents (Elt Ideal))
    (hhi : V c main_v63 = val_main_v101 (F := Ideal) x0 x1 x2 x3 x4 x5 x6) (hh0 : V c main_v2 = val_main_v4 (F := Ideal) x0 x4 x5)
    (hh : V c main_v50 = val_main_v88 (F := Ideal) x0 x1 x2 x3 x4 x5 x6)
    (hw : V c main_v65 = val_main_v108 (F := Ideal) x6) :
    (dat4 V c).arrAt 4 cfg4.N = val_main_v116 (F := Ideal) x0 x1 x2 x3 x4 x5 x6 :=
  (dat4 V c).arrAt_eq_of_cover 4 (val_main_v116 (F := Ideal) x0 x1 x2 x3 x4 x5 x6)
    (fun t _ => flushed4_eq V c x0 x1 x2 x3 x4 x5 x6 hhi hh0 hh hw t) cover4

end Cert.RegionValue

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.LibRowSoftmax.lean ====
/-
  A row softmax computed two ways, read at one entry on the extended reals.

  The first computation works on a block of `B` rows of width `N` with vector operations: the row maximum by a
  `vector.multi_reduction <maximumf>` from `-∞`, taken once more against `-∞`, kept as a column (`shape_cast` then
  `broadcast`), subtracted; the exponential; the row sum by a `vector.multi_reduction <add>`, kept as a column in the
  same way; the quotient. The second works on a whole `M × N` matrix with the host's operations: `stablehlo.reduce`
  with a maximum body from `-∞`, a maximum against the broadcast `-∞`, two `broadcast_in_dim`, a subtraction, the
  exponential, `stablehlo.reduce` with an add body from `0`, two `broadcast_in_dim`, the quotient.

  When row `p` of the block is row `P` of the matrix, entry `(p, q)` of the first result is entry `(P, q)` of the
  second: both are `exp (x_q - m) / Σ_k exp (x_k - m)` with `m = max (-∞) (max_k x_k)`, where a fold of `max` and a
  finite sum do not depend on the order of their terms. Nothing is assumed finite.
-/
import Idealize.ShloMosaic.PureOps.Ideal.Laws
import Idealize.ShloMosaic.Lib.ValueIdx
import Idealize.ShloMosaic.Lib.Pipeline.Value
import proofs.«100143_j39058432590072_1_alg».proof.Proof.LibKeepdims

noncomputable section

namespace Cert.Lib.RowSoftmax

open Idealize.ShloMosaic Idealize.ShloMosaic.ValueIdx Idealize.ShloMosaic.ValueKeepdims

/-! ## The two ways of keeping a row quantity as a column and spreading it over the row -/

/-- A vector of `a` entries cast to a column and broadcast over `b` columns reads, at `(i, j)`, the vector at `i`. -/
theorem column_spread_apply {α : Type} {a b : ℕ} (v : (⟨1, ![a]⟩ : Shape).Idx → α)
    (hSC : (⟨1, ![a]⟩ : Shape).ShapeCasts ⟨2, ![a, 1]⟩) (hBC : (⟨2, ![a, 1]⟩ : Shape).Broadcasts ⟨2, ![a, b]⟩)
    (i : Fin a) (j : Fin b) :
    broadcastTo ⟨2, ![a, b]⟩ (shapeCast ⟨2, ![a, 1]⟩ v hSC) hBC (ix2 i j) = v (ix1 i) :=
  (broadcastTo_a1_ab_apply _ hBC i j).trans (shapeCast_a_a1_apply v hSC i 0)

/-- A vector of `a` entries broadcast in dimension `0` to a column reads, at `(i, u)`, the vector at `i`. -/
theorem broadcastInDim_a_a1_apply {α : Type} {a : ℕ} (v : (⟨1, ![a]⟩ : Shape).Idx → α)
    (h : (⟨1, ![a]⟩ : Shape).BroadcastsInDim ⟨2, ![a, 1]⟩ (![0] : Fin 1 → Fin (⟨2, ![a, 1]⟩ : Shape).rank))
    (i : Fin a) (u : Fin 1) : broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A column of `a` entries broadcast in dimensions `0, 1` over `b` columns reads, at `(i, j)`, the column at `(i, 0)`. -/
theorem broadcastInDim_a1_ab_apply {α : Type} {a b : ℕ} (v : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (i : Fin a) (j : Fin b) : broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- The two together: a vector broadcast to a column and then over `b` columns reads, at `(i, j)`, the vector at `i`. -/
theorem host_column_spread_apply {α : Type} {a b : ℕ} (v : (⟨1, ![a]⟩ : Shape).Idx → α)
    (h1 : (⟨1, ![a]⟩ : Shape).BroadcastsInDim ⟨2, ![a, 1]⟩ (![0] : Fin 1 → Fin (⟨2, ![a, 1]⟩ : Shape).rank))
    (h2 : (⟨2, ![a, 1]⟩ : Shape).BroadcastsInDim ⟨2, ![a, b]⟩ (![0, 1] : Fin 2 → Fin (⟨2, ![a, b]⟩ : Shape).rank))
    (i : Fin a) (j : Fin b) :
    broadcastInDim ⟨2, ![a, b]⟩ ![0, 1] h2 (broadcastInDim ⟨2, ![a, 1]⟩ ![0] h1 v) (ix2 i j) = v (ix1 i) :=
  (broadcastInDim_a1_ab_apply _ h2 i j).trans (broadcastInDim_a_a1_apply v h1 i 0)

/-! ## The host's two row reductions read at a row -/

/-- A reduction over the second axis into a vector is, in particular, one into a shape of positive rank. -/
theorem reduces_of_reducesTo {a b : ℕ} (h : (⟨2, ![a, b]⟩ : Shape).ReducesTo [1] (⟨1, ![a]⟩ : Shape)) :
    (⟨2, ![a, b]⟩ : Shape).Reduces [1] (⟨1, ![a]⟩ : Shape) := by
  obtain ⟨h1, h2⟩ := h
  exact ⟨h1, Nat.one_pos, h2⟩

/-- The host's `stablehlo.reduce` with a maximum body of an `[a, b]` matrix over its second axis, from a rank-zero constant,
    read on the extended reals at row `i`: the fold of `max`, from the constant's value, over the row's entries. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (hu : 0 < (⟨0, ![]⟩ : Shape).numel) (i : Fin a) :
    Host.reduce (FloatOps.maximumf (F := Ideal) (φ := .f32)) x (constant (F := Ideal) ⟨0, ![]⟩ .f32 w) h' hu (ix1 i)
      = (Finset.univ : Finset (Fin b)).fold max (Ideal.ofBits .f32 w) (fun k => x (ix2 i k)) := by
  have h := reduces_of_reducesTo h'
  rw [Host.reduce_eq_fold_single (FloatOps.maximumf (F := Ideal) (φ := .f32)) x _ h' h hu]
  have hf : (x ∘ h.lift (ix1 i)) = fun k : Fin b => x (ix2 i k) :=
    funext fun k => congrArg x (lift_axis1_ix2 h i k)
  exact congrArg (fun f => Finset.fold max (Ideal.ofBits .f32 w) f (Finset.univ : Finset (Fin b))) hf

/-- The host's `stablehlo.reduce` with an add body of an `[a, b]` matrix over its second axis, from a rank-zero constant,
    read on the extended reals at row `i`: the constant's value plus the sum of the row's entries. -/
theorem hostReduceAdd_row {a b : ℕ} (x : FVec Ideal ⟨2, ![a, b]⟩ .f32) (w : BitVec 32)
    (h' : (⟨2, ![a, b]⟩ : Shape).ReducesTo [1] (⟨1, ![a]⟩ : Shape)) (hu : 0 < (⟨0, ![]⟩ : Shape).numel) (i : Fin a) :
    Host.reduceAdd (F := Ideal) x (constant (F := Ideal) ⟨0, ![]⟩ .f32 w) h' hu (ix1 i)
      = Ideal.ofBits .f32 w + ∑ k : Fin b, x (ix2 i k) := by
  have h := reduces_of_reducesTo h'
  show Ideal.hostReduceAdd h' x (Ideal.ofBits .f32 w) (ix1 i) = _
  rw [Ideal.hostReduceAdd_single h' h]
  exact congrArg (_ + ·) (Finset.sum_congr rfl fun k _ => congrArg x (lift_axis1_ix2 h i k))

/-! ## The block's side -/

/-- The block's row maximum, taken once more against `-∞`'s word, at row `i`. -/
theorem kernel_rowmax_apply {a b : ℕ} (z : FVec Ideal ⟨2, ![a, b]⟩ .f32) (w : BitVec 32)
    (hR : (⟨2, ![a, b]⟩ : Shape).Reduces [1] (⟨1, ![a]⟩ : Shape)) (hφ : FKind.Formats .f32)
    (hacc : w = FKind.maximumf.neutral .f32 hφ) (i : Fin a) :
    maximumf (broadcast ⟨1, ![a]⟩ (FloatOps.ofBits (F := Ideal) .f32 w))
        (multiReduction (F := Ideal) .maximumf [1] ⟨1, ![a]⟩ z w hR hφ hacc) (ix1 i)
      = max (Ideal.ofBits .f32 w) ((Finset.univ : Finset (Fin b)).fold max (Ideal.ofBits .f32 w) (fun k => z (ix2 i k))) :=
  congrArg (max (Ideal.ofBits .f32 w)) (multiReduction_maximumf_row z w hR hφ hacc i)

/-- The host's row maximum, taken once more against the broadcast `-∞`'s word, at row `i`. -/
theorem host_rowmax_apply {a b : ℕ} (Z : FVec Ideal ⟨2, ![a, b]⟩ .f32) (w : BitVec 32)
    (h' : (⟨2, ![a, b]⟩ : Shape).ReducesTo [1] (⟨1, ![a]⟩ : Shape)) (hu : 0 < (⟨0, ![]⟩ : Shape).numel)
    (hb0 : (⟨0, ![]⟩ : Shape).BroadcastsInDim ⟨1, ![a]⟩ (![] : Fin 0 → Fin (⟨1, ![a]⟩ : Shape).rank)) (i : Fin a) :
    maximumf (broadcastInDim ⟨1, ![a]⟩ ![] hb0 (constant (F := Ideal) ⟨0, ![]⟩ .f32 w))
        (Host.reduce (FloatOps.maximumf (F := Ideal) (φ := .f32)) Z (constant (F := Ideal) ⟨0, ![]⟩ .f32 w) h' hu) (ix1 i)
      = max (Ideal.ofBits .f32 w) ((Finset.univ : Finset (Fin b)).fold max (Ideal.ofBits .f32 w) (fun k => Z (ix2 i k))) :=
  congrArg (max (Ideal.ofBits .f32 w)) (hostReduce_maximumf_row Z w h' hu i)

/-- The block's shifted exponentials at `(i, j)`: `exp (z_j - m)`, `m` the row's maximum taken against `-∞`'s word. -/
theorem kernel_exp_apply {a b : ℕ} (z : FVec Ideal ⟨2, ![a, b]⟩ .f32) (w : BitVec 32)
    (hR : (⟨2, ![a, b]⟩ : Shape).Reduces [1] (⟨1, ![a]⟩ : Shape)) (hφ : FKind.Formats .f32)
    (hacc : w = FKind.maximumf.neutral .f32 hφ)
    (hSC : (⟨1, ![a]⟩ : Shape).ShapeCasts ⟨2, ![a, 1]⟩) (hBC : (⟨2, ![a, 1]⟩ : Shape).Broadcasts ⟨2, ![a, b]⟩)
    (i : Fin a) (j : Fin b) :
    exp (subf z (broadcastTo ⟨2, ![a, b]⟩ (shapeCast ⟨2, ![a, 1]⟩
        (maximumf (broadcast ⟨1, ![a]⟩ (FloatOps.ofBits (F := Ideal) .f32 w))
          (multiReduction (F := Ideal) .maximumf [1] ⟨1, ![a]⟩ z w hR hφ hacc)) hSC) hBC)) (ix2 i j)
      = Ideal.exp (z (ix2 i j) - max (Ideal.ofBits .f32 w)
          ((Finset.univ : Finset (Fin b)).fold max (Ideal.ofBits .f32 w) (fun k => z (ix2 i k)))) := by
  show Ideal.exp (z (ix2 i j) - broadcastTo ⟨2, ![a, b]⟩ (shapeCast ⟨2, ![a, 1]⟩ _ hSC) hBC (ix2 i j)) = _
  rw [column_spread_apply, kernel_rowmax_apply]

/-- The block's quotient by the row sum kept as a column, at `(i, j)`: the entry over the sum of the row's entries. -/
theorem kernel_quotient_apply {a b : ℕ} (E : FVec Ideal ⟨2, ![a, b]⟩ .f32) (w : BitVec 32)
    (hR : (⟨2, ![a, b]⟩ : Shape).Reduces [1] (⟨1, ![a]⟩ : Shape)) (hφ : FKind.Formats .f32)
    (hacc : w = FKind.add.neutral .f32 hφ)
    (hSC : (⟨1, ![a]⟩ : Shape).ShapeCasts ⟨2, ![a, 1]⟩) (hBC : (⟨2, ![a, 1]⟩ : Shape).Broadcasts ⟨2, ![a, b]⟩)
    (i : Fin a) (j : Fin b) :
    divf E (broadcastTo ⟨2, ![a, b]⟩ (shapeCast ⟨2, ![a, 1]⟩
        (multiReduction (F := Ideal) .add [1] ⟨1, ![a]⟩ E w hR hφ hacc) hSC) hBC) (ix2 i j)
      = Ideal.div (E (ix2 i j)) (∑ k : Fin b, E (ix2 i k)) := by
  show Ideal.div (E (ix2 i j)) (broadcastTo ⟨2, ![a, b]⟩ (shapeCast ⟨2, ![a, 1]⟩ _ hSC) hBC (ix2 i j)) = _
  rw [column_spread_apply, multiReduction_add_row]

/-! ## The host's side -/

/-- The host's shifted exponentials at `(i, j)`: `exp (Z_j - m)`, `m` the row's maximum taken against `-∞`'s word. -/
theorem host_exp_apply {a b : ℕ} (Z : FVec Ideal ⟨2, ![a, b]⟩ .f32) (w : BitVec 32)
    (h' : (⟨2, ![a, b]⟩ : Shape).ReducesTo [1] (⟨1, ![a]⟩ : Shape)) (hu : 0 < (⟨0, ![]⟩ : Shape).numel)
    (hb0 : (⟨0, ![]⟩ : Shape).BroadcastsInDim ⟨1, ![a]⟩ (![] : Fin 0 → Fin (⟨1, ![a]⟩ : Shape).rank))
    (hb1 : (⟨1, ![a]⟩ : Shape).BroadcastsInDim ⟨2, ![a, 1]⟩ (![0] : Fin 1 → Fin (⟨2, ![a, 1]⟩ : Shape).rank))
    (hb2 : (⟨2, ![a, 1]⟩ : Shape).BroadcastsInDim ⟨2, ![a, b]⟩ (![0, 1] : Fin 2 → Fin (⟨2, ![a, b]⟩ : Shape).rank))
    (i : Fin a) (j : Fin b) :
    Host.exp (subf Z (broadcastInDim ⟨2, ![a, b]⟩ ![0, 1] hb2 (broadcastInDim ⟨2, ![a, 1]⟩ ![0] hb1
        (maximumf (broadcastInDim ⟨1, ![a]⟩ ![] hb0 (constant (F := Ideal) ⟨0, ![]⟩ .f32 w))
          (Host.reduce (FloatOps.maximumf (F := Ideal) (φ := .f32)) Z (constant (F := Ideal) ⟨0, ![]⟩ .f32 w) h' hu))))) (ix2 i j)
      = Ideal.exp (Z (ix2 i j) - max (Ideal.ofBits .f32 w)
          ((Finset.univ : Finset (Fin b)).fold max (Ideal.ofBits .f32 w) (fun k => Z (ix2 i k)))) := by
  show Ideal.exp (Z (ix2 i j) - broadcastInDim ⟨2, ![a, b]⟩ ![0, 1] hb2 (broadcastInDim (s := ⟨1, ![a]⟩) ⟨2, ![a, 1]⟩ ![0] hb1 _) (ix2 i j)) = _
  rw [host_column_spread_apply, host_rowmax_apply]

/-- The host's quotient by the row sum from `0` kept as a column, at `(i, j)`: the entry over the sum of the row's entries. -/
theorem host_quotient_apply {a b : ℕ} (E : FVec Ideal ⟨2, ![a, b]⟩ .f32)
    (h' : (⟨2, ![a, b]⟩ : Shape).ReducesTo [1] (⟨1, ![a]⟩ : Shape)) (hu : 0 < (⟨0, ![]⟩ : Shape).numel)
    (hb1 : (⟨1, ![a]⟩ : Shape).BroadcastsInDim ⟨2, ![a, 1]⟩ (![0] : Fin 1 → Fin (⟨2, ![a, 1]⟩ : Shape).rank))
    (hb2 : (⟨2, ![a, 1]⟩ : Shape).BroadcastsInDim ⟨2, ![a, b]⟩ (![0, 1] : Fin 2 → Fin (⟨2, ![a, b]⟩ : Shape).rank))
    (i : Fin a) (j : Fin b) :
    Host.divf E (broadcastInDim ⟨2, ![a, b]⟩ ![0, 1] hb2 (broadcastInDim ⟨2, ![a, 1]⟩ ![0] hb1
        (Host.reduceAdd (F := Ideal) E (constant (F := Ideal) ⟨0, ![]⟩ .f32 0x00000000#32) h' hu))) (ix2 i j)
      = Ideal.div (E (ix2 i j)) (∑ k : Fin b, E (ix2 i k)) := by
  show Ideal.div (E (ix2 i j)) (broadcastInDim ⟨2, ![a, b]⟩ ![0, 1] hb2 (broadcastInDim (s := ⟨1, ![a]⟩) ⟨2, ![a, 1]⟩ ![0] hb1 _) (ix2 i j)) = _
  rw [host_column_spread_apply, hostReduceAdd_row, Ideal.ofBits_zero_f32, zero_add]

/-! ## The two sides meet -/

/-- ROW SOFTMAX, BLOCK AGAINST WHOLE MATRIX. `z` is a block of `B` rows and `Z` a matrix of `M` rows, both `N` wide; row
    `p` of the block is row `P` of the matrix (`hz`). Then the block's softmax by the vector operations, read at `(p, q)`, is
    the matrix's softmax by the host's operations, read at `(P, q)`: on the extended reals both are
    `exp (x_q - m) / Σ_k exp (x_k - m)` with `m = max (-∞) (max_k x_k)` over the common row `x`. The remaining hypotheses
    are the shape conditions the operations ask for. -/
theorem softmax_row {M B N : ℕ} (z : FVec Ideal ⟨2, ![B, N]⟩ .f32) (Z : FVec Ideal ⟨2, ![M, N]⟩ .f32)
    (hR : (⟨2, ![B, N]⟩ : Shape).Reduces [1] (⟨1, ![B]⟩ : Shape)) (hφ : FKind.Formats .f32)
    (hmax : (0xFF800000#32 : BitVec 32) = FKind.maximumf.neutral .f32 hφ)
    (hadd : (0x00000000#32 : BitVec 32) = FKind.add.neutral .f32 hφ)
    (hSC : (⟨1, ![B]⟩ : Shape).ShapeCasts ⟨2, ![B, 1]⟩) (hBC : (⟨2, ![B, 1]⟩ : Shape).Broadcasts ⟨2, ![B, N]⟩)
    (hRT : (⟨2, ![M, N]⟩ : Shape).ReducesTo [1] (⟨1, ![M]⟩ : Shape)) (hu : 0 < (⟨0, ![]⟩ : Shape).numel)
    (hb0 : (⟨0, ![]⟩ : Shape).BroadcastsInDim ⟨1, ![M]⟩ (![] : Fin 0 → Fin (⟨1, ![M]⟩ : Shape).rank))
    (hb1 : (⟨1, ![M]⟩ : Shape).BroadcastsInDim ⟨2, ![M, 1]⟩ (![0] : Fin 1 → Fin (⟨2, ![M, 1]⟩ : Shape).rank))
    (hb2 : (⟨2, ![M, 1]⟩ : Shape).BroadcastsInDim ⟨2, ![M, N]⟩ (![0, 1] : Fin 2 → Fin (⟨2, ![M, N]⟩ : Shape).rank))
    (p : Fin B) (P : Fin M) (q : Fin N)
    (hz : ∀ q' : Fin N, (z (ix2 p q') : EReal) = Z (ix2 P q')) :
    divf
        (exp (subf z (broadcastTo ⟨2, ![B, N]⟩ (shapeCast ⟨2, ![B, 1]⟩
          (maximumf (broadcast ⟨1, ![B]⟩ (FloatOps.ofBits (F := Ideal) .f32 0xFF800000#32))
            (multiReduction (F := Ideal) .maximumf [1] ⟨1, ![B]⟩ z 0xFF800000#32 hR hφ hmax)) hSC) hBC)))
        (broadcastTo ⟨2, ![B, N]⟩ (shapeCast ⟨2, ![B, 1]⟩
          (multiReduction (F := Ideal) .add [1] ⟨1, ![B]⟩
            (exp (subf z (broadcastTo ⟨2, ![B, N]⟩ (shapeCast ⟨2, ![B, 1]⟩
              (maximumf (broadcast ⟨1, ![B]⟩ (FloatOps.ofBits (F := Ideal) .f32 0xFF800000#32))
                (multiReduction (F := Ideal) .maximumf [1] ⟨1, ![B]⟩ z 0xFF800000#32 hR hφ hmax)) hSC) hBC)))
            0x00000000#32 hR hφ hadd) hSC) hBC)
        (ix2 p q)
      = Host.divf
        (Host.exp (subf Z (broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce (FloatOps.maximumf (F := Ideal) (φ := .f32)) Z (constant (F := Ideal) ⟨0, ![]⟩ .f32 0xFF800000#32) hRT hu))))))
        (broadcastInDim ⟨2, ![M, N]⟩ ![0, 1] hb2 (broadcastInDim ⟨2, ![M, 1]⟩ ![0] hb1
          (Host.reduceAdd (F := Ideal)
            (Host.exp (subf Z (broadcastInDim ⟨2, ![M, N]⟩ ![0, 1] hb2 (broadcastInDim ⟨2, ![M, 1]⟩ ![0] hb1
              (maximumf (broadcastInDim ⟨1, ![M]⟩ ![] hb0 (constant (F := Ideal) ⟨0, ![]⟩ .f32 0xFF800000#32))
                (Host.reduce (FloatOps.maximumf (F := Ideal) (φ := .f32)) Z (constant (F := Ideal) ⟨0, ![]⟩ .f32 0xFF800000#32) hRT hu))))))
            (constant (F := Ideal) ⟨0, ![]⟩ .f32 0x00000000#32) hRT hu)))
        (ix2 P q) := by
  have hrow : (fun k : Fin N => z (ix2 p k)) = fun k : Fin N => Z (ix2 P k) := funext hz
  have hexp : ∀ j : Fin N,
      exp (subf z (broadcastTo ⟨2, ![B, N]⟩ (shapeCast ⟨2, ![B, 1]⟩
          (maximumf (broadcast ⟨1, ![B]⟩ (FloatOps.ofBits (F := Ideal) .f32 0xFF800000#32))
            (multiReduction (F := Ideal) .maximumf [1] ⟨1, ![B]⟩ z 0xFF800000#32 hR hφ hmax)) hSC) hBC)) (ix2 p j)
        = Host.exp (subf Z (broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce (FloatOps.maximumf (F := Ideal) (φ := .f32)) Z (constant (F := Ideal) ⟨0, ![]⟩ .f32 0xFF800000#32) hRT hu))))) (ix2 P j) := by
    intro j
    rw [kernel_exp_apply, host_exp_apply, hrow, hz j]
  rw [kernel_quotient_apply, host_quotient_apply, hexp q]
  exact congrArg (Ideal.div _) (Finset.sum_congr rfl fun k _ => hexp k)

/-- The instance the lemma is meant for: a block of 1024 rows against a matrix of 1024 rows, 47 wide. -/
example (z Z : FVec Ideal ⟨2, ![1024, 47]⟩ .f32)
    (hR : (⟨2, ![1024, 47]⟩ : Shape).Reduces [1] (⟨1, ![1024]⟩ : Shape))
    (hSC : (⟨1, ![1024]⟩ : Shape).ShapeCasts ⟨2, ![1024, 1]⟩) (hBC : (⟨2, ![1024, 1]⟩ : Shape).Broadcasts ⟨2, ![1024, 47]⟩)
    (hRT : (⟨2, ![1024, 47]⟩ : Shape).ReducesTo [1] (⟨1, ![1024]⟩ : Shape)) (hu : 0 < (⟨0, ![]⟩ : Shape).numel)
    (hb0 : (⟨0, ![]⟩ : Shape).BroadcastsInDim ⟨1, ![1024]⟩ (![] : Fin 0 → Fin (⟨1, ![1024]⟩ : Shape).rank))
    (hb1 : (⟨1, ![1024]⟩ : Shape).BroadcastsInDim ⟨2, ![1024, 1]⟩ (![0] : Fin 1 → Fin (⟨2, ![1024, 1]⟩ : Shape).rank))
    (hb2 : (⟨2, ![1024, 1]⟩ : Shape).BroadcastsInDim ⟨2, ![1024, 47]⟩ (![0, 1] : Fin 2 → Fin (⟨2, ![1024, 47]⟩ : Shape).rank))
    (p P : Fin 1024) (q : Fin 47) (hz : ∀ q' : Fin 47, (z (ix2 p q') : EReal) = Z (ix2 P q')) :
    divf
        (exp (subf z (broadcastTo ⟨2, ![1024, 47]⟩ (shapeCast ⟨2, ![1024, 1]⟩
          (maximumf (broadcast ⟨1, ![1024]⟩ (Scalar.ofBits (F := Ideal) .f32 0xFF800000#32))
            (multiReduction (F := Ideal) .maximumf [1] ⟨1, ![1024]⟩ z 0xFF800000#32 hR (.inl rfl) rfl)) hSC) hBC)))
        (broadcastTo ⟨2, ![1024, 47]⟩ (shapeCast ⟨2, ![1024, 1]⟩
          (multiReduction (F := Ideal) .add [1] ⟨1, ![1024]⟩
            (exp (subf z (broadcastTo ⟨2, ![1024, 47]⟩ (shapeCast ⟨2, ![1024, 1]⟩
              (maximumf (broadcast ⟨1, ![1024]⟩ (Scalar.ofBits (F := Ideal) .f32 0xFF800000#32))
                (multiReduction (F := Ideal) .maximumf [1] ⟨1, ![1024]⟩ z 0xFF800000#32 hR (.inl rfl) rfl)) hSC) hBC)))
            0x00000000#32 hR (.inl rfl) rfl) hSC) hBC)
        (ix2 p q)
      = Host.divf
        (Host.exp (subf Z (broadcastInDim ⟨2, ![1024, 47]⟩ ![0, 1] hb2 (broadcastInDim ⟨2, ![1024, 1]⟩ ![0] hb1
          (maximumf (broadcastInDim ⟨1, ![1024]⟩ ![] hb0 (constant (F := Ideal) ⟨0, ![]⟩ .f32 0xFF800000#32))
            (Host.reduce (FloatOps.maximumf (F := Ideal) (φ := .f32)) Z (constant (F := Ideal) ⟨0, ![]⟩ .f32 0xFF800000#32) hRT hu))))))
        (broadcastInDim ⟨2, ![1024, 47]⟩ ![0, 1] hb2 (broadcastInDim ⟨2, ![1024, 1]⟩ ![0] hb1
          (Host.reduceAdd (F := Ideal)
            (Host.exp (subf Z (broadcastInDim ⟨2, ![1024, 47]⟩ ![0, 1] hb2 (broadcastInDim ⟨2, ![1024, 1]⟩ ![0] hb1
              (maximumf (broadcastInDim ⟨1, ![1024]⟩ ![] hb0 (constant (F := Ideal) ⟨0, ![]⟩ .f32 0xFF800000#32))
                (Host.reduce (FloatOps.maximumf (F := Ideal) (φ := .f32)) Z (constant (F := Ideal) ⟨0, ![]⟩ .f32 0xFF800000#32) hRT hu))))))
            (constant (F := Ideal) ⟨0, ![]⟩ .f32 0x00000000#32) hRT hu)))
        (ix2 P q) :=
  softmax_row z Z hR (.inl rfl) rfl rfl hSC hBC hRT hu hb0 hb1 hb2 p P q hz

end Cert.Lib.RowSoftmax

end
-- ==== Proof.FinalRows.lean ====
/-
  The final projection followed by a row log-softmax, block against whole array, on the extended reals.

  A block of 2000 rows of 128 features is multiplied by the 128×64 weight, accumulated from zero, and the bias row is
  added: the block's logits `z`. Each row is then replaced by `(z - m) - log Σ_j exp (z_j - m)`, `m` the row's maximum.
  The reference computes the same on the whole 100000-row array, taking the row maximum once more against `-∞` and
  starting the row sum from `0`. When row `p` of the block is row `P` of the reference's last hidden layer, entry
  `(p, q)` of the block's result is entry `(P, q)` of the reference's: the logits agree term by term (the same sum of
  the same products, plus the same bias), hence the rows of logits agree, hence their maxima, shifted exponentials,
  sums and logarithms. The only steps that are not rewritings of equal terms are `max (-∞) m = m` and `0 + s = s` (a product and a row sum accumulated
  from zero). Nothing is assumed finite.
-/
import proofs.«100143_j39058432590072_1_alg».proof.Proof.Gen.KernelIdeal.Skeleton
import proofs.«100143_j39058432590072_1_alg».proof.Proof.RefReadP
import proofs.«100143_j39058432590072_1_alg».proof.Proof.LibRowBlock
import proofs.«100143_j39058432590072_1_alg».proof.Proof.LibKeepdims
import proofs.«100143_j39058432590072_1_alg».proof.Proof.LibRowSoftmax
import Idealize.ShloMosaic.Lib.ValueLayout

noncomputable section

open scoped BigOperators

namespace Cert.FinalRows

open Idealize.ShloMosaic Idealize.ShloMosaic.ValueIdx Idealize.ShloMosaic.ValueKeepdims

/-! ## A row log-softmax computed two ways, read at one entry on the extended reals

  On a block of rows with vector operations: the row maximum by a reduction from `-∞`, kept as a column and
  subtracted; the exponential; the row sum, kept as a column; its logarithm, spread over the row and subtracted. On a
  whole matrix with the host's operations: the same, the row maximum taken once more against `-∞` and the row sum
  started from `0`. When a row of the block is a row of the matrix, both give
  `(x_q - m) - log (Σ_k exp (x_k - m))` with `m = max_k x_k` over the common row `x`: the extra maximum against
  `-∞` changes nothing, because `-∞` is the least extended real, and neither does the sum's start from `0`. -/

section RowLogSoftmax

variable {M B N : ℕ}

/-- The word `0xFF800000` is `-∞`, the least extended real. -/
theorem ofBits_negInf_f32 : Ideal.ofBits .f32 0xFF800000#32 = (⊥ : EReal) := by
  simp [Ideal.ofBits, Ideal.ieee]

/-- A maximum against `-∞`'s word is the other operand. -/
theorem max_negInf_left (y : EReal) : max (Ideal.ofBits .f32 0xFF800000#32) y = y := by
  rw [ofBits_negInf_f32]
  exact max_bot_left y

/-- The block's shifted logits: each entry less its row's maximum, the maximum folded from the word `w` and kept as a
    column. -/
def blockShift (z : FVec Ideal ⟨2, ![B, N]⟩ .f32) (w : BitVec 32)
    (hR : (⟨2, ![B, N]⟩ : Shape).Reduces [1] (⟨1, ![B]⟩ : Shape)) (hφ : FKind.Formats .f32)
    (hmax : w = FKind.maximumf.neutral .f32 hφ)
    (hSC : (⟨1, ![B]⟩ : Shape).ShapeCasts ⟨2, ![B, 1]⟩) (hBC : (⟨2, ![B, 1]⟩ : Shape).Broadcasts ⟨2, ![B, N]⟩) :
    FVec Ideal ⟨2, ![B, N]⟩ .f32 :=
  subf z (broadcastTo ⟨2, ![B, N]⟩ (shapeCast ⟨2, ![B, 1]⟩
    (multiReduction (F := Ideal) .maximumf [1] ⟨1, ![B]⟩ z w hR hφ hmax) hSC) hBC)

/-- The block's shifted logits at `(i, j)`: `z_j - m`, `m` the fold of `max` over the row from `w`'s value. -/
theorem blockShift_apply (z : FVec Ideal ⟨2, ![B, N]⟩ .f32) (w : BitVec 32)
    (hR : (⟨2, ![B, N]⟩ : Shape).Reduces [1] (⟨1, ![B]⟩ : Shape)) (hφ : FKind.Formats .f32)
    (hmax : w = FKind.maximumf.neutral .f32 hφ)
    (hSC : (⟨1, ![B]⟩ : Shape).ShapeCasts ⟨2, ![B, 1]⟩) (hBC : (⟨2, ![B, 1]⟩ : Shape).Broadcasts ⟨2, ![B, N]⟩)
    (i : Fin B) (j : Fin N) :
    blockShift z w hR hφ hmax hSC hBC (ix2 i j)
      = z (ix2 i j) - (Finset.univ : Finset (Fin N)).fold max (Ideal.ofBits .f32 w) (fun k => z (ix2 i k)) := by
  show z (ix2 i j) - broadcastTo ⟨2, ![B, N]⟩ (shapeCast ⟨2, ![B, 1]⟩ _ hSC) hBC (ix2 i j) = _
  rw [Cert.Lib.RowSoftmax.column_spread_apply, multiReduction_maximumf_row]

/-- The block's row log-softmax: the shifted logits less the logarithm of the row sum of their exponentials, the sum
    kept as a column. -/
def blockLogSoftmax (z : FVec Ideal ⟨2, ![B, N]⟩ .f32)
    (hR : (⟨2, ![B, N]⟩ : Shape).Reduces [1] (⟨1, ![B]⟩ : Shape)) (hφ : FKind.Formats .f32)
    (hmax : (0xFF800000#32 : BitVec 32) = FKind.maximumf.neutral .f32 hφ)
    (hadd : (0x00000000#32 : BitVec 32) = FKind.add.neutral .f32 hφ)
    (hSC : (⟨1, ![B]⟩ : Shape).ShapeCasts ⟨2, ![B, 1]⟩) (hBC : (⟨2, ![B, 1]⟩ : Shape).Broadcasts ⟨2, ![B, N]⟩) :
    FVec Ideal ⟨2, ![B, N]⟩ .f32 :=
  subf (blockShift z 0xFF800000#32 hR hφ hmax hSC hBC)
    (broadcastTo ⟨2, ![B, N]⟩ (log (shapeCast ⟨2, ![B, 1]⟩
      (multiReduction (F := Ideal) .add [1] ⟨1, ![B]⟩ (exp (blockShift z 0xFF800000#32 hR hφ hmax hSC hBC))
        0x00000000#32 hR hφ hadd) hSC)) hBC)

/-- The block's row log-softmax at `(i, j)`. -/
theorem blockLogSoftmax_apply (z : FVec Ideal ⟨2, ![B, N]⟩ .f32)
    (hR : (⟨2, ![B, N]⟩ : Shape).Reduces [1] (⟨1, ![B]⟩ : Shape)) (hφ : FKind.Formats .f32)
    (hmax : (0xFF800000#32 : BitVec 32) = FKind.maximumf.neutral .f32 hφ)
    (hadd : (0x00000000#32 : BitVec 32) = FKind.add.neutral .f32 hφ)
    (hSC : (⟨1, ![B]⟩ : Shape).ShapeCasts ⟨2, ![B, 1]⟩) (hBC : (⟨2, ![B, 1]⟩ : Shape).Broadcasts ⟨2, ![B, N]⟩)
    (i : Fin B) (j : Fin N) :
    blockLogSoftmax z hR hφ hmax hadd hSC hBC (ix2 i j)
      = (z (ix2 i j) - (Finset.univ : Finset (Fin N)).fold max (Ideal.ofBits .f32 0xFF800000#32) (fun k => z (ix2 i k)))
        - Ideal.log (∑ k : Fin N, Ideal.exp (z (ix2 i k)
            - (Finset.univ : Finset (Fin N)).fold max (Ideal.ofBits .f32 0xFF800000#32) (fun k => z (ix2 i k)))) := by
  show blockShift z 0xFF800000#32 hR hφ hmax hSC hBC (ix2 i j)
      - broadcastTo ⟨2, ![B, N]⟩ (log (shapeCast ⟨2, ![B, 1]⟩ _ hSC)) hBC (ix2 i j) = _
  rw [broadcastTo_a1_ab_apply]
  show blockShift z 0xFF800000#32 hR hφ hmax hSC hBC (ix2 i j)
      - Ideal.log (shapeCast ⟨2, ![B, 1]⟩ _ hSC (ix2 i (0 : Fin 1))) = _
  rw [shapeCast_a_a1_apply, multiReduction_add_row, blockShift_apply]
  refine congrArg (fun s => _ - Ideal.log s) (Finset.sum_congr rfl fun k _ => ?_)
  show Ideal.exp (blockShift z 0xFF800000#32 hR hφ hmax hSC hBC (ix2 i k)) = _
  rw [blockShift_apply]

/-- The host's shifted logits: each entry less its row's maximum, the maximum reduced from the word `w`, taken once more
    against the broadcast `w`, and broadcast to a column and then over the row. -/
def hostShift (Z : FVec Ideal ⟨2, ![M, N]⟩ .f32) (w : BitVec 32)
    (hRT : (⟨2, ![M, N]⟩ : Shape).ReducesTo [1] (⟨1, ![M]⟩ : Shape)) (hu : 0 < (⟨0, ![]⟩ : Shape).numel)
    (hb0 : (⟨0, ![]⟩ : Shape).BroadcastsInDim ⟨1, ![M]⟩ (![] : Fin 0 → Fin (⟨1, ![M]⟩ : Shape).rank))
    (hb1 : (⟨1, ![M]⟩ : Shape).BroadcastsInDim ⟨2, ![M, 1]⟩ (![0] : Fin 1 → Fin (⟨2, ![M, 1]⟩ : Shape).rank))
    (hb2 : (⟨2, ![M, 1]⟩ : Shape).BroadcastsInDim ⟨2, ![M, N]⟩ (![0, 1] : Fin 2 → Fin (⟨2, ![M, N]⟩ : Shape).rank)) :
    FVec Ideal ⟨2, ![M, N]⟩ .f32 :=
  subf Z (broadcastInDim ⟨2, ![M, N]⟩ ![0, 1] hb2 (broadcastInDim ⟨2, ![M, 1]⟩ ![0] hb1
    (maximumf (broadcastInDim ⟨1, ![M]⟩ ![] hb0 (constant (F := Ideal) ⟨0, ![]⟩ .f32 w))
      (Host.reduce (FloatOps.maximumf (F := Ideal) (φ := .f32)) Z (constant (F := Ideal) ⟨0, ![]⟩ .f32 w) hRT hu))))

/-- The host's shifted logits at `(i, j)`: `Z_j - max w m`, `m` the fold of `max` over the row from `w`'s value. -/
theorem hostShift_apply (Z : FVec Ideal ⟨2, ![M, N]⟩ .f32) (w : BitVec 32)
    (hRT : (⟨2, ![M, N]⟩ : Shape).ReducesTo [1] (⟨1, ![M]⟩ : Shape)) (hu : 0 < (⟨0, ![]⟩ : Shape).numel)
    (hb0 : (⟨0, ![]⟩ : Shape).BroadcastsInDim ⟨1, ![M]⟩ (![] : Fin 0 → Fin (⟨1, ![M]⟩ : Shape).rank))
    (hb1 : (⟨1, ![M]⟩ : Shape).BroadcastsInDim ⟨2, ![M, 1]⟩ (![0] : Fin 1 → Fin (⟨2, ![M, 1]⟩ : Shape).rank))
    (hb2 : (⟨2, ![M, 1]⟩ : Shape).BroadcastsInDim ⟨2, ![M, N]⟩ (![0, 1] : Fin 2 → Fin (⟨2, ![M, N]⟩ : Shape).rank))
    (i : Fin M) (j : Fin N) :
    hostShift Z w hRT hu hb0 hb1 hb2 (ix2 i j)
      = Z (ix2 i j) - max (Ideal.ofBits .f32 w)
          ((Finset.univ : Finset (Fin N)).fold max (Ideal.ofBits .f32 w) (fun k => Z (ix2 i k))) := by
  show Z (ix2 i j) - broadcastInDim ⟨2, ![M, N]⟩ ![0, 1] hb2
      (broadcastInDim (s := ⟨1, ![M]⟩) ⟨2, ![M, 1]⟩ ![0] hb1 _) (ix2 i j) = _
  rw [Cert.Lib.RowSoftmax.host_column_spread_apply, Cert.Lib.RowSoftmax.host_rowmax_apply]

/-- The host's row log-softmax: the shifted logits less the logarithm of the row sum of their exponentials, the sum
    started from `0`'s word and broadcast to a column, its logarithm broadcast over the row. -/
def hostLogSoftmax (Z : FVec Ideal ⟨2, ![M, N]⟩ .f32)
    (hRT : (⟨2, ![M, N]⟩ : Shape).ReducesTo [1] (⟨1, ![M]⟩ : Shape)) (hu : 0 < (⟨0, ![]⟩ : Shape).numel)
    (hb0 : (⟨0, ![]⟩ : Shape).BroadcastsInDim ⟨1, ![M]⟩ (![] : Fin 0 → Fin (⟨1, ![M]⟩ : Shape).rank))
    (hb1 : (⟨1, ![M]⟩ : Shape).BroadcastsInDim ⟨2, ![M, 1]⟩ (![0] : Fin 1 → Fin (⟨2, ![M, 1]⟩ : Shape).rank))
    (hb2 : (⟨2, ![M, 1]⟩ : Shape).BroadcastsInDim ⟨2, ![M, N]⟩ (![0, 1] : Fin 2 → Fin (⟨2, ![M, N]⟩ : Shape).rank)) :
    FVec Ideal ⟨2, ![M, N]⟩ .f32 :=
  subf (hostShift Z 0xFF800000#32 hRT hu hb0 hb1 hb2)
    (broadcastInDim ⟨2, ![M, N]⟩ ![0, 1] hb2 (Host.log (broadcastInDim ⟨2, ![M, 1]⟩ ![0] hb1
      (Host.reduceAdd (F := Ideal) (Host.exp (hostShift Z 0xFF800000#32 hRT hu hb0 hb1 hb2))
        (constant (F := Ideal) ⟨0, ![]⟩ .f32 0x00000000#32) hRT hu))))

/-- The host's row log-softmax at `(i, j)`. -/
theorem hostLogSoftmax_apply (Z : FVec Ideal ⟨2, ![M, N]⟩ .f32)
    (hRT : (⟨2, ![M, N]⟩ : Shape).ReducesTo [1] (⟨1, ![M]⟩ : Shape)) (hu : 0 < (⟨0, ![]⟩ : Shape).numel)
    (hb0 : (⟨0, ![]⟩ : Shape).BroadcastsInDim ⟨1, ![M]⟩ (![] : Fin 0 → Fin (⟨1, ![M]⟩ : Shape).rank))
    (hb1 : (⟨1, ![M]⟩ : Shape).BroadcastsInDim ⟨2, ![M, 1]⟩ (![0] : Fin 1 → Fin (⟨2, ![M, 1]⟩ : Shape).rank))
    (hb2 : (⟨2, ![M, 1]⟩ : Shape).BroadcastsInDim ⟨2, ![M, N]⟩ (![0, 1] : Fin 2 → Fin (⟨2, ![M, N]⟩ : Shape).rank))
    (i : Fin M) (j : Fin N) :
    hostLogSoftmax Z hRT hu hb0 hb1 hb2 (ix2 i j)
      = (Z (ix2 i j) - max (Ideal.ofBits .f32 0xFF800000#32)
            ((Finset.univ : Finset (Fin N)).fold max (Ideal.ofBits .f32 0xFF800000#32) (fun k => Z (ix2 i k))))
        - Ideal.log (Ideal.ofBits .f32 0x00000000#32 + ∑ k : Fin N, Ideal.exp (Z (ix2 i k)
            - max (Ideal.ofBits .f32 0xFF800000#32)
              ((Finset.univ : Finset (Fin N)).fold max (Ideal.ofBits .f32 0xFF800000#32) (fun k => Z (ix2 i k))))) := by
  show hostShift Z 0xFF800000#32 hRT hu hb0 hb1 hb2 (ix2 i j)
      - broadcastInDim ⟨2, ![M, N]⟩ ![0, 1] hb2 (Host.log (broadcastInDim (s := ⟨1, ![M]⟩) ⟨2, ![M, 1]⟩ ![0] hb1 _)) (ix2 i j) = _
  rw [Cert.Lib.RowSoftmax.broadcastInDim_a1_ab_apply]
  show hostShift Z 0xFF800000#32 hRT hu hb0 hb1 hb2 (ix2 i j)
      - Ideal.log (broadcastInDim (s := ⟨1, ![M]⟩) ⟨2, ![M, 1]⟩ ![0] hb1 _ (ix2 i (0 : Fin 1))) = _
  rw [Cert.Lib.RowSoftmax.broadcastInDim_a_a1_apply, Cert.Lib.RowSoftmax.hostReduceAdd_row, hostShift_apply]
  refine congrArg (fun s => _ - Ideal.log (_ + s)) (Finset.sum_congr rfl fun k _ => ?_)
  show Ideal.exp (hostShift Z 0xFF800000#32 hRT hu hb0 hb1 hb2 (ix2 i k)) = _
  rw [hostShift_apply]

/-- ROW LOG-SOFTMAX, BLOCK AGAINST WHOLE MATRIX. `z` is a block of `B` rows and `Z` a matrix of `M` rows, both `N`
    wide; row `p` of the block is row `P` of the matrix (`hz`). Then the block's log-softmax by the vector operations,
    read at `(p, q)`, is the matrix's by the host's operations, read at `(P, q)`. Nothing is assumed finite. -/
theorem logSoftmax_row (z : FVec Ideal ⟨2, ![B, N]⟩ .f32) (Z : FVec Ideal ⟨2, ![M, N]⟩ .f32)
    (hR : (⟨2, ![B, N]⟩ : Shape).Reduces [1] (⟨1, ![B]⟩ : Shape)) (hφ : FKind.Formats .f32)
    (hmax : (0xFF800000#32 : BitVec 32) = FKind.maximumf.neutral .f32 hφ)
    (hadd : (0x00000000#32 : BitVec 32) = FKind.add.neutral .f32 hφ)
    (hSC : (⟨1, ![B]⟩ : Shape).ShapeCasts ⟨2, ![B, 1]⟩) (hBC : (⟨2, ![B, 1]⟩ : Shape).Broadcasts ⟨2, ![B, N]⟩)
    (hRT : (⟨2, ![M, N]⟩ : Shape).ReducesTo [1] (⟨1, ![M]⟩ : Shape)) (hu : 0 < (⟨0, ![]⟩ : Shape).numel)
    (hb0 : (⟨0, ![]⟩ : Shape).BroadcastsInDim ⟨1, ![M]⟩ (![] : Fin 0 → Fin (⟨1, ![M]⟩ : Shape).rank))
    (hb1 : (⟨1, ![M]⟩ : Shape).BroadcastsInDim ⟨2, ![M, 1]⟩ (![0] : Fin 1 → Fin (⟨2, ![M, 1]⟩ : Shape).rank))
    (hb2 : (⟨2, ![M, 1]⟩ : Shape).BroadcastsInDim ⟨2, ![M, N]⟩ (![0, 1] : Fin 2 → Fin (⟨2, ![M, N]⟩ : Shape).rank))
    (p : Fin B) (P : Fin M) (q : Fin N)
    (hz : ∀ q' : Fin N, (z (ix2 p q') : EReal) = Z (ix2 P q')) :
    blockLogSoftmax z hR hφ hmax hadd hSC hBC (ix2 p q) = hostLogSoftmax Z hRT hu hb0 hb1 hb2 (ix2 P q) := by
  have hrow : (fun k : Fin N => z (ix2 p k)) = fun k : Fin N => Z (ix2 P k) := funext hz
  rw [blockLogSoftmax_apply, hostLogSoftmax_apply, hrow, max_negInf_left, Ideal.ofBits_zero_f32, zero_add, hz q]
  exact congrArg (fun s => _ - Ideal.log s) (Finset.sum_congr rfl fun k _ => by rw [hz k])

end RowLogSoftmax

/-! ## The final projection's logits on a block -/

/-- The block's logits: the features times the weight, accumulated from zero, plus the bias row spread over the rows. -/
def blockLogits (hB : Vec Ideal Cert.KernelIdeal.S2000x128 .f32) (W : Vec Ideal Cert.KernelIdeal.S128x64 .f32)
    (bB : Vec Ideal Cert.KernelIdeal.S1x64 .f32) : FVec Ideal Cert.KernelIdeal.S2000x64 .f32 :=
  addf
    (matmul Cert.KernelIdeal.dot_S2000x128_S128x64_S2000x64_1_0_0_1_n_n none
      (truncf .bf16 (shapeCast Cert.KernelIdeal.S2000x128 hB Cert.KernelIdeal.Gen.shapeCasts_S2000x128_S2000x128)
        Cert.KernelIdeal.Gen.bitsLt_bf16_f32)
      (truncf .bf16 W Cert.KernelIdeal.Gen.bitsLt_bf16_f32)
      (constant Cert.KernelIdeal.S2000x64 .f32 0x00000000#32))
    (broadcastTo Cert.KernelIdeal.S2000x64
      (shapeCast Cert.KernelIdeal.S1x64 bB Cert.KernelIdeal.Gen.shapeCasts_S1x64_S1x64)
      Cert.KernelIdeal.Gen.broadcasts_S1x64_S2000x64)

/-- The final kernel's stored value is the row log-softmax of the block's logits. -/
theorem k5_pay1_eq (hB : Vec Ideal Cert.KernelIdeal.S2000x128 .f32) (W : Vec Ideal Cert.KernelIdeal.S128x64 .f32)
    (bB : Vec Ideal Cert.KernelIdeal.S1x64 .f32) :
    Cert.KernelIdeal.Gen.k5_pay1 (F := Ideal) hB W bB
      = blockLogSoftmax (B := 2000) (N := 64) (blockLogits hB W bB) Cert.KernelIdeal.Gen.reduces_S2000x64_S2000 (.inl rfl) rfl rfl
          Cert.KernelIdeal.Gen.shapeCasts_S2000_S2000x1 Cert.KernelIdeal.Gen.broadcasts_S2000x1_S2000x64 := rfl

/-- The block's logits at `(p, j)`: the row's product with the weight's column plus the bias. -/
theorem blockLogits_apply (hB : Vec Ideal Cert.KernelIdeal.S2000x128 .f32) (W : Vec Ideal Cert.KernelIdeal.S128x64 .f32)
    (bB : Vec Ideal Cert.KernelIdeal.S1x64 .f32) (p : Fin 2000) (j : Fin 64) :
    blockLogits hB W bB (ix2 p j)
      = FloatOps.matmul (DotDims.plain 2000 128 64) none
          (truncf .bf16 (shapeCast Cert.KernelIdeal.S2000x128 hB Cert.KernelIdeal.Gen.shapeCasts_S2000x128_S2000x128)
            Cert.KernelIdeal.Gen.bitsLt_bf16_f32 : FVec Ideal ⟨2, ![2000, 128]⟩ .bf16)
          (truncf .bf16 W Cert.KernelIdeal.Gen.bitsLt_bf16_f32 : FVec Ideal ⟨2, ![128, 64]⟩ .bf16)
          (constant ⟨2, ![2000, 64]⟩ .f32 0x00000000#32) (ix2 p j)
        + bB (ix2 (0 : Fin 1) j) := by
  show _ + broadcastTo (⟨2, ![2000, 64]⟩ : Shape)
      (shapeCast (⟨2, ![1, 64]⟩ : Shape) bB Cert.KernelIdeal.Gen.shapeCasts_S1x64_S1x64)
      Cert.KernelIdeal.Gen.broadcasts_S1x64_S2000x64 (ix2 p j) = _
  rw [broadcastTo_1b_ab_apply, shapeCast_self, shapeCast_self]
  rfl

/-- The block's logits at `(p, j)` when row `p` of the features block is row `P` of an array `A` and the bias block is a
    bias vector `b`: `∑ k, A (P, k) * W (k, j) + b j`. -/
theorem blockLogits_row (A : FVec Ideal ⟨2, ![100000, 128]⟩ .f32) (W : Vec Ideal Cert.KernelIdeal.S128x64 .f32)
    (b : (⟨1, ![64]⟩ : Shape).Idx → EReal)
    (hB : Vec Ideal Cert.KernelIdeal.S2000x128 .f32) (bB : Vec Ideal Cert.KernelIdeal.S1x64 .f32)
    (p : Fin 2000) (P : Fin 100000)
    (hh : ∀ k : Fin 128, (hB (ix2 p k) : EReal) = A (ix2 P k))
    (hb : ∀ j : Fin 64, (bB (ix2 (0 : Fin 1) j) : EReal) = b (ix1 j)) (j : Fin 64) :
    (blockLogits hB W bB (ix2 p j) : EReal) = (∑ k : Fin 128, A (ix2 P k) * W (ix2 k j)) + b (ix1 j) := by
  rw [blockLogits_apply, Cert.Lib.PlainDot.matmul_zero_apply, hb j]
  refine congrArg (· + b (ix1 j)) (Finset.sum_congr rfl fun k _ => ?_)
  show shapeCast Cert.KernelIdeal.S2000x128 hB Cert.KernelIdeal.Gen.shapeCasts_S2000x128_S2000x128 (ix2 p k) * W (ix2 k j) = _
  rw [shapeCast_self, hh k]

/-! ## The block's logits are the reference's, and so are its rows' log-softmax -/

/-- LOGITS. When row `p` of the features block is row `P` of the reference's last hidden layer and the bias block is the
    bias, entry `(p, j)` of the block's logits is entry `(P, j)` of the reference's: both are
    `∑ k, h (P, k) * W (k, j) + b j`, term by term. -/
theorem z_row (x0 : (⟨Cert.ReferenceIdeal.S100000x128, .f32⟩ : BufTy).Contents (Elt Ideal)) (x1 x2 : (⟨Cert.ReferenceIdeal.S1600000, .i32⟩ : BufTy).Contents (Elt Ideal)) (x3 : (⟨Cert.ReferenceIdeal.S1600000, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S4x128x128, .f32⟩ : BufTy).Contents (Elt Ideal)) (x7 : (⟨Cert.ReferenceIdeal.S128x64, .f32⟩ : BufTy).Contents (Elt Ideal)) (x8 : (⟨Cert.ReferenceIdeal.S64, .f32⟩ : BufTy).Contents (Elt Ideal))
    (hB : Vec Ideal Cert.KernelIdeal.S2000x128 .f32) (bB : Vec Ideal Cert.KernelIdeal.S1x64 .f32)
    (p : Fin 2000) (P : Fin 100000)
    (hh : ∀ k : Fin 128, hB (ix2 p k) = Cert.ReferenceIdeal.ReadP.val_main_v116 (F := Ideal) x0 x1 x2 x3 x4 x5 x6 (ix2 P k))
    (hb : ∀ j : Fin 64, bB (ix2 (0 : Fin 1) j) = x8 (ix1 j)) (j : Fin 64) :
    blockLogits hB x7 bB (ix2 p j)
      = Cert.ReferenceIdeal.ReadP.val_main_v120 (F := Ideal) x0 x1 x2 x3 x4 x5 x6 x7 x8 (ix2 P j) := by
  refine (blockLogits_row (Cert.ReferenceIdeal.ReadP.val_main_v116 (F := Ideal) x0 x1 x2 x3 x4 x5 x6) x7 x8 hB bB p P hh hb j).trans ?_
  have hl : ∀ k : Fin 128, Cert.ReferenceIdeal.ReadP.lidx_main_v117 (ix2 P j) k = ix2 P k :=
    fun k => funext fun a => match a with | ⟨0, _⟩ => rfl | ⟨1, _⟩ => rfl
  have hr : ∀ k : Fin 128, Cert.ReferenceIdeal.ReadP.ridx_main_v117 (ix2 P j) k = ix2 k j :=
    fun k => funext fun a => match a with | ⟨0, _⟩ => rfl | ⟨1, _⟩ => rfl
  have hi : Cert.ReferenceIdeal.ReadP.idx_main_v118 (Cert.ReferenceIdeal.ReadP.idx_main_v119 (ix2 P j)) = ix1 j :=
    funext fun a => match a with | ⟨0, _⟩ => rfl
  rw [Cert.ReferenceIdeal.ReadP.val_main_v120_apply, Cert.ReferenceIdeal.ReadP.val_main_v117_apply,
    Cert.ReferenceIdeal.ReadP.val_main_v119_apply, Cert.ReferenceIdeal.ReadP.val_main_v118_apply, Ideal.addf_def, hi]
  exact congrArg (· + x8 (ix1 j)) (Finset.sum_congr rfl fun k _ => by rw [hl k, hr k])

/-- The reference's result is the host's row log-softmax of its logits: the reference's operations from the row maximum to
    the last subtraction, written as one function of the logits. -/
theorem ref_eq_hostLogSoftmax (x0 : (⟨Cert.ReferenceIdeal.S100000x128, .f32⟩ : BufTy).Contents (Elt Ideal)) (x1 x2 : (⟨Cert.ReferenceIdeal.S1600000, .i32⟩ : BufTy).Contents (Elt Ideal)) (x3 : (⟨Cert.ReferenceIdeal.S1600000, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S4x128x128, .f32⟩ : BufTy).Contents (Elt Ideal)) (x7 : (⟨Cert.ReferenceIdeal.S128x64, .f32⟩ : BufTy).Contents (Elt Ideal)) (x8 : (⟨Cert.ReferenceIdeal.S64, .f32⟩ : BufTy).Contents (Elt Ideal)) :
    Cert.ReferenceIdeal.ReadP.val_main_v121 (F := Ideal) x0 x1 x2 x3 x4 x5 x6 x7 x8
      = hostLogSoftmax (M := 100000) (N := 64) (Cert.ReferenceIdeal.ReadP.val_main_v120 (F := Ideal) x0 x1 x2 x3 x4 x5 x6 x7 x8)
          Cert.ReferenceIdeal.Gen.reducesTo_S100000x64_S100000_d1 Cert.ReferenceIdeal.Gen.h_S_
          Cert.ReferenceIdeal.Gen.bcast_S_S100000 Cert.ReferenceIdeal.Gen.bcast_S100000_S100000x1_0
          Cert.ReferenceIdeal.Gen.bcast_S100000x1_S100000x64_0_1 := rfl

/-- THE FINAL ROWS. Under the same hypotheses, entry `(p, q)` of the final kernel's stored block is entry `(P, q)` of the
    reference's result: the row log-softmax of equal rows of logits. -/
theorem final_row (x0 : (⟨Cert.ReferenceIdeal.S100000x128, .f32⟩ : BufTy).Contents (Elt Ideal)) (x1 x2 : (⟨Cert.ReferenceIdeal.S1600000, .i32⟩ : BufTy).Contents (Elt Ideal)) (x3 : (⟨Cert.ReferenceIdeal.S1600000, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S4x128x128, .f32⟩ : BufTy).Contents (Elt Ideal)) (x7 : (⟨Cert.ReferenceIdeal.S128x64, .f32⟩ : BufTy).Contents (Elt Ideal)) (x8 : (⟨Cert.ReferenceIdeal.S64, .f32⟩ : BufTy).Contents (Elt Ideal))
    (hB : Vec Ideal Cert.KernelIdeal.S2000x128 .f32) (bB : Vec Ideal Cert.KernelIdeal.S1x64 .f32)
    (p : Fin 2000) (P : Fin 100000) (q : Fin 64)
    (hh : ∀ k : Fin 128, hB (ix2 p k) = Cert.ReferenceIdeal.ReadP.val_main_v116 (F := Ideal) x0 x1 x2 x3 x4 x5 x6 (ix2 P k))
    (hb : ∀ j : Fin 64, bB (ix2 (0 : Fin 1) j) = x8 (ix1 j)) :
    Cert.KernelIdeal.Gen.k5_pay1 (F := Ideal) hB x7 bB (ix2 p q)
      = Cert.ReferenceIdeal.ReadP.val_main_v121 (F := Ideal) x0 x1 x2 x3 x4 x5 x6 x7 x8 (ix2 P q) := by
  rw [k5_pay1_eq, ref_eq_hostLogSoftmax]
  exact logSoftmax_row (M := 100000) (blockLogits hB x7 bB)
    (Cert.ReferenceIdeal.ReadP.val_main_v120 (F := Ideal) x0 x1 x2 x3 x4 x5 x6 x7 x8) _ _ _ _ _ _ _ _ _ _ _ p P q
    (z_row x0 x1 x2 x3 x4 x5 x6 x7 x8 hB bB p P hh hb)

end Cert.FinalRows

end
-- ==== Proof.RegionValue5.lean ====
/-
  From blocks to the array, for the final projection and row log-softmax's grid of 50 row blocks.

  Point `t` of the grid reads rows `2000 t … 2000 t + 1999` of the features, the whole weight and the whole bias row, and
  writes rows `2000 t … 2000 t + 1999` of the output. If at every point the stored block, entry by entry, is a function
  `G` of the whole arrays read at the block's rows, then after the 50 points the output array is `G`: the blocks are
  restrictions of one function and together they cover the array (row `r` lies in block `r / 2000`).
-/
import proofs.«100143_j39058432590072_1_alg».proof.Proof.KIRegion5
import proofs.«100143_j39058432590072_1_alg».proof.Proof.RefReadP
import proofs.«100143_j39058432590072_1_alg».proof.Proof.FinalRows
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.RegionValue

open Cert.KernelIdeal Cert.KernelIdeal.Gen Cert.KernelIdeal.Frame Idealize.ShloMosaic.ValueIdx

variable (V : (c : Dev nD) → (b : Ref sig .tc) → Buf (Elt Ideal) ((c : Thread nD τ).loc b))

/-- The zero offset of a whole-block load or store. -/
theorem zero_offsets : (![0, 0] : Fin 2 → Nat) = fun _ => 0 := funext fun a => by fin_cases a <;> rfl

/-- The index maps of the four windows, decided over the 50 grid points: the features and the output move with the
    point along the rows; the weight and the bias row stay at block `(0, 0)`. -/
theorem block_indices : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- A point's number is below 50. -/
theorem point_lt (t : Fin cfg5.N) : t.val < 50 := t.isLt.trans_eq N_5

/-- The array row of row `p` of point `t`'s block. -/
abbrev arrayRow (t : Fin cfg5.N) (p : Fin 2000) : Fin 100000 :=
  ⟨t.val * 2000 + p.val, by have := point_lt t; have := p.isLt; omega⟩

/-- The features block at point `t`, entry `(p, k)`: the features array at row `2000 t + p`. -/
theorem features_block_apply (c : Dev nD) (t : Fin cfg5.N) (p : Fin 2000) (k : Fin 128) :
    iblk5 V c 0 t (ix2 p k) = (V c main_v66 : S100000x128.Idx → Elt Ideal .f32) (ix2 (arrayRow t p) k) := by
  obtain ⟨e0, e1, -⟩ := block_indices t
  show V c main_v66 (((cfg5.win 0).blk t).view.emb (ix2 p k)) = _
  refine congrArg (V c main_v66) (funext fun a => Fin.ext ?_)
  match a with
  | ⟨0, _⟩ => show win5_0.index t (0 : Fin 2) * 2000 + 1 * p.val = t.val * 2000 + p.val; rw [e0]; omega
  | ⟨1, _⟩ => show win5_0.index t (1 : Fin 2) * 128 + 1 * k.val = k.val; rw [e1]; omega

/-- The weight block at any point is the whole weight. -/
theorem weight_block_eq (c : Dev nD) (t : Fin cfg5.N) :
    iblk5 V c 1 t = (V c main_arg7 : S128x64.Idx → Elt Ideal .f32) := by
  obtain ⟨-, -, e0, e1, -⟩ := block_indices t
  funext y
  show V c main_arg7 (((cfg5.win 1).blk t).view.emb y) = _
  refine congrArg (V c main_arg7) (funext fun a => Fin.ext ?_)
  match a with
  | ⟨0, _⟩ => show win5_1.index t (0 : Fin 2) * 128 + 1 * (y 0).val = (y 0).val; rw [e0]; omega
  | ⟨1, _⟩ => show win5_1.index t (1 : Fin 2) * 64 + 1 * (y 1).val = (y 1).val; rw [e1]; omega

/-- The bias block at any point is the whole bias row. -/
theorem bias_block_eq (c : Dev nD) (t : Fin cfg5.N) :
    iblk5 V c 2 t = (V c main_v1 : S1x64.Idx → Elt Ideal .f32) := by
  obtain ⟨-, -, -, -, e0, e1, -⟩ := block_indices t
  funext y
  show V c main_v1 (((cfg5.win 2).blk t).view.emb y) = _
  refine congrArg (V c main_v1) (funext fun a => Fin.ext ?_)
  match a with
  | ⟨0, _⟩ => show win5_2.index t (0 : Fin 2) * 1 + 1 * (y 0).val = (y 0).val; rw [e0]; omega
  | ⟨1, _⟩ => show win5_2.index t (1 : Fin 2) * 64 + 1 * (y 1).val = (y 1).val; rw [e1]; omega

/-- A whole-array function read through the output's block at point `t`, entry `(p, q)`: the function at row `2000 t + p`. -/
theorem output_block_read (G : S100000x64.Idx → Elt Ideal .f32) (t : Fin cfg5.N) (p : Fin 2000) (q : Fin 64) :
    ((cfg5.win 3).blk t).view.read (Elt Ideal) G (ix2 p q) = G (ix2 (arrayRow t p) q) := by
  obtain ⟨-, -, -, -, -, -, e0, e1⟩ := block_indices t
  show G (((cfg5.win 3).blk t).view.emb (ix2 p q)) = _
  refine congrArg G (funext fun a => Fin.ext ?_)
  match a with
  | ⟨0, _⟩ => show win5_3.index t (0 : Fin 2) * 2000 + 1 * p.val = t.val * 2000 + p.val; rw [e0]; omega
  | ⟨1, _⟩ => show win5_3.index t (1 : Fin 2) * 64 + 1 * q.val = q.val; rw [e1]; omega

/-- WHAT POINT `t` WRITES BACK is block `t` of `G`, when the body's payload of the point's input blocks is `G` at the
    block's rows, entry by entry. -/
theorem flushed_eq_of_rows (c : Dev nD) (G : S100000x64.Idx → Elt Ideal .f32) (t : Fin cfg5.N)
    (hrow : ∀ (p : Fin 2000) (q : Fin 64),
      k5_pay1 (F := Ideal) (iblk5 V c 0 t) (iblk5 V c 1 t) (iblk5 V c 2 t) (ix2 p q) = G (ix2 (arrayRow t p) q)) :
    (dat5 V c).flushed 3 t = ((cfg5.win 3).blk t).view.read (Elt Ideal) G := by
  show (cfg5.win 3).cut (grid5.coords t) ((dat5 V c).after 3 t) = _
  rw [after5_3]
  unfold out5_3
  rw [View.canon_unit_zero zero_offsets]
  simp only [View.ld_unit_zero (S := S2000x128) zero_offsets, View.ld_unit_zero (S := S128x64) zero_offsets,
    View.ld_unit_zero (S := S1x64) zero_offsets]
  funext y
  obtain ⟨p, q, rfl⟩ : ∃ (p : Fin 2000) (q : Fin 64), y = ix2 p q := ⟨y 0, y 1, eq_ix2 y⟩
  exact (hrow p q).trans (output_block_read G t p q).symm

/-- An index of the output array is in point `t`'s block iff each coordinate is in the block's range on its axis. -/
theorem mem_output_block (t : Fin cfg5.N) (i : S100000x64.Idx) :
    i ∈ ((cfg5.win 3).blk t).view.set ↔ ∀ a : Fin 2, win5_3.index t a * S2000x64.size a ≤ (i a).val
      ∧ (i a).val < win5_3.index t a * S2000x64.size a + S2000x64.size a := by
  show i ∈ ((View.whole main_v67).slice (win5_3.rect t)).set ↔ _
  rw [View.set_slice_whole, Rect.mem_set_unit]
  exact Iff.rfl

/-- THE COVER: row `r` of the output array lies in the block of point `r / 2000`, and every point writes back. -/
theorem output_cover (i : S100000x64.Idx) :
    ∃ t : Fin cfg5.N, (cfg5.win 3).flush t = true ∧ i ∈ ((cfg5.win 3).blk t).view.set := by
  have hi0 : (i 0).val < 100000 := (i 0).isLt
  have hi1 : (i 1).val < 64 := (i 1).isLt
  have hN : cfg5.N = 50 := N_5
  obtain ⟨t, ht⟩ : ∃ t : Fin cfg5.N, t.val = (i 0).val / 2000 := ⟨⟨(i 0).val / 2000, by rw [hN]; omega⟩, rfl⟩
  obtain ⟨-, -, -, -, -, -, e0, e1⟩ := block_indices t
  refine ⟨t, flush5_3 t, ?_⟩
  rw [mem_output_block]
  intro a
  match a with
  | ⟨0, _⟩ =>
    show win5_3.index t (0 : Fin 2) * 2000 ≤ (i 0).val ∧ (i 0).val < win5_3.index t (0 : Fin 2) * 2000 + 2000
    rw [e0, ht]; omega
  | ⟨1, _⟩ =>
    show win5_3.index t (1 : Fin 2) * 64 ≤ (i 1).val ∧ (i 1).val < win5_3.index t (1 : Fin 2) * 64 + 64
    rw [e1]; omega

/-- THE ARRAY after the 50 points is `G`, when at every point the body's payload of the point's input blocks is `G` at the
    block's rows, entry by entry. -/
theorem array_eq_of_rows (c : Dev nD) (G : S100000x64.Idx → Elt Ideal .f32)
    (hrow : ∀ (t : Fin cfg5.N) (p : Fin 2000) (q : Fin 64),
      k5_pay1 (F := Ideal) (iblk5 V c 0 t) (iblk5 V c 1 t) (iblk5 V c 2 t) (ix2 p q) = G (ix2 (arrayRow t p) q)) :
    (dat5 V c).arrAt 3 cfg5.N = G :=
  (dat5 V c).arrAt_eq_of_cover 3 G (fun t _ => flushed_eq_of_rows V c G t (hrow t)) output_cover

/-! ## The array is the reference's last stage -/

/-- The final rows with the weight block named: a block whose weight operand is the whole weight. -/
theorem final_row_of_blocks (x0 : (⟨Cert.ReferenceIdeal.S100000x128, .f32⟩ : BufTy).Contents (Elt Ideal)) (x1 x2 : (⟨Cert.ReferenceIdeal.S1600000, .i32⟩ : BufTy).Contents (Elt Ideal)) (x3 : (⟨Cert.ReferenceIdeal.S1600000, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S4x128x128, .f32⟩ : BufTy).Contents (Elt Ideal)) (x7 : (⟨Cert.ReferenceIdeal.S128x64, .f32⟩ : BufTy).Contents (Elt Ideal)) (x8 : (⟨Cert.ReferenceIdeal.S64, .f32⟩ : BufTy).Contents (Elt Ideal))
    (hB : Vec Ideal S2000x128 .f32) (wB : Vec Ideal S128x64 .f32) (bB : Vec Ideal S1x64 .f32)
    (p : Fin 2000) (P : Fin 100000) (q : Fin 64) (hw : wB = x7)
    (hh : ∀ k : Fin 128, hB (ix2 p k) = Cert.ReferenceIdeal.ReadP.val_main_v116 (F := Ideal) x0 x1 x2 x3 x4 x5 x6 (ix2 P k))
    (hb : ∀ j : Fin 64, bB (ix2 (0 : Fin 1) j) = x8 (ix1 j)) :
    k5_pay1 (F := Ideal) hB wB bB (ix2 p q)
      = Cert.ReferenceIdeal.ReadP.val_main_v121 (F := Ideal) x0 x1 x2 x3 x4 x5 x6 x7 x8 (ix2 P q) := by
  rw [hw]
  exact Cert.FinalRows.final_row x0 x1 x2 x3 x4 x5 x6 x7 x8 hB bB p P q hh hb

/-- THE OUTPUT ARRAY after the 50 points is the reference's last stage, as one function of the reference's arguments, when
    the region finds the reference's last hidden layer in the features array, the weight in the weight array and the bias
    in the bias row. -/
theorem region5_value (c : Dev nD) (x0 : (⟨Cert.ReferenceIdeal.S100000x128, .f32⟩ : BufTy).Contents (Elt Ideal)) (x1 x2 : (⟨Cert.ReferenceIdeal.S1600000, .i32⟩ : BufTy).Contents (Elt Ideal)) (x3 : (⟨Cert.ReferenceIdeal.S1600000, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S4x128x128, .f32⟩ : BufTy).Contents (Elt Ideal)) (x7 : (⟨Cert.ReferenceIdeal.S128x64, .f32⟩ : BufTy).Contents (Elt Ideal)) (x8 : (⟨Cert.ReferenceIdeal.S64, .f32⟩ : BufTy).Contents (Elt Ideal))
    (hh : (V c main_v66 : S100000x128.Idx → Elt Ideal .f32)
      = Cert.ReferenceIdeal.ReadP.val_main_v116 (F := Ideal) x0 x1 x2 x3 x4 x5 x6)
    (hw : (V c main_arg7 : S128x64.Idx → Elt Ideal .f32) = x7)
    (hb : ∀ j : Fin 64, (V c main_v1 : S1x64.Idx → Elt Ideal .f32) (ix2 (0 : Fin 1) j) = x8 (ix1 j)) :
    (dat5 V c).arrAt 3 cfg5.N = Cert.ReferenceIdeal.ReadP.val_main_v121 (F := Ideal) x0 x1 x2 x3 x4 x5 x6 x7 x8 :=
  array_eq_of_rows V c (Cert.ReferenceIdeal.ReadP.val_main_v121 (F := Ideal) x0 x1 x2 x3 x4 x5 x6 x7 x8) fun t p q =>
    final_row_of_blocks x0 x1 x2 x3 x4 x5 x6 x7 x8 (iblk5 V c 0 t) (iblk5 V c 1 t) (iblk5 V c 2 t) p (arrayRow t p) q
      ((weight_block_eq V c t).trans hw)
      (fun k => (features_block_apply V c t p k).trans (congrFun hh (ix2 (arrayRow t p) k)))
      (fun j => (congrFun (bias_block_eq V c t) (ix2 (0 : Fin 1) j)).trans (hb j))

end Cert.RegionValue

end
-- ==== Proof.HostGlue.lean ====
/-
  What the host operations between the regions compute, against the reference's stages, on the extended reals.

  Between its regions the program reshapes the two bias vectors to rows and, before each of the four layers, aggregates the
  current features over the edges — the source index wrapped into range, the source rows gathered, each multiplied by
  its edge's weight, the products added into zeros at the destination rows — and slices that layer's weight out of the
  stacked weights. The reference does the same operations on the same operands, so each result is the reference's
  stage as one function of the operands, whatever the buffers held before.
-/
import proofs.«100143_j39058432590072_1_alg».proof.Proof.Gen.KernelIdeal.Launch
import proofs.«100143_j39058432590072_1_alg».proof.Proof.RefReadP
import Idealize.ShloMosaic.Lib.StableHlo.Run
import Idealize.ShloMosaic.Lib.ValueLayout
import Idealize.ShloMosaic.Lib.ValueIdx

noncomputable section

namespace Cert.HostGlue

open Cert.KernelIdeal Cert.KernelIdeal.Gen
open Idealize.ShloMosaic Idealize.ShloMosaic.TcCoe Idealize.ShloMosaic.StableHlo Idealize.ShloMosaic.ValueIdx Idealize.SL.Sem

variable (Y : Valuation τ sig (Elt Ideal))

/-! ## The bias vectors as rows -/

/-- The first stretch leaves the input projection's bias as a row: entry `(0, j)` of the row is entry `j` of the vector. -/
theorem bias_in_row (x5 : (⟨Cert.ReferenceIdeal.S128, .f32⟩ : BufTy).Contents (Elt Ideal))
    (h : (Y (Proc.devRef .tc main_arg5) : S128.Idx → Elt Ideal .f32) = x5) (j : Fin 128) :
    (StableHlo.after hostOps0 Y (Proc.devRef .tc main_v0) : S1x128.Idx → Elt Ideal .f32) (ix2 (0 : Fin 1) j) = x5 (ix1 j) := by
  have e : (StableHlo.after hostOps0 Y (Proc.devRef .tc main_v0) : S1x128.Idx → Elt Ideal .f32)
      = shapeCast S1x128 (Y (Proc.devRef .tc main_arg5) : S128.Idx → Elt Ideal .f32) shapeCasts_S128_S1x128 := by
    after_results
    rfl
  rw [e, h]
  exact shapeCast_a_1a_apply x5 shapeCasts_S128_S1x128 0 j

/-- The first stretch leaves the final projection's bias as a row: entry `(0, j)` of the row is entry `j` of the vector. -/
theorem bias_out_row (x8 : (⟨Cert.ReferenceIdeal.S64, .f32⟩ : BufTy).Contents (Elt Ideal))
    (h : (Y (Proc.devRef .tc main_arg8) : S64.Idx → Elt Ideal .f32) = x8) (j : Fin 64) :
    (StableHlo.after hostOps0 Y (Proc.devRef .tc main_v1) : S1x64.Idx → Elt Ideal .f32) (ix2 (0 : Fin 1) j) = x8 (ix1 j) := by
  have e : (StableHlo.after hostOps0 Y (Proc.devRef .tc main_v1) : S1x64.Idx → Elt Ideal .f32)
      = shapeCast S1x64 (Y (Proc.devRef .tc main_arg8) : S64.Idx → Elt Ideal .f32) shapeCasts_S64_S1x64 := by
    after_results
    rfl
  rw [e, h]
  exact shapeCast_a_1a_apply x8 shapeCasts_S64_S1x64 0 j

/-! ## The aggregation over the edges and a layer's weight -/

/-- THE AGGREGATION of features `h` over the edges `src → dst` with weights `w`: a negative source index wrapped by the
    number of rows, the source rows gathered, each multiplied by its edge's weight spread over the row, and the
    products added into zeros at the destination rows. -/
def aggregate (src dst : (⟨S1600000, .i32⟩ : BufTy).Contents (Elt Ideal)) (w : (⟨S1600000, .f32⟩ : BufTy).Contents (Elt Ideal))
    (h : (⟨S100000x128, .f32⟩ : BufTy).Contents (Elt Ideal)) : (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf (broadcastInDim S1600000x128 ![0, 1] bcast_S1600000x1_S1600000x128_0_1
        (broadcastInDim S1600000x1 ![0] bcast_S1600000_S1600000x1_0 w))
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))

/-- A layer's weight: the slice at `o` of the stacked weights, as a matrix. -/
def layerWeight (o : Fin 3 → Nat) (hs : S4x128x128.Slices o S1x128x128)
    (W : (⟨S4x128x128, .f32⟩ : BufTy).Contents (Elt Ideal)) : (⟨S128x128, .f32⟩ : BufTy).Contents (Elt Ideal) :=
  shapeCast S128x128 (extractStridedSlice S1x128x128 o W hs) shapeCasts_S1x128x128_S128x128

/-! ## The stretch before the first layer -/

/-- The stretch leaves the aggregation of the features it finds, -/
theorem stretch1_agg :
    (StableHlo.after hostOps1 Y (Proc.devRef .tc main_v15) : (⟨S100000x128, .f32⟩ : BufTy).Contents (Elt Ideal))
      = aggregate (Y (Proc.devRef .tc main_arg1)) (Y (Proc.devRef .tc main_arg2)) (Y (Proc.devRef .tc main_arg3))
          (Y (Proc.devRef .tc main_v2)) := by
  after_results_simp
  rfl

/-- and the layer's weight. -/
theorem stretch1_weight :
    (StableHlo.after hostOps1 Y (Proc.devRef .tc main_v17) : (⟨S128x128, .f32⟩ : BufTy).Contents (Elt Ideal))
      = layerWeight ![0, 0, 0] slices_S4x128x128_S1x128x128_0_0_0 (Y (Proc.devRef .tc main_arg6)) := by
  after_results_simp
  rfl

/-- The reference's aggregation before the first layer is the aggregation of its features before that layer. -/
theorem ref_agg1 (x0 : (⟨Cert.ReferenceIdeal.S100000x128, .f32⟩ : BufTy).Contents (Elt Ideal)) (x1 x2 : (⟨Cert.ReferenceIdeal.S1600000, .i32⟩ : BufTy).Contents (Elt Ideal)) (x3 : (⟨Cert.ReferenceIdeal.S1600000, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) :
    Cert.ReferenceIdeal.ReadP.val_main_v17 (F := Ideal) x0 x1 x2 x3 x4 x5
      = aggregate x1 x2 x3 (Cert.ReferenceIdeal.ReadP.val_main_v4 (F := Ideal) x0 x4 x5) := rfl

/-- The reference's first layer weight is the slice of the stacked weights. -/
theorem ref_weight1 (x6 : (⟨Cert.ReferenceIdeal.S4x128x128, .f32⟩ : BufTy).Contents (Elt Ideal)) :
    Cert.ReferenceIdeal.ReadP.val_main_v24 (F := Ideal) x6 = layerWeight ![0, 0, 0] slices_S4x128x128_S1x128x128_0_0_0 x6 := rfl

/-- AGGREGATION 1. When the stretch finds the edges' sources, destinations and weights and the reference's features before
    the first layer, it leaves the reference's aggregation. -/
theorem agg1 (x0 : (⟨Cert.ReferenceIdeal.S100000x128, .f32⟩ : BufTy).Contents (Elt Ideal)) (x1 x2 : (⟨Cert.ReferenceIdeal.S1600000, .i32⟩ : BufTy).Contents (Elt Ideal)) (x3 : (⟨Cert.ReferenceIdeal.S1600000, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal))
    (h1 : (Y (Proc.devRef .tc main_arg1) : (⟨S1600000, .i32⟩ : BufTy).Contents (Elt Ideal)) = x1)
    (h2 : (Y (Proc.devRef .tc main_arg2) : (⟨S1600000, .i32⟩ : BufTy).Contents (Elt Ideal)) = x2)
    (h3 : (Y (Proc.devRef .tc main_arg3) : (⟨S1600000, .f32⟩ : BufTy).Contents (Elt Ideal)) = x3)
    (hh : (Y (Proc.devRef .tc main_v2) : (⟨S100000x128, .f32⟩ : BufTy).Contents (Elt Ideal))
      = Cert.ReferenceIdeal.ReadP.val_main_v4 (F := Ideal) x0 x4 x5) :
    (StableHlo.after hostOps1 Y (Proc.devRef .tc main_v15) : (⟨S100000x128, .f32⟩ : BufTy).Contents (Elt Ideal))
      = Cert.ReferenceIdeal.ReadP.val_main_v17 (F := Ideal) x0 x1 x2 x3 x4 x5 := by
  rw [stretch1_agg, h1, h2, h3, hh]
  exact (ref_agg1 x0 x1 x2 x3 x4 x5).symm

/-- WEIGHT 1. When the stretch finds the stacked weights, it leaves the reference's first layer weight. -/
theorem weight1 (x6 : (⟨Cert.ReferenceIdeal.S4x128x128, .f32⟩ : BufTy).Contents (Elt Ideal))
    (h6 : (Y (Proc.devRef .tc main_arg6) : (⟨S4x128x128, .f32⟩ : BufTy).Contents (Elt Ideal)) = x6) :
    (StableHlo.after hostOps1 Y (Proc.devRef .tc main_v17) : (⟨S128x128, .f32⟩ : BufTy).Contents (Elt Ideal))
      = Cert.ReferenceIdeal.ReadP.val_main_v24 (F := Ideal) x6 := by
  rw [stretch1_weight, h6]
  exact (ref_weight1 x6).symm

/-! ## The stretch before the second layer -/

/-- The stretch leaves the aggregation of the features it finds, -/
theorem stretch2_agg :
    (StableHlo.after hostOps2 Y (Proc.devRef .tc main_v31) : (⟨S100000x128, .f32⟩ : BufTy).Contents (Elt Ideal))
      = aggregate (Y (Proc.devRef .tc main_arg1)) (Y (Proc.devRef .tc main_arg2)) (Y (Proc.devRef .tc main_arg3))
          (Y (Proc.devRef .tc main_v18)) := by
  after_results_simp
  rfl

/-- and the layer's weight. -/
theorem stretch2_weight :
    (StableHlo.after hostOps2 Y (Proc.devRef .tc main_v33) : (⟨S128x128, .f32⟩ : BufTy).Contents (Elt Ideal))
      = layerWeight ![1, 0, 0] slices_S4x128x128_S1x128x128_1_0_0 (Y (Proc.devRef .tc main_arg6)) := by
  after_results_simp
  rfl

/-- The reference's aggregation before the second layer is the aggregation of its features before that layer. -/
theorem ref_agg2 (x0 : (⟨Cert.ReferenceIdeal.S100000x128, .f32⟩ : BufTy).Contents (Elt Ideal)) (x1 x2 : (⟨Cert.ReferenceIdeal.S1600000, .i32⟩ : BufTy).Contents (Elt Ideal)) (x3 : (⟨Cert.ReferenceIdeal.S1600000, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S4x128x128, .f32⟩ : BufTy).Contents (Elt Ideal)) :
    Cert.ReferenceIdeal.ReadP.val_main_v45 (F := Ideal) x0 x1 x2 x3 x4 x5 x6
      = aggregate x1 x2 x3 (Cert.ReferenceIdeal.ReadP.val_main_v32 (F := Ideal) x0 x1 x2 x3 x4 x5 x6) := rfl

/-- The reference's second layer weight is the slice of the stacked weights. -/
theorem ref_weight2 (x6 : (⟨Cert.ReferenceIdeal.S4x128x128, .f32⟩ : BufTy).Contents (Elt Ideal)) :
    Cert.ReferenceIdeal.ReadP.val_main_v52 (F := Ideal) x6 = layerWeight ![1, 0, 0] slices_S4x128x128_S1x128x128_1_0_0 x6 := rfl

/-- AGGREGATION 2. When the stretch finds the edges' sources, destinations and weights and the reference's features before
    the second layer, it leaves the reference's aggregation. -/
theorem agg2 (x0 : (⟨Cert.ReferenceIdeal.S100000x128, .f32⟩ : BufTy).Contents (Elt Ideal)) (x1 x2 : (⟨Cert.ReferenceIdeal.S1600000, .i32⟩ : BufTy).Contents (Elt Ideal)) (x3 : (⟨Cert.ReferenceIdeal.S1600000, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S4x128x128, .f32⟩ : BufTy).Contents (Elt Ideal))
    (h1 : (Y (Proc.devRef .tc main_arg1) : (⟨S1600000, .i32⟩ : BufTy).Contents (Elt Ideal)) = x1)
    (h2 : (Y (Proc.devRef .tc main_arg2) : (⟨S1600000, .i32⟩ : BufTy).Contents (Elt Ideal)) = x2)
    (h3 : (Y (Proc.devRef .tc main_arg3) : (⟨S1600000, .f32⟩ : BufTy).Contents (Elt Ideal)) = x3)
    (hh : (Y (Proc.devRef .tc main_v18) : (⟨S100000x128, .f32⟩ : BufTy).Contents (Elt Ideal))
      = Cert.ReferenceIdeal.ReadP.val_main_v32 (F := Ideal) x0 x1 x2 x3 x4 x5 x6) :
    (StableHlo.after hostOps2 Y (Proc.devRef .tc main_v31) : (⟨S100000x128, .f32⟩ : BufTy).Contents (Elt Ideal))
      = Cert.ReferenceIdeal.ReadP.val_main_v45 (F := Ideal) x0 x1 x2 x3 x4 x5 x6 := by
  rw [stretch2_agg, h1, h2, h3, hh]
  exact (ref_agg2 x0 x1 x2 x3 x4 x5 x6).symm

/-- WEIGHT 2. When the stretch finds the stacked weights, it leaves the reference's second layer weight. -/
theorem weight2 (x6 : (⟨Cert.ReferenceIdeal.S4x128x128, .f32⟩ : BufTy).Contents (Elt Ideal))
    (h6 : (Y (Proc.devRef .tc main_arg6) : (⟨S4x128x128, .f32⟩ : BufTy).Contents (Elt Ideal)) = x6) :
    (StableHlo.after hostOps2 Y (Proc.devRef .tc main_v33) : (⟨S128x128, .f32⟩ : BufTy).Contents (Elt Ideal))
      = Cert.ReferenceIdeal.ReadP.val_main_v52 (F := Ideal) x6 := by
  rw [stretch2_weight, h6]
  exact (ref_weight2 x6).symm

/-! ## The stretch before the third layer -/

/-- The stretch leaves the aggregation of the features it finds, -/
theorem stretch3_agg :
    (StableHlo.after hostOps3 Y (Proc.devRef .tc main_v47) : (⟨S100000x128, .f32⟩ : BufTy).Contents (Elt Ideal))
      = aggregate (Y (Proc.devRef .tc main_arg1)) (Y (Proc.devRef .tc main_arg2)) (Y (Proc.devRef .tc main_arg3))
          (Y (Proc.devRef .tc main_v34)) := by
  after_results_simp
  rfl

/-- and the layer's weight. -/
theorem stretch3_weight :
    (StableHlo.after hostOps3 Y (Proc.devRef .tc main_v49) : (⟨S128x128, .f32⟩ : BufTy).Contents (Elt Ideal))
      = layerWeight ![2, 0, 0] slices_S4x128x128_S1x128x128_2_0_0 (Y (Proc.devRef .tc main_arg6)) := by
  after_results_simp
  rfl

/-- The reference's aggregation before the third layer is the aggregation of its features before that layer. -/
theorem ref_agg3 (x0 : (⟨Cert.ReferenceIdeal.S100000x128, .f32⟩ : BufTy).Contents (Elt Ideal)) (x1 x2 : (⟨Cert.ReferenceIdeal.S1600000, .i32⟩ : BufTy).Contents (Elt Ideal)) (x3 : (⟨Cert.ReferenceIdeal.S1600000, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S4x128x128, .f32⟩ : BufTy).Contents (Elt Ideal)) :
    Cert.ReferenceIdeal.ReadP.val_main_v73 (F := Ideal) x0 x1 x2 x3 x4 x5 x6
      = aggregate x1 x2 x3 (Cert.ReferenceIdeal.ReadP.val_main_v60 (F := Ideal) x0 x1 x2 x3 x4 x5 x6) := rfl

/-- The reference's third layer weight is the slice of the stacked weights. -/
theorem ref_weight3 (x6 : (⟨Cert.ReferenceIdeal.S4x128x128, .f32⟩ : BufTy).Contents (Elt Ideal)) :
    Cert.ReferenceIdeal.ReadP.val_main_v80 (F := Ideal) x6 = layerWeight ![2, 0, 0] slices_S4x128x128_S1x128x128_2_0_0 x6 := rfl

/-- AGGREGATION 3. When the stretch finds the edges' sources, destinations and weights and the reference's features before
    the third layer, it leaves the reference's aggregation. -/
theorem agg3 (x0 : (⟨Cert.ReferenceIdeal.S100000x128, .f32⟩ : BufTy).Contents (Elt Ideal)) (x1 x2 : (⟨Cert.ReferenceIdeal.S1600000, .i32⟩ : BufTy).Contents (Elt Ideal)) (x3 : (⟨Cert.ReferenceIdeal.S1600000, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S4x128x128, .f32⟩ : BufTy).Contents (Elt Ideal))
    (h1 : (Y (Proc.devRef .tc main_arg1) : (⟨S1600000, .i32⟩ : BufTy).Contents (Elt Ideal)) = x1)
    (h2 : (Y (Proc.devRef .tc main_arg2) : (⟨S1600000, .i32⟩ : BufTy).Contents (Elt Ideal)) = x2)
    (h3 : (Y (Proc.devRef .tc main_arg3) : (⟨S1600000, .f32⟩ : BufTy).Contents (Elt Ideal)) = x3)
    (hh : (Y (Proc.devRef .tc main_v34) : (⟨S100000x128, .f32⟩ : BufTy).Contents (Elt Ideal))
      = Cert.ReferenceIdeal.ReadP.val_main_v60 (F := Ideal) x0 x1 x2 x3 x4 x5 x6) :
    (StableHlo.after hostOps3 Y (Proc.devRef .tc main_v47) : (⟨S100000x128, .f32⟩ : BufTy).Contents (Elt Ideal))
      = Cert.ReferenceIdeal.ReadP.val_main_v73 (F := Ideal) x0 x1 x2 x3 x4 x5 x6 := by
  rw [stretch3_agg, h1, h2, h3, hh]
  exact (ref_agg3 x0 x1 x2 x3 x4 x5 x6).symm

/-- WEIGHT 3. When the stretch finds the stacked weights, it leaves the reference's third layer weight. -/
theorem weight3 (x6 : (⟨Cert.ReferenceIdeal.S4x128x128, .f32⟩ : BufTy).Contents (Elt Ideal))
    (h6 : (Y (Proc.devRef .tc main_arg6) : (⟨S4x128x128, .f32⟩ : BufTy).Contents (Elt Ideal)) = x6) :
    (StableHlo.after hostOps3 Y (Proc.devRef .tc main_v49) : (⟨S128x128, .f32⟩ : BufTy).Contents (Elt Ideal))
      = Cert.ReferenceIdeal.ReadP.val_main_v80 (F := Ideal) x6 := by
  rw [stretch3_weight, h6]
  exact (ref_weight3 x6).symm

/-! ## The stretch before the fourth layer -/

/-- The stretch leaves the aggregation of the features it finds, -/
theorem stretch4_agg :
    (StableHlo.after hostOps4 Y (Proc.devRef .tc main_v63) : (⟨S100000x128, .f32⟩ : BufTy).Contents (Elt Ideal))
      = aggregate (Y (Proc.devRef .tc main_arg1)) (Y (Proc.devRef .tc main_arg2)) (Y (Proc.devRef .tc main_arg3))
          (Y (Proc.devRef .tc main_v50)) := by
  after_results_simp
  rfl

/-- and the layer's weight. -/
theorem stretch4_weight :
    (StableHlo.after hostOps4 Y (Proc.devRef .tc main_v65) : (⟨S128x128, .f32⟩ : BufTy).Contents (Elt Ideal))
      = layerWeight ![3, 0, 0] slices_S4x128x128_S1x128x128_3_0_0 (Y (Proc.devRef .tc main_arg6)) := by
  after_results_simp
  rfl

/-- The reference's aggregation before the fourth layer is the aggregation of its features before that layer. -/
theorem ref_agg4 (x0 : (⟨Cert.ReferenceIdeal.S100000x128, .f32⟩ : BufTy).Contents (Elt Ideal)) (x1 x2 : (⟨Cert.ReferenceIdeal.S1600000, .i32⟩ : BufTy).Contents (Elt Ideal)) (x3 : (⟨Cert.ReferenceIdeal.S1600000, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S4x128x128, .f32⟩ : BufTy).Contents (Elt Ideal)) :
    Cert.ReferenceIdeal.ReadP.val_main_v101 (F := Ideal) x0 x1 x2 x3 x4 x5 x6
      = aggregate x1 x2 x3 (Cert.ReferenceIdeal.ReadP.val_main_v88 (F := Ideal) x0 x1 x2 x3 x4 x5 x6) := rfl

/-- The reference's fourth layer weight is the slice of the stacked weights. -/
theorem ref_weight4 (x6 : (⟨Cert.ReferenceIdeal.S4x128x128, .f32⟩ : BufTy).Contents (Elt Ideal)) :
    Cert.ReferenceIdeal.ReadP.val_main_v108 (F := Ideal) x6 = layerWeight ![3, 0, 0] slices_S4x128x128_S1x128x128_3_0_0 x6 := rfl

/-- AGGREGATION 4. When the stretch finds the edges' sources, destinations and weights and the reference's features before
    the fourth layer, it leaves the reference's aggregation. -/
theorem agg4 (x0 : (⟨Cert.ReferenceIdeal.S100000x128, .f32⟩ : BufTy).Contents (Elt Ideal)) (x1 x2 : (⟨Cert.ReferenceIdeal.S1600000, .i32⟩ : BufTy).Contents (Elt Ideal)) (x3 : (⟨Cert.ReferenceIdeal.S1600000, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S4x128x128, .f32⟩ : BufTy).Contents (Elt Ideal))
    (h1 : (Y (Proc.devRef .tc main_arg1) : (⟨S1600000, .i32⟩ : BufTy).Contents (Elt Ideal)) = x1)
    (h2 : (Y (Proc.devRef .tc main_arg2) : (⟨S1600000, .i32⟩ : BufTy).Contents (Elt Ideal)) = x2)
    (h3 : (Y (Proc.devRef .tc main_arg3) : (⟨S1600000, .f32⟩ : BufTy).Contents (Elt Ideal)) = x3)
    (hh : (Y (Proc.devRef .tc main_v50) : (⟨S100000x128, .f32⟩ : BufTy).Contents (Elt Ideal))
      = Cert.ReferenceIdeal.ReadP.val_main_v88 (F := Ideal) x0 x1 x2 x3 x4 x5 x6) :
    (StableHlo.after hostOps4 Y (Proc.devRef .tc main_v63) : (⟨S100000x128, .f32⟩ : BufTy).Contents (Elt Ideal))
      = Cert.ReferenceIdeal.ReadP.val_main_v101 (F := Ideal) x0 x1 x2 x3 x4 x5 x6 := by
  rw [stretch4_agg, h1, h2, h3, hh]
  exact (ref_agg4 x0 x1 x2 x3 x4 x5 x6).symm

/-- WEIGHT 4. When the stretch finds the stacked weights, it leaves the reference's fourth layer weight. -/
theorem weight4 (x6 : (⟨Cert.ReferenceIdeal.S4x128x128, .f32⟩ : BufTy).Contents (Elt Ideal))
    (h6 : (Y (Proc.devRef .tc main_arg6) : (⟨S4x128x128, .f32⟩ : BufTy).Contents (Elt Ideal)) = x6) :
    (StableHlo.after hostOps4 Y (Proc.devRef .tc main_v65) : (⟨S128x128, .f32⟩ : BufTy).Contents (Elt Ideal))
      = Cert.ReferenceIdeal.ReadP.val_main_v108 (F := Ideal) x6 := by
  rw [stretch4_weight, h6]
  exact (ref_weight4 x6).symm

end Cert.HostGlue

end
-- ==== Proof.KIValue.lean ====
/-
  What the idealized kernel program leaves in its result buffer, as a function of the launch contents of its nine arguments: stage
  by stage the buffers between the regions hold the reference's stages. The input projection's output is relu(x·W_in + b_in); each
  host stretch aggregates the current features exactly as the reference does (the same gather, weighting and scatter-add) and cuts
  the layer's weight out of the stack; each layer's region turns (aggregated, initial, current, weight) into the reference's next
  features; the last region is the row log-softmax of the final projection. A buffer no later item writes keeps its stage.
-/
import proofs.«100143_j39058432590072_1_alg».proof.Proof.KIRun
import proofs.«100143_j39058432590072_1_alg».proof.Proof.RegionValue0
import proofs.«100143_j39058432590072_1_alg».proof.Proof.RegionValue1
import proofs.«100143_j39058432590072_1_alg».proof.Proof.RegionValue2
import proofs.«100143_j39058432590072_1_alg».proof.Proof.RegionValue3
import proofs.«100143_j39058432590072_1_alg».proof.Proof.RegionValue4
import proofs.«100143_j39058432590072_1_alg».proof.Proof.RegionValue5
import proofs.«100143_j39058432590072_1_alg».proof.Proof.HostGlue

set_option maxRecDepth 16384

noncomputable section

namespace Cert.KernelValue

open Cert.KernelIdeal Cert.KernelIdeal.Gen Cert.KernelIdeal.Frame Cert.ReferenceIdeal.ReadP
open Idealize.ShloMosaic Idealize.ShloMosaic.TcCoe Idealize.SL.Sem Idealize.ShloMosaic.ValueIdx

variable (m : (ℓ : Loc nD τ sig) → Buf (Elt Ideal) ℓ) (c : Dev nD)

/-! ## A buffer an item does not write keeps its contents across the item -/

theorem step1 (r : Ref sig .tc) (h : r ∉ hostOps0_W) : X1 m c r = V0 m c r := V1_of m c r h
theorem step2 (r : Ref sig .tc) (h : r ∉ ([main_v2] : List (Ref sig .tc))) : X2 m c r = X1 m c r := by
  rw [← V2_eq]; exact V2_of m (outsOf m) c r h
theorem step3 (r : Ref sig .tc) (h : r ∉ hostOps1_W) : X3 m c r = X2 m c r := by
  rw [← V3_eq, ← V2_eq]; exact V3_of m (outsOf m) c r h
theorem step4 (r : Ref sig .tc) (h : r ∉ ([main_v18] : List (Ref sig .tc))) : X4 m c r = X3 m c r := by
  rw [← V4_eq, ← V3_eq]; exact V4_of m (outsOf m) c r h
theorem step5 (r : Ref sig .tc) (h : r ∉ hostOps2_W) : X5 m c r = X4 m c r := by
  rw [← V5_eq, ← V4_eq]; exact V5_of m (outsOf m) c r h
theorem step6 (r : Ref sig .tc) (h : r ∉ ([main_v34] : List (Ref sig .tc))) : X6 m c r = X5 m c r := by
  rw [← V6_eq, ← V5_eq]; exact V6_of m (outsOf m) c r h
theorem step7 (r : Ref sig .tc) (h : r ∉ hostOps3_W) : X7 m c r = X6 m c r := by
  rw [← V7_eq, ← V6_eq]; exact V7_of m (outsOf m) c r h
theorem step8 (r : Ref sig .tc) (h : r ∉ ([main_v50] : List (Ref sig .tc))) : X8 m c r = X7 m c r := by
  rw [← V8_eq, ← V7_eq]; exact V8_of m (outsOf m) c r h
theorem step9 (r : Ref sig .tc) (h : r ∉ hostOps4_W) : X9 m c r = X8 m c r := by
  rw [← V9_eq, ← V8_eq]; exact V9_of m (outsOf m) c r h
theorem step10 (r : Ref sig .tc) (h : r ∉ ([main_v66] : List (Ref sig .tc))) : X10 m c r = X9 m c r := by
  rw [← V10_eq, ← V9_eq]; exact V10_of m (outsOf m) c r h
theorem step11 (r : Ref sig .tc) (h : r ∉ ([main_v67] : List (Ref sig .tc))) : X11 m c r = X10 m c r := by
  rw [← V11_eq, ← V10_eq]; exact V11_of m (outsOf m) c r h

/-! ## The arguments, at the items that read them -/

theorem arg0_at1 : X1 m c main_arg0 = (m ((c.tc : Thread nD τ).loc main_arg0)) :=
  ((step1 m c main_arg0 (by decide))).trans rfl
theorem arg4_at1 : X1 m c main_arg4 = (m ((c.tc : Thread nD τ).loc main_arg4)) :=
  ((step1 m c main_arg4 (by decide))).trans rfl
theorem arg1_at2 : X2 m c main_arg1 = (m ((c.tc : Thread nD τ).loc main_arg1)) :=
  (((step2 m c main_arg1 (by decide)).trans (step1 m c main_arg1 (by decide)))).trans rfl
theorem arg2_at2 : X2 m c main_arg2 = (m ((c.tc : Thread nD τ).loc main_arg2)) :=
  (((step2 m c main_arg2 (by decide)).trans (step1 m c main_arg2 (by decide)))).trans rfl
theorem arg3_at2 : X2 m c main_arg3 = (m ((c.tc : Thread nD τ).loc main_arg3)) :=
  (((step2 m c main_arg3 (by decide)).trans (step1 m c main_arg3 (by decide)))).trans rfl
theorem arg6_at2 : X2 m c main_arg6 = (m ((c.tc : Thread nD τ).loc main_arg6)) :=
  (((step2 m c main_arg6 (by decide)).trans (step1 m c main_arg6 (by decide)))).trans rfl
theorem arg1_at4 : X4 m c main_arg1 = (m ((c.tc : Thread nD τ).loc main_arg1)) :=
  (((((step4 m c main_arg1 (by decide)).trans (step3 m c main_arg1 (by decide))).trans (step2 m c main_arg1 (by decide))).trans (step1 m c main_arg1 (by decide)))).trans rfl
theorem arg2_at4 : X4 m c main_arg2 = (m ((c.tc : Thread nD τ).loc main_arg2)) :=
  (((((step4 m c main_arg2 (by decide)).trans (step3 m c main_arg2 (by decide))).trans (step2 m c main_arg2 (by decide))).trans (step1 m c main_arg2 (by decide)))).trans rfl
theorem arg3_at4 : X4 m c main_arg3 = (m ((c.tc : Thread nD τ).loc main_arg3)) :=
  (((((step4 m c main_arg3 (by decide)).trans (step3 m c main_arg3 (by decide))).trans (step2 m c main_arg3 (by decide))).trans (step1 m c main_arg3 (by decide)))).trans rfl
theorem arg6_at4 : X4 m c main_arg6 = (m ((c.tc : Thread nD τ).loc main_arg6)) :=
  (((((step4 m c main_arg6 (by decide)).trans (step3 m c main_arg6 (by decide))).trans (step2 m c main_arg6 (by decide))).trans (step1 m c main_arg6 (by decide)))).trans rfl
theorem arg1_at6 : X6 m c main_arg1 = (m ((c.tc : Thread nD τ).loc main_arg1)) :=
  (((((((step6 m c main_arg1 (by decide)).trans (step5 m c main_arg1 (by decide))).trans (step4 m c main_arg1 (by decide))).trans (step3 m c main_arg1 (by decide))).trans (step2 m c main_arg1 (by decide))).trans (step1 m c main_arg1 (by decide)))).trans rfl
theorem arg2_at6 : X6 m c main_arg2 = (m ((c.tc : Thread nD τ).loc main_arg2)) :=
  (((((((step6 m c main_arg2 (by decide)).trans (step5 m c main_arg2 (by decide))).trans (step4 m c main_arg2 (by decide))).trans (step3 m c main_arg2 (by decide))).trans (step2 m c main_arg2 (by decide))).trans (step1 m c main_arg2 (by decide)))).trans rfl
theorem arg3_at6 : X6 m c main_arg3 = (m ((c.tc : Thread nD τ).loc main_arg3)) :=
  (((((((step6 m c main_arg3 (by decide)).trans (step5 m c main_arg3 (by decide))).trans (step4 m c main_arg3 (by decide))).trans (step3 m c main_arg3 (by decide))).trans (step2 m c main_arg3 (by decide))).trans (step1 m c main_arg3 (by decide)))).trans rfl
theorem arg6_at6 : X6 m c main_arg6 = (m ((c.tc : Thread nD τ).loc main_arg6)) :=
  (((((((step6 m c main_arg6 (by decide)).trans (step5 m c main_arg6 (by decide))).trans (step4 m c main_arg6 (by decide))).trans (step3 m c main_arg6 (by decide))).trans (step2 m c main_arg6 (by decide))).trans (step1 m c main_arg6 (by decide)))).trans rfl
theorem arg1_at8 : X8 m c main_arg1 = (m ((c.tc : Thread nD τ).loc main_arg1)) :=
  (((((((((step8 m c main_arg1 (by decide)).trans (step7 m c main_arg1 (by decide))).trans (step6 m c main_arg1 (by decide))).trans (step5 m c main_arg1 (by decide))).trans (step4 m c main_arg1 (by decide))).trans (step3 m c main_arg1 (by decide))).trans (step2 m c main_arg1 (by decide))).trans (step1 m c main_arg1 (by decide)))).trans rfl
theorem arg2_at8 : X8 m c main_arg2 = (m ((c.tc : Thread nD τ).loc main_arg2)) :=
  (((((((((step8 m c main_arg2 (by decide)).trans (step7 m c main_arg2 (by decide))).trans (step6 m c main_arg2 (by decide))).trans (step5 m c main_arg2 (by decide))).trans (step4 m c main_arg2 (by decide))).trans (step3 m c main_arg2 (by decide))).trans (step2 m c main_arg2 (by decide))).trans (step1 m c main_arg2 (by decide)))).trans rfl
theorem arg3_at8 : X8 m c main_arg3 = (m ((c.tc : Thread nD τ).loc main_arg3)) :=
  (((((((((step8 m c main_arg3 (by decide)).trans (step7 m c main_arg3 (by decide))).trans (step6 m c main_arg3 (by decide))).trans (step5 m c main_arg3 (by decide))).trans (step4 m c main_arg3 (by decide))).trans (step3 m c main_arg3 (by decide))).trans (step2 m c main_arg3 (by decide))).trans (step1 m c main_arg3 (by decide)))).trans rfl
theorem arg6_at8 : X8 m c main_arg6 = (m ((c.tc : Thread nD τ).loc main_arg6)) :=
  (((((((((step8 m c main_arg6 (by decide)).trans (step7 m c main_arg6 (by decide))).trans (step6 m c main_arg6 (by decide))).trans (step5 m c main_arg6 (by decide))).trans (step4 m c main_arg6 (by decide))).trans (step3 m c main_arg6 (by decide))).trans (step2 m c main_arg6 (by decide))).trans (step1 m c main_arg6 (by decide)))).trans rfl
theorem arg7_at10 : X10 m c main_arg7 = (m ((c.tc : Thread nD τ).loc main_arg7)) :=
  (((((((((((step10 m c main_arg7 (by decide)).trans (step9 m c main_arg7 (by decide))).trans (step8 m c main_arg7 (by decide))).trans (step7 m c main_arg7 (by decide))).trans (step6 m c main_arg7 (by decide))).trans (step5 m c main_arg7 (by decide))).trans (step4 m c main_arg7 (by decide))).trans (step3 m c main_arg7 (by decide))).trans (step2 m c main_arg7 (by decide))).trans (step1 m c main_arg7 (by decide)))).trans rfl

/-! ## The initial features -/

/-- After the input projection the buffer of the initial features holds the reference's first stage: relu(x·W_in + b_in). -/
theorem initial_features : X2 m c main_v2 = val_main_v4 (F := Ideal) (m ((c.tc : Thread nD τ).loc main_arg0)) (m ((c.tc : Thread nD τ).loc main_arg4)) (m ((c.tc : Thread nD τ).loc main_arg5)) := by
  unfold X2; rw [Function.update_self]
  exact Cert.RegionValue.region0_value (T1 m) c (m ((c.tc : Thread nD τ).loc main_arg0)) (m ((c.tc : Thread nD τ).loc main_arg4)) (m ((c.tc : Thread nD τ).loc main_arg5)) (arg0_at1 m c) (arg4_at1 m c)
    (Cert.HostGlue.bias_in_row (V0 m c) (m ((c.tc : Thread nD τ).loc main_arg5)) rfl)

/-! ## Layer 1 -/

/-- The host's aggregation of the current features (gather by source, weight, scatter-add by destination) is the reference's. -/
theorem aggregated1 : X3 m c main_v15 = val_main_v17 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold X3
  exact Cert.HostGlue.agg1 (X2 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (arg1_at2 m c) (arg2_at2 m c) (arg3_at2 m c) (initial_features m c)
/-- The layer's weight, sliced out of the stacked weights and reshaped, is the reference's. -/
theorem weight1 : X3 m c main_v17 = val_main_v24 (F := Ideal) (m ((c.tc : Thread nD τ).loc main_arg6)) := by
  unfold X3
  exact Cert.HostGlue.weight1 (X2 m c) (m ((c.tc : Thread nD τ).loc main_arg6)) (arg6_at2 m c)
/-- The initial features are still in their buffer, -/
theorem initial_at3 : X3 m c main_v2 = val_main_v4 (F := Ideal) (m ((c.tc : Thread nD τ).loc main_arg0)) (m ((c.tc : Thread nD τ).loc main_arg4)) (m ((c.tc : Thread nD τ).loc main_arg5)) :=
  ((step3 m c main_v2 (by decide))).trans (initial_features m c)
/-- After the layer its output buffer holds the reference's features after layer 1. -/
theorem features1 : X4 m c main_v18 = val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold X4; rw [Function.update_self]
  exact Cert.RegionValue.region1_value (T3 m) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (aggregated1 m c) (initial_at3 m c) (weight1 m c)

/-! ## Layer 2 -/

/-- The host's aggregation of the current features (gather by source, weight, scatter-add by destination) is the reference's. -/
theorem aggregated2 : X5 m c main_v31 = val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold X5
  exact Cert.HostGlue.agg2 (X4 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (arg1_at4 m c) (arg2_at4 m c) (arg3_at4 m c) (features1 m c)
/-- The layer's weight, sliced out of the stacked weights and reshaped, is the reference's. -/
theorem weight2 : X5 m c main_v33 = val_main_v52 (F := Ideal) (m ((c.tc : Thread nD τ).loc main_arg6)) := by
  unfold X5
  exact Cert.HostGlue.weight2 (X4 m c) (m ((c.tc : Thread nD τ).loc main_arg6)) (arg6_at4 m c)
/-- The initial features are still in their buffer, -/
theorem initial_at5 : X5 m c main_v2 = val_main_v4 (F := Ideal) (m ((c.tc : Thread nD τ).loc main_arg0)) (m ((c.tc : Thread nD τ).loc main_arg4)) (m ((c.tc : Thread nD τ).loc main_arg5)) :=
  ((((step5 m c main_v2 (by decide)).trans (step4 m c main_v2 (by decide))).trans (step3 m c main_v2 (by decide)))).trans (initial_features m c)
/-- and so are the current features. -/
theorem current_at5 : X5 m c main_v18 = val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (step5 m c main_v18 (by decide)).trans (features1 m c)
/-- After the layer its output buffer holds the reference's features after layer 2. -/
theorem features2 : X6 m c main_v34 = val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold X6; rw [Function.update_self]
  exact Cert.RegionValue.region2_value (T5 m) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (aggregated2 m c) (initial_at5 m c) (current_at5 m c) (weight2 m c)

/-! ## Layer 3 -/

/-- The host's aggregation of the current features (gather by source, weight, scatter-add by destination) is the reference's. -/
theorem aggregated3 : X7 m c main_v47 = val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold X7
  exact Cert.HostGlue.agg3 (X6 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (arg1_at6 m c) (arg2_at6 m c) (arg3_at6 m c) (features2 m c)
/-- The layer's weight, sliced out of the stacked weights and reshaped, is the reference's. -/
theorem weight3 : X7 m c main_v49 = val_main_v80 (F := Ideal) (m ((c.tc : Thread nD τ).loc main_arg6)) := by
  unfold X7
  exact Cert.HostGlue.weight3 (X6 m c) (m ((c.tc : Thread nD τ).loc main_arg6)) (arg6_at6 m c)
/-- The initial features are still in their buffer, -/
theorem initial_at7 : X7 m c main_v2 = val_main_v4 (F := Ideal) (m ((c.tc : Thread nD τ).loc main_arg0)) (m ((c.tc : Thread nD τ).loc main_arg4)) (m ((c.tc : Thread nD τ).loc main_arg5)) :=
  ((((((step7 m c main_v2 (by decide)).trans (step6 m c main_v2 (by decide))).trans (step5 m c main_v2 (by decide))).trans (step4 m c main_v2 (by decide))).trans (step3 m c main_v2 (by decide)))).trans (initial_features m c)
/-- and so are the current features. -/
theorem current_at7 : X7 m c main_v34 = val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (step7 m c main_v34 (by decide)).trans (features2 m c)
/-- After the layer its output buffer holds the reference's features after layer 3. -/
theorem features3 : X8 m c main_v50 = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold X8; rw [Function.update_self]
  exact Cert.RegionValue.region3_value (T7 m) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (aggregated3 m c) (initial_at7 m c) (current_at7 m c) (weight3 m c)

/-! ## Layer 4 -/

/-- The host's aggregation of the current features (gather by source, weight, scatter-add by destination) is the reference's. -/
theorem aggregated4 : X9 m c main_v63 = val_main_v101 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold X9
  exact Cert.HostGlue.agg4 (X8 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (arg1_at8 m c) (arg2_at8 m c) (arg3_at8 m c) (features3 m c)
/-- The layer's weight, sliced out of the stacked weights and reshaped, is the reference's. -/
theorem weight4 : X9 m c main_v65 = val_main_v108 (F := Ideal) (m ((c.tc : Thread nD τ).loc main_arg6)) := by
  unfold X9
  exact Cert.HostGlue.weight4 (X8 m c) (m ((c.tc : Thread nD τ).loc main_arg6)) (arg6_at8 m c)
/-- The initial features are still in their buffer, -/
theorem initial_at9 : X9 m c main_v2 = val_main_v4 (F := Ideal) (m ((c.tc : Thread nD τ).loc main_arg0)) (m ((c.tc : Thread nD τ).loc main_arg4)) (m ((c.tc : Thread nD τ).loc main_arg5)) :=
  ((((((((step9 m c main_v2 (by decide)).trans (step8 m c main_v2 (by decide))).trans (step7 m c main_v2 (by decide))).trans (step6 m c main_v2 (by decide))).trans (step5 m c main_v2 (by decide))).trans (step4 m c main_v2 (by decide))).trans (step3 m c main_v2 (by decide)))).trans (initial_features m c)
/-- and so are the current features. -/
theorem current_at9 : X9 m c main_v50 = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (step9 m c main_v50 (by decide)).trans (features3 m c)
/-- After the layer its output buffer holds the reference's features after layer 4. -/
theorem features4 : X10 m c main_v66 = val_main_v116 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold X10; rw [Function.update_self]
  exact Cert.RegionValue.region4_value (T9 m) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (aggregated4 m c) (initial_at9 m c) (current_at9 m c) (weight4 m c)

/-! ## The result -/

/-- The output bias as a row is still in its buffer when the last region is entered. -/
theorem bias_row_at10 : X10 m c main_v1 = X1 m c main_v1 :=
  (((((((((step10 m c main_v1 (by decide)).trans (step9 m c main_v1 (by decide))).trans (step8 m c main_v1 (by decide))).trans (step7 m c main_v1 (by decide))).trans (step6 m c main_v1 (by decide))).trans (step5 m c main_v1 (by decide))).trans (step4 m c main_v1 (by decide))).trans (step3 m c main_v1 (by decide))).trans (step2 m c main_v1 (by decide)))

/-- After the last region the result buffer holds the reference's result: the row log-softmax of the final projection of the
    fourth layer's features. -/
theorem result : X11 m c main_v67 = val_main_v121 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold X11; rw [Function.update_self]
  exact Cert.RegionValue.region5_value (T10 m) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (features4 m c) (arg7_at10 m c)
    (fun j => (congrFun (bias_row_at10 m c) (ix2 0 j)).trans (Cert.HostGlue.bias_out_row (V0 m c) (m ((c.tc : Thread nD τ).loc main_arg8)) rfl j))

end Cert.KernelValue

end
-- ==== Proof.LibWrittenRefs.lean ====
/-
  A straight line of host operations each of which writes exactly one buffer: when the buffers written, in order,
  are the references of a list `W`, a reference outside `W` is written by no operation of the line, and so keeps its
  contents across the line. The hypothesis is one equation between two lists (the operations' written sets against the
  singletons of `W`), which for a literal line holds by unfolding; membership in `W` is then decided over references alone.
-/
import Idealize.ShloMosaic.Lib.StableHlo.Run

namespace Idealize.ShloMosaic.StableHlo

variable {τ : Topo} {sig : RefSig} {Val : EltTy → Type}

/-- Every operation of a line whose written sets are, in order, the singletons of the references `W` writes only
    references of `W`. -/
theorem writes_sub_of_map_eq :
    ∀ (ops : List (HloOp τ sig Val)) (W : List (Ref sig .tc)),
      ops.map (fun op => op.writes) = W.map (fun r => ({Proc.devRef (τ := τ) .tc r} : Finset (DevRef τ sig))) →
      ∀ op ∈ ops, op.writes ⊆ (W.map (Proc.devRef (τ := τ) .tc)).toFinset
  | [], _, _ => fun _ hop => nomatch hop
  | _ :: _, [], h => nomatch h
  | o :: os, r :: W', h => by
    simp only [List.map_cons, List.cons.injEq] at h
    intro op hop
    rcases List.mem_cons.mp hop with rfl | hop
    · rw [h.1]
      intro b hb
      rw [Finset.mem_singleton] at hb
      subst hb
      exact List.mem_toFinset.mpr (List.mem_map.mpr ⟨r, List.mem_cons_self, rfl⟩)
    · refine (writes_sub_of_map_eq os W' h.2 op hop).trans fun b hb => ?_
      obtain ⟨y, hy, he⟩ := List.mem_map.mp (List.mem_toFinset.mp hb)
      exact List.mem_toFinset.mpr (List.mem_map.mpr ⟨y, List.mem_cons_of_mem _ hy, he⟩)

/-- No operation of such a line writes a reference outside `W`. -/
theorem not_mem_writes_of_map_eq {ops : List (HloOp τ sig Val)} {W : List (Ref sig .tc)}
    (h : ops.map (fun op => op.writes) = W.map (fun r => ({Proc.devRef (τ := τ) .tc r} : Finset (DevRef τ sig))))
    {r : Ref sig .tc} (hr : r ∉ W) {op : HloOp τ sig Val} (hop : op ∈ ops) : Proc.devRef (τ := τ) .tc r ∉ op.writes := fun hw => by
  obtain ⟨y, hy, he⟩ := List.mem_map.mp (List.mem_toFinset.mp (writes_sub_of_map_eq ops W h op hop hw))
  exact hr (Proc.devRef_injective _ he ▸ hy)

/-- A reference outside `W` holds after such a line what it held before it. -/
theorem after_of_map_writes_eq {ops : List (HloOp τ sig Val)} {W : List (Ref sig .tc)}
    (h : ops.map (fun op => op.writes) = W.map (fun r => ({Proc.devRef (τ := τ) .tc r} : Finset (DevRef τ sig))))
    (V : Valuation τ sig Val) {r : Ref sig .tc} (hr : r ∉ W) :
    after ops V (Proc.devRef .tc r) = V (Proc.devRef .tc r) :=
  after_of_forall_not_mem ops V fun _ hop => not_mem_writes_of_map_eq h hr hop

end Idealize.ShloMosaic.StableHlo
-- ==== Proof.LibSingleAssign.lean ====
/-
  Straight lines of host operations in single-assignment form: each operation writes exactly one buffer, and no buffer is
  written twice. For such a line the valuation after the whole line can be read one variable at a time: the final value of
  the variable the `j`-th operation assigns is that operation's function of the FINAL values of its operands, provided
  each operand is assigned before position `j` or not at all (it is then never touched again). So a value computed by a
  long line is described by one small equation per operation, and two lines can be compared variable by variable
  without ever writing out a whole composed term.
-/
import Idealize.ShloMosaic.Lib.StableHlo.Run
import proofs.«100143_j39058432590072_1_alg».proof.Proof.LibWrittenRefs

namespace Idealize.ShloMosaic.StableHlo

variable {τ : Topo} {sig : RefSig} {Val : EltTy → Type}

/-- The line `ops` assigns the references `W`, one per operation in order, each once. -/
structure SingleAssign (ops : List (HloOp τ sig Val)) (W : List (Ref sig .tc)) : Prop where
  writes : ops.map (fun op => op.writes) = W.map (fun r => ({Proc.devRef (τ := τ) .tc r} : Finset (DevRef τ sig)))
  nodup : W.Nodup

theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- In a list without repetition the entry at position `i` does not occur from a later position `j` on. -/
theorem not_mem_drop_of_nodup {α : Type} : ∀ (W : List α), W.Nodup → ∀ (i j : Nat) (x : α), W[i]? = some x → i < j → x ∉ W.drop j
  | [], _, _, _, _, h, _ => by simp at h
  | _ :: _, _, _, 0, _, _, hlt => absurd hlt (Nat.not_lt_zero _)
  | r :: W', hn, 0, j + 1, x, h, _ => by
    simp only [List.getElem?_cons_zero, Option.some.injEq] at h
    subst h
    rw [List.drop_succ_cons]
    exact fun hm => (List.nodup_cons.mp hn).1 (List.mem_of_mem_drop hm)
  | r :: W', hn, i + 1, j + 1, x, h, hlt => by
    rw [List.drop_succ_cons]
    rw [List.getElem?_cons_succ] at h
    exact not_mem_drop_of_nodup W' (List.nodup_cons.mp hn).2 i j x h (Nat.lt_of_succ_lt_succ hlt)

/-- The final value of the variable the `j`-th operation assigns is that operation's result over the valuation before it. -/
theorem after_at : ∀ (ops : List (HloOp τ sig Val)) (W : List (Ref sig .tc)),
    ops.map (fun op => op.writes) = W.map (fun r => ({Proc.devRef (τ := τ) .tc r} : Finset (DevRef τ sig))) → W.Nodup →
    ∀ (V : Valuation τ sig Val) (j : Nat) (op : HloOp τ sig Val) (y : Ref sig .tc), ops[j]? = some op → W[j]? = some y →
      after ops V (Proc.devRef .tc y) = op.result (after (ops.take j) V) (Proc.devRef .tc y)
  | [], _, _, _, _, _, _, _, hop, _ => by simp at hop
  | _ :: _, [], hw, _, _, _, _, _, _, _ => by simp at hw
  | o :: os, r :: W', hw, hn, V, 0, op, y, hop, hy => by
    simp only [List.getElem?_cons_zero, Option.some.injEq] at hop hy
    subst hop hy
    simp only [List.map_cons, List.cons.injEq] at hw
    rw [after_cons, List.take_zero, after_nil]
    exact after_of_map_writes_eq hw.2 _ (List.nodup_cons.mp hn).1
  | o :: os, r :: W', hw, hn, V, j + 1, op, y, hop, hy => by
    simp only [List.map_cons, List.cons.injEq] at hw
    rw [List.getElem?_cons_succ] at hop hy
    rw [after_cons, List.take_succ_cons, after_cons]
    exact after_at os W' hw.2 (List.nodup_cons.mp hn).2 (o.result V) j op y hop hy

variable {ops : List (HloOp τ sig Val)} {W : List (Ref sig .tc)}

/-- A reference not assigned from position `j` on already holds its final value before position `j`. -/
theorem after_take_of_not_mem_drop (h : SingleAssign ops W) (V : Valuation τ sig Val) (j : Nat) {x : Ref sig .tc} (hx : x ∉ W.drop j) :
    after (ops.take j) V (Proc.devRef .tc x) = after ops V (Proc.devRef .tc x) := by
  conv_rhs => rw [← List.take_append_drop j ops, after_append]
  refine (after_of_map_writes_eq (W := W.drop j) ?_ _ hx).symm
  rw [List.map_drop, h.writes, List.map_drop]

/-- A reference assigned at an earlier position already holds its final value. -/
theorem after_take_of_lt (h : SingleAssign ops W) (V : Valuation τ sig Val) {i j : Nat} {x : Ref sig .tc} (hi : W[i]? = some x) (hij : i < j) :
    after (ops.take j) V (Proc.devRef .tc x) = after ops V (Proc.devRef .tc x) :=
  after_take_of_not_mem_drop h V j (not_mem_drop_of_nodup W h.nodup i j x hi hij)

/-- A reference the line never assigns holds throughout what it held before the line. -/
theorem after_of_not_assigned (h : SingleAssign ops W) (V : Valuation τ sig Val) {x : Ref sig .tc} (hx : x ∉ W) :
    after ops V (Proc.devRef .tc x) = V (Proc.devRef .tc x) :=
  after_of_map_writes_eq h.writes V hx

/-- and so did it before any position. -/
theorem after_take_of_not_assigned (h : SingleAssign ops W) (V : Valuation τ sig Val) (j : Nat) {x : Ref sig .tc} (hx : x ∉ W) :
    after (ops.take j) V (Proc.devRef .tc x) = after ops V (Proc.devRef .tc x) :=
  after_take_of_not_mem_drop h V j fun hm => hx (List.mem_of_mem_drop hm)

/-! ## The final value of an assigned variable, builder by builder -/

theorem final_nullary (h : SingleAssign ops W) (V : Valuation τ sig Val) (j : Nat) {y : Ref sig .tc} {v : y.ty.Contents Val} {hy}
    (hop : ops[j]? = some (nullary y v hy)) (hw : W[j]? = some y) :
    after ops V (Proc.devRef .tc y) = v := by
  rw [after_at ops W h.writes h.nodup V j _ y hop hw, nullary_result]

theorem final_unary (h : SingleAssign ops W) (V : Valuation τ sig Val) (j : Nat) {x y : Ref sig .tc}
    {f : x.ty.Contents Val → y.ty.Contents Val} {hx hy}
    (hop : ops[j]? = some (unary x y f hx hy)) (hw : W[j]? = some y)
    (sx : after (ops.take j) V (Proc.devRef .tc x) = after ops V (Proc.devRef .tc x)) :
    after ops V (Proc.devRef .tc y) = f (after ops V (Proc.devRef .tc x)) := by
  rw [after_at ops W h.writes h.nodup V j _ y hop hw, unary_result, sx]

theorem final_binary (h : SingleAssign ops W) (V : Valuation τ sig Val) (j : Nat) {a b y : Ref sig .tc}
    {f : a.ty.Contents Val → b.ty.Contents Val → y.ty.Contents Val} {ha hb hy}
    (hop : ops[j]? = some (binary a b y f ha hb hy)) (hw : W[j]? = some y)
    (sa : after (ops.take j) V (Proc.devRef .tc a) = after ops V (Proc.devRef .tc a))
    (sb : after (ops.take j) V (Proc.devRef .tc b) = after ops V (Proc.devRef .tc b)) :
    after ops V (Proc.devRef .tc y) = f (after ops V (Proc.devRef .tc a)) (after ops V (Proc.devRef .tc b)) := by
  rw [after_at ops W h.writes h.nodup V j _ y hop hw, binary_result, sa, sb]

theorem final_ternary (h : SingleAssign ops W) (V : Valuation τ sig Val) (j : Nat) {c a b y : Ref sig .tc}
    {f : c.ty.Contents Val → a.ty.Contents Val → b.ty.Contents Val → y.ty.Contents Val} {hc ha hb hy}
    (hop : ops[j]? = some (ternary c a b y f hc ha hb hy)) (hw : W[j]? = some y)
    (sc : after (ops.take j) V (Proc.devRef .tc c) = after ops V (Proc.devRef .tc c))
    (sa : after (ops.take j) V (Proc.devRef .tc a) = after ops V (Proc.devRef .tc a))
    (sb : after (ops.take j) V (Proc.devRef .tc b) = after ops V (Proc.devRef .tc b)) :
    after ops V (Proc.devRef .tc y)
      = f (after ops V (Proc.devRef .tc c)) (after ops V (Proc.devRef .tc a)) (after ops V (Proc.devRef .tc b)) := by
  rw [after_at ops W h.writes h.nodup V j _ y hop hw, ternary_result, sc, sa, sb]

theorem final_reshape (h : SingleAssign ops W) (V : Valuation τ sig Val) (j : Nat) {x y : Ref sig .tc}
    {he : x.ty.elt = y.ty.elt} {hn : x.ty.shape.ShapeCasts y.ty.shape} {hx hy}
    (hop : ops[j]? = some (reshape x y he hn hx hy)) (hw : W[j]? = some y)
    (sx : after (ops.take j) V (Proc.devRef .tc x) = after ops V (Proc.devRef .tc x)) :
    after ops V (Proc.devRef .tc y) = fun i => he ▸ shapeCast y.ty.shape (after ops V (Proc.devRef .tc x)) hn i := by
  rw [after_at ops W h.writes h.nodup V j _ y hop hw, reshape_result, sx]

end Idealize.ShloMosaic.StableHlo
-- ==== Proof.RefRunChain.lean ====
/- The reference program's host operations, one equation each. The program is a straight line in single-assignment form: every
  operation writes one buffer and no buffer is written twice, so after the whole line the buffer an operation writes holds that
  operation's function of the FINAL contents of its operands. Read along the line, operation by operation, this says that each
  buffer ends at its stage: the stage function of the arguments' launch contents. No composed term is ever written out.
-/
import proofs.«100143_j39058432590072_1_alg».proof.Proof.RefOpsP
import proofs.«100143_j39058432590072_1_alg».proof.Proof.RefReadP
import proofs.«100143_j39058432590072_1_alg».proof.Proof.LibSingleAssign

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The buffers the line writes, in order. -/
abbrev written : List (Ref sig .tc) :=
  [main_v0, main_v1, main_v2, main_v3, main_call0_cst, main_call0_v0, main_v4, main_v5, main_c, main_v6, main_v7, main_c_0, main_v8, main_v9, main_v10, main_v11, main_v12, main_v13, main_v14, main_cst, main_v15, main_v16, main_v17, main_cst_1, main_v18, main_v19, main_cst_2, main_v20, main_v21, main_v22, main_v23, main_v24, main_v25, main_cst_3, main_v26, main_v27, main_cst_4, main_v28, main_v29, main_v30, main_v31, main_call1_cst, main_call1_v0, main_v32, main_v33, main_c_5, main_v34, main_v35, main_c_6, main_v36, main_v37, main_v38, main_v39, main_v40, main_v41, main_v42, main_cst_7, main_v43, main_v44, main_v45, main_cst_8, main_v46, main_v47, main_cst_9, main_v48, main_v49, main_v50, main_v51, main_v52, main_v53, main_cst_10, main_v54, main_v55, main_cst_11, main_v56, main_v57, main_v58, main_v59, main_call2_cst, main_call2_v0, main_v60, main_v61, main_c_12, main_v62, main_v63, main_c_13, main_v64, main_v65, main_v66, main_v67, main_v68, main_v69, main_v70, main_cst_14, main_v71, main_v72, main_v73, main_cst_15, main_v74, main_v75, main_cst_16, main_v76, main_v77, main_v78, main_v79, main_v80, main_v81, main_cst_17, main_v82, main_v83, main_cst_18, main_v84, main_v85, main_v86, main_v87, main_call3_cst, main_call3_v0, main_v88, main_v89, main_c_19, main_v90, main_v91, main_c_20, main_v92, main_v93, main_v94, main_v95, main_v96, main_v97, main_v98, main_cst_21, main_v99, main_v100, main_v101, main_cst_22, main_v102, main_v103, main_cst_23, main_v104, main_v105, main_v106, main_v107, main_v108, main_v109, main_cst_24, main_v110, main_v111, main_cst_25, main_v112, main_v113, main_v114, main_v115, main_call4_cst, main_call4_v0, main_v116, main_v117, main_v118, main_v119, main_v120, main_call5_cst, main_call5_v0, main_call5_cst_0, main_call5_v1, main_call5_v2, main_call5_v3, main_call5_v4, main_call5_v5, main_call5_v6, main_call5_cst_1, main_call5_v7, main_call5_v8, main_call5_v9, main_call5_v10, main_v121]

set_option maxHeartbeats 4000000 in
/-- Each operation writes its one buffer, and no buffer twice. -/
theorem hsa : SingleAssign (ops (F := F)) written := ⟨rfl, by decide⟩

variable (V : Valuation τ sig (Elt F))

theorem keep_arg0 : after (ops (F := F)) V (Proc.devRef .tc main_arg0) = V (Proc.devRef .tc main_arg0) :=
  after_of_not_assigned hsa V (by decide)
theorem keep_arg1 : after (ops (F := F)) V (Proc.devRef .tc main_arg1) = V (Proc.devRef .tc main_arg1) :=
  after_of_not_assigned hsa V (by decide)
theorem keep_arg2 : after (ops (F := F)) V (Proc.devRef .tc main_arg2) = V (Proc.devRef .tc main_arg2) :=
  after_of_not_assigned hsa V (by decide)
theorem keep_arg3 : after (ops (F := F)) V (Proc.devRef .tc main_arg3) = V (Proc.devRef .tc main_arg3) :=
  after_of_not_assigned hsa V (by decide)
theorem keep_arg4 : after (ops (F := F)) V (Proc.devRef .tc main_arg4) = V (Proc.devRef .tc main_arg4) :=
  after_of_not_assigned hsa V (by decide)
theorem keep_arg5 : after (ops (F := F)) V (Proc.devRef .tc main_arg5) = V (Proc.devRef .tc main_arg5) :=
  after_of_not_assigned hsa V (by decide)
theorem keep_arg6 : after (ops (F := F)) V (Proc.devRef .tc main_arg6) = V (Proc.devRef .tc main_arg6) :=
  after_of_not_assigned hsa V (by decide)
theorem keep_arg7 : after (ops (F := F)) V (Proc.devRef .tc main_arg7) = V (Proc.devRef .tc main_arg7) :=
  after_of_not_assigned hsa V (by decide)
theorem keep_arg8 : after (ops (F := F)) V (Proc.devRef .tc main_arg8) = V (Proc.devRef .tc main_arg8) :=
  after_of_not_assigned hsa V (by decide)

theorem fin_v0 : after (ops (F := F)) V (Proc.devRef .tc main_v0) = val_main_v0 (F := F) (V (Proc.devRef .tc main_arg0)) (V (Proc.devRef .tc main_arg4)) := by
  rw [final_binary hsa V 0 (a := main_arg0) (b := main_arg4) (y := main_v0) rfl rfl (after_take_of_not_assigned hsa V 0 (x := main_arg0) (by decide)) (after_take_of_not_assigned hsa V 0 (x := main_arg4) (by decide))]
  rw [keep_arg0 V, keep_arg4 V]
  rfl
theorem fin_v1 : after (ops (F := F)) V (Proc.devRef .tc main_v1) = val_main_v1 (F := F) (V (Proc.devRef .tc main_arg5)) := by
  rw [final_unary hsa V 1 (x := main_arg5) (y := main_v1) rfl rfl (after_take_of_not_assigned hsa V 1 (x := main_arg5) (by decide))]
  rw [keep_arg5 V]
  rfl
theorem fin_v2 : after (ops (F := F)) V (Proc.devRef .tc main_v2) = val_main_v2 (F := F) (V (Proc.devRef .tc main_arg5)) := by
  rw [final_unary hsa V 2 (x := main_v1) (y := main_v2) rfl rfl (after_take_of_lt hsa V (i := 1) (j := 2) (x := main_v1) rfl (by decide))]
  rw [fin_v1 V]
  rfl
theorem fin_v3 : after (ops (F := F)) V (Proc.devRef .tc main_v3) = val_main_v3 (F := F) (V (Proc.devRef .tc main_arg0)) (V (Proc.devRef .tc main_arg4)) (V (Proc.devRef .tc main_arg5)) := by
  rw [final_binary hsa V 3 (a := main_v0) (b := main_v2) (y := main_v3) rfl rfl (after_take_of_lt hsa V (i := 0) (j := 3) (x := main_v0) rfl (by decide)) (after_take_of_lt hsa V (i := 2) (j := 3) (x := main_v2) rfl (by decide))]
  rw [fin_v0 V, fin_v2 V]
  rfl
theorem fin_call0_cst : after (ops (F := F)) V (Proc.devRef .tc main_call0_cst) = val_main_call0_cst (F := F) := by
  rw [final_nullary hsa V 4 (y := main_call0_cst) rfl rfl]
  rfl
theorem fin_call0_v0 : after (ops (F := F)) V (Proc.devRef .tc main_call0_v0) = val_main_call0_v0 (F := F) := by
  rw [final_unary hsa V 5 (x := main_call0_cst) (y := main_call0_v0) rfl rfl (after_take_of_lt hsa V (i := 4) (j := 5) (x := main_call0_cst) rfl (by decide))]
  rw [fin_call0_cst V]
  rfl
theorem fin_v4 : after (ops (F := F)) V (Proc.devRef .tc main_v4) = val_main_v4 (F := F) (V (Proc.devRef .tc main_arg0)) (V (Proc.devRef .tc main_arg4)) (V (Proc.devRef .tc main_arg5)) := by
  rw [final_binary hsa V 6 (a := main_v3) (b := main_call0_v0) (y := main_v4) rfl rfl (after_take_of_lt hsa V (i := 3) (j := 6) (x := main_v3) rfl (by decide)) (after_take_of_lt hsa V (i := 5) (j := 6) (x := main_call0_v0) rfl (by decide))]
  rw [fin_v3 V, fin_call0_v0 V]
  rfl
theorem fin_v5 : after (ops (F := F)) V (Proc.devRef .tc main_v5) = val_main_v5 (F := F) (V (Proc.devRef .tc main_arg3)) := by
  rw [final_unary hsa V 7 (x := main_arg3) (y := main_v5) rfl rfl (after_take_of_not_assigned hsa V 7 (x := main_arg3) (by decide))]
  rw [keep_arg3 V]
  rfl
theorem fin_c : after (ops (F := F)) V (Proc.devRef .tc main_c) = val_main_c (F := F) := by
  rw [final_nullary hsa V 8 (y := main_c) rfl rfl]
  rfl
theorem fin_v6 : after (ops (F := F)) V (Proc.devRef .tc main_v6) = val_main_v6 (F := F) := by
  rw [final_unary hsa V 9 (x := main_c) (y := main_v6) rfl rfl (after_take_of_lt hsa V (i := 8) (j := 9) (x := main_c) rfl (by decide))]
  rw [fin_c V]
  rfl
theorem fin_v7 : after (ops (F := F)) V (Proc.devRef .tc main_v7) = val_main_v7 (F := F) (V (Proc.devRef .tc main_arg1)) := by
  rw [final_binary hsa V 10 (a := main_arg1) (b := main_v6) (y := main_v7) rfl rfl (after_take_of_not_assigned hsa V 10 (x := main_arg1) (by decide)) (after_take_of_lt hsa V (i := 9) (j := 10) (x := main_v6) rfl (by decide))]
  rw [keep_arg1 V, fin_v6 V]
  rfl
theorem fin_c_0 : after (ops (F := F)) V (Proc.devRef .tc main_c_0) = val_main_c_0 (F := F) := by
  rw [final_nullary hsa V 11 (y := main_c_0) rfl rfl]
  rfl
theorem fin_v8 : after (ops (F := F)) V (Proc.devRef .tc main_v8) = val_main_v8 (F := F) := by
  rw [final_unary hsa V 12 (x := main_c_0) (y := main_v8) rfl rfl (after_take_of_lt hsa V (i := 11) (j := 12) (x := main_c_0) rfl (by decide))]
  rw [fin_c_0 V]
  rfl
theorem fin_v9 : after (ops (F := F)) V (Proc.devRef .tc main_v9) = val_main_v9 (F := F) (V (Proc.devRef .tc main_arg1)) := by
  rw [final_binary hsa V 13 (a := main_arg1) (b := main_v8) (y := main_v9) rfl rfl (after_take_of_not_assigned hsa V 13 (x := main_arg1) (by decide)) (after_take_of_lt hsa V (i := 12) (j := 13) (x := main_v8) rfl (by decide))]
  rw [keep_arg1 V, fin_v8 V]
  rfl
theorem fin_v10 : after (ops (F := F)) V (Proc.devRef .tc main_v10) = val_main_v10 (F := F) (V (Proc.devRef .tc main_arg1)) := by
  rw [final_ternary hsa V 14 (c := main_v7) (a := main_v9) (b := main_arg1) (y := main_v10) rfl rfl (after_take_of_lt hsa V (i := 10) (j := 14) (x := main_v7) rfl (by decide)) (after_take_of_lt hsa V (i := 13) (j := 14) (x := main_v9) rfl (by decide)) (after_take_of_not_assigned hsa V 14 (x := main_arg1) (by decide))]
  rw [fin_v7 V, fin_v9 V, keep_arg1 V]
  rfl
theorem fin_v11 : after (ops (F := F)) V (Proc.devRef .tc main_v11) = val_main_v11 (F := F) (V (Proc.devRef .tc main_arg1)) := by
  rw [final_unary hsa V 15 (x := main_v10) (y := main_v11) rfl rfl (after_take_of_lt hsa V (i := 14) (j := 15) (x := main_v10) rfl (by decide))]
  rw [fin_v10 V]
  rfl
theorem fin_v12 : after (ops (F := F)) V (Proc.devRef .tc main_v12) = val_main_v12 (F := F) (V (Proc.devRef .tc main_arg0)) (V (Proc.devRef .tc main_arg1)) (V (Proc.devRef .tc main_arg4)) (V (Proc.devRef .tc main_arg5)) := by
  rw [final_binary hsa V 16 (a := main_v4) (b := main_v11) (y := main_v12) rfl rfl (after_take_of_lt hsa V (i := 6) (j := 16) (x := main_v4) rfl (by decide)) (after_take_of_lt hsa V (i := 15) (j := 16) (x := main_v11) rfl (by decide))]
  rw [fin_v4 V, fin_v11 V]
  rfl
theorem fin_v13 : after (ops (F := F)) V (Proc.devRef .tc main_v13) = val_main_v13 (F := F) (V (Proc.devRef .tc main_arg3)) := by
  rw [final_unary hsa V 17 (x := main_v5) (y := main_v13) rfl rfl (after_take_of_lt hsa V (i := 7) (j := 17) (x := main_v5) rfl (by decide))]
  rw [fin_v5 V]
  rfl
theorem fin_v14 : after (ops (F := F)) V (Proc.devRef .tc main_v14) = val_main_v14 (F := F) (V (Proc.devRef .tc main_arg0)) (V (Proc.devRef .tc main_arg1)) (V (Proc.devRef .tc main_arg3)) (V (Proc.devRef .tc main_arg4)) (V (Proc.devRef .tc main_arg5)) := by
  rw [final_binary hsa V 18 (a := main_v13) (b := main_v12) (y := main_v14) rfl rfl (after_take_of_lt hsa V (i := 17) (j := 18) (x := main_v13) rfl (by decide)) (after_take_of_lt hsa V (i := 16) (j := 18) (x := main_v12) rfl (by decide))]
  rw [fin_v13 V, fin_v12 V]
  rfl
theorem fin_cst : after (ops (F := F)) V (Proc.devRef .tc main_cst) = val_main_cst (F := F) := by
  rw [final_nullary hsa V 19 (y := main_cst) rfl rfl]
  rfl
theorem fin_v15 : after (ops (F := F)) V (Proc.devRef .tc main_v15) = val_main_v15 (F := F) := by
  rw [final_unary hsa V 20 (x := main_cst) (y := main_v15) rfl rfl (after_take_of_lt hsa V (i := 19) (j := 20) (x := main_cst) rfl (by decide))]
  rw [fin_cst V]
  rfl
theorem fin_v16 : after (ops (F := F)) V (Proc.devRef .tc main_v16) = val_main_v16 (F := F) (V (Proc.devRef .tc main_arg2)) := by
  rw [final_unary hsa V 21 (x := main_arg2) (y := main_v16) rfl rfl (after_take_of_not_assigned hsa V 21 (x := main_arg2) (by decide))]
  rw [keep_arg2 V]
  rfl
theorem fin_v17 : after (ops (F := F)) V (Proc.devRef .tc main_v17) = val_main_v17 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [final_ternary hsa V 22 (c := main_v15) (a := main_v16) (b := main_v14) (y := main_v17) rfl rfl (after_take_of_lt hsa V (i := 20) (j := 22) (x := main_v15) rfl (by decide)) (after_take_of_lt hsa V (i := 21) (j := 22) (x := main_v16) rfl (by decide)) (after_take_of_lt hsa V (i := 18) (j := 22) (x := main_v14) rfl (by decide))]
  rw [fin_v15 V, fin_v16 V, fin_v14 V]
  rfl
theorem fin_cst_1 : after (ops (F := F)) V (Proc.devRef .tc main_cst_1) = val_main_cst_1 (F := F) := by
  rw [final_nullary hsa V 23 (y := main_cst_1) rfl rfl]
  rfl
theorem fin_v18 : after (ops (F := F)) V (Proc.devRef .tc main_v18) = val_main_v18 (F := F) := by
  rw [final_unary hsa V 24 (x := main_cst_1) (y := main_v18) rfl rfl (after_take_of_lt hsa V (i := 23) (j := 24) (x := main_cst_1) rfl (by decide))]
  rw [fin_cst_1 V]
  rfl
theorem fin_v19 : after (ops (F := F)) V (Proc.devRef .tc main_v19) = val_main_v19 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [final_binary hsa V 25 (a := main_v18) (b := main_v17) (y := main_v19) rfl rfl (after_take_of_lt hsa V (i := 24) (j := 25) (x := main_v18) rfl (by decide)) (after_take_of_lt hsa V (i := 22) (j := 25) (x := main_v17) rfl (by decide))]
  rw [fin_v18 V, fin_v17 V]
  rfl
theorem fin_cst_2 : after (ops (F := F)) V (Proc.devRef .tc main_cst_2) = val_main_cst_2 (F := F) := by
  rw [final_nullary hsa V 26 (y := main_cst_2) rfl rfl]
  rfl
theorem fin_v20 : after (ops (F := F)) V (Proc.devRef .tc main_v20) = val_main_v20 (F := F) := by
  rw [final_unary hsa V 27 (x := main_cst_2) (y := main_v20) rfl rfl (after_take_of_lt hsa V (i := 26) (j := 27) (x := main_cst_2) rfl (by decide))]
  rw [fin_cst_2 V]
  rfl
theorem fin_v21 : after (ops (F := F)) V (Proc.devRef .tc main_v21) = val_main_v21 (F := F) (V (Proc.devRef .tc main_arg0)) (V (Proc.devRef .tc main_arg4)) (V (Proc.devRef .tc main_arg5)) := by
  rw [final_binary hsa V 28 (a := main_v20) (b := main_v4) (y := main_v21) rfl rfl (after_take_of_lt hsa V (i := 27) (j := 28) (x := main_v20) rfl (by decide)) (after_take_of_lt hsa V (i := 6) (j := 28) (x := main_v4) rfl (by decide))]
  rw [fin_v20 V, fin_v4 V]
  rfl
theorem fin_v22 : after (ops (F := F)) V (Proc.devRef .tc main_v22) = val_main_v22 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [final_binary hsa V 29 (a := main_v19) (b := main_v21) (y := main_v22) rfl rfl (after_take_of_lt hsa V (i := 25) (j := 29) (x := main_v19) rfl (by decide)) (after_take_of_lt hsa V (i := 28) (j := 29) (x := main_v21) rfl (by decide))]
  rw [fin_v19 V, fin_v21 V]
  rfl
theorem fin_v23 : after (ops (F := F)) V (Proc.devRef .tc main_v23) = val_main_v23 (F := F) (V (Proc.devRef .tc main_arg6)) := by
  rw [final_unary hsa V 30 (x := main_arg6) (y := main_v23) rfl rfl (after_take_of_not_assigned hsa V 30 (x := main_arg6) (by decide))]
  rw [keep_arg6 V]
  rfl
theorem fin_v24 : after (ops (F := F)) V (Proc.devRef .tc main_v24) = val_main_v24 (F := F) (V (Proc.devRef .tc main_arg6)) := by
  rw [final_reshape hsa V 31 (x := main_v23) (y := main_v24) rfl rfl (after_take_of_lt hsa V (i := 30) (j := 31) (x := main_v23) rfl (by decide))]
  rw [fin_v23 V]
  rfl
theorem fin_v25 : after (ops (F := F)) V (Proc.devRef .tc main_v25) = val_main_v25 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 32 (a := main_v22) (b := main_v24) (y := main_v25) rfl rfl (after_take_of_lt hsa V (i := 29) (j := 32) (x := main_v22) rfl (by decide)) (after_take_of_lt hsa V (i := 31) (j := 32) (x := main_v24) rfl (by decide))]
  rw [fin_v22 V, fin_v24 V]
  rfl
theorem fin_cst_3 : after (ops (F := F)) V (Proc.devRef .tc main_cst_3) = val_main_cst_3 (F := F) := by
  rw [final_nullary hsa V 33 (y := main_cst_3) rfl rfl]
  rfl
theorem fin_v26 : after (ops (F := F)) V (Proc.devRef .tc main_v26) = val_main_v26 (F := F) := by
  rw [final_unary hsa V 34 (x := main_cst_3) (y := main_v26) rfl rfl (after_take_of_lt hsa V (i := 33) (j := 34) (x := main_cst_3) rfl (by decide))]
  rw [fin_cst_3 V]
  rfl
theorem fin_v27 : after (ops (F := F)) V (Proc.devRef .tc main_v27) = val_main_v27 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 35 (a := main_v26) (b := main_v25) (y := main_v27) rfl rfl (after_take_of_lt hsa V (i := 34) (j := 35) (x := main_v26) rfl (by decide)) (after_take_of_lt hsa V (i := 32) (j := 35) (x := main_v25) rfl (by decide))]
  rw [fin_v26 V, fin_v25 V]
  rfl
theorem fin_cst_4 : after (ops (F := F)) V (Proc.devRef .tc main_cst_4) = val_main_cst_4 (F := F) := by
  rw [final_nullary hsa V 36 (y := main_cst_4) rfl rfl]
  rfl
theorem fin_v28 : after (ops (F := F)) V (Proc.devRef .tc main_v28) = val_main_v28 (F := F) := by
  rw [final_unary hsa V 37 (x := main_cst_4) (y := main_v28) rfl rfl (after_take_of_lt hsa V (i := 36) (j := 37) (x := main_cst_4) rfl (by decide))]
  rw [fin_cst_4 V]
  rfl
theorem fin_v29 : after (ops (F := F)) V (Proc.devRef .tc main_v29) = val_main_v29 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [final_binary hsa V 38 (a := main_v28) (b := main_v22) (y := main_v29) rfl rfl (after_take_of_lt hsa V (i := 37) (j := 38) (x := main_v28) rfl (by decide)) (after_take_of_lt hsa V (i := 29) (j := 38) (x := main_v22) rfl (by decide))]
  rw [fin_v28 V, fin_v22 V]
  rfl
theorem fin_v30 : after (ops (F := F)) V (Proc.devRef .tc main_v30) = val_main_v30 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 39 (a := main_v27) (b := main_v29) (y := main_v30) rfl rfl (after_take_of_lt hsa V (i := 35) (j := 39) (x := main_v27) rfl (by decide)) (after_take_of_lt hsa V (i := 38) (j := 39) (x := main_v29) rfl (by decide))]
  rw [fin_v27 V, fin_v29 V]
  rfl
theorem fin_v31 : after (ops (F := F)) V (Proc.devRef .tc main_v31) = val_main_v31 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 40 (a := main_v30) (b := main_v4) (y := main_v31) rfl rfl (after_take_of_lt hsa V (i := 39) (j := 40) (x := main_v30) rfl (by decide)) (after_take_of_lt hsa V (i := 6) (j := 40) (x := main_v4) rfl (by decide))]
  rw [fin_v30 V, fin_v4 V]
  rfl
theorem fin_call1_cst : after (ops (F := F)) V (Proc.devRef .tc main_call1_cst) = val_main_call1_cst (F := F) := by
  rw [final_nullary hsa V 41 (y := main_call1_cst) rfl rfl]
  rfl
theorem fin_call1_v0 : after (ops (F := F)) V (Proc.devRef .tc main_call1_v0) = val_main_call1_v0 (F := F) := by
  rw [final_unary hsa V 42 (x := main_call1_cst) (y := main_call1_v0) rfl rfl (after_take_of_lt hsa V (i := 41) (j := 42) (x := main_call1_cst) rfl (by decide))]
  rw [fin_call1_cst V]
  rfl
theorem fin_v32 : after (ops (F := F)) V (Proc.devRef .tc main_v32) = val_main_v32 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 43 (a := main_v31) (b := main_call1_v0) (y := main_v32) rfl rfl (after_take_of_lt hsa V (i := 40) (j := 43) (x := main_v31) rfl (by decide)) (after_take_of_lt hsa V (i := 42) (j := 43) (x := main_call1_v0) rfl (by decide))]
  rw [fin_v31 V, fin_call1_v0 V]
  rfl
theorem fin_v33 : after (ops (F := F)) V (Proc.devRef .tc main_v33) = val_main_v33 (F := F) (V (Proc.devRef .tc main_arg3)) := by
  rw [final_unary hsa V 44 (x := main_arg3) (y := main_v33) rfl rfl (after_take_of_not_assigned hsa V 44 (x := main_arg3) (by decide))]
  rw [keep_arg3 V]
  rfl
theorem fin_c_5 : after (ops (F := F)) V (Proc.devRef .tc main_c_5) = val_main_c_5 (F := F) := by
  rw [final_nullary hsa V 45 (y := main_c_5) rfl rfl]
  rfl
theorem fin_v34 : after (ops (F := F)) V (Proc.devRef .tc main_v34) = val_main_v34 (F := F) := by
  rw [final_unary hsa V 46 (x := main_c_5) (y := main_v34) rfl rfl (after_take_of_lt hsa V (i := 45) (j := 46) (x := main_c_5) rfl (by decide))]
  rw [fin_c_5 V]
  rfl
theorem fin_v35 : after (ops (F := F)) V (Proc.devRef .tc main_v35) = val_main_v35 (F := F) (V (Proc.devRef .tc main_arg1)) := by
  rw [final_binary hsa V 47 (a := main_arg1) (b := main_v34) (y := main_v35) rfl rfl (after_take_of_not_assigned hsa V 47 (x := main_arg1) (by decide)) (after_take_of_lt hsa V (i := 46) (j := 47) (x := main_v34) rfl (by decide))]
  rw [keep_arg1 V, fin_v34 V]
  rfl
theorem fin_c_6 : after (ops (F := F)) V (Proc.devRef .tc main_c_6) = val_main_c_6 (F := F) := by
  rw [final_nullary hsa V 48 (y := main_c_6) rfl rfl]
  rfl
theorem fin_v36 : after (ops (F := F)) V (Proc.devRef .tc main_v36) = val_main_v36 (F := F) := by
  rw [final_unary hsa V 49 (x := main_c_6) (y := main_v36) rfl rfl (after_take_of_lt hsa V (i := 48) (j := 49) (x := main_c_6) rfl (by decide))]
  rw [fin_c_6 V]
  rfl
theorem fin_v37 : after (ops (F := F)) V (Proc.devRef .tc main_v37) = val_main_v37 (F := F) (V (Proc.devRef .tc main_arg1)) := by
  rw [final_binary hsa V 50 (a := main_arg1) (b := main_v36) (y := main_v37) rfl rfl (after_take_of_not_assigned hsa V 50 (x := main_arg1) (by decide)) (after_take_of_lt hsa V (i := 49) (j := 50) (x := main_v36) rfl (by decide))]
  rw [keep_arg1 V, fin_v36 V]
  rfl
theorem fin_v38 : after (ops (F := F)) V (Proc.devRef .tc main_v38) = val_main_v38 (F := F) (V (Proc.devRef .tc main_arg1)) := by
  rw [final_ternary hsa V 51 (c := main_v35) (a := main_v37) (b := main_arg1) (y := main_v38) rfl rfl (after_take_of_lt hsa V (i := 47) (j := 51) (x := main_v35) rfl (by decide)) (after_take_of_lt hsa V (i := 50) (j := 51) (x := main_v37) rfl (by decide)) (after_take_of_not_assigned hsa V 51 (x := main_arg1) (by decide))]
  rw [fin_v35 V, fin_v37 V, keep_arg1 V]
  rfl
theorem fin_v39 : after (ops (F := F)) V (Proc.devRef .tc main_v39) = val_main_v39 (F := F) (V (Proc.devRef .tc main_arg1)) := by
  rw [final_unary hsa V 52 (x := main_v38) (y := main_v39) rfl rfl (after_take_of_lt hsa V (i := 51) (j := 52) (x := main_v38) rfl (by decide))]
  rw [fin_v38 V]
  rfl
theorem fin_v40 : after (ops (F := F)) V (Proc.devRef .tc main_v40) = val_main_v40 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 53 (a := main_v32) (b := main_v39) (y := main_v40) rfl rfl (after_take_of_lt hsa V (i := 43) (j := 53) (x := main_v32) rfl (by decide)) (after_take_of_lt hsa V (i := 52) (j := 53) (x := main_v39) rfl (by decide))]
  rw [fin_v32 V, fin_v39 V]
  rfl
theorem fin_v41 : after (ops (F := F)) V (Proc.devRef .tc main_v41) = val_main_v41 (F := F) (V (Proc.devRef .tc main_arg3)) := by
  rw [final_unary hsa V 54 (x := main_v33) (y := main_v41) rfl rfl (after_take_of_lt hsa V (i := 44) (j := 54) (x := main_v33) rfl (by decide))]
  rw [fin_v33 V]
  rfl
theorem fin_v42 : after (ops (F := F)) V (Proc.devRef .tc main_v42) = val_main_v42 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 55 (a := main_v41) (b := main_v40) (y := main_v42) rfl rfl (after_take_of_lt hsa V (i := 54) (j := 55) (x := main_v41) rfl (by decide)) (after_take_of_lt hsa V (i := 53) (j := 55) (x := main_v40) rfl (by decide))]
  rw [fin_v41 V, fin_v40 V]
  rfl
theorem fin_cst_7 : after (ops (F := F)) V (Proc.devRef .tc main_cst_7) = val_main_cst_7 (F := F) := by
  rw [final_nullary hsa V 56 (y := main_cst_7) rfl rfl]
  rfl
theorem fin_v43 : after (ops (F := F)) V (Proc.devRef .tc main_v43) = val_main_v43 (F := F) := by
  rw [final_unary hsa V 57 (x := main_cst_7) (y := main_v43) rfl rfl (after_take_of_lt hsa V (i := 56) (j := 57) (x := main_cst_7) rfl (by decide))]
  rw [fin_cst_7 V]
  rfl
theorem fin_v44 : after (ops (F := F)) V (Proc.devRef .tc main_v44) = val_main_v44 (F := F) (V (Proc.devRef .tc main_arg2)) := by
  rw [final_unary hsa V 58 (x := main_arg2) (y := main_v44) rfl rfl (after_take_of_not_assigned hsa V 58 (x := main_arg2) (by decide))]
  rw [keep_arg2 V]
  rfl
theorem fin_v45 : after (ops (F := F)) V (Proc.devRef .tc main_v45) = val_main_v45 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_ternary hsa V 59 (c := main_v43) (a := main_v44) (b := main_v42) (y := main_v45) rfl rfl (after_take_of_lt hsa V (i := 57) (j := 59) (x := main_v43) rfl (by decide)) (after_take_of_lt hsa V (i := 58) (j := 59) (x := main_v44) rfl (by decide)) (after_take_of_lt hsa V (i := 55) (j := 59) (x := main_v42) rfl (by decide))]
  rw [fin_v43 V, fin_v44 V, fin_v42 V]
  rfl
theorem fin_cst_8 : after (ops (F := F)) V (Proc.devRef .tc main_cst_8) = val_main_cst_8 (F := F) := by
  rw [final_nullary hsa V 60 (y := main_cst_8) rfl rfl]
  rfl
theorem fin_v46 : after (ops (F := F)) V (Proc.devRef .tc main_v46) = val_main_v46 (F := F) := by
  rw [final_unary hsa V 61 (x := main_cst_8) (y := main_v46) rfl rfl (after_take_of_lt hsa V (i := 60) (j := 61) (x := main_cst_8) rfl (by decide))]
  rw [fin_cst_8 V]
  rfl
theorem fin_v47 : after (ops (F := F)) V (Proc.devRef .tc main_v47) = val_main_v47 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 62 (a := main_v46) (b := main_v45) (y := main_v47) rfl rfl (after_take_of_lt hsa V (i := 61) (j := 62) (x := main_v46) rfl (by decide)) (after_take_of_lt hsa V (i := 59) (j := 62) (x := main_v45) rfl (by decide))]
  rw [fin_v46 V, fin_v45 V]
  rfl
theorem fin_cst_9 : after (ops (F := F)) V (Proc.devRef .tc main_cst_9) = val_main_cst_9 (F := F) := by
  rw [final_nullary hsa V 63 (y := main_cst_9) rfl rfl]
  rfl
theorem fin_v48 : after (ops (F := F)) V (Proc.devRef .tc main_v48) = val_main_v48 (F := F) := by
  rw [final_unary hsa V 64 (x := main_cst_9) (y := main_v48) rfl rfl (after_take_of_lt hsa V (i := 63) (j := 64) (x := main_cst_9) rfl (by decide))]
  rw [fin_cst_9 V]
  rfl
theorem fin_v49 : after (ops (F := F)) V (Proc.devRef .tc main_v49) = val_main_v49 (F := F) (V (Proc.devRef .tc main_arg0)) (V (Proc.devRef .tc main_arg4)) (V (Proc.devRef .tc main_arg5)) := by
  rw [final_binary hsa V 65 (a := main_v48) (b := main_v4) (y := main_v49) rfl rfl (after_take_of_lt hsa V (i := 64) (j := 65) (x := main_v48) rfl (by decide)) (after_take_of_lt hsa V (i := 6) (j := 65) (x := main_v4) rfl (by decide))]
  rw [fin_v48 V, fin_v4 V]
  rfl
theorem fin_v50 : after (ops (F := F)) V (Proc.devRef .tc main_v50) = val_main_v50 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 66 (a := main_v47) (b := main_v49) (y := main_v50) rfl rfl (after_take_of_lt hsa V (i := 62) (j := 66) (x := main_v47) rfl (by decide)) (after_take_of_lt hsa V (i := 65) (j := 66) (x := main_v49) rfl (by decide))]
  rw [fin_v47 V, fin_v49 V]
  rfl
theorem fin_v51 : after (ops (F := F)) V (Proc.devRef .tc main_v51) = val_main_v51 (F := F) (V (Proc.devRef .tc main_arg6)) := by
  rw [final_unary hsa V 67 (x := main_arg6) (y := main_v51) rfl rfl (after_take_of_not_assigned hsa V 67 (x := main_arg6) (by decide))]
  rw [keep_arg6 V]
  rfl
theorem fin_v52 : after (ops (F := F)) V (Proc.devRef .tc main_v52) = val_main_v52 (F := F) (V (Proc.devRef .tc main_arg6)) := by
  rw [final_reshape hsa V 68 (x := main_v51) (y := main_v52) rfl rfl (after_take_of_lt hsa V (i := 67) (j := 68) (x := main_v51) rfl (by decide))]
  rw [fin_v51 V]
  rfl
theorem fin_v53 : after (ops (F := F)) V (Proc.devRef .tc main_v53) = val_main_v53 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 69 (a := main_v50) (b := main_v52) (y := main_v53) rfl rfl (after_take_of_lt hsa V (i := 66) (j := 69) (x := main_v50) rfl (by decide)) (after_take_of_lt hsa V (i := 68) (j := 69) (x := main_v52) rfl (by decide))]
  rw [fin_v50 V, fin_v52 V]
  rfl
theorem fin_cst_10 : after (ops (F := F)) V (Proc.devRef .tc main_cst_10) = val_main_cst_10 (F := F) := by
  rw [final_nullary hsa V 70 (y := main_cst_10) rfl rfl]
  rfl
theorem fin_v54 : after (ops (F := F)) V (Proc.devRef .tc main_v54) = val_main_v54 (F := F) := by
  rw [final_unary hsa V 71 (x := main_cst_10) (y := main_v54) rfl rfl (after_take_of_lt hsa V (i := 70) (j := 71) (x := main_cst_10) rfl (by decide))]
  rw [fin_cst_10 V]
  rfl
theorem fin_v55 : after (ops (F := F)) V (Proc.devRef .tc main_v55) = val_main_v55 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 72 (a := main_v54) (b := main_v53) (y := main_v55) rfl rfl (after_take_of_lt hsa V (i := 71) (j := 72) (x := main_v54) rfl (by decide)) (after_take_of_lt hsa V (i := 69) (j := 72) (x := main_v53) rfl (by decide))]
  rw [fin_v54 V, fin_v53 V]
  rfl
theorem fin_cst_11 : after (ops (F := F)) V (Proc.devRef .tc main_cst_11) = val_main_cst_11 (F := F) := by
  rw [final_nullary hsa V 73 (y := main_cst_11) rfl rfl]
  rfl
theorem fin_v56 : after (ops (F := F)) V (Proc.devRef .tc main_v56) = val_main_v56 (F := F) := by
  rw [final_unary hsa V 74 (x := main_cst_11) (y := main_v56) rfl rfl (after_take_of_lt hsa V (i := 73) (j := 74) (x := main_cst_11) rfl (by decide))]
  rw [fin_cst_11 V]
  rfl
theorem fin_v57 : after (ops (F := F)) V (Proc.devRef .tc main_v57) = val_main_v57 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 75 (a := main_v56) (b := main_v50) (y := main_v57) rfl rfl (after_take_of_lt hsa V (i := 74) (j := 75) (x := main_v56) rfl (by decide)) (after_take_of_lt hsa V (i := 66) (j := 75) (x := main_v50) rfl (by decide))]
  rw [fin_v56 V, fin_v50 V]
  rfl
theorem fin_v58 : after (ops (F := F)) V (Proc.devRef .tc main_v58) = val_main_v58 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 76 (a := main_v55) (b := main_v57) (y := main_v58) rfl rfl (after_take_of_lt hsa V (i := 72) (j := 76) (x := main_v55) rfl (by decide)) (after_take_of_lt hsa V (i := 75) (j := 76) (x := main_v57) rfl (by decide))]
  rw [fin_v55 V, fin_v57 V]
  rfl
theorem fin_v59 : after (ops (F := F)) V (Proc.devRef .tc main_v59) = val_main_v59 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 77 (a := main_v58) (b := main_v32) (y := main_v59) rfl rfl (after_take_of_lt hsa V (i := 76) (j := 77) (x := main_v58) rfl (by decide)) (after_take_of_lt hsa V (i := 43) (j := 77) (x := main_v32) rfl (by decide))]
  rw [fin_v58 V, fin_v32 V]
  rfl
theorem fin_call2_cst : after (ops (F := F)) V (Proc.devRef .tc main_call2_cst) = val_main_call2_cst (F := F) := by
  rw [final_nullary hsa V 78 (y := main_call2_cst) rfl rfl]
  rfl
theorem fin_call2_v0 : after (ops (F := F)) V (Proc.devRef .tc main_call2_v0) = val_main_call2_v0 (F := F) := by
  rw [final_unary hsa V 79 (x := main_call2_cst) (y := main_call2_v0) rfl rfl (after_take_of_lt hsa V (i := 78) (j := 79) (x := main_call2_cst) rfl (by decide))]
  rw [fin_call2_cst V]
  rfl
theorem fin_v60 : after (ops (F := F)) V (Proc.devRef .tc main_v60) = val_main_v60 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 80 (a := main_v59) (b := main_call2_v0) (y := main_v60) rfl rfl (after_take_of_lt hsa V (i := 77) (j := 80) (x := main_v59) rfl (by decide)) (after_take_of_lt hsa V (i := 79) (j := 80) (x := main_call2_v0) rfl (by decide))]
  rw [fin_v59 V, fin_call2_v0 V]
  rfl
theorem fin_v61 : after (ops (F := F)) V (Proc.devRef .tc main_v61) = val_main_v61 (F := F) (V (Proc.devRef .tc main_arg3)) := by
  rw [final_unary hsa V 81 (x := main_arg3) (y := main_v61) rfl rfl (after_take_of_not_assigned hsa V 81 (x := main_arg3) (by decide))]
  rw [keep_arg3 V]
  rfl
theorem fin_c_12 : after (ops (F := F)) V (Proc.devRef .tc main_c_12) = val_main_c_12 (F := F) := by
  rw [final_nullary hsa V 82 (y := main_c_12) rfl rfl]
  rfl
theorem fin_v62 : after (ops (F := F)) V (Proc.devRef .tc main_v62) = val_main_v62 (F := F) := by
  rw [final_unary hsa V 83 (x := main_c_12) (y := main_v62) rfl rfl (after_take_of_lt hsa V (i := 82) (j := 83) (x := main_c_12) rfl (by decide))]
  rw [fin_c_12 V]
  rfl
theorem fin_v63 : after (ops (F := F)) V (Proc.devRef .tc main_v63) = val_main_v63 (F := F) (V (Proc.devRef .tc main_arg1)) := by
  rw [final_binary hsa V 84 (a := main_arg1) (b := main_v62) (y := main_v63) rfl rfl (after_take_of_not_assigned hsa V 84 (x := main_arg1) (by decide)) (after_take_of_lt hsa V (i := 83) (j := 84) (x := main_v62) rfl (by decide))]
  rw [keep_arg1 V, fin_v62 V]
  rfl
theorem fin_c_13 : after (ops (F := F)) V (Proc.devRef .tc main_c_13) = val_main_c_13 (F := F) := by
  rw [final_nullary hsa V 85 (y := main_c_13) rfl rfl]
  rfl
theorem fin_v64 : after (ops (F := F)) V (Proc.devRef .tc main_v64) = val_main_v64 (F := F) := by
  rw [final_unary hsa V 86 (x := main_c_13) (y := main_v64) rfl rfl (after_take_of_lt hsa V (i := 85) (j := 86) (x := main_c_13) rfl (by decide))]
  rw [fin_c_13 V]
  rfl
theorem fin_v65 : after (ops (F := F)) V (Proc.devRef .tc main_v65) = val_main_v65 (F := F) (V (Proc.devRef .tc main_arg1)) := by
  rw [final_binary hsa V 87 (a := main_arg1) (b := main_v64) (y := main_v65) rfl rfl (after_take_of_not_assigned hsa V 87 (x := main_arg1) (by decide)) (after_take_of_lt hsa V (i := 86) (j := 87) (x := main_v64) rfl (by decide))]
  rw [keep_arg1 V, fin_v64 V]
  rfl
theorem fin_v66 : after (ops (F := F)) V (Proc.devRef .tc main_v66) = val_main_v66 (F := F) (V (Proc.devRef .tc main_arg1)) := by
  rw [final_ternary hsa V 88 (c := main_v63) (a := main_v65) (b := main_arg1) (y := main_v66) rfl rfl (after_take_of_lt hsa V (i := 84) (j := 88) (x := main_v63) rfl (by decide)) (after_take_of_lt hsa V (i := 87) (j := 88) (x := main_v65) rfl (by decide)) (after_take_of_not_assigned hsa V 88 (x := main_arg1) (by decide))]
  rw [fin_v63 V, fin_v65 V, keep_arg1 V]
  rfl
theorem fin_v67 : after (ops (F := F)) V (Proc.devRef .tc main_v67) = val_main_v67 (F := F) (V (Proc.devRef .tc main_arg1)) := by
  rw [final_unary hsa V 89 (x := main_v66) (y := main_v67) rfl rfl (after_take_of_lt hsa V (i := 88) (j := 89) (x := main_v66) rfl (by decide))]
  rw [fin_v66 V]
  rfl
theorem fin_v68 : after (ops (F := F)) V (Proc.devRef .tc main_v68) = val_main_v68 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 90 (a := main_v60) (b := main_v67) (y := main_v68) rfl rfl (after_take_of_lt hsa V (i := 80) (j := 90) (x := main_v60) rfl (by decide)) (after_take_of_lt hsa V (i := 89) (j := 90) (x := main_v67) rfl (by decide))]
  rw [fin_v60 V, fin_v67 V]
  rfl
theorem fin_v69 : after (ops (F := F)) V (Proc.devRef .tc main_v69) = val_main_v69 (F := F) (V (Proc.devRef .tc main_arg3)) := by
  rw [final_unary hsa V 91 (x := main_v61) (y := main_v69) rfl rfl (after_take_of_lt hsa V (i := 81) (j := 91) (x := main_v61) rfl (by decide))]
  rw [fin_v61 V]
  rfl
theorem fin_v70 : after (ops (F := F)) V (Proc.devRef .tc main_v70) = val_main_v70 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 92 (a := main_v69) (b := main_v68) (y := main_v70) rfl rfl (after_take_of_lt hsa V (i := 91) (j := 92) (x := main_v69) rfl (by decide)) (after_take_of_lt hsa V (i := 90) (j := 92) (x := main_v68) rfl (by decide))]
  rw [fin_v69 V, fin_v68 V]
  rfl
theorem fin_cst_14 : after (ops (F := F)) V (Proc.devRef .tc main_cst_14) = val_main_cst_14 (F := F) := by
  rw [final_nullary hsa V 93 (y := main_cst_14) rfl rfl]
  rfl
theorem fin_v71 : after (ops (F := F)) V (Proc.devRef .tc main_v71) = val_main_v71 (F := F) := by
  rw [final_unary hsa V 94 (x := main_cst_14) (y := main_v71) rfl rfl (after_take_of_lt hsa V (i := 93) (j := 94) (x := main_cst_14) rfl (by decide))]
  rw [fin_cst_14 V]
  rfl
theorem fin_v72 : after (ops (F := F)) V (Proc.devRef .tc main_v72) = val_main_v72 (F := F) (V (Proc.devRef .tc main_arg2)) := by
  rw [final_unary hsa V 95 (x := main_arg2) (y := main_v72) rfl rfl (after_take_of_not_assigned hsa V 95 (x := main_arg2) (by decide))]
  rw [keep_arg2 V]
  rfl
theorem fin_v73 : after (ops (F := F)) V (Proc.devRef .tc main_v73) = val_main_v73 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_ternary hsa V 96 (c := main_v71) (a := main_v72) (b := main_v70) (y := main_v73) rfl rfl (after_take_of_lt hsa V (i := 94) (j := 96) (x := main_v71) rfl (by decide)) (after_take_of_lt hsa V (i := 95) (j := 96) (x := main_v72) rfl (by decide)) (after_take_of_lt hsa V (i := 92) (j := 96) (x := main_v70) rfl (by decide))]
  rw [fin_v71 V, fin_v72 V, fin_v70 V]
  rfl
theorem fin_cst_15 : after (ops (F := F)) V (Proc.devRef .tc main_cst_15) = val_main_cst_15 (F := F) := by
  rw [final_nullary hsa V 97 (y := main_cst_15) rfl rfl]
  rfl
theorem fin_v74 : after (ops (F := F)) V (Proc.devRef .tc main_v74) = val_main_v74 (F := F) := by
  rw [final_unary hsa V 98 (x := main_cst_15) (y := main_v74) rfl rfl (after_take_of_lt hsa V (i := 97) (j := 98) (x := main_cst_15) rfl (by decide))]
  rw [fin_cst_15 V]
  rfl
theorem fin_v75 : after (ops (F := F)) V (Proc.devRef .tc main_v75) = val_main_v75 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 99 (a := main_v74) (b := main_v73) (y := main_v75) rfl rfl (after_take_of_lt hsa V (i := 98) (j := 99) (x := main_v74) rfl (by decide)) (after_take_of_lt hsa V (i := 96) (j := 99) (x := main_v73) rfl (by decide))]
  rw [fin_v74 V, fin_v73 V]
  rfl
theorem fin_cst_16 : after (ops (F := F)) V (Proc.devRef .tc main_cst_16) = val_main_cst_16 (F := F) := by
  rw [final_nullary hsa V 100 (y := main_cst_16) rfl rfl]
  rfl
theorem fin_v76 : after (ops (F := F)) V (Proc.devRef .tc main_v76) = val_main_v76 (F := F) := by
  rw [final_unary hsa V 101 (x := main_cst_16) (y := main_v76) rfl rfl (after_take_of_lt hsa V (i := 100) (j := 101) (x := main_cst_16) rfl (by decide))]
  rw [fin_cst_16 V]
  rfl
theorem fin_v77 : after (ops (F := F)) V (Proc.devRef .tc main_v77) = val_main_v77 (F := F) (V (Proc.devRef .tc main_arg0)) (V (Proc.devRef .tc main_arg4)) (V (Proc.devRef .tc main_arg5)) := by
  rw [final_binary hsa V 102 (a := main_v76) (b := main_v4) (y := main_v77) rfl rfl (after_take_of_lt hsa V (i := 101) (j := 102) (x := main_v76) rfl (by decide)) (after_take_of_lt hsa V (i := 6) (j := 102) (x := main_v4) rfl (by decide))]
  rw [fin_v76 V, fin_v4 V]
  rfl
theorem fin_v78 : after (ops (F := F)) V (Proc.devRef .tc main_v78) = val_main_v78 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 103 (a := main_v75) (b := main_v77) (y := main_v78) rfl rfl (after_take_of_lt hsa V (i := 99) (j := 103) (x := main_v75) rfl (by decide)) (after_take_of_lt hsa V (i := 102) (j := 103) (x := main_v77) rfl (by decide))]
  rw [fin_v75 V, fin_v77 V]
  rfl
theorem fin_v79 : after (ops (F := F)) V (Proc.devRef .tc main_v79) = val_main_v79 (F := F) (V (Proc.devRef .tc main_arg6)) := by
  rw [final_unary hsa V 104 (x := main_arg6) (y := main_v79) rfl rfl (after_take_of_not_assigned hsa V 104 (x := main_arg6) (by decide))]
  rw [keep_arg6 V]
  rfl
theorem fin_v80 : after (ops (F := F)) V (Proc.devRef .tc main_v80) = val_main_v80 (F := F) (V (Proc.devRef .tc main_arg6)) := by
  rw [final_reshape hsa V 105 (x := main_v79) (y := main_v80) rfl rfl (after_take_of_lt hsa V (i := 104) (j := 105) (x := main_v79) rfl (by decide))]
  rw [fin_v79 V]
  rfl
theorem fin_v81 : after (ops (F := F)) V (Proc.devRef .tc main_v81) = val_main_v81 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 106 (a := main_v78) (b := main_v80) (y := main_v81) rfl rfl (after_take_of_lt hsa V (i := 103) (j := 106) (x := main_v78) rfl (by decide)) (after_take_of_lt hsa V (i := 105) (j := 106) (x := main_v80) rfl (by decide))]
  rw [fin_v78 V, fin_v80 V]
  rfl
theorem fin_cst_17 : after (ops (F := F)) V (Proc.devRef .tc main_cst_17) = val_main_cst_17 (F := F) := by
  rw [final_nullary hsa V 107 (y := main_cst_17) rfl rfl]
  rfl
theorem fin_v82 : after (ops (F := F)) V (Proc.devRef .tc main_v82) = val_main_v82 (F := F) := by
  rw [final_unary hsa V 108 (x := main_cst_17) (y := main_v82) rfl rfl (after_take_of_lt hsa V (i := 107) (j := 108) (x := main_cst_17) rfl (by decide))]
  rw [fin_cst_17 V]
  rfl
theorem fin_v83 : after (ops (F := F)) V (Proc.devRef .tc main_v83) = val_main_v83 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 109 (a := main_v82) (b := main_v81) (y := main_v83) rfl rfl (after_take_of_lt hsa V (i := 108) (j := 109) (x := main_v82) rfl (by decide)) (after_take_of_lt hsa V (i := 106) (j := 109) (x := main_v81) rfl (by decide))]
  rw [fin_v82 V, fin_v81 V]
  rfl
theorem fin_cst_18 : after (ops (F := F)) V (Proc.devRef .tc main_cst_18) = val_main_cst_18 (F := F) := by
  rw [final_nullary hsa V 110 (y := main_cst_18) rfl rfl]
  rfl
theorem fin_v84 : after (ops (F := F)) V (Proc.devRef .tc main_v84) = val_main_v84 (F := F) := by
  rw [final_unary hsa V 111 (x := main_cst_18) (y := main_v84) rfl rfl (after_take_of_lt hsa V (i := 110) (j := 111) (x := main_cst_18) rfl (by decide))]
  rw [fin_cst_18 V]
  rfl
theorem fin_v85 : after (ops (F := F)) V (Proc.devRef .tc main_v85) = val_main_v85 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 112 (a := main_v84) (b := main_v78) (y := main_v85) rfl rfl (after_take_of_lt hsa V (i := 111) (j := 112) (x := main_v84) rfl (by decide)) (after_take_of_lt hsa V (i := 103) (j := 112) (x := main_v78) rfl (by decide))]
  rw [fin_v84 V, fin_v78 V]
  rfl
theorem fin_v86 : after (ops (F := F)) V (Proc.devRef .tc main_v86) = val_main_v86 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 113 (a := main_v83) (b := main_v85) (y := main_v86) rfl rfl (after_take_of_lt hsa V (i := 109) (j := 113) (x := main_v83) rfl (by decide)) (after_take_of_lt hsa V (i := 112) (j := 113) (x := main_v85) rfl (by decide))]
  rw [fin_v83 V, fin_v85 V]
  rfl
theorem fin_v87 : after (ops (F := F)) V (Proc.devRef .tc main_v87) = val_main_v87 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 114 (a := main_v86) (b := main_v60) (y := main_v87) rfl rfl (after_take_of_lt hsa V (i := 113) (j := 114) (x := main_v86) rfl (by decide)) (after_take_of_lt hsa V (i := 80) (j := 114) (x := main_v60) rfl (by decide))]
  rw [fin_v86 V, fin_v60 V]
  rfl
theorem fin_call3_cst : after (ops (F := F)) V (Proc.devRef .tc main_call3_cst) = val_main_call3_cst (F := F) := by
  rw [final_nullary hsa V 115 (y := main_call3_cst) rfl rfl]
  rfl
theorem fin_call3_v0 : after (ops (F := F)) V (Proc.devRef .tc main_call3_v0) = val_main_call3_v0 (F := F) := by
  rw [final_unary hsa V 116 (x := main_call3_cst) (y := main_call3_v0) rfl rfl (after_take_of_lt hsa V (i := 115) (j := 116) (x := main_call3_cst) rfl (by decide))]
  rw [fin_call3_cst V]
  rfl
theorem fin_v88 : after (ops (F := F)) V (Proc.devRef .tc main_v88) = val_main_v88 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 117 (a := main_v87) (b := main_call3_v0) (y := main_v88) rfl rfl (after_take_of_lt hsa V (i := 114) (j := 117) (x := main_v87) rfl (by decide)) (after_take_of_lt hsa V (i := 116) (j := 117) (x := main_call3_v0) rfl (by decide))]
  rw [fin_v87 V, fin_call3_v0 V]
  rfl
theorem fin_v89 : after (ops (F := F)) V (Proc.devRef .tc main_v89) = val_main_v89 (F := F) (V (Proc.devRef .tc main_arg3)) := by
  rw [final_unary hsa V 118 (x := main_arg3) (y := main_v89) rfl rfl (after_take_of_not_assigned hsa V 118 (x := main_arg3) (by decide))]
  rw [keep_arg3 V]
  rfl
theorem fin_c_19 : after (ops (F := F)) V (Proc.devRef .tc main_c_19) = val_main_c_19 (F := F) := by
  rw [final_nullary hsa V 119 (y := main_c_19) rfl rfl]
  rfl
theorem fin_v90 : after (ops (F := F)) V (Proc.devRef .tc main_v90) = val_main_v90 (F := F) := by
  rw [final_unary hsa V 120 (x := main_c_19) (y := main_v90) rfl rfl (after_take_of_lt hsa V (i := 119) (j := 120) (x := main_c_19) rfl (by decide))]
  rw [fin_c_19 V]
  rfl
theorem fin_v91 : after (ops (F := F)) V (Proc.devRef .tc main_v91) = val_main_v91 (F := F) (V (Proc.devRef .tc main_arg1)) := by
  rw [final_binary hsa V 121 (a := main_arg1) (b := main_v90) (y := main_v91) rfl rfl (after_take_of_not_assigned hsa V 121 (x := main_arg1) (by decide)) (after_take_of_lt hsa V (i := 120) (j := 121) (x := main_v90) rfl (by decide))]
  rw [keep_arg1 V, fin_v90 V]
  rfl
theorem fin_c_20 : after (ops (F := F)) V (Proc.devRef .tc main_c_20) = val_main_c_20 (F := F) := by
  rw [final_nullary hsa V 122 (y := main_c_20) rfl rfl]
  rfl
theorem fin_v92 : after (ops (F := F)) V (Proc.devRef .tc main_v92) = val_main_v92 (F := F) := by
  rw [final_unary hsa V 123 (x := main_c_20) (y := main_v92) rfl rfl (after_take_of_lt hsa V (i := 122) (j := 123) (x := main_c_20) rfl (by decide))]
  rw [fin_c_20 V]
  rfl
theorem fin_v93 : after (ops (F := F)) V (Proc.devRef .tc main_v93) = val_main_v93 (F := F) (V (Proc.devRef .tc main_arg1)) := by
  rw [final_binary hsa V 124 (a := main_arg1) (b := main_v92) (y := main_v93) rfl rfl (after_take_of_not_assigned hsa V 124 (x := main_arg1) (by decide)) (after_take_of_lt hsa V (i := 123) (j := 124) (x := main_v92) rfl (by decide))]
  rw [keep_arg1 V, fin_v92 V]
  rfl
theorem fin_v94 : after (ops (F := F)) V (Proc.devRef .tc main_v94) = val_main_v94 (F := F) (V (Proc.devRef .tc main_arg1)) := by
  rw [final_ternary hsa V 125 (c := main_v91) (a := main_v93) (b := main_arg1) (y := main_v94) rfl rfl (after_take_of_lt hsa V (i := 121) (j := 125) (x := main_v91) rfl (by decide)) (after_take_of_lt hsa V (i := 124) (j := 125) (x := main_v93) rfl (by decide)) (after_take_of_not_assigned hsa V 125 (x := main_arg1) (by decide))]
  rw [fin_v91 V, fin_v93 V, keep_arg1 V]
  rfl
theorem fin_v95 : after (ops (F := F)) V (Proc.devRef .tc main_v95) = val_main_v95 (F := F) (V (Proc.devRef .tc main_arg1)) := by
  rw [final_unary hsa V 126 (x := main_v94) (y := main_v95) rfl rfl (after_take_of_lt hsa V (i := 125) (j := 126) (x := main_v94) rfl (by decide))]
  rw [fin_v94 V]
  rfl
theorem fin_v96 : after (ops (F := F)) V (Proc.devRef .tc main_v96) = val_main_v96 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 127 (a := main_v88) (b := main_v95) (y := main_v96) rfl rfl (after_take_of_lt hsa V (i := 117) (j := 127) (x := main_v88) rfl (by decide)) (after_take_of_lt hsa V (i := 126) (j := 127) (x := main_v95) rfl (by decide))]
  rw [fin_v88 V, fin_v95 V]
  rfl
theorem fin_v97 : after (ops (F := F)) V (Proc.devRef .tc main_v97) = val_main_v97 (F := F) (V (Proc.devRef .tc main_arg3)) := by
  rw [final_unary hsa V 128 (x := main_v89) (y := main_v97) rfl rfl (after_take_of_lt hsa V (i := 118) (j := 128) (x := main_v89) rfl (by decide))]
  rw [fin_v89 V]
  rfl
theorem fin_v98 : after (ops (F := F)) V (Proc.devRef .tc main_v98) = val_main_v98 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 129 (a := main_v97) (b := main_v96) (y := main_v98) rfl rfl (after_take_of_lt hsa V (i := 128) (j := 129) (x := main_v97) rfl (by decide)) (after_take_of_lt hsa V (i := 127) (j := 129) (x := main_v96) rfl (by decide))]
  rw [fin_v97 V, fin_v96 V]
  rfl
theorem fin_cst_21 : after (ops (F := F)) V (Proc.devRef .tc main_cst_21) = val_main_cst_21 (F := F) := by
  rw [final_nullary hsa V 130 (y := main_cst_21) rfl rfl]
  rfl
theorem fin_v99 : after (ops (F := F)) V (Proc.devRef .tc main_v99) = val_main_v99 (F := F) := by
  rw [final_unary hsa V 131 (x := main_cst_21) (y := main_v99) rfl rfl (after_take_of_lt hsa V (i := 130) (j := 131) (x := main_cst_21) rfl (by decide))]
  rw [fin_cst_21 V]
  rfl
theorem fin_v100 : after (ops (F := F)) V (Proc.devRef .tc main_v100) = val_main_v100 (F := F) (V (Proc.devRef .tc main_arg2)) := by
  rw [final_unary hsa V 132 (x := main_arg2) (y := main_v100) rfl rfl (after_take_of_not_assigned hsa V 132 (x := main_arg2) (by decide))]
  rw [keep_arg2 V]
  rfl
theorem fin_v101 : after (ops (F := F)) V (Proc.devRef .tc main_v101) = val_main_v101 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_ternary hsa V 133 (c := main_v99) (a := main_v100) (b := main_v98) (y := main_v101) rfl rfl (after_take_of_lt hsa V (i := 131) (j := 133) (x := main_v99) rfl (by decide)) (after_take_of_lt hsa V (i := 132) (j := 133) (x := main_v100) rfl (by decide)) (after_take_of_lt hsa V (i := 129) (j := 133) (x := main_v98) rfl (by decide))]
  rw [fin_v99 V, fin_v100 V, fin_v98 V]
  rfl
theorem fin_cst_22 : after (ops (F := F)) V (Proc.devRef .tc main_cst_22) = val_main_cst_22 (F := F) := by
  rw [final_nullary hsa V 134 (y := main_cst_22) rfl rfl]
  rfl
theorem fin_v102 : after (ops (F := F)) V (Proc.devRef .tc main_v102) = val_main_v102 (F := F) := by
  rw [final_unary hsa V 135 (x := main_cst_22) (y := main_v102) rfl rfl (after_take_of_lt hsa V (i := 134) (j := 135) (x := main_cst_22) rfl (by decide))]
  rw [fin_cst_22 V]
  rfl
theorem fin_v103 : after (ops (F := F)) V (Proc.devRef .tc main_v103) = val_main_v103 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 136 (a := main_v102) (b := main_v101) (y := main_v103) rfl rfl (after_take_of_lt hsa V (i := 135) (j := 136) (x := main_v102) rfl (by decide)) (after_take_of_lt hsa V (i := 133) (j := 136) (x := main_v101) rfl (by decide))]
  rw [fin_v102 V, fin_v101 V]
  rfl
theorem fin_cst_23 : after (ops (F := F)) V (Proc.devRef .tc main_cst_23) = val_main_cst_23 (F := F) := by
  rw [final_nullary hsa V 137 (y := main_cst_23) rfl rfl]
  rfl
theorem fin_v104 : after (ops (F := F)) V (Proc.devRef .tc main_v104) = val_main_v104 (F := F) := by
  rw [final_unary hsa V 138 (x := main_cst_23) (y := main_v104) rfl rfl (after_take_of_lt hsa V (i := 137) (j := 138) (x := main_cst_23) rfl (by decide))]
  rw [fin_cst_23 V]
  rfl
theorem fin_v105 : after (ops (F := F)) V (Proc.devRef .tc main_v105) = val_main_v105 (F := F) (V (Proc.devRef .tc main_arg0)) (V (Proc.devRef .tc main_arg4)) (V (Proc.devRef .tc main_arg5)) := by
  rw [final_binary hsa V 139 (a := main_v104) (b := main_v4) (y := main_v105) rfl rfl (after_take_of_lt hsa V (i := 138) (j := 139) (x := main_v104) rfl (by decide)) (after_take_of_lt hsa V (i := 6) (j := 139) (x := main_v4) rfl (by decide))]
  rw [fin_v104 V, fin_v4 V]
  rfl
theorem fin_v106 : after (ops (F := F)) V (Proc.devRef .tc main_v106) = val_main_v106 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 140 (a := main_v103) (b := main_v105) (y := main_v106) rfl rfl (after_take_of_lt hsa V (i := 136) (j := 140) (x := main_v103) rfl (by decide)) (after_take_of_lt hsa V (i := 139) (j := 140) (x := main_v105) rfl (by decide))]
  rw [fin_v103 V, fin_v105 V]
  rfl
theorem fin_v107 : after (ops (F := F)) V (Proc.devRef .tc main_v107) = val_main_v107 (F := F) (V (Proc.devRef .tc main_arg6)) := by
  rw [final_unary hsa V 141 (x := main_arg6) (y := main_v107) rfl rfl (after_take_of_not_assigned hsa V 141 (x := main_arg6) (by decide))]
  rw [keep_arg6 V]
  rfl
theorem fin_v108 : after (ops (F := F)) V (Proc.devRef .tc main_v108) = val_main_v108 (F := F) (V (Proc.devRef .tc main_arg6)) := by
  rw [final_reshape hsa V 142 (x := main_v107) (y := main_v108) rfl rfl (after_take_of_lt hsa V (i := 141) (j := 142) (x := main_v107) rfl (by decide))]
  rw [fin_v107 V]
  rfl
theorem fin_v109 : after (ops (F := F)) V (Proc.devRef .tc main_v109) = val_main_v109 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 143 (a := main_v106) (b := main_v108) (y := main_v109) rfl rfl (after_take_of_lt hsa V (i := 140) (j := 143) (x := main_v106) rfl (by decide)) (after_take_of_lt hsa V (i := 142) (j := 143) (x := main_v108) rfl (by decide))]
  rw [fin_v106 V, fin_v108 V]
  rfl
theorem fin_cst_24 : after (ops (F := F)) V (Proc.devRef .tc main_cst_24) = val_main_cst_24 (F := F) := by
  rw [final_nullary hsa V 144 (y := main_cst_24) rfl rfl]
  rfl
theorem fin_v110 : after (ops (F := F)) V (Proc.devRef .tc main_v110) = val_main_v110 (F := F) := by
  rw [final_unary hsa V 145 (x := main_cst_24) (y := main_v110) rfl rfl (after_take_of_lt hsa V (i := 144) (j := 145) (x := main_cst_24) rfl (by decide))]
  rw [fin_cst_24 V]
  rfl
theorem fin_v111 : after (ops (F := F)) V (Proc.devRef .tc main_v111) = val_main_v111 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 146 (a := main_v110) (b := main_v109) (y := main_v111) rfl rfl (after_take_of_lt hsa V (i := 145) (j := 146) (x := main_v110) rfl (by decide)) (after_take_of_lt hsa V (i := 143) (j := 146) (x := main_v109) rfl (by decide))]
  rw [fin_v110 V, fin_v109 V]
  rfl
theorem fin_cst_25 : after (ops (F := F)) V (Proc.devRef .tc main_cst_25) = val_main_cst_25 (F := F) := by
  rw [final_nullary hsa V 147 (y := main_cst_25) rfl rfl]
  rfl
theorem fin_v112 : after (ops (F := F)) V (Proc.devRef .tc main_v112) = val_main_v112 (F := F) := by
  rw [final_unary hsa V 148 (x := main_cst_25) (y := main_v112) rfl rfl (after_take_of_lt hsa V (i := 147) (j := 148) (x := main_cst_25) rfl (by decide))]
  rw [fin_cst_25 V]
  rfl
theorem fin_v113 : after (ops (F := F)) V (Proc.devRef .tc main_v113) = val_main_v113 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 149 (a := main_v112) (b := main_v106) (y := main_v113) rfl rfl (after_take_of_lt hsa V (i := 148) (j := 149) (x := main_v112) rfl (by decide)) (after_take_of_lt hsa V (i := 140) (j := 149) (x := main_v106) rfl (by decide))]
  rw [fin_v112 V, fin_v106 V]
  rfl
theorem fin_v114 : after (ops (F := F)) V (Proc.devRef .tc main_v114) = val_main_v114 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 150 (a := main_v111) (b := main_v113) (y := main_v114) rfl rfl (after_take_of_lt hsa V (i := 146) (j := 150) (x := main_v111) rfl (by decide)) (after_take_of_lt hsa V (i := 149) (j := 150) (x := main_v113) rfl (by decide))]
  rw [fin_v111 V, fin_v113 V]
  rfl
theorem fin_v115 : after (ops (F := F)) V (Proc.devRef .tc main_v115) = val_main_v115 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 151 (a := main_v114) (b := main_v88) (y := main_v115) rfl rfl (after_take_of_lt hsa V (i := 150) (j := 151) (x := main_v114) rfl (by decide)) (after_take_of_lt hsa V (i := 117) (j := 151) (x := main_v88) rfl (by decide))]
  rw [fin_v114 V, fin_v88 V]
  rfl
theorem fin_call4_cst : after (ops (F := F)) V (Proc.devRef .tc main_call4_cst) = val_main_call4_cst (F := F) := by
  rw [final_nullary hsa V 152 (y := main_call4_cst) rfl rfl]
  rfl
theorem fin_call4_v0 : after (ops (F := F)) V (Proc.devRef .tc main_call4_v0) = val_main_call4_v0 (F := F) := by
  rw [final_unary hsa V 153 (x := main_call4_cst) (y := main_call4_v0) rfl rfl (after_take_of_lt hsa V (i := 152) (j := 153) (x := main_call4_cst) rfl (by decide))]
  rw [fin_call4_cst V]
  rfl
theorem fin_v116 : after (ops (F := F)) V (Proc.devRef .tc main_v116) = val_main_v116 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [final_binary hsa V 154 (a := main_v115) (b := main_call4_v0) (y := main_v116) rfl rfl (after_take_of_lt hsa V (i := 151) (j := 154) (x := main_v115) rfl (by decide)) (after_take_of_lt hsa V (i := 153) (j := 154) (x := main_call4_v0) rfl (by decide))]
  rw [fin_v115 V, fin_call4_v0 V]
  rfl
theorem fin_v117 : after (ops (F := F)) V (Proc.devRef .tc main_v117) = val_main_v117 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [final_binary hsa V 155 (a := main_v116) (b := main_arg7) (y := main_v117) rfl rfl (after_take_of_lt hsa V (i := 154) (j := 155) (x := main_v116) rfl (by decide)) (after_take_of_not_assigned hsa V 155 (x := main_arg7) (by decide))]
  rw [fin_v116 V, keep_arg7 V]
  rfl
theorem fin_v118 : after (ops (F := F)) V (Proc.devRef .tc main_v118) = val_main_v118 (F := F) (V (Proc.devRef .tc main_arg8)) := by
  rw [final_unary hsa V 156 (x := main_arg8) (y := main_v118) rfl rfl (after_take_of_not_assigned hsa V 156 (x := main_arg8) (by decide))]
  rw [keep_arg8 V]
  rfl
theorem fin_v119 : after (ops (F := F)) V (Proc.devRef .tc main_v119) = val_main_v119 (F := F) (V (Proc.devRef .tc main_arg8)) := by
  rw [final_unary hsa V 157 (x := main_v118) (y := main_v119) rfl rfl (after_take_of_lt hsa V (i := 156) (j := 157) (x := main_v118) rfl (by decide))]
  rw [fin_v118 V]
  rfl
theorem fin_v120 : after (ops (F := F)) V (Proc.devRef .tc main_v120) = val_main_v120 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [final_binary hsa V 158 (a := main_v117) (b := main_v119) (y := main_v120) rfl rfl (after_take_of_lt hsa V (i := 155) (j := 158) (x := main_v117) rfl (by decide)) (after_take_of_lt hsa V (i := 157) (j := 158) (x := main_v119) rfl (by decide))]
  rw [fin_v117 V, fin_v119 V]
  rfl
theorem fin_call5_cst : after (ops (F := F)) V (Proc.devRef .tc main_call5_cst) = val_main_call5_cst (F := F) := by
  rw [final_nullary hsa V 159 (y := main_call5_cst) rfl rfl]
  rfl
seal Host.reduce in
/-- The operation's result with its operands' final contents named: the comparison is made over variables, and the fold is not opened (it runs over the whole row axis). -/
theorem fin_call5_v0_of (z : (⟨S100000x64, .f32⟩ : BufTy).Contents (Elt F)) (w : (⟨S_, .f32⟩ : BufTy).Contents (Elt F))
    (hz : after (ops (F := F)) V (Proc.devRef .tc main_v120) = z) (hw : after (ops (F := F)) V (Proc.devRef .tc main_call5_cst) = w) :
    after (ops (F := F)) V (Proc.devRef .tc main_call5_v0) = Host.reduce FloatOps.maximumf z w reducesTo_S100000x64_S100000_d1 h_S_ := by
  rw [final_binary hsa V 160 (a := main_v120) (b := main_call5_cst) (y := main_call5_v0) rfl rfl (after_take_of_lt hsa V (i := 158) (j := 160) (x := main_v120) rfl (by decide)) (after_take_of_lt hsa V (i := 159) (j := 160) (x := main_call5_cst) rfl (by decide)), hz, hw]
  rfl
theorem fin_call5_v0 : after (ops (F := F)) V (Proc.devRef .tc main_call5_v0) = val_main_call5_v0 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
  (fin_call5_v0_of V _ _ (fin_v120 V) (fin_call5_cst V)).trans rfl
theorem fin_call5_cst_0 : after (ops (F := F)) V (Proc.devRef .tc main_call5_cst_0) = val_main_call5_cst_0 (F := F) := by
  rw [final_nullary hsa V 161 (y := main_call5_cst_0) rfl rfl]
  rfl
theorem fin_call5_v1 : after (ops (F := F)) V (Proc.devRef .tc main_call5_v1) = val_main_call5_v1 (F := F) := by
  rw [final_unary hsa V 162 (x := main_call5_cst_0) (y := main_call5_v1) rfl rfl (after_take_of_lt hsa V (i := 161) (j := 162) (x := main_call5_cst_0) rfl (by decide))]
  rw [fin_call5_cst_0 V]
  rfl
/-- The operation's result with its operands' final contents named: the comparison is made over variables. -/
theorem fin_call5_v2_of (z : (⟨S100000, .f32⟩ : BufTy).Contents (Elt F)) (w : (⟨S100000, .f32⟩ : BufTy).Contents (Elt F))
    (hz : after (ops (F := F)) V (Proc.devRef .tc main_call5_v1) = z) (hw : after (ops (F := F)) V (Proc.devRef .tc main_call5_v0) = w) :
    after (ops (F := F)) V (Proc.devRef .tc main_call5_v2) = maximumf z w := by
  rw [final_binary hsa V 163 (a := main_call5_v1) (b := main_call5_v0) (y := main_call5_v2) rfl rfl (after_take_of_lt hsa V (i := 162) (j := 163) (x := main_call5_v1) rfl (by decide)) (after_take_of_lt hsa V (i := 160) (j := 163) (x := main_call5_v0) rfl (by decide)), hz, hw]
  rfl
theorem fin_call5_v2 : after (ops (F := F)) V (Proc.devRef .tc main_call5_v2) = val_main_call5_v2 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
  (fin_call5_v2_of V _ _ (fin_call5_v1 V) (fin_call5_v0 V)).trans rfl
theorem fin_call5_v3 : after (ops (F := F)) V (Proc.devRef .tc main_call5_v3) = val_main_call5_v3 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [final_unary hsa V 164 (x := main_call5_v2) (y := main_call5_v3) rfl rfl (after_take_of_lt hsa V (i := 163) (j := 164) (x := main_call5_v2) rfl (by decide))]
  rw [fin_call5_v2 V]
  rfl
theorem fin_call5_v4 : after (ops (F := F)) V (Proc.devRef .tc main_call5_v4) = val_main_call5_v4 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [final_unary hsa V 165 (x := main_call5_v3) (y := main_call5_v4) rfl rfl (after_take_of_lt hsa V (i := 164) (j := 165) (x := main_call5_v3) rfl (by decide))]
  rw [fin_call5_v3 V]
  rfl
theorem fin_call5_v5 : after (ops (F := F)) V (Proc.devRef .tc main_call5_v5) = val_main_call5_v5 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [final_binary hsa V 166 (a := main_v120) (b := main_call5_v4) (y := main_call5_v5) rfl rfl (after_take_of_lt hsa V (i := 158) (j := 166) (x := main_v120) rfl (by decide)) (after_take_of_lt hsa V (i := 165) (j := 166) (x := main_call5_v4) rfl (by decide))]
  rw [fin_v120 V, fin_call5_v4 V]
  rfl
theorem fin_call5_v6 : after (ops (F := F)) V (Proc.devRef .tc main_call5_v6) = val_main_call5_v6 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [final_unary hsa V 167 (x := main_call5_v5) (y := main_call5_v6) rfl rfl (after_take_of_lt hsa V (i := 166) (j := 167) (x := main_call5_v5) rfl (by decide))]
  rw [fin_call5_v5 V]
  rfl
theorem fin_call5_cst_1 : after (ops (F := F)) V (Proc.devRef .tc main_call5_cst_1) = val_main_call5_cst_1 (F := F) := by
  rw [final_nullary hsa V 168 (y := main_call5_cst_1) rfl rfl]
  rfl
theorem fin_call5_v7 : after (ops (F := F)) V (Proc.devRef .tc main_call5_v7) = val_main_call5_v7 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [final_binary hsa V 169 (a := main_call5_v6) (b := main_call5_cst_1) (y := main_call5_v7) rfl rfl (after_take_of_lt hsa V (i := 167) (j := 169) (x := main_call5_v6) rfl (by decide)) (after_take_of_lt hsa V (i := 168) (j := 169) (x := main_call5_cst_1) rfl (by decide))]
  rw [fin_call5_v6 V, fin_call5_cst_1 V]
  rfl
theorem fin_call5_v8 : after (ops (F := F)) V (Proc.devRef .tc main_call5_v8) = val_main_call5_v8 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [final_unary hsa V 170 (x := main_call5_v7) (y := main_call5_v8) rfl rfl (after_take_of_lt hsa V (i := 169) (j := 170) (x := main_call5_v7) rfl (by decide))]
  rw [fin_call5_v7 V]
  rfl
theorem fin_call5_v9 : after (ops (F := F)) V (Proc.devRef .tc main_call5_v9) = val_main_call5_v9 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [final_unary hsa V 171 (x := main_call5_v8) (y := main_call5_v9) rfl rfl (after_take_of_lt hsa V (i := 170) (j := 171) (x := main_call5_v8) rfl (by decide))]
  rw [fin_call5_v8 V]
  rfl
theorem fin_call5_v10 : after (ops (F := F)) V (Proc.devRef .tc main_call5_v10) = val_main_call5_v10 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [final_unary hsa V 172 (x := main_call5_v9) (y := main_call5_v10) rfl rfl (after_take_of_lt hsa V (i := 171) (j := 172) (x := main_call5_v9) rfl (by decide))]
  rw [fin_call5_v9 V]
  rfl
theorem fin_v121 : after (ops (F := F)) V (Proc.devRef .tc main_v121) = val_main_v121 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [final_binary hsa V 173 (a := main_call5_v5) (b := main_call5_v10) (y := main_v121) rfl rfl (after_take_of_lt hsa V (i := 166) (j := 173) (x := main_call5_v5) rfl (by decide)) (after_take_of_lt hsa V (i := 172) (j := 173) (x := main_call5_v10) rfl (by decide))]
  rw [fin_call5_v5 V, fin_call5_v10 V]
  rfl

end Cert.ReferenceIdeal.RefRun

end
-- ==== Proof.RefRun.lean ====
/-
  The reference program's run. Its @main is a straight line of host operations, so every weakly fair execution terminates with
  each buffer at the operations' fold over the launch contents; read one operation at a time (each buffer is written once, so an
  operation's result is its function of the final contents of its operands) the result buffer ends at the last stage — the row
  log-softmax of the final projection of the fourth layer's features — as a function of the nine arguments' launch contents, and
  no operation writes an argument.
-/
import proofs.«100143_j39058432590072_1_alg».proof.Proof.RefRunChain

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- On every device, from any memory with zero counters: every weakly fair execution of @main terminates, the result buffer at the
    last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v121) = val_main_v121 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v121).trans (fin_v121 (launchContents m c)),
      (h c main_arg0).trans (keep_arg0 (launchContents m c)),
      (h c main_arg1).trans (keep_arg1 (launchContents m c)),
      (h c main_arg2).trans (keep_arg2 (launchContents m c)),
      (h c main_arg3).trans (keep_arg3 (launchContents m c)),
      (h c main_arg4).trans (keep_arg4 (launchContents m c)),
      (h c main_arg5).trans (keep_arg5 (launchContents m c)),
      (h c main_arg6).trans (keep_arg6 (launchContents m c)),
      (h c main_arg7).trans (keep_arg7 (launchContents m c)),
      (h c main_arg8).trans (keep_arg8 (launchContents m c))⟩)
    (run_seq scopedRefs_eq scopedSems_eq defs main (fun _ => ops) main_eq (fun _ => ops_sub) m ρ)

end Cert.ReferenceIdeal.RefRun

end
-- ==== Proof.lean ====
/-
  The certificate of a four-layer GCNII forward pass: six row-tiled kernel launches (the input projection, four layers, the final
  projection with a row log-softmax) around a host aggregation (gather by source, edge weight, scatter-add by destination), against
  the same network in plain array operations.

  On the extended reals (the ideal instance, where every float operation is the exact one) both programs compute
      h₀ = max(x·W_in + b_in, 0),
      s  = c₀ · agg(h) + c₁ · h₀,    h ← max((θ · (s·W_l) + θ' · s) + h, 0)      four times, from h = h₀,
      z  = h·W_out + b_out,           result = (z − max_j z_j) − log Σ_j exp(z_j − max_j z_j)  row by row,
  with the same float words for c₀, c₁ and for each layer's θ, θ' on both sides, and with agg the same host operations in both
  programs. There a change of float format is the identity, a product accumulated from zero on the matrix unit and the host's
  product are the same sum over the contracted axis, a lane reduction and a host reduction are the same fold, and the kernel's
  tiling into blocks of 2000 rows only says which rows a grid point computes: entry (p, q) of a point's block is entry (2000·t + p, q)
  of the array. So the two sides agree operation by operation and no law that needs finite entries is used: the precondition is
  never opened. The only steps that are arithmetic are max(−∞, m) = m, for the reference's extra maximum against −∞, and 0 + s = s, for a product or a
  row sum accumulated from zero.

  The kernel programs' runs (frames, and the result buffer's final contents) are in Proof/KRun.lean and Proof/KIRun.lean over the six
  regions Proof/K(I)Region0-5.lean; the first layer reads the initial features through two windows on one buffer, dealt half and
  half (Proof/K(I)Region1Arrays.lean). What the kernel leaves in its result buffer as a function of the arguments is
  Proof/KIValue.lean, over the per-stage row lemmas (StageRows, FinalRows), the blocks-to-array lemmas (RegionValue0-5) and the host
  stretches (HostGlue). The reference's run, read one operation at a time, is Proof/RefRun.lean.
-/
import proofs.«100143_j39058432590072_1_alg».proof.Defs
import proofs.«100143_j39058432590072_1_alg».proof.Proof.Gen.Kernel
import proofs.«100143_j39058432590072_1_alg».proof.Proof.Gen.KernelIdeal
import proofs.«100143_j39058432590072_1_alg».proof.Proof.Gen.ReferenceIdeal
import proofs.«100143_j39058432590072_1_alg».proof.Proof.Gen.Pre_finite_inputs
import proofs.«100143_j39058432590072_1_alg».proof.Proof.KRun
import proofs.«100143_j39058432590072_1_alg».proof.Proof.KIRun
import proofs.«100143_j39058432590072_1_alg».proof.Proof.KIValue
import proofs.«100143_j39058432590072_1_alg».proof.Proof.RefRun
import Idealize.ShloMosaic.Adequacy
import Idealize.ShloMosaic.Init

noncomputable section

namespace Cert.Proof

open Idealize.ShloMosaic Idealize.ShloMosaic.TcCoe Idealize.SL.Sem

/-- The kernel program runs to the end, faults nowhere and leaves its arguments as launched: its run with the result dropped. -/
theorem frame_kernel : Cert.frame_Kernel := fun m ρ _ =>
  (θ_run Cert.Kernel.defs _ _).mono (fun _ h c => (h c).2) (Cert.Kernel.Frame.run_main (F := Bits) m ρ)

/-- The same for its idealization. -/
theorem frame_kernel_ideal : Cert.frame_KernelIdeal := fun m ρ _ =>
  (θ_run Cert.KernelIdeal.defs _ _).mono (fun _ h c => (h c).2) (Cert.KernelIdeal.Frame.run_main (F := Ideal) m ρ)

/-- The reference, a straight line of host operations none of which writes an argument. -/
theorem frame_reference : Cert.frame_ReferenceIdeal := fun m ρ _ =>
  (θ_run Cert.ReferenceIdeal.defs _ _).mono (fun _ h c => (h c).2) (Cert.ReferenceIdeal.RefRun.run (F := Ideal) m ρ)

/-- The ideal pass rewrote no operation of the kernel: nothing to preserve. -/
theorem preserves : Cert.preserves_Kernel_KernelIdeal := trivial

/-- From memories that agree on the nine arguments both programs end with the same result: the kernel's result buffer holds the
    reference's last stage of its own arguments, which are the reference's. -/
theorem algebraic : Cert.algebraic_KernelIdeal_ReferenceIdeal := by
  intro m ρ m' ρ' _ hagree
  refine ⟨fun c => Cert.KernelIdeal.Frame.X11 m c Cert.KernelIdeal.main_v67, Cert.KernelIdeal.Frame.run_main (F := Ideal) m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8⟩ := hagree c
  rw [e0, e1, e2, e3, e4, e5, e6, e7, e8]
  exact (Cert.KernelValue.result m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
